-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v5_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S8192x128 .f32) (main_arg1 : FVec F S8192x8192 .f32) (main_arg2 : FVec F S128x128 .f32) (main_arg3 : FVec F S128 .f32) (main_arg4 : FVec F S128x128 .f32) (main_arg5 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S1024x1024 : Shape := ⟨2, ![1024, 1024]⟩
abbrev S1024x128 : Shape := ⟨2, ![1024, 128]⟩
abbrev S1024x1 : Shape := ⟨2, ![1024, 1]⟩
abbrev S1024 : Shape := ⟨1, ![1024]⟩
abbrev S1x128 : Shape := ⟨2, ![1, 128]⟩
abbrev S2x128x128 : Shape := ⟨3, ![2, 128, 128]⟩
abbrev S2048x128 : Shape := ⟨2, ![2048, 128]⟩
abbrev S1x128x128 : Shape := ⟨3, ![1, 128, 128]⟩
abbrev S_ : Shape := ⟨0, ![]⟩

abbrev nBuf : Space → Nat
  | .hbm => 21
  | .vmem => 43
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S8192x128, .f32⟩
  | .hbm, ⟨7, _⟩ => ⟨S8192x8192, .bf16⟩
  | .hbm, ⟨8, _⟩ => ⟨S128x128, .f32⟩
  | .hbm, ⟨9, _⟩ => ⟨S128x128, .f32⟩
  | .hbm, ⟨10, _⟩ => ⟨S1x128, .f32⟩
  | .hbm, ⟨11, _⟩ => ⟨S1x128, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S2x128x128, .f32⟩
  | .hbm, ⟨16, _⟩ => ⟨S2x128x128, .f32⟩
  | .hbm, ⟨17, _⟩ => ⟨S_, .f32⟩
  | .hbm, ⟨18, _⟩ => ⟨S128x128, .f32⟩
  | .hbm, ⟨19, _⟩ => ⟨S_, .f32⟩
  | .hbm, ⟨20, _⟩ => ⟨S128x128, .f32⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1024x128, .f32⟩
  | .local _ .vmem, ⟨4, _⟩ => ⟨S1024x1024, .bf16⟩
  | .local _ .vmem, ⟨5, _⟩ => ⟨S1024x1024, .bf16⟩
  | .local _ .vmem, ⟨6, _⟩ => ⟨S1024x1, .f32⟩
  | .local _ .vmem, ⟨7, _⟩ => ⟨S1024x1024, .bf16⟩
  | .local _ .vmem, ⟨8, _⟩ => ⟨S1024x1024, .bf16⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S1x128, .f32⟩
  | .local _ .vmem, ⟨21, _⟩ => ⟨S1024x128, .f32⟩
  | .local _ .vmem, ⟨22, _⟩ => ⟨S1024x128, .f32⟩
  | .local _ .vmem, ⟨23, _⟩ => ⟨S1024x128, .f32⟩
  | .local _ .vmem, ⟨24, _⟩ => ⟨S1024x128, .f32⟩
  | .local _ .vmem, ⟨25, _⟩ => ⟨S1024x128, .f32⟩
  | .local _ .vmem, ⟨26, _⟩ => ⟨S1024x1024, .bf16⟩
  | .local _ .vmem, ⟨27, _⟩ => ⟨S1024x1024, .bf16⟩
  | .local _ .vmem, ⟨28, _⟩ => ⟨S1024x128, .f32⟩
  | .local _ .vmem, ⟨29, _⟩ => ⟨S1024x128, .f32⟩
  | .local _ .vmem, ⟨30, _⟩ => ⟨S1024x128, .f32⟩
  | .local _ .vmem, ⟨31, _⟩ => ⟨S1024x128, .f32⟩
  | .local _ .vmem, ⟨32, _⟩ => ⟨S1024x128, .f32⟩
  | .local _ .vmem, ⟨33, _⟩ => ⟨S2048x128, .f32⟩
  | .local _ .vmem, ⟨34, _⟩ => ⟨S2048x128, .f32⟩
  | .local _ .vmem, ⟨35, _⟩ => ⟨S2048x128, .f32⟩
  | .local _ .vmem, ⟨36, _⟩ => ⟨S2048x128, .f32⟩
  | .local _ .vmem, ⟨37, _⟩ => ⟨S2048x128, .f32⟩
  | .local _ .vmem, ⟨38, _⟩ => ⟨S2048x128, .f32⟩
  | .local _ .vmem, ⟨39, _⟩ => ⟨S1x128x128, .f32⟩
  | .local _ .vmem, ⟨40, _⟩ => ⟨S1x128x128, .f32⟩
  | .local _ .vmem, ⟨41, _⟩ => ⟨S1x128x128, .f32⟩
  | .local _ .vmem, ⟨42, _⟩ => ⟨S1x128x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg9_1 : Ref sig .tc := ⟨.vmem, 22, rfl⟩
abbrev cc1_stg10_0 : Ref sig .tc := ⟨.vmem, 23, rfl⟩
abbrev cc1_stg10_1 : Ref sig .tc := ⟨.vmem, 24, rfl⟩
abbrev cc1_scratch0 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_scratch0 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg3_1 : Ref sig .tc := ⟨.vmem, 40, rfl⟩
abbrev cc3_stg4_0 : Ref sig .tc := ⟨.vmem, 41, rfl⟩
abbrev cc3_stg4_1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21
abbrev cc1_sem10_0 : DmaSem sig := 22
abbrev cc1_sem10_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem3_1 : DmaSem sig := 37
abbrev cc3_sem4_0 : DmaSem sig := 38
abbrev cc3_sem4_1 : DmaSem sig := 39

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_10 : BitVec 32 := 0#32
  let v18 : BitVec 1 := Scalar.cmpi .ne v17 c0_i32_10
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 2 → Memref sig .tc .vmem S1024x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 2 → Memref sig .tc .vmem S1024x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![2, 2], ![false, false]⟩

def cc3_transform_0 (i : grid3.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc3_transform_1 (i : grid3.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc3_transform_2 (i : grid3.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S2048x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S2048x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x128x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S1x128x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  broadcasts_S1024x1_S1024x128 : S1024x1.Broadcasts S1024x128
  inb_S1024x128_S1024x128_0_0 : ∀ a, (![0, 0] : Fin 2 → Nat) a + S1024x128.size a ≤ S1024x128.size a
  h_S1024x128 : 0 < S1024x128.numel
  transposes_S128x128_S128x128_1_0 : S128x128.Transposes [1, 0] S128x128
  shapeCasts_S128_S1x128 : S128.ShapeCasts S1x128
  shapeCasts_S1024x128_S1024x128 : S1024x128.ShapeCasts S1024x128
  shapeCasts_S1024x1024_S1024x1024 : S1024x1024.ShapeCasts S1024x1024
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  reduces_S1024x128_S1024 : S1024x128.Reduces [1] S1024
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  reducesTo_S2x128x128_S128x128_d0 : S2x128x128.ReducesTo [0] S128x128
  h_S_ : 0 < S_.numel
  dot_S1024x1024_S1024x128_S1024x128_1_0_0_1_n_n_wf : DotDims.WF S1024x1024 S1024x128 S1024x128 [1] [0] [0] [1] [] []
  dot_S1024x128_S128x128_S1024x128_1_0_0_1_n_n_wf : DotDims.WF S1024x128 S128x128 S1024x128 [1] [0] [0] [1] [] []
  dot_S2048x128_S2048x128_S128x128_0_0_1_1_n_n_wf : DotDims.WF S2048x128 S2048x128 S128x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .bf16 = 32 ∨ (Rect.block (s := S8192x8192) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .bf16 = 32 ∨ (Rect.block (s := S8192x8192) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .f32 = 32 ∨ (Rect.block (s := S8192x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S8192x128.size a
  hwx1_2 : ∀ i : grid1.Coords, EltTy.bits .f32 = 32 ∨ (Rect.block (s := S8192x128) S1024x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S8192x128.size a
  hwx1_3 : ∀ i : grid1.Coords, EltTy.bits .f32 = 32 ∨ (Rect.block (s := S8192x128) S1024x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x128.size a ≤ S8192x128.size a
  hwx1_4 : ∀ i : grid1.Coords, EltTy.bits .f32 = 32 ∨ (Rect.block (s := S8192x128) S1024x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1024x128.size a ≤ S8192x128.size a
  hwx1_9 : ∀ i : grid1.Coords, EltTy.bits .f32 = 32 ∨ (Rect.block (s := S8192x128) S1024x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1024x128.size a ≤ S8192x128.size a
  hwx1_10 : ∀ i : grid1.Coords, EltTy.bits .f32 = 32 ∨ (Rect.block (s := S8192x128) S1024x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x8192.size a
  hwx2_0 : ∀ i : grid2.Coords, EltTy.bits .bf16 = 32 ∨ (Rect.block (s := S8192x8192) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S8192x128.size a
  hwx2_1 : ∀ i : grid2.Coords, EltTy.bits .f32 = 32 ∨ (Rect.block (s := S8192x128) S1024x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S8192x128.size a
  hwx2_2 : ∀ i : grid2.Coords, EltTy.bits .f32 = 32 ∨ (Rect.block (s := S8192x128) S1024x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x128.size a ≤ S8192x128.size a
  hwx3_0 : ∀ i : grid3.Coords, EltTy.bits .f32 = 32 ∨ (Rect.block (s := S8192x128) S2048x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x128.size a ≤ S8192x128.size a
  hwx3_1 : ∀ i : grid3.Coords, EltTy.bits .f32 = 32 ∨ (Rect.block (s := S8192x128) S2048x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x128.size a ≤ S8192x128.size a
  hwx3_2 : ∀ i : grid3.Coords, EltTy.bits .f32 = 32 ∨ (Rect.block (s := S8192x128) S2048x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x128x128.size a ≤ S2x128x128.size a
  hwx3_3 : ∀ i : grid3.Coords, EltTy.bits .f32 = 32 ∨ (Rect.block (s := S2x128x128) S1x128x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x128x128.size a ≤ S2x128x128.size a
  hwx3_4 : ∀ i : grid3.Coords, EltTy.bits .f32 = 32 ∨ (Rect.block (s := S2x128x128) S1x128x128.size (cc3_transform_4 i) (hinb3_4 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S2048x128_S2048x128_S128x128_0_0_1_1_n_n : DotDims S2048x128 S2048x128 S128x128 where
  lhsContracting := [0]
  rhsContracting := [0]
  lhsNonContracting := [1]
  rhsNonContracting := [1]
  lhsBatch := []
  rhsBatch := []
  wf := dot_S2048x128_S2048x128_S128x128_0_0_1_1_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1024x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun _ => false | ⟨_ + 3, h⟩ => absurd h (Nat.not_lt.2 (Nat.le_add_left _ _))

abbrev win1_0 : Pipeline.Window sig grid1 :=
  Pipeline.Window.ofSpec (Memref.whole main_v0_1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S1024x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v0_0) S1024x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v1) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v3) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v2) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v4) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v5_0) S1024x128.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v5_1) S1024x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev idle1 : Fin 11 → grid1.Coords → Bool := fun | 0 => fun _ => false | 1 => fun _ => false | 2 => fun _ => false | 3 => fun _ => false | 4 => fun _ => false | 5 => fun _ => false | 6 => fun _ => false | 7 => fun _ => false | 8 => fun _ => false | 9 => fun i => !(k1_cond2 i == 1#1) | 10 => fun i => !(k1_cond2 i == 1#1) | ⟨_ + 11, h⟩ => absurd h (Nat.not_lt.2 (Nat.le_add_left _ _))

abbrev win2_0 : Pipeline.Window sig grid2 :=
  Pipeline.Window.ofSpec (Memref.whole main_v0_1) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5_1) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1024x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v5_1) S2048x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v5_0) S2048x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v6) S2048x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v7_0) S1x128x128.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v7_1) S1x128x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1x128 : Shape := ⟨2, ![1, 128]⟩
abbrev S128x8192 : Shape := ⟨2, ![128, 8192]⟩

abbrev nBuf : Space → Nat
  | .hbm => 60
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S8192x8192, .i32⟩
  | .hbm, ⟨7, _⟩ => ⟨S8192x8192, .i32⟩
  | .hbm, ⟨8, _⟩ => ⟨S_, .i32⟩
  | .hbm, ⟨9, _⟩ => ⟨S8192x8192, .i32⟩
  | .hbm, ⟨10, _⟩ => ⟨S8192x8192, .i32⟩
  | .hbm, ⟨11, _⟩ => ⟨S8192x8192, .i1⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192, .f32⟩
  | .hbm, ⟨16, _⟩ => ⟨S_, .f32⟩
  | .hbm, ⟨17, _⟩ => ⟨S8192, .f32⟩
  | .hbm, ⟨18, _⟩ => ⟨S8192, .i1⟩
  | .hbm, ⟨19, _⟩ => ⟨S8192, .f32⟩
  | .hbm, ⟨20, _⟩ => ⟨S_, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S8192x1, .f32⟩
  | .hbm, ⟨25, _⟩ => ⟨S8192x8192, .f32⟩
  | .hbm, ⟨26, _⟩ => ⟨S8192x8192, .f32⟩
  | .hbm, ⟨27, _⟩ => ⟨S1x8192, .f32⟩
  | .hbm, ⟨28, _⟩ => ⟨S8192x8192, .f32⟩
  | .hbm, ⟨29, _⟩ => ⟨S8192x8192, .f32⟩
  | .hbm, ⟨30, _⟩ => ⟨S8192x128, .f32⟩
  | .hbm, ⟨31, _⟩ => ⟨S128x128, .f32⟩
  | .hbm, ⟨32, _⟩ => ⟨S8192x128, .f32⟩
  | .hbm, ⟨33, _⟩ => ⟨S1x128, .f32⟩
  | .hbm, ⟨34, _⟩ => ⟨S8192x128, .f32⟩
  | .hbm, ⟨35, _⟩ => ⟨S8192x128, .f32⟩
  | .hbm, ⟨36, _⟩ => ⟨S128x128, .f32⟩
  | .hbm, ⟨37, _⟩ => ⟨S8192x128, .f32⟩
  | .hbm, ⟨38, _⟩ => ⟨S1x128, .f32⟩
  | .hbm, ⟨39, _⟩ => ⟨S8192x128, .f32⟩
  | .hbm, ⟨40, _⟩ => ⟨S8192x128, .f32⟩
  | .hbm, ⟨41, _⟩ => ⟨S_, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S8192x1, .f32⟩
  | .hbm, ⟨47, _⟩ => ⟨S8192x128, .f32⟩
  | .hbm, ⟨48, _⟩ => ⟨S8192x128, .f32⟩
  | .hbm, ⟨49, _⟩ => ⟨S8192x128, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S8192x128, .f32⟩
  | .hbm, ⟨54, _⟩ => ⟨S8192x128, .f32⟩
  | .hbm, ⟨55, _⟩ => ⟨S128x8192, .f32⟩
  | .hbm, ⟨56, _⟩ => ⟨S128x128, .f32⟩
  | .hbm, ⟨57, _⟩ => ⟨S128x8192, .f32⟩
  | .hbm, ⟨58, _⟩ => ⟨S8192x128, .f32⟩
  | .hbm, ⟨59, _⟩ => ⟨S128x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  transposes_S128x128_S128x128_1_0 : S128x128.Transposes [1, 0] S128x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  reducesTo_S8192x128_S8192_d1 : S8192x128.ReducesTo [1] S8192
  bcast_S8192x1_S8192x128_0_1 : S8192x1.BroadcastsInDim S8192x128 (![0, 1] : Fin 2 → Fin S8192x128.rank)
  transposes_S8192x128_S128x8192_1_0 : S8192x128.Transposes [1, 0] S128x8192
  dot_S8192x8192_S8192x128_S8192x128_1_0_0_1_n_n_wf : DotDims.WF S8192x8192 S8192x128 S8192x128 [1] [0] [0] [1] [] []
  dot_S8192x128_S128x128_S8192x128_1_0_0_1_n_n_wf : DotDims.WF S8192x128 S128x128 S8192x128 [1] [0] [0] [1] [] []
  dot_S128x8192_S8192x128_S128x128_1_0_0_1_n_n_wf : DotDims.WF S128x8192 S8192x128 S128x128 [1] [0] [0] [1] [] []

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S128x8192_S8192x128_S128x128_1_0_0_1_n_n : DotDims S128x8192 S8192x128 S128x128 where
  lhsContracting := [1]
  rhsContracting := [0]
  lhsNonContracting := [0]
  rhsNonContracting := [1]
  lhsBatch := []
  rhsBatch := []
  wf := dot_S128x8192_S8192x128_S128x128_1_0_0_1_n_n_wf

class Facts : Prop extends Facts₀ where

variable [Facts]
-- ==== Proof.K.DegBase.lean ====
/-
  Region 0 of the kernel (the degree pass): what its runs are stated over. The body adds, at every
  grid point (i, k), the lane sums of the 1024×1024 block (i, k) of the adjacency matrix into a 1024×1 scratch
  column (reset at k = 0), copies the block to the second output, and at k = 7 stores
  where(acc + 1 > 0, rsqrt(acc + 1), 0), broadcast along 128 lanes, into the first output's block (i, 0).
  Here: the branch conditions in closed form over the 64 points, where the first output is idle, the
  memrefs the pipeline hands the body at a point, and the region invariant split at the scratch column.
-/
import proofs.«110719_j498216206442_2_alg».proof.Proof.Gen.Kernel.Launch
import proofs.«110719_j498216206442_2_alg».proof.Proof.Gen.Kernel.Skeleton
import proofs.«110719_j498216206442_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Deg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions over the grid -/

/-- The reset branch is taken: the reduction coordinate k is 0. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)

/-- The finishing branch is taken: k is 7. -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

theorem live_in : ∀ t : Fin cfg0.N, cfg0.idle 0 (grid0.coords t) = false := by decide +kernel
theorem live_copy : ∀ t : Fin cfg0.N, cfg0.idle 2 (grid0.coords t) = false := by decide +kernel
theorem idle_out : ∀ t : Fin cfg0.N, ¬isLast (grid0.coords t) → cfg0.idle 1 (grid0.coords t) = true := by decide +kernel
theorem noFlush_out : ∀ t : Fin cfg0.N, ¬isLast (grid0.coords t) → (cfg0.win 1).flush t = false := by decide +kernel
theorem live_out : ∀ t : Fin cfg0.N, isLast (grid0.coords t) → cfg0.idle 1 (grid0.coords t) = false := by decide +kernel

/-! ## The memrefs at a point -/

abbrev viewOut : View sig .tc .vmem S1024x128 .f32 := (Memref.whole cc0_stg1_0 : Memref sig .tc .vmem S1024x128 .f32).view
abbrev viewCopy : View sig .tc .vmem S1024x1024 .bf16 := (Memref.whole cc0_stg2_0 : Memref sig .tc .vmem S1024x1024 .bf16).view
abbrev mIn (t : Fin cfg0.N) : Memref sig .tc .vmem S1024x1024 .f32 := win0_0.stage (cfg0.slots t 0)
abbrev hIn (t : Fin cfg0.N) : (mIn t).IsWhole := hstage0_0 ((cfg0.slots t 0).cast nbuf0_0)
abbrev mOut (t : Fin cfg0.N) : Memref sig .tc .vmem S1024x128 .f32 := win0_1.stage (cfg0.slots t 1)
abbrev hOut (t : Fin cfg0.N) : (mOut t).IsWhole := hstage0_1 ((cfg0.slots t 1).cast nbuf0_1)
abbrev mCopy (t : Fin cfg0.N) : Memref sig .tc .vmem S1024x1024 .bf16 := win0_2.stage (cfg0.slots t 2)
abbrev hCopy (t : Fin cfg0.N) : (mCopy t).IsWhole := hstage0_2 ((cfg0.slots t 2).cast nbuf0_2)
/-- The scratch column. -/
abbrev mAcc : Memref sig .tc .vmem S1024x1 .f32 := Memref.whole cc0_scratch0
abbrev viewAcc : View sig .tc .vmem S1024x1 .f32 := mAcc.view

/-- The class invariant with the scratch column as a memref owned at some contents. -/
theorem PhiA_eq (c : Dev nD) :
    (Pipeline.ΦA spec0 c : sProp 𝕄)
      = iprop(iprop((∃ d, owns (c : Thread nD τ) mAcc fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [mAcc, owns_whole]; try rfl

end Cert.Kernel.Deg

end
-- ==== Proof.K.DegRuns.lean ====
/-
  Region 0 (the degree pass): the body's run in each of its three control cases. In every case the input
  block is left as found and the copy output and the scratch column end with the pieces the stores wrote;
  the first output is handed back untouched except at k = 7, where it too ends with its one piece.
-/
import proofs.«110719_j498216206442_2_alg».proof.Proof.K.DegBase

set_option maxRecDepth 16384

noncomputable section

namespace Cert.Kernel.Deg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- k = 0: the scratch column, found at anything, is reset and then receives the block's lane sums. -/
noncomputable def runFirst (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x1024 .bf16) (harg4 : arg4.IsWhole) (arg5 : Memref sig .tc .vmem S1024x1 .f32) (harg5 : arg5.IsWhole) (hc0 : isFirst i) (hc1 : ¬isLast i)
    (x0 : Vec F S1024x1024 .f32) :
    Σ' (L2 : List (View.Piece (Elt F) S1024x1024 .bf16)), { LS : List (View.Piece (Elt F) S1024x1 .f32) //
      ∀ (xi1 : Vec F S1024x128 .f32) (E : Set ℕ) (K : PUnit → sProp 𝕄),
        iprop(owns (c : Thread nD τ) arg2 fullShare x0 ∗ owns (c : Thread nD τ) arg3 fullShare xi1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare xi1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS)) -∗ K ⟨⟩))
          ⊢ wp frame (wpE (defs₀ (F := F)) Variants.none c none) E (cc0__deg_kernel i arg2 harg2 arg3 harg3 arg4 harg4 arg5 harg5) K } := by
  refine ⟨?_, ?_, fun xi1 E K => ?run⟩
  case run =>
    simp only [cc0__deg_kernel_eq_skeleton]; unfold cc0__deg_kernel_skel
    unfold owns
    iintro ⟨⟨%f0, %hf0, H0⟩, ⟨%f1, %hf1, H1⟩, ⟨%d2, %f2, -, H2⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

set_option maxHeartbeats 4000000 in
/-- 0 < k < 7: the scratch column, found at what the point before left, receives the block's lane sums. -/
noncomputable def runMid (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x1024 .bf16) (harg4 : arg4.IsWhole) (arg5 : Memref sig .tc .vmem S1024x1 .f32) (harg5 : arg5.IsWhole) (hc0 : ¬isFirst i) (hc1 : ¬isLast i)
    (x0 : Vec F S1024x1024 .f32) (xs : Vec F S1024x1 .f32) :
    Σ' (L2 : List (View.Piece (Elt F) S1024x1024 .bf16)), { LS : List (View.Piece (Elt F) S1024x1 .f32) //
      ∀ (xi1 : Vec F S1024x128 .f32) (E : Set ℕ) (K : PUnit → sProp 𝕄),
        iprop(owns (c : Thread nD τ) arg2 fullShare x0 ∗ owns (c : Thread nD τ) arg3 fullShare xi1 ∗ (∃ d, owns (c : Thread nD τ) arg4 fullShare d) ∗ owns (c : Thread nD τ) arg5 fullShare xs
            ∗ (iprop(owns (c : Thread nD τ) arg2 fullShare x0 ∗ owns (c : Thread nD τ) arg3 fullShare xi1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS)) -∗ K ⟨⟩))
          ⊢ wp frame (wpE (defs₀ (F := F)) Variants.none c none) E (cc0__deg_kernel i arg2 harg2 arg3 harg3 arg4 harg4 arg5 harg5) K } := by
  refine ⟨?_, ?_, fun xi1 E K => ?run⟩
  case run =>
    simp only [cc0__deg_kernel_eq_skeleton]; unfold cc0__deg_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

set_option maxHeartbeats 4000000 in
/-- k = 7: after the last lane sums the first output receives where(acc + 1 > 0, rsqrt(acc + 1), 0) along its lanes. -/
noncomputable def runLast (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x1024 .bf16) (harg4 : arg4.IsWhole) (arg5 : Memref sig .tc .vmem S1024x1 .f32) (harg5 : arg5.IsWhole) (hc0 : ¬isFirst i) (hc1 : isLast i)
    (x0 : Vec F S1024x1024 .f32) (xs : Vec F S1024x1 .f32) :
    Σ' (L1 : List (View.Piece (Elt F) S1024x128 .f32)) (L2 : List (View.Piece (Elt F) S1024x1024 .bf16)), { LS : List (View.Piece (Elt F) S1024x1 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ owns (c : Thread nD τ) arg5 fullShare xs
            ∗ (iprop(owns (c : Thread nD τ) arg2 fullShare x0
                ∗ (∃ f, arg3.view.loc (c : Thread nD τ) ↦[arg3.view.set]{fullShare} arg3.view.writes (Elt F) f L1)
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS)) -∗ K ⟨⟩))
          ⊢ wp frame (wpE (defs₀ (F := F)) Variants.none c none) E (cc0__deg_kernel i arg2 harg2 arg3 harg3 arg4 harg4 arg5 harg5) K } := by
  refine ⟨?_, ?_, ?_, fun E K => ?run⟩
  case run =>
    simp only [cc0__deg_kernel_eq_skeleton]; unfold cc0__deg_kernel_skel
    unfold owns
    iintro ⟨⟨%f0, %hf0, H0⟩, ⟨%d1, %f1, -, H1⟩, ⟨%d2, %f2, -, H2⟩, ⟨%fs, %hfs, HS⟩, Hk⟩
    obtain rfl := harg2.eq_unread hf0; obtain rfl := harg5.eq_unread hfs
    sl_exec (disch := first | exact hc0 | exact hc1)
    sl_step
    iapply Hk
    isplitl [H0]
    · iexists _; isplitr; · ipureintro; exact harg2.read_unread _
      iexact H0
    isplitl [H1]; · iexists _; iexact H1
    isplitl [H2]; · iexists _; iexact H2
    iexists _; iexact HS

end Cert.Kernel.Deg

end
-- ==== Proof.K.Deg.lean ====
/-
  Region 0 (the degree pass): what its buffers hold point by point, the proof data of its pipeline, and the body
  obligation. The arrays are read as the region finds them (a parameter `V`, the buffer contents at the region's
  entry). After point t the copy output holds the bf16 reading of block t of the adjacency matrix, the scratch
  column holds the running lane sums of the blocks (i, 0..k), and at k = 7 the first output's block holds
  where(acc + 1 > 0, rsqrt(acc + 1), 0) along its lanes.
-/
import proofs.«110719_j498216206442_2_alg».proof.Proof.K.DegRuns

set_option maxRecDepth 16384

noncomputable section

namespace Cert.Kernel.Deg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point. -/
theorem before_in_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

section Cases
variable (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x1024 .bf16) (harg4 : arg4.IsWhole) (arg5 : Memref sig .tc .vmem S1024x1 .f32) (harg5 : arg5.IsWhole)

theorem coverCopy_first (hc0 : isFirst i) (hc1 : ¬isLast i) (x0 : Vec F S1024x1024 .f32) (y : S1024x1024.Idx) :
    ∃ pc ∈ (runFirst c i arg2 harg2 arg3 harg3 arg4 harg4 arg5 harg5 hc0 hc1 x0).1, y ∈ pc.1.set :=
  View.cover_of_tiledL (runFirst c i arg2 harg2 arg3 harg3 arg4 harg4 arg5 harg5 hc0 hc1 x0).1 S1024x1024.size (by sl_kernel_rfl) y
theorem coverAcc_first (hc0 : isFirst i) (hc1 : ¬isLast i) (x0 : Vec F S1024x1024 .f32) (y : S1024x1.Idx) :
    ∃ pc ∈ (runFirst c i arg2 harg2 arg3 harg3 arg4 harg4 arg5 harg5 hc0 hc1 x0).2.1, y ∈ pc.1.set :=
  View.cover_of_tiledL (runFirst c i arg2 harg2 arg3 harg3 arg4 harg4 arg5 harg5 hc0 hc1 x0).2.1 S1024x1.size (by sl_kernel_rfl) y
def copyFirst (hc0 : isFirst i) (hc1 : ¬isLast i) (x0 : Vec F S1024x1024 .f32) : Vec F S1024x1024 .bf16 :=
  viewCopy.read (Elt F) (viewCopy.writes (Elt F) viewCopy.junk (runFirst c i arg2 harg2 arg3 harg3 arg4 harg4 arg5 harg5 hc0 hc1 x0).1)
def accFirst (hc0 : isFirst i) (hc1 : ¬isLast i) (x0 : Vec F S1024x1024 .f32) : Vec F S1024x1 .f32 :=
  viewAcc.read (Elt F) (viewAcc.writes (Elt F) viewAcc.junk (runFirst c i arg2 harg2 arg3 harg3 arg4 harg4 arg5 harg5 hc0 hc1 x0).2.1)

theorem coverCopy_mid (hc0 : ¬isFirst i) (hc1 : ¬isLast i) (x0 : Vec F S1024x1024 .f32) (xs : Vec F S1024x1 .f32) (y : S1024x1024.Idx) :
    ∃ pc ∈ (runMid c i arg2 harg2 arg3 harg3 arg4 harg4 arg5 harg5 hc0 hc1 x0 xs).1, y ∈ pc.1.set :=
  View.cover_of_tiledL (runMid c i arg2 harg2 arg3 harg3 arg4 harg4 arg5 harg5 hc0 hc1 x0 xs).1 S1024x1024.size (by sl_kernel_rfl) y
theorem coverAcc_mid (hc0 : ¬isFirst i) (hc1 : ¬isLast i) (x0 : Vec F S1024x1024 .f32) (xs : Vec F S1024x1 .f32) (y : S1024x1.Idx) :
    ∃ pc ∈ (runMid c i arg2 harg2 arg3 harg3 arg4 harg4 arg5 harg5 hc0 hc1 x0 xs).2.1, y ∈ pc.1.set :=
  View.cover_of_tiledL (runMid c i arg2 harg2 arg3 harg3 arg4 harg4 arg5 harg5 hc0 hc1 x0 xs).2.1 S1024x1.size (by sl_kernel_rfl) y
def copyMid (hc0 : ¬isFirst i) (hc1 : ¬isLast i) (x0 : Vec F S1024x1024 .f32) (xs : Vec F S1024x1 .f32) : Vec F S1024x1024 .bf16 :=
  viewCopy.read (Elt F) (viewCopy.writes (Elt F) viewCopy.junk (runMid c i arg2 harg2 arg3 harg3 arg4 harg4 arg5 harg5 hc0 hc1 x0 xs).1)
def accMid (hc0 : ¬isFirst i) (hc1 : ¬isLast i) (x0 : Vec F S1024x1024 .f32) (xs : Vec F S1024x1 .f32) : Vec F S1024x1 .f32 :=
  viewAcc.read (Elt F) (viewAcc.writes (Elt F) viewAcc.junk (runMid c i arg2 harg2 arg3 harg3 arg4 harg4 arg5 harg5 hc0 hc1 x0 xs).2.1)

theorem coverOut_last (hc0 : ¬isFirst i) (hc1 : isLast i) (x0 : Vec F S1024x1024 .f32) (xs : Vec F S1024x1 .f32) (y : S1024x128.Idx) :
    ∃ pc ∈ (runLast c i arg2 harg2 arg3 harg3 arg4 harg4 arg5 harg5 hc0 hc1 x0 xs).1, y ∈ pc.1.set :=
  View.cover_of_tiledL (runLast c i arg2 harg2 arg3 harg3 arg4 harg4 arg5 harg5 hc0 hc1 x0 xs).1 S1024x128.size (by sl_kernel_rfl) y
theorem coverCopy_last (hc0 : ¬isFirst i) (hc1 : isLast i) (x0 : Vec F S1024x1024 .f32) (xs : Vec F S1024x1 .f32) (y : S1024x1024.Idx) :
    ∃ pc ∈ (runLast c i arg2 harg2 arg3 harg3 arg4 harg4 arg5 harg5 hc0 hc1 x0 xs).2.1, y ∈ pc.1.set :=
  View.cover_of_tiledL (runLast c i arg2 harg2 arg3 harg3 arg4 harg4 arg5 harg5 hc0 hc1 x0 xs).2.1 S1024x1024.size (by sl_kernel_rfl) y
theorem coverAcc_last (hc0 : ¬isFirst i) (hc1 : isLast i) (x0 : Vec F S1024x1024 .f32) (xs : Vec F S1024x1 .f32) (y : S1024x1.Idx) :
    ∃ pc ∈ (runLast c i arg2 harg2 arg3 harg3 arg4 harg4 arg5 harg5 hc0 hc1 x0 xs).2.2.1, y ∈ pc.1.set :=
  View.cover_of_tiledL (runLast c i arg2 harg2 arg3 harg3 arg4 harg4 arg5 harg5 hc0 hc1 x0 xs).2.2.1 S1024x1.size (by sl_kernel_rfl) y
def outLast (hc0 : ¬isFirst i) (hc1 : isLast i) (x0 : Vec F S1024x1024 .f32) (xs : Vec F S1024x1 .f32) : Vec F S1024x128 .f32 :=
  viewOut.read (Elt F) (viewOut.writes (Elt F) viewOut.junk (runLast c i arg2 harg2 arg3 harg3 arg4 harg4 arg5 harg5 hc0 hc1 x0 xs).1)
def copyLast (hc0 : ¬isFirst i) (hc1 : isLast i) (x0 : Vec F S1024x1024 .f32) (xs : Vec F S1024x1 .f32) : Vec F S1024x1024 .bf16 :=
  viewCopy.read (Elt F) (viewCopy.writes (Elt F) viewCopy.junk (runLast c i arg2 harg2 arg3 harg3 arg4 harg4 arg5 harg5 hc0 hc1 x0 xs).2.1)
def accLast (hc0 : ¬isFirst i) (hc1 : isLast i) (x0 : Vec F S1024x1024 .f32) (xs : Vec F S1024x1 .f32) : Vec F S1024x1 .f32 :=
  viewAcc.read (Elt F) (viewAcc.writes (Elt F) viewAcc.junk (runLast c i arg2 harg2 arg3 harg3 arg4 harg4 arg5 harg5 hc0 hc1 x0 xs).2.2.1)

end Cases

/-- A placeholder for the first output's buffer at the points where the body stores nothing into it: nothing consults it. -/
def outIdle : Vec F S1024x128 .f32 := viewOut.read (Elt F) (viewOut.writes (Elt F) viewOut.junk [])

/-! ## Point by point -/

/-- What the first output's buffer, the copy output's buffer and the scratch column hold after the body at position `n`. -/
def outsAt (c : Dev nD) : (n : ℕ) → n < cfg0.N → Vec F S1024x128 .f32 × Vec F S1024x1024 .bf16 × Vec F S1024x1 .f32
  | 0, hn => (outIdle,
      copyFirst c (grid0.coords ⟨0, hn⟩) (mIn ⟨0, hn⟩) (hIn ⟨0, hn⟩) (mOut ⟨0, hn⟩) (hOut ⟨0, hn⟩) (mCopy ⟨0, hn⟩) (hCopy ⟨0, hn⟩) mAcc (Memref.isWhole_whole _) ((isFirst_iff ⟨0, hn⟩).mpr (Nat.zero_mod _)) (fun h => (fun h => by (try dsimp only at h); omega) ((isLast_iff ⟨0, hn⟩).mp h)) (iblk V c 0 ⟨0, hn⟩),
      accFirst c (grid0.coords ⟨0, hn⟩) (mIn ⟨0, hn⟩) (hIn ⟨0, hn⟩) (mOut ⟨0, hn⟩) (hOut ⟨0, hn⟩) (mCopy ⟨0, hn⟩) (hCopy ⟨0, hn⟩) mAcc (Memref.isWhole_whole _) ((isFirst_iff ⟨0, hn⟩).mpr (Nat.zero_mod _)) (fun h => (fun h => by (try dsimp only at h); omega) ((isLast_iff ⟨0, hn⟩).mp h)) (iblk V c 0 ⟨0, hn⟩))
  | n + 1, hn =>
    if h0 : (n + 1) % 8 = 0 then
      if h1 : (n + 1) % 8 = 7 then False.elim (by omega)
      else (outIdle,
        copyFirst c (grid0.coords ⟨n + 1, hn⟩) (mIn ⟨n + 1, hn⟩) (hIn ⟨n + 1, hn⟩) (mOut ⟨n + 1, hn⟩) (hOut ⟨n + 1, hn⟩) (mCopy ⟨n + 1, hn⟩) (hCopy ⟨n + 1, hn⟩) mAcc (Memref.isWhole_whole _) ((isFirst_iff ⟨n + 1, hn⟩).mpr h0) (fun h => h1 ((isLast_iff ⟨n + 1, hn⟩).mp h)) (iblk V c 0 ⟨n + 1, hn⟩),
        accFirst c (grid0.coords ⟨n + 1, hn⟩) (mIn ⟨n + 1, hn⟩) (hIn ⟨n + 1, hn⟩) (mOut ⟨n + 1, hn⟩) (hOut ⟨n + 1, hn⟩) (mCopy ⟨n + 1, hn⟩) (hCopy ⟨n + 1, hn⟩) mAcc (Memref.isWhole_whole _) ((isFirst_iff ⟨n + 1, hn⟩).mpr h0) (fun h => h1 ((isLast_iff ⟨n + 1, hn⟩).mp h)) (iblk V c 0 ⟨n + 1, hn⟩))
    else
      if h1 : (n + 1) % 8 = 7 then
        (outLast c (grid0.coords ⟨n + 1, hn⟩) (mIn ⟨n + 1, hn⟩) (hIn ⟨n + 1, hn⟩) (mOut ⟨n + 1, hn⟩) (hOut ⟨n + 1, hn⟩) (mCopy ⟨n + 1, hn⟩) (hCopy ⟨n + 1, hn⟩) mAcc (Memref.isWhole_whole _) (fun h => h0 ((isFirst_iff ⟨n + 1, hn⟩).mp h)) ((isLast_iff ⟨n + 1, hn⟩).mpr h1) (iblk V c 0 ⟨n + 1, hn⟩) (outsAt c n (Nat.lt_of_succ_lt hn)).2.2,
         copyLast c (grid0.coords ⟨n + 1, hn⟩) (mIn ⟨n + 1, hn⟩) (hIn ⟨n + 1, hn⟩) (mOut ⟨n + 1, hn⟩) (hOut ⟨n + 1, hn⟩) (mCopy ⟨n + 1, hn⟩) (hCopy ⟨n + 1, hn⟩) mAcc (Memref.isWhole_whole _) (fun h => h0 ((isFirst_iff ⟨n + 1, hn⟩).mp h)) ((isLast_iff ⟨n + 1, hn⟩).mpr h1) (iblk V c 0 ⟨n + 1, hn⟩) (outsAt c n (Nat.lt_of_succ_lt hn)).2.2,
         accLast c (grid0.coords ⟨n + 1, hn⟩) (mIn ⟨n + 1, hn⟩) (hIn ⟨n + 1, hn⟩) (mOut ⟨n + 1, hn⟩) (hOut ⟨n + 1, hn⟩) (mCopy ⟨n + 1, hn⟩) (hCopy ⟨n + 1, hn⟩) mAcc (Memref.isWhole_whole _) (fun h => h0 ((isFirst_iff ⟨n + 1, hn⟩).mp h)) ((isLast_iff ⟨n + 1, hn⟩).mpr h1) (iblk V c 0 ⟨n + 1, hn⟩) (outsAt c n (Nat.lt_of_succ_lt hn)).2.2)
      else
        (outIdle,
         copyMid c (grid0.coords ⟨n + 1, hn⟩) (mIn ⟨n + 1, hn⟩) (hIn ⟨n + 1, hn⟩) (mOut ⟨n + 1, hn⟩) (hOut ⟨n + 1, hn⟩) (mCopy ⟨n + 1, hn⟩) (hCopy ⟨n + 1, hn⟩) mAcc (Memref.isWhole_whole _) (fun h => h0 ((isFirst_iff ⟨n + 1, hn⟩).mp h)) (fun h => h1 ((isLast_iff ⟨n + 1, hn⟩).mp h)) (iblk V c 0 ⟨n + 1, hn⟩) (outsAt c n (Nat.lt_of_succ_lt hn)).2.2,
         accMid c (grid0.coords ⟨n + 1, hn⟩) (mIn ⟨n + 1, hn⟩) (hIn ⟨n + 1, hn⟩) (mOut ⟨n + 1, hn⟩) (hOut ⟨n + 1, hn⟩) (mCopy ⟨n + 1, hn⟩) (hCopy ⟨n + 1, hn⟩) mAcc (Memref.isWhole_whole _) (fun h => h0 ((isFirst_iff ⟨n + 1, hn⟩).mp h)) (fun h => h1 ((isLast_iff ⟨n + 1, hn⟩).mp h)) (iblk V c 0 ⟨n + 1, hn⟩) (outsAt c n (Nat.lt_of_succ_lt hn)).2.2)

theorem outsAt_first (c : Dev nD) (t : Fin cfg0.N) (h0 : t.val % 8 = 0) (h1 : ¬t.val % 8 = 7) :
    outsAt V c t.val t.isLt = (outIdle,
      copyFirst c (grid0.coords t) (mIn t) (hIn t) (mOut t) (hOut t) (mCopy t) (hCopy t) mAcc (Memref.isWhole_whole _) ((isFirst_iff t).mpr h0) (fun h => h1 ((isLast_iff t).mp h)) (iblk V c 0 t),
      accFirst c (grid0.coords t) (mIn t) (hIn t) (mOut t) (hOut t) (mCopy t) (hCopy t) mAcc (Memref.isWhole_whole _) ((isFirst_iff t).mpr h0) (fun h => h1 ((isLast_iff t).mp h)) (iblk V c 0 t)) := by
  obtain ⟨n, hn⟩ := t
  cases n with
  | zero => exact rfl
  | succ n => exact (dif_pos h0).trans ((dif_neg h1).trans rfl)

theorem outsAt_mid (c : Dev nD) (t : Fin cfg0.N) (h0 : ¬t.val % 8 = 0) (h1 : ¬t.val % 8 = 7) :
    outsAt V c t.val t.isLt = (outIdle,
      copyMid c (grid0.coords t) (mIn t) (hIn t) (mOut t) (hOut t) (mCopy t) (hCopy t) mAcc (Memref.isWhole_whole _) (fun h => h0 ((isFirst_iff t).mp h)) (fun h => h1 ((isLast_iff t).mp h)) (iblk V c 0 t) (outsAt V c (t.val - 1) (Nat.lt_of_le_of_lt (Nat.sub_le _ _) t.isLt)).2.2,
      accMid c (grid0.coords t) (mIn t) (hIn t) (mOut t) (hOut t) (mCopy t) (hCopy t) mAcc (Memref.isWhole_whole _) (fun h => h0 ((isFirst_iff t).mp h)) (fun h => h1 ((isLast_iff t).mp h)) (iblk V c 0 t) (outsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 8 = 0) (h1 : t.val % 8 = 7) :
    outsAt V c t.val t.isLt = (
      outLast c (grid0.coords t) (mIn t) (hIn t) (mOut t) (hOut t) (mCopy t) (hCopy t) mAcc (Memref.isWhole_whole _) (fun h => h0 ((isFirst_iff t).mp h)) ((isLast_iff t).mpr h1) (iblk V c 0 t) (outsAt V c (t.val - 1) (Nat.lt_of_le_of_lt (Nat.sub_le _ _) t.isLt)).2.2,
      copyLast c (grid0.coords t) (mIn t) (hIn t) (mOut t) (hOut t) (mCopy t) (hCopy t) mAcc (Memref.isWhole_whole _) (fun h => h0 ((isFirst_iff t).mp h)) ((isLast_iff t).mpr h1) (iblk V c 0 t) (outsAt V c (t.val - 1) (Nat.lt_of_le_of_lt (Nat.sub_le _ _) t.isLt)).2.2,
      accLast c (grid0.coords t) (mIn t) (hIn t) (mOut t) (hOut t) (mCopy t) (hCopy t) mAcc (Memref.isWhole_whole _) (fun h => h0 ((isFirst_iff t).mp h)) ((isLast_iff t).mpr h1) (iblk V c 0 t) (outsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the first point the class's invariant (the scratch column at anything); afterwards the
    scratch column at what the point before left, the other scoped buffers and the generator register as they are. -/
def PhiS (c : Dev nD) : (n : ℕ) → n ≤ cfg0.N → sProp 𝕄
  | 0, _ => Pipeline.ΦA spec0 c
  | n + 1, hn => iprop(iprop(owns (c : Thread nD τ) mAcc fullShare ((outsAt V c n hn).2.2) ∗ Pipeline.scopedRestBut (Ix := Unit) (Name := ℕ) (U := UR sig nD τ) (Lvl := ℕ) (Val := Elt F) spec0 c [cc0_scratch0]) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) mAcc fullShare ((outsAt V c n hn).2.2) ∗ Pipeline.scopedRestBut (Ix := Unit) (Name := ℕ) (U := UR sig nD τ) (Lvl := ℕ) (Val := Elt F) spec0 c [cc0_scratch0]) ∗ (∃ r, prngReg c r)) := rfl
theorem PhiS_pos (c : Dev nD) (n : ℕ) (h : n ≤ cfg0.N) (hz : n ≠ 0) :
    PhiS V c n h = iprop(iprop(owns (c : Thread nD τ) mAcc fullShare ((outsAt V c (n - 1) (by omega)).2.2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => (outsAt V c t.val t.isLt).1
    | ⟨2, _⟩ => (outsAt V c t.val t.isLt).2.1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem Phi_castSucc (c : Dev nD) (t : Fin cfg0.N) :
    (dat V c).Φ t.castSucc = PhiS V c t.val (Nat.le_of_lt t.isLt) := by
  dsimp only [dat]; simp only [Fin.coe_castSucc]
theorem after_in (c : Dev nD) (t : Fin cfg0.N) : (dat V c).after 0 t = iblk V c 0 t := by dsimp only [dat]
theorem after_out (c : Dev nD) (t : Fin cfg0.N) : (dat V c).after 1 t = (outsAt V c t.val t.isLt).1 := by dsimp only [dat]
theorem after_copy (c : Dev nD) (t : Fin cfg0.N) : (dat V c).after 2 t = (outsAt V c t.val t.isLt).2.1 := by dsimp only [dat]
theorem before_in (c : Dev nD) (t : Fin cfg0.N) (d) : (dat V c).before 0 t d = iblk V c 0 t :=
  before_in_of V (dat V c) (A_eq V c 0) (after_in V c) t d

end Cert.Kernel.Deg

end
-- ==== Proof.K.DegBody.lean ====
/-
  Region 0 (the degree pass): the body obligation. At a point the input's buffer holds its block; the closed
  forms say which control case the point is in; the invariant hands the body the scratch column at what the point
  before left (at anything at the very first point) and takes it back at this point's running sums.
-/
import proofs.«110719_j498216206442_2_alg».proof.Proof.K.Deg

set_option maxRecDepth 16384

noncomputable section

namespace Cert.Kernel.Deg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre (c : Dev nD) (t : Fin cfg0.N) : sProp 𝕄 :=
  iprop((dat V c).Φ t.castSucc ∗ (dat V c).owesAt () t.castSucc
    ∗ (∃ d, owns (c : Thread nD τ) (mIn t) fullShare ((dat V c).before 0 t d))
    ∗ (∃ d, owns (c : Thread nD τ) (mOut t) fullShare ((dat V c).before 1 t d))
    ∗ (∃ d, owns (c : Thread nD τ) (mCopy t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg0.N = 64 from N_0)
  rw [show (dat V c).leavesExact 0 t = owns (c : Thread nD τ) (mIn t) fullShare ((dat V c).after 0 t) from by
    unfold Dat.leavesExact; rw [live_in t], after_in]
  rw [show (dat V c).leavesExact 2 t = owns (c : Thread nD τ) (mCopy t) fullShare ((dat V c).after 2 t) from by
    unfold Dat.leavesExact; rw [live_copy t], after_copy]
  by_cases h0 : t.val % 8 = 0
  · have h1 : ¬t.val % 8 = 7 := by omega
    rw [Dat.leavesExact_idle (dat V c) 1 t (idle_out t (fun h => h1 ((isLast_iff t).mp h))) (noFlush_out t (fun h => h1 ((isLast_iff t).mp h)))]
    rw [outsAt_first V c t h0 h1]
    unfold copyFirst accFirst; (try dsimp only)
    by_cases hz : t.val = 0
    · rw [Phi_castSucc V c t, PhiS_zero V c _ _ hz, PhiA_eq]
      iintro ⟨⟨⟨HS, Hrest⟩, Hg⟩, Ho, ⟨%d0, H0⟩, ⟨%d1, H1⟩, ⟨%d2, H2⟩⟩
      iapply ((runFirst c (grid0.coords t) _ _ _ _ _ _ _ _ ((isFirst_iff t).mpr h0) (fun h => h1 ((isLast_iff t).mp h)) (iblk V c 0 t)).2.2 _ Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (coverAcc_first c _ _ _ _ _ _ _ _ _ _ _ _)
          iexact Hrest
        iexact Hg
      isplitl [Ho]; · iexact Ho
      isplitl [H0]; · iexact H0
      isplitl [H1]; · iexists _; iexact H1
      unfold owns; iexists _; isplitr
      swap; · iexact H2
      ipureintro; exact View.read_writes_of_cover _ _ _ _ _ (coverCopy_first c _ _ _ _ _ _ _ _ _ _ _ _)
    · rw [Phi_castSucc V c t, PhiS_pos V c _ _ hz]
      iintro ⟨⟨⟨HS, Hrest⟩, Hg⟩, Ho, ⟨%d0, H0⟩, ⟨%d1, H1⟩, ⟨%d2, H2⟩⟩
      iapply ((runFirst c (grid0.coords t) _ _ _ _ _ _ _ _ ((isFirst_iff t).mpr h0) (fun h => h1 ((isLast_iff t).mp h)) (iblk V c 0 t)).2.2 _ Set.univ _)
      isplitl [H0]; · iexact H0
      isplitl [H1]; · iexact H1
      isplitl [H2]; · iexists _; iexact H2
      isplitl [HS]; · iexists _; iexact HS
      iintro ⟨H0, H1, ⟨%e2, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (coverAcc_first c _ _ _ _ _ _ _ _ _ _ _ _)
          iexact Hrest
        iexact Hg
      isplitl [Ho]; · iexact Ho
      isplitl [H0]; · iexact H0
      isplitl [H1]; · iexists _; iexact H1
      unfold owns; iexists _; isplitr
      swap; · iexact H2
      ipureintro; exact View.read_writes_of_cover _ _ _ _ _ (coverCopy_first c _ _ _ _ _ _ _ _ _ _ _ _)
  · have hz : t.val ≠ 0 := by omega
    by_cases h1 : t.val % 8 = 7
    · rw [show (dat V c).leavesExact 1 t = owns (c : Thread nD τ) (mOut t) fullShare ((dat V c).after 1 t) from by
        unfold Dat.leavesExact; rw [live_out t ((isLast_iff t).mpr h1)], after_out]
      rw [outsAt_last V c t h0 h1]
      unfold outLast copyLast accLast; (try dsimp only)
      rw [Phi_castSucc V c t, PhiS_pos V c _ _ hz]
      iintro ⟨⟨⟨HS, Hrest⟩, Hg⟩, Ho, ⟨%d0, H0⟩, ⟨%d1, H1⟩, ⟨%d2, H2⟩⟩
      iapply ((runLast c (grid0.coords t) _ _ _ _ _ _ _ _ (fun h => h0 ((isFirst_iff t).mp h)) ((isLast_iff t).mpr h1) (iblk V c 0 t) _).2.2.2 Set.univ _)
      isplitl [H0]; · iexact H0
      isplitl [H1]; · iexists _; iexact H1
      isplitl [H2]; · iexists _; iexact H2
      isplitl [HS]; · iexact HS
      iintro ⟨H0, ⟨%e1, H1⟩, ⟨%e2, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (coverAcc_last c _ _ _ _ _ _ _ _ _ _ _ _ _)
          iexact Hrest
        iexact Hg
      isplitl [Ho]; · iexact Ho
      isplitl [H0]; · iexact H0
      isplitl [H1]
      · unfold owns; iexists _; isplitr
        swap; · iexact H1
        ipureintro; exact View.read_writes_of_cover _ _ _ _ _ (coverOut_last c _ _ _ _ _ _ _ _ _ _ _ _ _)
      unfold owns; iexists _; isplitr
      swap; · iexact H2
      ipureintro; exact View.read_writes_of_cover _ _ _ _ _ (coverCopy_last c _ _ _ _ _ _ _ _ _ _ _ _ _)
    · rw [Dat.leavesExact_idle (dat V c) 1 t (idle_out t (fun h => h1 ((isLast_iff t).mp h))) (noFlush_out t (fun h => h1 ((isLast_iff t).mp h)))]
      rw [outsAt_mid V c t h0 h1]
      unfold copyMid accMid; (try dsimp only)
      rw [Phi_castSucc V c t, PhiS_pos V c _ _ hz]
      iintro ⟨⟨⟨HS, Hrest⟩, Hg⟩, Ho, ⟨%d0, H0⟩, ⟨%d1, H1⟩, ⟨%d2, H2⟩⟩
      iapply ((runMid c (grid0.coords t) _ _ _ _ _ _ _ _ (fun h => h0 ((isFirst_iff t).mp h)) (fun h => h1 ((isLast_iff t).mp h)) (iblk V c 0 t) _).2.2 _ Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (coverAcc_mid c _ _ _ _ _ _ _ _ _ _ _ _ _)
          iexact Hrest
        iexact Hg
      isplitl [Ho]; · iexact Ho
      isplitl [H0]; · iexact H0
      isplitl [H1]; · iexists _; iexact H1
      unfold owns; iexists _; isplitr
      swap; · iexact H2
      ipureintro; exact View.read_writes_of_cover _ _ _ _ _ (coverCopy_mid c _ _ _ _ _ _ _ _ _ _ _ _ _)

/-- The body obligation of the region's pipeline, at every point. -/
theorem body_obligation (c : Dev nD) : BodyObligation (dat (F := F) V c) (defs₀ (F := F)) Variants.none () Set.univ := fun t => by
  rw [bigSep_W0, bigSep_W0]
  exact sound_body V c t

/-- What the region is entered with is the invariant before the first point. -/
theorem Phi_in (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the scratch column's contents are forgotten. -/
theorem Phi_out (c : Dev nD) : (dat V c).Φ (Fin.last cfg0.N) ⊢ Pipeline.ΦA spec0 c := by
  have ht : (Fin.last cfg0.N).val ≠ 0 := by rw [Fin.val_last]; have : cfg0.N = 64 := N_0; omega
  rw [show (dat V c).Φ (Fin.last cfg0.N) = PhiS V c (Fin.last cfg0.N).val (Nat.le_of_lt_succ (Fin.last cfg0.N).isLt) from rfl, PhiS_pos V c _ _ ht, PhiA_eq]
  iintro ⟨⟨HS, Hrest⟩, Hg⟩
  isplitl [HS Hrest]
  · isplitl [HS]
    · iexists _; iexact HS
    iexact Hrest
  iexact Hg

end Cert.Kernel.Deg

end
-- ==== Proof.K.EmbedRuns.lean ====
/-
  Region 1 of the kernel (the normalized propagation, the embedding and the soft assignment): what
  its runs are stated over, and the body's run in each of its three control cases. At every grid point (i, k)
  the body adds (adjacency block (i, k)) · (d_k ⊙ X_k) into a 1024×128 scratch accumulator (reset at k = 0);
  at k = 7 it forms AX = d_i ⊙ (acc + d_i ⊙ X_i), the embedding AX · Weᵀ + be and the row softmax of
  AX · Waᵀ + ba, and stores them into the two outputs' blocks (i, 0).
-/
import proofs.«110719_j498216206442_2_alg».proof.Proof.Gen.Kernel.Launch
import proofs.«110719_j498216206442_2_alg».proof.Proof.Gen.Kernel.Skeleton
import proofs.«110719_j498216206442_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Embed

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions over the grid -/

/-- The reset branch is taken: the reduction coordinate k is 0. -/
abbrev isFirst (i : grid1.Coords) : Prop := (Scalar.cmpi .ne (Scalar.extui (Scalar.cmpi .eq (BitVec.ofNat 32 (i 1).val) 0#32)) 0#32) = 1#1
theorem isFirst_iff : ∀ t : Fin cfg1.N, isFirst (grid1.coords t) ↔ t.val % 8 = 0 :=
  (by decide +kernel : ∀ t : Fin grid1.N, isFirst (grid1.coords t) ↔ t.val % 8 = 0)

/-- The finishing branch is taken: k is 7. -/
abbrev isLast (i : grid1.Coords) : Prop := k1_cond2 i = 1#1
theorem isLast_iff : ∀ t : Fin cfg1.N, isLast (grid1.coords t) ↔ t.val % 8 = 7 :=
  (by decide +kernel : ∀ t : Fin grid1.N, isLast (grid1.coords t) ↔ t.val % 8 = 7)

/-! ## Where the windows are idle -/

theorem live_in : ∀ (w : Fin 9) (t : Fin cfg1.N), cfg1.idle (w.castLE (by decide)) (grid1.coords t) = false := by decide +kernel
theorem idle_z : ∀ t : Fin cfg1.N, ¬isLast (grid1.coords t) → cfg1.idle 9 (grid1.coords t) = true := by decide +kernel
theorem noFlush_z : ∀ t : Fin cfg1.N, ¬isLast (grid1.coords t) → (cfg1.win 9).flush t = false := by decide +kernel
theorem live_z : ∀ t : Fin cfg1.N, isLast (grid1.coords t) → cfg1.idle 9 (grid1.coords t) = false := by decide +kernel
theorem idle_s : ∀ t : Fin cfg1.N, ¬isLast (grid1.coords t) → cfg1.idle 10 (grid1.coords t) = true := by decide +kernel
theorem noFlush_s : ∀ t : Fin cfg1.N, ¬isLast (grid1.coords t) → (cfg1.win 10).flush t = false := by decide +kernel
theorem live_s : ∀ t : Fin cfg1.N, isLast (grid1.coords t) → cfg1.idle 10 (grid1.coords t) = false := by decide +kernel

/-! ## The memrefs at a point -/

abbrev viewZ : View sig .tc .vmem S1024x128 .f32 := (Memref.whole cc1_stg9_0 : Memref sig .tc .vmem S1024x128 .f32).view
abbrev viewS : View sig .tc .vmem S1024x128 .f32 := (Memref.whole cc1_stg10_0 : Memref sig .tc .vmem S1024x128 .f32).view
abbrev mAdj (t : Fin cfg1.N) : Memref sig .tc .vmem S1024x1024 .bf16 := win1_0.stage (cfg1.slots t 0)
abbrev hAdj (t : Fin cfg1.N) : (mAdj t).IsWhole := hstage1_0 ((cfg1.slots t 0).cast nbuf1_0)
abbrev mXk (t : Fin cfg1.N) : Memref sig .tc .vmem S1024x128 .f32 := win1_1.stage (cfg1.slots t 1)
abbrev hXk (t : Fin cfg1.N) : (mXk t).IsWhole := hstage1_1 ((cfg1.slots t 1).cast nbuf1_1)
abbrev mDk (t : Fin cfg1.N) : Memref sig .tc .vmem S1024x128 .f32 := win1_2.stage (cfg1.slots t 2)
abbrev hDk (t : Fin cfg1.N) : (mDk t).IsWhole := hstage1_2 ((cfg1.slots t 2).cast nbuf1_2)
abbrev mXi (t : Fin cfg1.N) : Memref sig .tc .vmem S1024x128 .f32 := win1_3.stage (cfg1.slots t 3)
abbrev hXi (t : Fin cfg1.N) : (mXi t).IsWhole := hstage1_3 ((cfg1.slots t 3).cast nbuf1_3)
abbrev mDi (t : Fin cfg1.N) : Memref sig .tc .vmem S1024x128 .f32 := win1_4.stage (cfg1.slots t 4)
abbrev hDi (t : Fin cfg1.N) : (mDi t).IsWhole := hstage1_4 ((cfg1.slots t 4).cast nbuf1_4)
abbrev mWe (t : Fin cfg1.N) : Memref sig .tc .vmem S128x128 .f32 := win1_5.stage (cfg1.slots t 5)
abbrev hWe (t : Fin cfg1.N) : (mWe t).IsWhole := hstage1_5 ((cfg1.slots t 5).cast nbuf1_5)
abbrev mBe (t : Fin cfg1.N) : Memref sig .tc .vmem S1x128 .f32 := win1_6.stage (cfg1.slots t 6)
abbrev hBe (t : Fin cfg1.N) : (mBe t).IsWhole := hstage1_6 ((cfg1.slots t 6).cast nbuf1_6)
abbrev mWa (t : Fin cfg1.N) : Memref sig .tc .vmem S128x128 .f32 := win1_7.stage (cfg1.slots t 7)
abbrev hWa (t : Fin cfg1.N) : (mWa t).IsWhole := hstage1_7 ((cfg1.slots t 7).cast nbuf1_7)
abbrev mBa (t : Fin cfg1.N) : Memref sig .tc .vmem S1x128 .f32 := win1_8.stage (cfg1.slots t 8)
abbrev hBa (t : Fin cfg1.N) : (mBa t).IsWhole := hstage1_8 ((cfg1.slots t 8).cast nbuf1_8)
abbrev mZ (t : Fin cfg1.N) : Memref sig .tc .vmem S1024x128 .f32 := win1_9.stage (cfg1.slots t 9)
abbrev hZ (t : Fin cfg1.N) : (mZ t).IsWhole := hstage1_9 ((cfg1.slots t 9).cast nbuf1_9)
abbrev mS (t : Fin cfg1.N) : Memref sig .tc .vmem S1024x128 .f32 := win1_10.stage (cfg1.slots t 10)
abbrev hS (t : Fin cfg1.N) : (mS t).IsWhole := hstage1_10 ((cfg1.slots t 10).cast nbuf1_10)
/-- The scratch accumulator. -/
abbrev mAcc : Memref sig .tc .vmem S1024x128 .f32 := Memref.whole cc1_scratch0
abbrev viewAcc : View sig .tc .vmem S1024x128 .f32 := mAcc.view

/-- The class invariant with the scratch accumulator as a memref owned at some contents. -/
theorem PhiA_eq (c : Dev nD) :
    (Pipeline.ΦA spec1 c : sProp 𝕄)
      = iprop(iprop((∃ d, owns (c : Thread nD τ) mAcc fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [mAcc, owns_whole]; try rfl

/-! ## The runs -/

set_option maxHeartbeats 8000000 in
/-- k = 0: the accumulator, found at anything, is reset and then receives the blocks' product. -/
noncomputable def runFirst (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : isFirst i) (hc1 : ¬isLast i)
    (x0 : Vec F S1024x1024 .bf16) (x1 x2 x3 x4 : Vec F S1024x128 .f32) (x5 : Vec F S128x128 .f32) (x6 : Vec F S1x128 .f32) (x7 : Vec F S128x128 .f32) (x8 : Vec F S1x128 .f32) :
    { LS : List (View.Piece (Elt F) S1024x128 .f32) //
      ∀ (xi9 xi10 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xi10 ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xi10
                ∗ (∃ f, arg13.view.loc (c : Thread nD τ) ↦[arg13.view.set]{fullShare} arg13.view.writes (Elt F) f LS)) -∗ K ⟨⟩))
          ⊢ wp frame (wpE (defs₀ (F := F)) Variants.none c none) E (cc1__stageB_kernel i arg2 harg2 arg3 harg3 arg4 harg4 arg5 harg5 arg6 harg6 arg7 harg7 arg8 harg8 arg9 harg9 arg10 harg10 arg11 harg11 arg12 harg12 arg13 harg13) K } := by
  refine ⟨?_, fun xi9 xi10 E K => ?run⟩
  case run =>
    simp only [cc1__stageB_kernel_eq_skeleton]; unfold cc1__stageB_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; iexact HS

set_option maxHeartbeats 8000000 in
/-- 0 < k < 7: the accumulator, found at what the point before left, receives the blocks' product. -/
noncomputable def runMid (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : ¬isFirst i) (hc1 : ¬isLast i)
    (x0 : Vec F S1024x1024 .bf16) (x1 x2 x3 x4 : Vec F S1024x128 .f32) (x5 : Vec F S128x128 .f32) (x6 : Vec F S1x128 .f32) (x7 : Vec F S128x128 .f32) (x8 : Vec F S1x128 .f32) (xs : Vec F S1024x128 .f32) :
    { LS : List (View.Piece (Elt F) S1024x128 .f32) //
      ∀ (xi9 xi10 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xi10 ∗ owns (c : Thread nD τ) arg13 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xi10
                ∗ (∃ f, arg13.view.loc (c : Thread nD τ) ↦[arg13.view.set]{fullShare} arg13.view.writes (Elt F) f LS)) -∗ K ⟨⟩))
          ⊢ wp frame (wpE (defs₀ (F := F)) Variants.none c none) E (cc1__stageB_kernel i arg2 harg2 arg3 harg3 arg4 harg4 arg5 harg5 arg6 harg6 arg7 harg7 arg8 harg8 arg9 harg9 arg10 harg10 arg11 harg11 arg12 harg12 arg13 harg13) K } := by
  refine ⟨?_, fun xi9 xi10 E K => ?run⟩
  case run =>
    simp only [cc1__stageB_kernel_eq_skeleton]; unfold cc1__stageB_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; iexact HS

set_option maxHeartbeats 8000000 in
/-- k = 7: after the last product the two outputs receive the embedding and the soft assignment of the block's rows. -/
noncomputable def runLast (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : ¬isFirst i) (hc1 : isLast i)
    (x0 : Vec F S1024x1024 .bf16) (x1 x2 x3 x4 : Vec F S1024x128 .f32) (x5 : Vec F S128x128 .f32) (x6 : Vec F S1x128 .f32) (x7 : Vec F S128x128 .f32) (x8 : Vec F S1x128 .f32) (xs : Vec F S1024x128 .f32) :
    Σ' (L9 : List (View.Piece (Elt F) S1024x128 .f32)) (L10 : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ owns (c : Thread nD τ) arg13 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
                ∗ (∃ f, arg11.view.loc (c : Thread nD τ) ↦[arg11.view.set]{fullShare} arg11.view.writes (Elt F) f L9)
                ∗ (∃ f, arg12.view.loc (c : Thread nD τ) ↦[arg12.view.set]{fullShare} arg12.view.writes (Elt F) f L10)
                ∗ (∃ f, arg13.view.loc (c : Thread nD τ) ↦[arg13.view.set]{fullShare} arg13.view.writes (Elt F) f LS)) -∗ K ⟨⟩))
          ⊢ wp frame (wpE (defs₀ (F := F)) Variants.none c none) E (cc1__stageB_kernel i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc1__stageB_kernel_eq_skeleton]; unfold cc1__stageB_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg13.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    iexists _; iexact HS

end Cert.Kernel.Embed

end
-- ==== Proof.K.Embed.lean ====
/-
  Region 1 (the normalized propagation, the embedding and the soft assignment): what its buffers hold point by
  point and the proof data of its pipeline, the arrays read as the region finds them (`V`). After point (i, k)
  the scratch accumulator holds the sum over the blocks 0..k of (adjacency block (i, ·)) · (d ⊙ X of block ·);
  at k = 7 the two outputs' blocks (i, 0) hold the embedding and the soft assignment of the rows of block i.
-/
import proofs.«110719_j498216206442_2_alg».proof.Proof.K.EmbedRuns

set_option maxRecDepth 16384

noncomputable section

namespace Cert.Kernel.Embed

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not. -/
theorem before_Adj_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_Xk_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_Dk_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_Xi_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_Di_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_We_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_Be_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_Wa_of {c : Dev nD} (dat : Dat τ (Elt F) Unit ℕ (UR sig nD τ) ℕ cfg1 c) (hA : dat.A 7 = V c (Pipeline.arrRef spec1 7))
    (hafter : ∀ t, dat.after 7 t = iblk V c 7 t) (t : Fin cfg1.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_Ba_of {c : Dev nD} (dat : Dat τ (Elt F) Unit ℕ (UR sig nD τ) ℕ cfg1 c) (hA : dat.A 8 = V c (Pipeline.arrRef spec1 8))
    (hafter : ∀ t, dat.after 8 t = iblk V c 8 t) (t : Fin cfg1.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

section Cases
variable (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole)

theorem coverAcc_first (hc0 : isFirst i) (hc1 : ¬isLast i) (x0 : Vec F S1024x1024 .bf16) (x1 x2 x3 x4 : Vec F S1024x128 .f32) (x5 : Vec F S128x128 .f32) (x6 : Vec F S1x128 .f32) (x7 : Vec F S128x128 .f32) (x8 : Vec F S1x128 .f32) (y : S1024x128.Idx) :
    ∃ pc ∈ (runFirst c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).1, y ∈ pc.1.set :=
  View.cover_of_tiledL (runFirst c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).1 S1024x128.size (by sl_kernel_rfl) y
def accFirst (hc0 : isFirst i) (hc1 : ¬isLast i) (x0 : Vec F S1024x1024 .bf16) (x1 x2 x3 x4 : Vec F S1024x128 .f32) (x5 : Vec F S128x128 .f32) (x6 : Vec F S1x128 .f32) (x7 : Vec F S128x128 .f32) (x8 : Vec F S1x128 .f32) : Vec F S1024x128 .f32 :=
  viewAcc.read (Elt F) (viewAcc.writes (Elt F) viewAcc.junk (runFirst c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).1)

theorem coverAcc_mid (hc0 : ¬isFirst i) (hc1 : ¬isLast i) (x0 : Vec F S1024x1024 .bf16) (x1 x2 x3 x4 : Vec F S1024x128 .f32) (x5 : Vec F S128x128 .f32) (x6 : Vec F S1x128 .f32) (x7 : Vec F S128x128 .f32) (x8 : Vec F S1x128 .f32) (xs : Vec F S1024x128 .f32) (y : S1024x128.Idx) :
    ∃ pc ∈ (runMid c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs).1, y ∈ pc.1.set :=
  View.cover_of_tiledL (runMid c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs).1 S1024x128.size (by sl_kernel_rfl) y
def accMid (hc0 : ¬isFirst i) (hc1 : ¬isLast i) (x0 : Vec F S1024x1024 .bf16) (x1 x2 x3 x4 : Vec F S1024x128 .f32) (x5 : Vec F S128x128 .f32) (x6 : Vec F S1x128 .f32) (x7 : Vec F S128x128 .f32) (x8 : Vec F S1x128 .f32) (xs : Vec F S1024x128 .f32) : Vec F S1024x128 .f32 :=
  viewAcc.read (Elt F) (viewAcc.writes (Elt F) viewAcc.junk (runMid c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs).1)

theorem coverZ_last (hc0 : ¬isFirst i) (hc1 : isLast i) (x0 : Vec F S1024x1024 .bf16) (x1 x2 x3 x4 : Vec F S1024x128 .f32) (x5 : Vec F S128x128 .f32) (x6 : Vec F S1x128 .f32) (x7 : Vec F S128x128 .f32) (x8 : Vec F S1x128 .f32) (xs : Vec F S1024x128 .f32) (y : S1024x128.Idx) :
    ∃ pc ∈ (runLast c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs).1, y ∈ pc.1.set :=
  View.cover_of_tiledL (runLast c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs).1 S1024x128.size (by sl_kernel_rfl) y
theorem coverS_last (hc0 : ¬isFirst i) (hc1 : isLast i) (x0 : Vec F S1024x1024 .bf16) (x1 x2 x3 x4 : Vec F S1024x128 .f32) (x5 : Vec F S128x128 .f32) (x6 : Vec F S1x128 .f32) (x7 : Vec F S128x128 .f32) (x8 : Vec F S1x128 .f32) (xs : Vec F S1024x128 .f32) (y : S1024x128.Idx) :
    ∃ pc ∈ (runLast c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs).2.1, y ∈ pc.1.set :=
  View.cover_of_tiledL (runLast c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs).2.1 S1024x128.size (by sl_kernel_rfl) y
theorem coverAcc_last (hc0 : ¬isFirst i) (hc1 : isLast i) (x0 : Vec F S1024x1024 .bf16) (x1 x2 x3 x4 : Vec F S1024x128 .f32) (x5 : Vec F S128x128 .f32) (x6 : Vec F S1x128 .f32) (x7 : Vec F S128x128 .f32) (x8 : Vec F S1x128 .f32) (xs : Vec F S1024x128 .f32) (y : S1024x128.Idx) :
    ∃ pc ∈ (runLast c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs).2.2.1, y ∈ pc.1.set :=
  View.cover_of_tiledL (runLast c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs).2.2.1 S1024x128.size (by sl_kernel_rfl) y
def zLast (hc0 : ¬isFirst i) (hc1 : isLast i) (x0 : Vec F S1024x1024 .bf16) (x1 x2 x3 x4 : Vec F S1024x128 .f32) (x5 : Vec F S128x128 .f32) (x6 : Vec F S1x128 .f32) (x7 : Vec F S128x128 .f32) (x8 : Vec F S1x128 .f32) (xs : Vec F S1024x128 .f32) : Vec F S1024x128 .f32 :=
  viewZ.read (Elt F) (viewZ.writes (Elt F) viewZ.junk (runLast c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs).1)
def sLast (hc0 : ¬isFirst i) (hc1 : isLast i) (x0 : Vec F S1024x1024 .bf16) (x1 x2 x3 x4 : Vec F S1024x128 .f32) (x5 : Vec F S128x128 .f32) (x6 : Vec F S1x128 .f32) (x7 : Vec F S128x128 .f32) (x8 : Vec F S1x128 .f32) (xs : Vec F S1024x128 .f32) : Vec F S1024x128 .f32 :=
  viewS.read (Elt F) (viewS.writes (Elt F) viewS.junk (runLast c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs).2.1)
def accLast (hc0 : ¬isFirst i) (hc1 : isLast i) (x0 : Vec F S1024x1024 .bf16) (x1 x2 x3 x4 : Vec F S1024x128 .f32) (x5 : Vec F S128x128 .f32) (x6 : Vec F S1x128 .f32) (x7 : Vec F S128x128 .f32) (x8 : Vec F S1x128 .f32) (xs : Vec F S1024x128 .f32) : Vec F S1024x128 .f32 :=
  viewAcc.read (Elt F) (viewAcc.writes (Elt F) viewAcc.junk (runLast c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs).2.2.1)

end Cases

/-- Placeholders for the outputs' buffers at the points where the body stores nothing into them: nothing consults them. -/
def zIdle : Vec F S1024x128 .f32 := viewZ.read (Elt F) (viewZ.writes (Elt F) viewZ.junk [])
def sIdle : Vec F S1024x128 .f32 := viewS.read (Elt F) (viewS.writes (Elt F) viewS.junk [])

/-- What the two outputs' buffers and the scratch accumulator hold after the body at position `n`. -/
def outsAt (c : Dev nD) : (n : ℕ) → n < cfg1.N → Vec F S1024x128 .f32 × Vec F S1024x128 .f32 × Vec F S1024x128 .f32
  | 0, hn => (zIdle, sIdle,
      accFirst c (grid1.coords ⟨0, hn⟩) (mAdj ⟨0, hn⟩) (hAdj ⟨0, hn⟩) (mXk ⟨0, hn⟩) (hXk ⟨0, hn⟩) (mDk ⟨0, hn⟩) (hDk ⟨0, hn⟩) (mXi ⟨0, hn⟩) (hXi ⟨0, hn⟩) (mDi ⟨0, hn⟩) (hDi ⟨0, hn⟩) (mWe ⟨0, hn⟩) (hWe ⟨0, hn⟩) (mBe ⟨0, hn⟩) (hBe ⟨0, hn⟩) (mWa ⟨0, hn⟩) (hWa ⟨0, hn⟩) (mBa ⟨0, hn⟩) (hBa ⟨0, hn⟩) (mZ ⟨0, hn⟩) (hZ ⟨0, hn⟩) (mS ⟨0, hn⟩) (hS ⟨0, hn⟩) mAcc (Memref.isWhole_whole _) ((isFirst_iff ⟨0, hn⟩).mpr (Nat.zero_mod _)) (fun h => (fun h => by (try dsimp only at h); omega) ((isLast_iff ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩))
  | n + 1, hn =>
    if h0 : (n + 1) % 8 = 0 then
      if h1 : (n + 1) % 8 = 7 then False.elim (by omega)
      else (zIdle, sIdle,
        accFirst c (grid1.coords ⟨n + 1, hn⟩) (mAdj ⟨n + 1, hn⟩) (hAdj ⟨n + 1, hn⟩) (mXk ⟨n + 1, hn⟩) (hXk ⟨n + 1, hn⟩) (mDk ⟨n + 1, hn⟩) (hDk ⟨n + 1, hn⟩) (mXi ⟨n + 1, hn⟩) (hXi ⟨n + 1, hn⟩) (mDi ⟨n + 1, hn⟩) (hDi ⟨n + 1, hn⟩) (mWe ⟨n + 1, hn⟩) (hWe ⟨n + 1, hn⟩) (mBe ⟨n + 1, hn⟩) (hBe ⟨n + 1, hn⟩) (mWa ⟨n + 1, hn⟩) (hWa ⟨n + 1, hn⟩) (mBa ⟨n + 1, hn⟩) (hBa ⟨n + 1, hn⟩) (mZ ⟨n + 1, hn⟩) (hZ ⟨n + 1, hn⟩) (mS ⟨n + 1, hn⟩) (hS ⟨n + 1, hn⟩) mAcc (Memref.isWhole_whole _) ((isFirst_iff ⟨n + 1, hn⟩).mpr h0) (fun h => h1 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩))
    else
      if h1 : (n + 1) % 8 = 7 then
        (zLast c (grid1.coords ⟨n + 1, hn⟩) (mAdj ⟨n + 1, hn⟩) (hAdj ⟨n + 1, hn⟩) (mXk ⟨n + 1, hn⟩) (hXk ⟨n + 1, hn⟩) (mDk ⟨n + 1, hn⟩) (hDk ⟨n + 1, hn⟩) (mXi ⟨n + 1, hn⟩) (hXi ⟨n + 1, hn⟩) (mDi ⟨n + 1, hn⟩) (hDi ⟨n + 1, hn⟩) (mWe ⟨n + 1, hn⟩) (hWe ⟨n + 1, hn⟩) (mBe ⟨n + 1, hn⟩) (hBe ⟨n + 1, hn⟩) (mWa ⟨n + 1, hn⟩) (hWa ⟨n + 1, hn⟩) (mBa ⟨n + 1, hn⟩) (hBa ⟨n + 1, hn⟩) (mZ ⟨n + 1, hn⟩) (hZ ⟨n + 1, hn⟩) (mS ⟨n + 1, hn⟩) (hS ⟨n + 1, hn⟩) mAcc (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (outsAt c n (Nat.lt_of_succ_lt hn)).2.2,
         sLast c (grid1.coords ⟨n + 1, hn⟩) (mAdj ⟨n + 1, hn⟩) (hAdj ⟨n + 1, hn⟩) (mXk ⟨n + 1, hn⟩) (hXk ⟨n + 1, hn⟩) (mDk ⟨n + 1, hn⟩) (hDk ⟨n + 1, hn⟩) (mXi ⟨n + 1, hn⟩) (hXi ⟨n + 1, hn⟩) (mDi ⟨n + 1, hn⟩) (hDi ⟨n + 1, hn⟩) (mWe ⟨n + 1, hn⟩) (hWe ⟨n + 1, hn⟩) (mBe ⟨n + 1, hn⟩) (hBe ⟨n + 1, hn⟩) (mWa ⟨n + 1, hn⟩) (hWa ⟨n + 1, hn⟩) (mBa ⟨n + 1, hn⟩) (hBa ⟨n + 1, hn⟩) (mZ ⟨n + 1, hn⟩) (hZ ⟨n + 1, hn⟩) (mS ⟨n + 1, hn⟩) (hS ⟨n + 1, hn⟩) mAcc (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (outsAt c n (Nat.lt_of_succ_lt hn)).2.2,
         accLast c (grid1.coords ⟨n + 1, hn⟩) (mAdj ⟨n + 1, hn⟩) (hAdj ⟨n + 1, hn⟩) (mXk ⟨n + 1, hn⟩) (hXk ⟨n + 1, hn⟩) (mDk ⟨n + 1, hn⟩) (hDk ⟨n + 1, hn⟩) (mXi ⟨n + 1, hn⟩) (hXi ⟨n + 1, hn⟩) (mDi ⟨n + 1, hn⟩) (hDi ⟨n + 1, hn⟩) (mWe ⟨n + 1, hn⟩) (hWe ⟨n + 1, hn⟩) (mBe ⟨n + 1, hn⟩) (hBe ⟨n + 1, hn⟩) (mWa ⟨n + 1, hn⟩) (hWa ⟨n + 1, hn⟩) (mBa ⟨n + 1, hn⟩) (hBa ⟨n + 1, hn⟩) (mZ ⟨n + 1, hn⟩) (hZ ⟨n + 1, hn⟩) (mS ⟨n + 1, hn⟩) (hS ⟨n + 1, hn⟩) mAcc (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (outsAt c n (Nat.lt_of_succ_lt hn)).2.2)
      else
        (zIdle, sIdle,
         accMid c (grid1.coords ⟨n + 1, hn⟩) (mAdj ⟨n + 1, hn⟩) (hAdj ⟨n + 1, hn⟩) (mXk ⟨n + 1, hn⟩) (hXk ⟨n + 1, hn⟩) (mDk ⟨n + 1, hn⟩) (hDk ⟨n + 1, hn⟩) (mXi ⟨n + 1, hn⟩) (hXi ⟨n + 1, hn⟩) (mDi ⟨n + 1, hn⟩) (hDi ⟨n + 1, hn⟩) (mWe ⟨n + 1, hn⟩) (hWe ⟨n + 1, hn⟩) (mBe ⟨n + 1, hn⟩) (hBe ⟨n + 1, hn⟩) (mWa ⟨n + 1, hn⟩) (hWa ⟨n + 1, hn⟩) (mBa ⟨n + 1, hn⟩) (hBa ⟨n + 1, hn⟩) (mZ ⟨n + 1, hn⟩) (hZ ⟨n + 1, hn⟩) (mS ⟨n + 1, hn⟩) (hS ⟨n + 1, hn⟩) mAcc (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (outsAt c n (Nat.lt_of_succ_lt hn)).2.2)

theorem outsAt_first (c : Dev nD) (t : Fin cfg1.N) (h0 : t.val % 8 = 0) (h1 : ¬t.val % 8 = 7) :
    outsAt V c t.val t.isLt = (zIdle, sIdle,
      accFirst c (grid1.coords t) (mAdj t) (hAdj t) (mXk t) (hXk t) (mDk t) (hDk t) (mXi t) (hXi t) (mDi t) (hDi t) (mWe t) (hWe t) (mBe t) (hBe t) (mWa t) (hWa t) (mBa t) (hBa t) (mZ t) (hZ t) (mS t) (hS t) mAcc (Memref.isWhole_whole _) ((isFirst_iff t).mpr h0) (fun h => h1 ((isLast_iff t).mp h)) (iblk V c 0 t) (iblk V c 1 t) (iblk V c 2 t) (iblk V c 3 t) (iblk V c 4 t) (iblk V c 5 t) (iblk V c 6 t) (iblk V c 7 t) (iblk V c 8 t)) := by
  obtain ⟨n, hn⟩ := t
  cases n with
  | zero => exact rfl
  | succ n => exact (dif_pos h0).trans ((dif_neg h1).trans rfl)

theorem outsAt_mid (c : Dev nD) (t : Fin cfg1.N) (h0 : ¬t.val % 8 = 0) (h1 : ¬t.val % 8 = 7) :
    outsAt V c t.val t.isLt = (zIdle, sIdle,
      accMid c (grid1.coords t) (mAdj t) (hAdj t) (mXk t) (hXk t) (mDk t) (hDk t) (mXi t) (hXi t) (mDi t) (hDi t) (mWe t) (hWe t) (mBe t) (hBe t) (mWa t) (hWa t) (mBa t) (hBa t) (mZ t) (hZ t) (mS t) (hS t) mAcc (Memref.isWhole_whole _) (fun h => h0 ((isFirst_iff t).mp h)) (fun h => h1 ((isLast_iff t).mp h)) (iblk V c 0 t) (iblk V c 1 t) (iblk V c 2 t) (iblk V c 3 t) (iblk V c 4 t) (iblk V c 5 t) (iblk V c 6 t) (iblk V c 7 t) (iblk V c 8 t) (outsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg1.N) (h0 : ¬t.val % 8 = 0) (h1 : t.val % 8 = 7) :
    outsAt V c t.val t.isLt = (
      zLast c (grid1.coords t) (mAdj t) (hAdj t) (mXk t) (hXk t) (mDk t) (hDk t) (mXi t) (hXi t) (mDi t) (hDi t) (mWe t) (hWe t) (mBe t) (hBe t) (mWa t) (hWa t) (mBa t) (hBa t) (mZ t) (hZ t) (mS t) (hS t) mAcc (Memref.isWhole_whole _) (fun h => h0 ((isFirst_iff t).mp h)) ((isLast_iff t).mpr h1) (iblk V c 0 t) (iblk V c 1 t) (iblk V c 2 t) (iblk V c 3 t) (iblk V c 4 t) (iblk V c 5 t) (iblk V c 6 t) (iblk V c 7 t) (iblk V c 8 t) (outsAt V c (t.val - 1) (Nat.lt_of_le_of_lt (Nat.sub_le _ _) t.isLt)).2.2,
      sLast c (grid1.coords t) (mAdj t) (hAdj t) (mXk t) (hXk t) (mDk t) (hDk t) (mXi t) (hXi t) (mDi t) (hDi t) (mWe t) (hWe t) (mBe t) (hBe t) (mWa t) (hWa t) (mBa t) (hBa t) (mZ t) (hZ t) (mS t) (hS t) mAcc (Memref.isWhole_whole _) (fun h => h0 ((isFirst_iff t).mp h)) ((isLast_iff t).mpr h1) (iblk V c 0 t) (iblk V c 1 t) (iblk V c 2 t) (iblk V c 3 t) (iblk V c 4 t) (iblk V c 5 t) (iblk V c 6 t) (iblk V c 7 t) (iblk V c 8 t) (outsAt V c (t.val - 1) (Nat.lt_of_le_of_lt (Nat.sub_le _ _) t.isLt)).2.2,
      accLast c (grid1.coords t) (mAdj t) (hAdj t) (mXk t) (hXk t) (mDk t) (hDk t) (mXi t) (hXi t) (mDi t) (hDi t) (mWe t) (hWe t) (mBe t) (hBe t) (mWa t) (hWa t) (mBa t) (hBa t) (mZ t) (hZ t) (mS t) (hS t) mAcc (Memref.isWhole_whole _) (fun h => h0 ((isFirst_iff t).mp h)) ((isLast_iff t).mpr h1) (iblk V c 0 t) (iblk V c 1 t) (iblk V c 2 t) (iblk V c 3 t) (iblk V c 4 t) (iblk V c 5 t) (iblk V c 6 t) (iblk V c 7 t) (iblk V c 8 t) (outsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

def PhiS (c : Dev nD) : (n : ℕ) → n ≤ cfg1.N → sProp 𝕄
  | 0, _ => Pipeline.ΦA spec1 c
  | n + 1, hn => iprop(iprop(owns (c : Thread nD τ) mAcc fullShare ((outsAt V c n hn).2.2) ∗ Pipeline.scopedRestBut (Ix := Unit) (Name := ℕ) (U := UR sig nD τ) (Lvl := ℕ) (Val := Elt F) spec1 c [cc1_scratch0]) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(owns (c : Thread nD τ) mAcc fullShare ((outsAt V c n hn).2.2) ∗ Pipeline.scopedRestBut (Ix := Unit) (Name := ℕ) (U := UR sig nD τ) (Lvl := ℕ) (Val := Elt F) spec1 c [cc1_scratch0]) ∗ (∃ r, prngReg c r)) := rfl
theorem PhiS_pos (c : Dev nD) (n : ℕ) (h : n ≤ cfg1.N) (hz : n ≠ 0) :
    PhiS V c n h = iprop(iprop(owns (c : Thread nD τ) mAcc fullShare ((outsAt V c (n - 1) (by omega)).2.2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The node features and the degree scaling are each staged through two windows (the rows of block k and the rows
    of block i), so each of those two windows holds its array at half the share. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => (outsAt V c t.val t.isLt).1
    | ⟨10, _⟩ => (outsAt V c t.val t.isLt).2.1
  Φ t := PhiS V c t.val (Nat.le_of_lt_succ t.isLt)
  q w := match w with
    | ⟨1, _⟩ => fullShare.left
    | ⟨3, _⟩ => fullShare.right
    | ⟨2, _⟩ => fullShare.left
    | ⟨4, _⟩ => fullShare.right
    | _ => fullShare
  owed _ := 0

theorem A_eq (c : Dev nD) (w : Fin cfg1.W) : (dat V c).A w = V c (Pipeline.arrRef spec1 w) := by
  dsimp only [dat]
theorem Phi_castSucc (c : Dev nD) (t : Fin cfg1.N) :
    (dat V c).Φ t.castSucc = PhiS V c t.val (Nat.le_of_lt t.isLt) := by
  dsimp only [dat]; simp only [Fin.coe_castSucc]
theorem after_Adj (c : Dev nD) (t : Fin cfg1.N) : (dat V c).after 0 t = iblk V c 0 t := by dsimp only [dat]
theorem before_Adj (c : Dev nD) (t : Fin cfg1.N) (d) : (dat V c).before 0 t d = iblk V c 0 t :=
  before_Adj_of V (dat V c) (A_eq V c 0) (after_Adj V c) t d
theorem after_Xk (c : Dev nD) (t : Fin cfg1.N) : (dat V c).after 1 t = iblk V c 1 t := by dsimp only [dat]
theorem before_Xk (c : Dev nD) (t : Fin cfg1.N) (d) : (dat V c).before 1 t d = iblk V c 1 t :=
  before_Xk_of V (dat V c) (A_eq V c 1) (after_Xk V c) t d
theorem after_Dk (c : Dev nD) (t : Fin cfg1.N) : (dat V c).after 2 t = iblk V c 2 t := by dsimp only [dat]
theorem before_Dk (c : Dev nD) (t : Fin cfg1.N) (d) : (dat V c).before 2 t d = iblk V c 2 t :=
  before_Dk_of V (dat V c) (A_eq V c 2) (after_Dk V c) t d
theorem after_Xi (c : Dev nD) (t : Fin cfg1.N) : (dat V c).after 3 t = iblk V c 3 t := by dsimp only [dat]
theorem before_Xi (c : Dev nD) (t : Fin cfg1.N) (d) : (dat V c).before 3 t d = iblk V c 3 t :=
  before_Xi_of V (dat V c) (A_eq V c 3) (after_Xi V c) t d
theorem after_Di (c : Dev nD) (t : Fin cfg1.N) : (dat V c).after 4 t = iblk V c 4 t := by dsimp only [dat]
theorem before_Di (c : Dev nD) (t : Fin cfg1.N) (d) : (dat V c).before 4 t d = iblk V c 4 t :=
  before_Di_of V (dat V c) (A_eq V c 4) (after_Di V c) t d
theorem after_We (c : Dev nD) (t : Fin cfg1.N) : (dat V c).after 5 t = iblk V c 5 t := by dsimp only [dat]
theorem before_We (c : Dev nD) (t : Fin cfg1.N) (d) : (dat V c).before 5 t d = iblk V c 5 t :=
  before_We_of V (dat V c) (A_eq V c 5) (after_We V c) t d
theorem after_Be (c : Dev nD) (t : Fin cfg1.N) : (dat V c).after 6 t = iblk V c 6 t := by dsimp only [dat]
theorem before_Be (c : Dev nD) (t : Fin cfg1.N) (d) : (dat V c).before 6 t d = iblk V c 6 t :=
  before_Be_of V (dat V c) (A_eq V c 6) (after_Be V c) t d
theorem after_Wa (c : Dev nD) (t : Fin cfg1.N) : (dat V c).after 7 t = iblk V c 7 t := by dsimp only [dat]
theorem before_Wa (c : Dev nD) (t : Fin cfg1.N) (d) : (dat V c).before 7 t d = iblk V c 7 t :=
  before_Wa_of V (dat V c) (A_eq V c 7) (after_Wa V c) t d
theorem after_Ba (c : Dev nD) (t : Fin cfg1.N) : (dat V c).after 8 t = iblk V c 8 t := by dsimp only [dat]
theorem before_Ba (c : Dev nD) (t : Fin cfg1.N) (d) : (dat V c).before 8 t d = iblk V c 8 t :=
  before_Ba_of V (dat V c) (A_eq V c 8) (after_Ba V c) t d
theorem after_z (c : Dev nD) (t : Fin cfg1.N) : (dat V c).after 9 t = (outsAt V c t.val t.isLt).1 := by dsimp only [dat]
theorem after_s (c : Dev nD) (t : Fin cfg1.N) : (dat V c).after 10 t = (outsAt V c t.val t.isLt).2.1 := by dsimp only [dat]

end Cert.Kernel.Embed

end
-- ==== Proof.K.EmbedBody.lean ====
/-
  Region 1 (the normalized propagation, the embedding and the soft assignment): the body obligation. At a point
  the nine inputs' buffers hold their blocks; the closed forms say which control case the point is in; the
  invariant hands the body the accumulator at what the point before left (at anything at the very first point)
  and takes it back at this point's running sum.
-/
import proofs.«110719_j498216206442_2_alg».proof.Proof.K.Embed

set_option maxRecDepth 16384

noncomputable section

namespace Cert.Kernel.Embed

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre (c : Dev nD) (t : Fin cfg1.N) : sProp 𝕄 :=
  iprop((dat V c).Φ t.castSucc ∗ (dat V c).owesAt () t.castSucc
    ∗ (∃ d, owns (c : Thread nD τ) (mAdj t) fullShare ((dat V c).before 0 t d))
    ∗ (∃ d, owns (c : Thread nD τ) (mXk t) fullShare ((dat V c).before 1 t d))
    ∗ (∃ d, owns (c : Thread nD τ) (mDk t) fullShare ((dat V c).before 2 t d))
    ∗ (∃ d, owns (c : Thread nD τ) (mXi t) fullShare ((dat V c).before 3 t d))
    ∗ (∃ d, owns (c : Thread nD τ) (mDi t) fullShare ((dat V c).before 4 t d))
    ∗ (∃ d, owns (c : Thread nD τ) (mWe t) fullShare ((dat V c).before 5 t d))
    ∗ (∃ d, owns (c : Thread nD τ) (mBe t) fullShare ((dat V c).before 6 t d))
    ∗ (∃ d, owns (c : Thread nD τ) (mWa t) fullShare ((dat V c).before 7 t d))
    ∗ (∃ d, owns (c : Thread nD τ) (mBa t) fullShare ((dat V c).before 8 t d))
    ∗ (∃ d, owns (c : Thread nD τ) (mZ t) fullShare ((dat V c).before 9 t d))
    ∗ (∃ d, owns (c : Thread nD τ) (mS t) fullShare ((dat V c).before 10 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t)

set_option maxHeartbeats 16000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_Adj, before_Xk, before_Dk, before_Xi, before_Di, before_We, before_Be, before_Wa, before_Ba]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg1.N = 64 from N_1)
  rw [show (dat V c).leavesExact 0 t = owns (c : Thread nD τ) (mAdj t) fullShare ((dat V c).after 0 t) from by
    unfold Dat.leavesExact; rw [show cfg1.idle 0 (grid1.coords t) = false from live_in 0 t], after_Adj]
  rw [show (dat V c).leavesExact 1 t = owns (c : Thread nD τ) (mXk t) fullShare ((dat V c).after 1 t) from by
    unfold Dat.leavesExact; rw [show cfg1.idle 1 (grid1.coords t) = false from live_in 1 t], after_Xk]
  rw [show (dat V c).leavesExact 2 t = owns (c : Thread nD τ) (mDk t) fullShare ((dat V c).after 2 t) from by
    unfold Dat.leavesExact; rw [show cfg1.idle 2 (grid1.coords t) = false from live_in 2 t], after_Dk]
  rw [show (dat V c).leavesExact 3 t = owns (c : Thread nD τ) (mXi t) fullShare ((dat V c).after 3 t) from by
    unfold Dat.leavesExact; rw [show cfg1.idle 3 (grid1.coords t) = false from live_in 3 t], after_Xi]
  rw [show (dat V c).leavesExact 4 t = owns (c : Thread nD τ) (mDi t) fullShare ((dat V c).after 4 t) from by
    unfold Dat.leavesExact; rw [show cfg1.idle 4 (grid1.coords t) = false from live_in 4 t], after_Di]
  rw [show (dat V c).leavesExact 5 t = owns (c : Thread nD τ) (mWe t) fullShare ((dat V c).after 5 t) from by
    unfold Dat.leavesExact; rw [show cfg1.idle 5 (grid1.coords t) = false from live_in 5 t], after_We]
  rw [show (dat V c).leavesExact 6 t = owns (c : Thread nD τ) (mBe t) fullShare ((dat V c).after 6 t) from by
    unfold Dat.leavesExact; rw [show cfg1.idle 6 (grid1.coords t) = false from live_in 6 t], after_Be]
  rw [show (dat V c).leavesExact 7 t = owns (c : Thread nD τ) (mWa t) fullShare ((dat V c).after 7 t) from by
    unfold Dat.leavesExact; rw [show cfg1.idle 7 (grid1.coords t) = false from live_in 7 t], after_Wa]
  rw [show (dat V c).leavesExact 8 t = owns (c : Thread nD τ) (mBa t) fullShare ((dat V c).after 8 t) from by
    unfold Dat.leavesExact; rw [show cfg1.idle 8 (grid1.coords t) = false from live_in 8 t], after_Ba]
  by_cases h0 : t.val % 8 = 0
  · have h1 : ¬t.val % 8 = 7 := by omega
    rw [Dat.leavesExact_idle (dat V c) 9 t (idle_z t (fun h => h1 ((isLast_iff t).mp h))) (noFlush_z t (fun h => h1 ((isLast_iff t).mp h)))]
    rw [Dat.leavesExact_idle (dat V c) 10 t (idle_s t (fun h => h1 ((isLast_iff t).mp h))) (noFlush_s t (fun h => h1 ((isLast_iff t).mp h)))]
    rw [outsAt_first V c t h0 h1]
    unfold accFirst; (try dsimp only)
    by_cases hz : t.val = 0
    · rw [Phi_castSucc V c t, PhiS_zero V c _ _ hz, PhiA_eq]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runFirst c (grid1.coords t) _ _ _ _ _ _ _ _ _ _ _ _ _ _ _ _ _ _ _ _ _ _ _ _ ((isFirst_iff t).mpr h0) (fun h => h1 ((isLast_iff t).mp h)) (iblk V c 0 t) (iblk V c 1 t) (iblk V c 2 t) (iblk V c 3 t) (iblk V c 4 t) (iblk V c 5 t) (iblk V c 6 t) (iblk V c 7 t) (iblk V c 8 t)).2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS]; · iexact HS
      iintro ⟨H0, H1, H2, H3, H4, H5, H6, H7, H8, H9, H10, ⟨%es, HS⟩⟩
      isplitl [HS Hrest Hg]
      · isplitl [HS Hrest]
        · isplitl [HS]
          · unfold owns; iexists _; isplitr
            swap; · iexact HS
            ipureintro; exact View.read_writes_of_cover _ _ _ _ _ (coverAcc_first c _ _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iexists _; iexact H10
    · rw [Phi_castSucc V c t, PhiS_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runFirst c (grid1.coords t) _ _ _ _ _ _ _ _ _ _ _ _ _ _ _ _ _ _ _ _ _ _ _ _ ((isFirst_iff t).mpr h0) (fun h => h1 ((isLast_iff t).mp h)) (iblk V c 0 t) (iblk V c 1 t) (iblk V c 2 t) (iblk V c 3 t) (iblk V c 4 t) (iblk V c 5 t) (iblk V c 6 t) (iblk V c 7 t) (iblk V c 8 t)).2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS]; · iexists _; iexact HS
      iintro ⟨H0, H1, H2, H3, H4, H5, H6, H7, H8, H9, H10, ⟨%es, HS⟩⟩
      isplitl [HS Hrest Hg]
      · isplitl [HS Hrest]
        · isplitl [HS]
          · unfold owns; iexists _; isplitr
            swap; · iexact HS
            ipureintro; exact View.read_writes_of_cover _ _ _ _ _ (coverAcc_first c _ _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iexists _; iexact H10
  · have hz : t.val ≠ 0 := by omega
    by_cases h1 : t.val % 8 = 7
    · rw [show (dat V c).leavesExact 9 t = owns (c : Thread nD τ) (mZ t) fullShare ((dat V c).after 9 t) from by
        unfold Dat.leavesExact; rw [live_z t ((isLast_iff t).mpr h1)], after_z]
      rw [show (dat V c).leavesExact 10 t = owns (c : Thread nD τ) (mS t) fullShare ((dat V c).after 10 t) from by
        unfold Dat.leavesExact; rw [live_s t ((isLast_iff t).mpr h1)], after_s]
      rw [outsAt_last V c t h0 h1]
      unfold zLast sLast accLast; (try dsimp only)
      rw [Phi_castSucc V c t, PhiS_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runLast c (grid1.coords t) _ _ _ _ _ _ _ _ _ _ _ _ _ _ _ _ _ _ _ _ _ _ _ _ (fun h => h0 ((isFirst_iff t).mp h)) ((isLast_iff t).mpr h1) (iblk V c 0 t) (iblk V c 1 t) (iblk V c 2 t) (iblk V c 3 t) (iblk V c 4 t) (iblk V c 5 t) (iblk V c 6 t) (iblk V c 7 t) (iblk V c 8 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [HS]; · iexact HS
      iintro ⟨H0, H1, H2, H3, H4, H5, H6, H7, H8, ⟨%e9, H9⟩, ⟨%e10, H10⟩, ⟨%es, HS⟩⟩
      isplitl [HS Hrest Hg]
      · isplitl [HS Hrest]
        · isplitl [HS]
          · unfold owns; iexists _; isplitr
            swap; · iexact HS
            ipureintro; exact View.read_writes_of_cover _ _ _ _ _ (coverAcc_last c _ _ _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (coverZ_last c _ _ _ _ _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (coverS_last c _ _ _ _ _ _ _ _ _ _ _ _ _ _ _ _ _ _ _ _ _ _ _ _ _ _ _ _ _ _ _ _ _ _ _ _ _)
    · rw [Dat.leavesExact_idle (dat V c) 9 t (idle_z t (fun h => h1 ((isLast_iff t).mp h))) (noFlush_z t (fun h => h1 ((isLast_iff t).mp h)))]
      rw [Dat.leavesExact_idle (dat V c) 10 t (idle_s t (fun h => h1 ((isLast_iff t).mp h))) (noFlush_s t (fun h => h1 ((isLast_iff t).mp h)))]
      rw [outsAt_mid V c t h0 h1]
      unfold accMid; (try dsimp only)
      rw [Phi_castSucc V c t, PhiS_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runMid c (grid1.coords t) _ _ _ _ _ _ _ _ _ _ _ _ _ _ _ _ _ _ _ _ _ _ _ _ (fun h => h0 ((isFirst_iff t).mp h)) (fun h => h1 ((isLast_iff t).mp h)) (iblk V c 0 t) (iblk V c 1 t) (iblk V c 2 t) (iblk V c 3 t) (iblk V c 4 t) (iblk V c 5 t) (iblk V c 6 t) (iblk V c 7 t) (iblk V c 8 t) _).2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS]; · iexact HS
      iintro ⟨H0, H1, H2, H3, H4, H5, H6, H7, H8, H9, H10, ⟨%es, HS⟩⟩
      isplitl [HS Hrest Hg]
      · isplitl [HS Hrest]
        · isplitl [HS]
          · unfold owns; iexists _; isplitr
            swap; · iexact HS
            ipureintro; exact View.read_writes_of_cover _ _ _ _ _ (coverAcc_mid c _ _ _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iexists _; iexact H10

/-- The body obligation of the region's pipeline, at every point. -/
theorem body_obligation (c : Dev nD) : BodyObligation (dat (F := F) V c) (defs₀ (F := F)) Variants.none () Set.univ := fun t => by
  rw [bigSep_W1, bigSep_W1]
  exact sound_body V c t

/-- What the region is entered with is the invariant before the first point. -/
theorem Phi_in (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the accumulator's contents are forgotten. -/
theorem Phi_out (c : Dev nD) : (dat V c).Φ (Fin.last cfg1.N) ⊢ Pipeline.ΦA spec1 c := by
  have ht : (Fin.last cfg1.N).val ≠ 0 := by rw [Fin.val_last]; have : cfg1.N = 64 := N_1; omega
  rw [show (dat V c).Φ (Fin.last cfg1.N) = PhiS V c (Fin.last cfg1.N).val (Nat.le_of_lt_succ (Fin.last cfg1.N).isLt) from rfl, PhiS_pos V c _ _ ht, PhiA_eq]
  iintro ⟨⟨HS, Hrest⟩, Hg⟩
  isplitl [HS Hrest]
  · isplitl [HS]
    · iexists _; iexact HS
    iexact Hrest
  iexact Hg

end Cert.Kernel.Embed

end
-- ==== Proof.K.EmbedArrays.lean ====
/-
  Region 1: its windows' arrays against the buffers behind them. The node features and the degree scaling are each
  behind two windows (1 and 3, 2 and 4), held at the two halves of the share; the other arrays are behind one
  window each. At the region's entry the buffers, whole, split into the windows' arrays; at its exit the arrays —
  the inputs unchanged, the two outputs at what the write-backs leave — join back into the buffers.
-/
import proofs.«110719_j498216206442_2_alg».proof.Proof.K.Embed

set_option maxRecDepth 16384

noncomputable section

namespace Cert.Kernel.Embed

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the region's arrays, one by one (each named by the first window on it). -/
theorem arrBufs_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc (Pipeline.arrRef spec1 0)) ↦{fullShare} V' (Pipeline.arrRef spec1 0)) ∗ (((c : Thread nD τ).loc (Pipeline.arrRef spec1 1)) ↦{fullShare} V' (Pipeline.arrRef spec1 1)) ∗ (((c : Thread nD τ).loc (Pipeline.arrRef spec1 2)) ↦{fullShare} V' (Pipeline.arrRef spec1 2))
          ∗ (((c : Thread nD τ).loc (Pipeline.arrRef spec1 5)) ↦{fullShare} V' (Pipeline.arrRef spec1 5)) ∗ (((c : Thread nD τ).loc (Pipeline.arrRef spec1 6)) ↦{fullShare} V' (Pipeline.arrRef spec1 6)) ∗ (((c : Thread nD τ).loc (Pipeline.arrRef spec1 7)) ↦{fullShare} V' (Pipeline.arrRef spec1 7)) ∗ (((c : Thread nD τ).loc (Pipeline.arrRef spec1 8)) ↦{fullShare} V' (Pipeline.arrRef spec1 8))
          ∗ (((c : Thread nD τ).loc (Pipeline.arrRef spec1 9)) ↦{fullShare} V' (Pipeline.arrRef spec1 9)) ∗ (((c : Thread nD τ).loc (Pipeline.arrRef spec1 10)) ↦{fullShare} V' (Pipeline.arrRef spec1 10))) := by
  unfold Pipeline.arrBufs
  exact Idealize.SL.BI.bigSep_eq_bigSepL_of_eq [(Pipeline.arrRef spec1 0), (Pipeline.arrRef spec1 1), (Pipeline.arrRef spec1 2), (Pipeline.arrRef spec1 5), (Pipeline.arrRef spec1 6), (Pipeline.arrRef spec1 7), (Pipeline.arrRef spec1 8), (Pipeline.arrRef spec1 9), (Pipeline.arrRef spec1 10)] (by decide) (by decide) _

theorem share_adj (c : Dev nD) : (dat V c).share 0 = fullShare := rfl
theorem share_xk (c : Dev nD) : (dat V c).share 1 = fullShare.left := rfl
theorem share_dk (c : Dev nD) : (dat V c).share 2 = fullShare.left := rfl
theorem share_xi (c : Dev nD) : (dat V c).share 3 = fullShare.right := rfl
theorem share_di (c : Dev nD) : (dat V c).share 4 = fullShare.right := rfl
theorem share_we (c : Dev nD) : (dat V c).share 5 = fullShare := rfl
theorem share_be (c : Dev nD) : (dat V c).share 6 = fullShare := rfl
theorem share_wa (c : Dev nD) : (dat V c).share 7 = fullShare := rfl
theorem share_ba (c : Dev nD) : (dat V c).share 8 = fullShare := rfl
theorem share_z (c : Dev nD) : (dat V c).share 9 = fullShare := rfl
theorem share_s (c : Dev nD) : (dat V c).share 10 = fullShare := rfl

set_option maxHeartbeats 8000000 in
/-- The windows' arrays, one by one, each at its window's share. -/
theorem arrays_eq (c : Dev nD) (G : (w : Fin cfg1.W) → Buf (Elt F) ((cfg1.win w).arr.view.loc (c : Thread nD τ))) :
    ((dat V c).arrays G : sProp 𝕄)
      = iprop((((c : Thread nD τ).loc (Pipeline.arrRef spec1 0)) ↦{fullShare} G 0) ∗ (((c : Thread nD τ).loc (Pipeline.arrRef spec1 1)) ↦{fullShare.left} G 1) ∗ (((c : Thread nD τ).loc (Pipeline.arrRef spec1 2)) ↦{fullShare.left} G 2)
          ∗ (((c : Thread nD τ).loc (Pipeline.arrRef spec1 3)) ↦{fullShare.right} G 3) ∗ (((c : Thread nD τ).loc (Pipeline.arrRef spec1 4)) ↦{fullShare.right} G 4)
          ∗ (((c : Thread nD τ).loc (Pipeline.arrRef spec1 5)) ↦{fullShare} G 5) ∗ (((c : Thread nD τ).loc (Pipeline.arrRef spec1 6)) ↦{fullShare} G 6) ∗ (((c : Thread nD τ).loc (Pipeline.arrRef spec1 7)) ↦{fullShare} G 7) ∗ (((c : Thread nD τ).loc (Pipeline.arrRef spec1 8)) ↦{fullShare} G 8)
          ∗ (((c : Thread nD τ).loc (Pipeline.arrRef spec1 9)) ↦{fullShare} G 9) ∗ (((c : Thread nD τ).loc (Pipeline.arrRef spec1 10)) ↦{fullShare} G 10)) := by
  have h : ((dat V c).arrays G : sProp 𝕄) = bigSep Finset.univ fun w : Fin cfg1.W => (((c : Thread nD τ).loc (Pipeline.arrRef spec1 w)) ↦{(dat V c).share w} G w : sProp 𝕄) := by
    unfold Dat.arrays
    exact bigSep_congr fun w _ => by rw [(arr_whole1 w).set_eq_univ]
  rw [h, bigSep_W1, share_adj, share_xk, share_dk, share_xi, share_di, share_we, share_be, share_wa, share_ba, share_z, share_s]

/-- The two windows on the node features are on one buffer, and so are the two on the degree scaling. -/
theorem arr_xi : Pipeline.arrRef spec1 3 = Pipeline.arrRef spec1 1 := rfl
theorem arr_di : Pipeline.arrRef spec1 4 = Pipeline.arrRef spec1 2 := rfl

set_option maxHeartbeats 8000000 in
/-- Entry: the buffers behind the arrays, whole at the region's entry contents, are the windows' arrays at the proof
    data's entry contents — the two buffers staged twice split into the two halves of their share. -/
theorem arrays_of_arrBufs (c : Dev nD) :
    (Pipeline.arrBufs (Ix := Unit) (Name := ℕ) (U := UR sig nD τ) (Lvl := ℕ) spec1 c (V c) : sProp 𝕄) ⊢ (dat V c).arrays ((dat V c).arrAt · 0) := by
  rw [arrBufs_eq, arrays_eq]
  have hA : ∀ w, (dat V c).arrAt w 0 = V c (Pipeline.arrRef spec1 w) := fun _ => rfl
  rw [hA 0, hA 1, hA 2, hA 3, hA 4, hA 5, hA 6, hA 7, hA 8, hA 9, hA 10, arr_xi, arr_di]
  iintro ⟨H0, Hx, Hd, H5, H6, H7, H8, H9, H10⟩
  ihave Ha := (pointsTo_share (PosShare.mem_left_op_right fullShare)).1 $$ Hx
  ihave Hb := (pointsTo_share (PosShare.mem_left_op_right fullShare)).1 $$ Hd
  icases Ha with ⟨HaL, HaR⟩
  icases Hb with ⟨HbL, HbR⟩
  isplitl [H0]; · iexact H0
  isplitl [HaL]; · iexact HaL
  isplitl [HbL]; · iexact HbL
  isplitl [HaR]; · iexact HaR
  isplitl [HbR]; · iexact HbR
  isplitl [H5]; · iexact H5
  isplitl [H6]; · iexact H6
  isplitl [H7]; · iexact H7
  isplitl [H8]; · iexact H8
  isplitl [H9]; · iexact H9
  iexact H10

set_option maxHeartbeats 8000000 in
/-- Exit: the windows' arrays after the last write-back are the buffers behind them, whole, at any contents that
    has every array there: the halves of the two buffers staged twice join. -/
theorem arrBufs_of_arrays (c : Dev nD) (V' : (b : Ref sig .tc) → Buf (Elt F) ((c : Thread nD τ).loc b))
    (hF : ∀ w, (dat V c).arrAt w cfg1.N = V' (Pipeline.arrRef spec1 w)) :
    ((dat V c).arrays ((dat V c).arrAt · cfg1.N) : sProp 𝕄) ⊢ Pipeline.arrBufs (Ix := Unit) (Name := ℕ) (U := UR sig nD τ) (Lvl := ℕ) spec1 c V' := by
  rw [arrBufs_eq, arrays_eq]
  rw [hF 0, hF 1, hF 2, hF 3, hF 4, hF 5, hF 6, hF 7, hF 8, hF 9, hF 10, arr_xi, arr_di]
  iintro ⟨H0, HaL, HbL, HaR, HbR, H5, H6, H7, H8, H9, H10⟩
  isplitl [H0]; · iexact H0
  isplitl [HaL HaR]
  · iapply (pointsTo_share (PosShare.mem_left_op_right fullShare)).2
    isplitl [HaL]; · iexact HaL
    iexact HaR
  isplitl [HbL HbR]
  · iapply (pointsTo_share (PosShare.mem_left_op_right fullShare)).2
    isplitl [HbL]; · iexact HbL
    iexact HbR
  isplitl [H5]; · iexact H5
  isplitl [H6]; · iexact H6
  isplitl [H7]; · iexact H7
  isplitl [H8]; · iexact H8
  isplitl [H9]; · iexact H9
  iexact H10

end Cert.Kernel.Embed

end
-- ==== Proof.K.HopBase.lean ====
/-
  Region 2 of the kernel (one hop of the adjacency matrix over the soft assignment): what its runs
  are stated over. At every grid point (i, k) the body adds the product of block (i, k) of the bf16 adjacency
  copy with block k of the assignment matrix into a 1024×128 scratch accumulator (reset at k = 0), and at k = 7
  stores the accumulator into the output's block (i, 0).
-/
import proofs.«110719_j498216206442_2_alg».proof.Proof.Gen.Kernel.Launch
import proofs.«110719_j498216206442_2_alg».proof.Proof.Gen.Kernel.Skeleton
import proofs.«110719_j498216206442_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hop

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions over the grid -/

/-- The reset branch is taken: the reduction coordinate k is 0. -/
abbrev isFirst (i : grid2.Coords) : Prop := (Scalar.cmpi .ne (Scalar.extui (Scalar.cmpi .eq (BitVec.ofNat 32 (i 1).val) 0#32)) 0#32) = 1#1
theorem isFirst_iff : ∀ t : Fin cfg2.N, isFirst (grid2.coords t) ↔ t.val % 8 = 0 :=
  (by decide +kernel : ∀ t : Fin grid2.N, isFirst (grid2.coords t) ↔ t.val % 8 = 0)

/-- The finishing branch is taken: k is 7. -/
abbrev isLast (i : grid2.Coords) : Prop := k2_cond2 i = 1#1
theorem isLast_iff : ∀ t : Fin cfg2.N, isLast (grid2.coords t) ↔ t.val % 8 = 7 :=
  (by decide +kernel : ∀ t : Fin grid2.N, isLast (grid2.coords t) ↔ t.val % 8 = 7)

/-! ## Where the windows are idle -/

theorem live_adj : ∀ t : Fin cfg2.N, cfg2.idle 0 (grid2.coords t) = false := by decide +kernel
theorem live_asg : ∀ t : Fin cfg2.N, cfg2.idle 1 (grid2.coords t) = false := by decide +kernel
theorem idle_out : ∀ t : Fin cfg2.N, ¬isLast (grid2.coords t) → cfg2.idle 2 (grid2.coords t) = true := by decide +kernel
theorem noFlush_out : ∀ t : Fin cfg2.N, ¬isLast (grid2.coords t) → (cfg2.win 2).flush t = false := by decide +kernel
theorem live_out : ∀ t : Fin cfg2.N, isLast (grid2.coords t) → cfg2.idle 2 (grid2.coords t) = false := by decide +kernel

/-! ## The memrefs at a point -/

abbrev viewOut : View sig .tc .vmem S1024x128 .f32 := (Memref.whole cc2_stg2_0 : Memref sig .tc .vmem S1024x128 .f32).view
abbrev mAdj (t : Fin cfg2.N) : Memref sig .tc .vmem S1024x1024 .bf16 := win2_0.stage (cfg2.slots t 0)
abbrev hAdj (t : Fin cfg2.N) : (mAdj t).IsWhole := hstage2_0 ((cfg2.slots t 0).cast nbuf2_0)
abbrev mAsg (t : Fin cfg2.N) : Memref sig .tc .vmem S1024x128 .f32 := win2_1.stage (cfg2.slots t 1)
abbrev hAsg (t : Fin cfg2.N) : (mAsg t).IsWhole := hstage2_1 ((cfg2.slots t 1).cast nbuf2_1)
abbrev mOut (t : Fin cfg2.N) : Memref sig .tc .vmem S1024x128 .f32 := win2_2.stage (cfg2.slots t 2)
abbrev hOut (t : Fin cfg2.N) : (mOut t).IsWhole := hstage2_2 ((cfg2.slots t 2).cast nbuf2_2)
/-- The scratch accumulator. -/
abbrev mAcc : Memref sig .tc .vmem S1024x128 .f32 := Memref.whole cc2_scratch0
abbrev viewAcc : View sig .tc .vmem S1024x128 .f32 := mAcc.view

/-- The class invariant with the scratch accumulator as a memref owned at some contents. -/
theorem PhiA_eq (c : Dev nD) :
    (Pipeline.ΦA spec2 c : sProp 𝕄)
      = iprop(iprop((∃ d, owns (c : Thread nD τ) mAcc fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [mAcc, owns_whole]; try rfl

end Cert.Kernel.Hop

end
-- ==== Proof.K.HopRuns.lean ====
/-
  Region 2 (one hop of the adjacency matrix over the soft assignment): the body's run in each of its three
  control cases. The two input blocks are left as found; the scratch accumulator ends with the pieces the
  stores wrote; the output is handed back untouched except at k = 7, where it ends with its one piece.
-/
import proofs.«110719_j498216206442_2_alg».proof.Proof.K.HopBase

set_option maxRecDepth 16384

noncomputable section

namespace Cert.Kernel.Hop

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- k = 0: the accumulator, found at anything, is reset and then receives the blocks' product. -/
noncomputable def runFirst (c : Dev nD) (i : grid2.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : isFirst i) (hc1 : ¬isLast i)
    (x0 : Vec F S1024x1024 .bf16) (x1 : Vec F S1024x128 .f32) :
    { LS : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS)) -∗ K ⟨⟩))
          ⊢ wp frame (wpE (defs₀ (F := F)) Variants.none c none) E (cc2__stageC_kernel i arg2 harg2 arg3 harg3 arg4 harg4 arg5 harg5) K } := by
  refine ⟨?_, fun xi2 E K => ?run⟩
  case run =>
    simp only [cc2__stageC_kernel_eq_skeleton]; unfold cc2__stageC_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 4000000 in
/-- 0 < k < 7: the accumulator, found at what the point before left, receives the blocks' product. -/
noncomputable def runMid (c : Dev nD) (i : grid2.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬isFirst i) (hc1 : ¬isLast i)
    (x0 : Vec F S1024x1024 .bf16) (x1 : Vec F S1024x128 .f32) (xs : Vec F S1024x128 .f32) :
    { LS : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS)) -∗ K ⟨⟩))
          ⊢ wp frame (wpE (defs₀ (F := F)) Variants.none c none) E (cc2__stageC_kernel i arg2 harg2 arg3 harg3 arg4 harg4 arg5 harg5) K } := by
  refine ⟨?_, fun xi2 E K => ?run⟩
  case run =>
    simp only [cc2__stageC_kernel_eq_skeleton]; unfold cc2__stageC_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 4000000 in
/-- k = 7: after the last product the output receives the accumulator. -/
noncomputable def runLast (c : Dev nD) (i : grid2.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬isFirst i) (hc1 : isLast i)
    (x0 : Vec F S1024x1024 .bf16) (x1 : Vec F S1024x128 .f32) (xs : Vec F S1024x128 .f32) :
    Σ' (L2 : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS)) -∗ K ⟨⟩))
          ⊢ wp frame (wpE (defs₀ (F := F)) Variants.none c none) E (cc2__stageC_kernel i arg2 harg2 arg3 harg3 arg4 harg4 arg5 harg5) K } := by
  refine ⟨?_, ?_, fun E K => ?run⟩
  case run =>
    simp only [cc2__stageC_kernel_eq_skeleton]; unfold cc2__stageC_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Hop

end
-- ==== Proof.K.Hop.lean ====
/-
  Region 2 (one hop of the adjacency matrix over the soft assignment): what its buffers hold point by point and
  the proof data of its pipeline, the arrays read as the region finds them (`V`). After point (i, k) the scratch
  accumulator holds the sum over the blocks 0..k of (adjacency block (i, ·)) · (assignment block ·), and at
  k = 7 the output's block (i, 0) holds it.
-/
import proofs.«110719_j498216206442_2_alg».proof.Proof.K.HopRuns

set_option maxRecDepth 16384

noncomputable section

namespace Cert.Kernel.Hop

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current staging buffer holds its block at every point. -/
theorem before_adj_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_asg_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

section Cases
variable (c : Dev nD) (i : grid2.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole)

theorem coverAcc_first (hc0 : isFirst i) (hc1 : ¬isLast i) (x0 : Vec F S1024x1024 .bf16) (x1 : Vec F S1024x128 .f32) (y : S1024x128.Idx) :
    ∃ pc ∈ (runFirst c i arg2 harg2 arg3 harg3 arg4 harg4 arg5 harg5 hc0 hc1 x0 x1).1, y ∈ pc.1.set :=
  View.cover_of_tiledL (runFirst c i arg2 harg2 arg3 harg3 arg4 harg4 arg5 harg5 hc0 hc1 x0 x1).1 S1024x128.size (by sl_kernel_rfl) y
def accFirst (hc0 : isFirst i) (hc1 : ¬isLast i) (x0 : Vec F S1024x1024 .bf16) (x1 : Vec F S1024x128 .f32) : Vec F S1024x128 .f32 :=
  viewAcc.read (Elt F) (viewAcc.writes (Elt F) viewAcc.junk (runFirst c i arg2 harg2 arg3 harg3 arg4 harg4 arg5 harg5 hc0 hc1 x0 x1).1)

theorem coverAcc_mid (hc0 : ¬isFirst i) (hc1 : ¬isLast i) (x0 : Vec F S1024x1024 .bf16) (x1 : Vec F S1024x128 .f32) (xs : Vec F S1024x128 .f32) (y : S1024x128.Idx) :
    ∃ pc ∈ (runMid c i arg2 harg2 arg3 harg3 arg4 harg4 arg5 harg5 hc0 hc1 x0 x1 xs).1, y ∈ pc.1.set :=
  View.cover_of_tiledL (runMid c i arg2 harg2 arg3 harg3 arg4 harg4 arg5 harg5 hc0 hc1 x0 x1 xs).1 S1024x128.size (by sl_kernel_rfl) y
def accMid (hc0 : ¬isFirst i) (hc1 : ¬isLast i) (x0 : Vec F S1024x1024 .bf16) (x1 : Vec F S1024x128 .f32) (xs : Vec F S1024x128 .f32) : Vec F S1024x128 .f32 :=
  viewAcc.read (Elt F) (viewAcc.writes (Elt F) viewAcc.junk (runMid c i arg2 harg2 arg3 harg3 arg4 harg4 arg5 harg5 hc0 hc1 x0 x1 xs).1)

theorem coverOut_last (hc0 : ¬isFirst i) (hc1 : isLast i) (x0 : Vec F S1024x1024 .bf16) (x1 : Vec F S1024x128 .f32) (xs : Vec F S1024x128 .f32) (y : S1024x128.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S1024x128.size (by sl_kernel_rfl) y
theorem coverAcc_last (hc0 : ¬isFirst i) (hc1 : isLast i) (x0 : Vec F S1024x1024 .bf16) (x1 : Vec F S1024x128 .f32) (xs : Vec F S1024x128 .f32) (y : S1024x128.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S1024x128.size (by sl_kernel_rfl) y
def outLast (hc0 : ¬isFirst i) (hc1 : isLast i) (x0 : Vec F S1024x1024 .bf16) (x1 : Vec F S1024x128 .f32) (xs : Vec F S1024x128 .f32) : Vec F S1024x128 .f32 :=
  viewOut.read (Elt F) (viewOut.writes (Elt F) viewOut.junk (runLast c i arg2 harg2 arg3 harg3 arg4 harg4 arg5 harg5 hc0 hc1 x0 x1 xs).1)
def accLast (hc0 : ¬isFirst i) (hc1 : isLast i) (x0 : Vec F S1024x1024 .bf16) (x1 : Vec F S1024x128 .f32) (xs : Vec F S1024x128 .f32) : Vec F S1024x128 .f32 :=
  viewAcc.read (Elt F) (viewAcc.writes (Elt F) viewAcc.junk (runLast c i arg2 harg2 arg3 harg3 arg4 harg4 arg5 harg5 hc0 hc1 x0 x1 xs).2.1)

end Cases

/-- A placeholder for the output's buffer at the points where the body stores nothing into it: nothing consults it. -/
def outIdle : Vec F S1024x128 .f32 := viewOut.read (Elt F) (viewOut.writes (Elt F) viewOut.junk [])

/-! ## Point by point -/

/-- What the output's buffer and the scratch accumulator hold after the body at position `n`. -/
def outsAt (c : Dev nD) : (n : ℕ) → n < cfg2.N → Vec F S1024x128 .f32 × Vec F S1024x128 .f32
  | 0, hn => (outIdle,
      accFirst c (grid2.coords ⟨0, hn⟩) (mAdj ⟨0, hn⟩) (hAdj ⟨0, hn⟩) (mAsg ⟨0, hn⟩) (hAsg ⟨0, hn⟩) (mOut ⟨0, hn⟩) (hOut ⟨0, hn⟩) mAcc (Memref.isWhole_whole _) ((isFirst_iff ⟨0, hn⟩).mpr (Nat.zero_mod _)) (fun h => (fun h => by (try dsimp only at h); omega) ((isLast_iff ⟨0, hn⟩).mp h)) (iblk V c 0 ⟨0, hn⟩) (iblk V c 1 ⟨0, hn⟩))
  | n + 1, hn =>
    if h0 : (n + 1) % 8 = 0 then
      if h1 : (n + 1) % 8 = 7 then False.elim (by omega)
      else (outIdle,
        accFirst c (grid2.coords ⟨n + 1, hn⟩) (mAdj ⟨n + 1, hn⟩) (hAdj ⟨n + 1, hn⟩) (mAsg ⟨n + 1, hn⟩) (hAsg ⟨n + 1, hn⟩) (mOut ⟨n + 1, hn⟩) (hOut ⟨n + 1, hn⟩) mAcc (Memref.isWhole_whole _) ((isFirst_iff ⟨n + 1, hn⟩).mpr h0) (fun h => h1 ((isLast_iff ⟨n + 1, hn⟩).mp h)) (iblk V c 0 ⟨n + 1, hn⟩) (iblk V c 1 ⟨n + 1, hn⟩))
    else
      if h1 : (n + 1) % 8 = 7 then
        (outLast c (grid2.coords ⟨n + 1, hn⟩) (mAdj ⟨n + 1, hn⟩) (hAdj ⟨n + 1, hn⟩) (mAsg ⟨n + 1, hn⟩) (hAsg ⟨n + 1, hn⟩) (mOut ⟨n + 1, hn⟩) (hOut ⟨n + 1, hn⟩) mAcc (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (outsAt c n (Nat.lt_of_succ_lt hn)).2,
         accLast c (grid2.coords ⟨n + 1, hn⟩) (mAdj ⟨n + 1, hn⟩) (hAdj ⟨n + 1, hn⟩) (mAsg ⟨n + 1, hn⟩) (hAsg ⟨n + 1, hn⟩) (mOut ⟨n + 1, hn⟩) (hOut ⟨n + 1, hn⟩) mAcc (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (outsAt c n (Nat.lt_of_succ_lt hn)).2)
      else
        (outIdle,
         accMid c (grid2.coords ⟨n + 1, hn⟩) (mAdj ⟨n + 1, hn⟩) (hAdj ⟨n + 1, hn⟩) (mAsg ⟨n + 1, hn⟩) (hAsg ⟨n + 1, hn⟩) (mOut ⟨n + 1, hn⟩) (hOut ⟨n + 1, hn⟩) mAcc (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (outsAt c n (Nat.lt_of_succ_lt hn)).2)

theorem outsAt_first (c : Dev nD) (t : Fin cfg2.N) (h0 : t.val % 8 = 0) (h1 : ¬t.val % 8 = 7) :
    outsAt V c t.val t.isLt = (outIdle,
      accFirst c (grid2.coords t) (mAdj t) (hAdj t) (mAsg t) (hAsg t) (mOut t) (hOut t) mAcc (Memref.isWhole_whole _) ((isFirst_iff t).mpr h0) (fun h => h1 ((isLast_iff t).mp h)) (iblk V c 0 t) (iblk V c 1 t)) := by
  obtain ⟨n, hn⟩ := t
  cases n with
  | zero => exact rfl
  | succ n => exact (dif_pos h0).trans ((dif_neg h1).trans rfl)

theorem outsAt_mid (c : Dev nD) (t : Fin cfg2.N) (h0 : ¬t.val % 8 = 0) (h1 : ¬t.val % 8 = 7) :
    outsAt V c t.val t.isLt = (outIdle,
      accMid c (grid2.coords t) (mAdj t) (hAdj t) (mAsg t) (hAsg t) (mOut t) (hOut t) mAcc (Memref.isWhole_whole _) (fun h => h0 ((isFirst_iff t).mp h)) (fun h => h1 ((isLast_iff t).mp h)) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg2.N) (h0 : ¬t.val % 8 = 0) (h1 : t.val % 8 = 7) :
    outsAt V c t.val t.isLt = (
      outLast c (grid2.coords t) (mAdj t) (hAdj t) (mAsg t) (hAsg t) (mOut t) (hOut t) mAcc (Memref.isWhole_whole _) (fun h => h0 ((isFirst_iff t).mp h)) ((isLast_iff t).mpr h1) (iblk V c 0 t) (iblk V c 1 t) (outsAt V c (t.val - 1) (Nat.lt_of_le_of_lt (Nat.sub_le _ _) t.isLt)).2,
      accLast c (grid2.coords t) (mAdj t) (hAdj t) (mAsg t) (hAsg t) (mOut t) (hOut t) mAcc (Memref.isWhole_whole _) (fun h => h0 ((isFirst_iff t).mp h)) ((isLast_iff t).mpr h1) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the first point the class's invariant (the accumulator at anything); afterwards the
    accumulator at what the point before left, the other scoped buffers and the generator register as they are. -/
def PhiS (c : Dev nD) : (n : ℕ) → n ≤ cfg2.N → sProp 𝕄
  | 0, _ => Pipeline.ΦA spec2 c
  | n + 1, hn => iprop(iprop(owns (c : Thread nD τ) mAcc fullShare ((outsAt V c n hn).2) ∗ Pipeline.scopedRestBut (Ix := Unit) (Name := ℕ) (U := UR sig nD τ) (Lvl := ℕ) (Val := Elt F) spec2 c [cc2_scratch0]) ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(iprop(owns (c : Thread nD τ) mAcc fullShare ((outsAt V c n hn).2) ∗ Pipeline.scopedRestBut (Ix := Unit) (Name := ℕ) (U := UR sig nD τ) (Lvl := ℕ) (Val := Elt F) spec2 c [cc2_scratch0]) ∗ (∃ r, prngReg c r)) := rfl
theorem PhiS_pos (c : Dev nD) (n : ℕ) (h : n ≤ cfg2.N) (hz : n ≠ 0) :
    PhiS V c n h = iprop(iprop(owns (c : Thread nD τ) mAcc fullShare ((outsAt V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]
theorem Phi_castSucc (c : Dev nD) (t : Fin cfg2.N) :
    (dat V c).Φ t.castSucc = PhiS V c t.val (Nat.le_of_lt t.isLt) := by
  dsimp only [dat]; simp only [Fin.coe_castSucc]
theorem after_adj (c : Dev nD) (t : Fin cfg2.N) : (dat V c).after 0 t = iblk V c 0 t := by dsimp only [dat]
theorem after_asg (c : Dev nD) (t : Fin cfg2.N) : (dat V c).after 1 t = iblk V c 1 t := by dsimp only [dat]
theorem after_out (c : Dev nD) (t : Fin cfg2.N) : (dat V c).after 2 t = (outsAt V c t.val t.isLt).1 := by dsimp only [dat]
theorem before_adj (c : Dev nD) (t : Fin cfg2.N) (d) : (dat V c).before 0 t d = iblk V c 0 t :=
  before_adj_of V (dat V c) (A_eq V c 0) (after_adj V c) t d
theorem before_asg (c : Dev nD) (t : Fin cfg2.N) (d) : (dat V c).before 1 t d = iblk V c 1 t :=
  before_asg_of V (dat V c) (A_eq V c 1) (after_asg V c) t d

end Cert.Kernel.Hop

end
-- ==== Proof.K.HopBody.lean ====
/-
  Region 2 (one hop of the adjacency matrix over the soft assignment): the body obligation. At a point the two
  inputs' buffers hold their blocks; the closed forms say which control case the point is in; the invariant hands
  the body the accumulator at what the point before left (at anything at the very first point) and takes it back
  at this point's running sum.
-/
import proofs.«110719_j498216206442_2_alg».proof.Proof.K.Hop

set_option maxRecDepth 16384

noncomputable section

namespace Cert.Kernel.Hop

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre (c : Dev nD) (t : Fin cfg2.N) : sProp 𝕄 :=
  iprop((dat V c).Φ t.castSucc ∗ (dat V c).owesAt () t.castSucc
    ∗ (∃ d, owns (c : Thread nD τ) (mAdj t) fullShare ((dat V c).before 0 t d))
    ∗ (∃ d, owns (c : Thread nD τ) (mAsg t) fullShare ((dat V c).before 1 t d))
    ∗ (∃ d, owns (c : Thread nD τ) (mOut t) fullShare ((dat V c).before 2 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_adj, before_asg]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg2.N = 64 from N_2)
  rw [show (dat V c).leavesExact 0 t = owns (c : Thread nD τ) (mAdj t) fullShare ((dat V c).after 0 t) from by
    unfold Dat.leavesExact; rw [live_adj t], after_adj]
  rw [show (dat V c).leavesExact 1 t = owns (c : Thread nD τ) (mAsg t) fullShare ((dat V c).after 1 t) from by
    unfold Dat.leavesExact; rw [live_asg t], after_asg]
  by_cases h0 : t.val % 8 = 0
  · have h1 : ¬t.val % 8 = 7 := by omega
    rw [Dat.leavesExact_idle (dat V c) 2 t (idle_out t (fun h => h1 ((isLast_iff t).mp h))) (noFlush_out t (fun h => h1 ((isLast_iff t).mp h)))]
    rw [outsAt_first V c t h0 h1]
    unfold accFirst; (try dsimp only)
    by_cases hz : t.val = 0
    · rw [Phi_castSucc V c t, PhiS_zero V c _ _ hz, PhiA_eq]
      iintro ⟨⟨⟨HS, Hrest⟩, Hg⟩, Ho, ⟨%d0, H0⟩, ⟨%d1, H1⟩, ⟨%d2, H2⟩⟩
      iapply ((runFirst c (grid2.coords t) _ _ _ _ _ _ _ _ ((isFirst_iff t).mpr h0) (fun h => h1 ((isLast_iff t).mp h)) (iblk V c 0 t) (iblk V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (coverAcc_first c _ _ _ _ _ _ _ _ _ _ _ _ _)
          iexact Hrest
        iexact Hg
      isplitl [Ho]; · iexact Ho
      isplitl [H0]; · iexact H0
      isplitl [H1]; · iexact H1
      iexists _; iexact H2
    · rw [Phi_castSucc V c t, PhiS_pos V c _ _ hz]
      iintro ⟨⟨⟨HS, Hrest⟩, Hg⟩, Ho, ⟨%d0, H0⟩, ⟨%d1, H1⟩, ⟨%d2, H2⟩⟩
      iapply ((runFirst c (grid2.coords t) _ _ _ _ _ _ _ _ ((isFirst_iff t).mpr h0) (fun h => h1 ((isLast_iff t).mp h)) (iblk V c 0 t) (iblk V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (coverAcc_first c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := by omega
    by_cases h1 : t.val % 8 = 7
    · rw [show (dat V c).leavesExact 2 t = owns (c : Thread nD τ) (mOut t) fullShare ((dat V c).after 2 t) from by
        unfold Dat.leavesExact; rw [live_out t ((isLast_iff t).mpr h1)], after_out]
      rw [outsAt_last V c t h0 h1]
      unfold outLast accLast; (try dsimp only)
      rw [Phi_castSucc V c t, PhiS_pos V c _ _ hz]
      iintro ⟨⟨⟨HS, Hrest⟩, Hg⟩, Ho, ⟨%d0, H0⟩, ⟨%d1, H1⟩, ⟨%d2, H2⟩⟩
      iapply ((runLast c (grid2.coords t) _ _ _ _ _ _ _ _ (fun h => h0 ((isFirst_iff t).mp h)) ((isLast_iff t).mpr h1) (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (coverAcc_last c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (coverOut_last c _ _ _ _ _ _ _ _ _ _ _ _ _ _)
    · rw [Dat.leavesExact_idle (dat V c) 2 t (idle_out t (fun h => h1 ((isLast_iff t).mp h))) (noFlush_out t (fun h => h1 ((isLast_iff t).mp h)))]
      rw [outsAt_mid V c t h0 h1]
      unfold accMid; (try dsimp only)
      rw [Phi_castSucc V c t, PhiS_pos V c _ _ hz]
      iintro ⟨⟨⟨HS, Hrest⟩, Hg⟩, Ho, ⟨%d0, H0⟩, ⟨%d1, H1⟩, ⟨%d2, H2⟩⟩
      iapply ((runMid c (grid2.coords t) _ _ _ _ _ _ _ _ (fun h => h0 ((isFirst_iff t).mp h)) (fun h => h1 ((isLast_iff t).mp h)) (iblk V c 0 t) (iblk V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (coverAcc_mid c _ _ _ _ _ _ _ _ _ _ _ _ _ _)
          iexact Hrest
        iexact Hg
      isplitl [Ho]; · iexact Ho
      isplitl [H0]; · iexact H0
      isplitl [H1]; · iexact H1
      iexists _; iexact H2

/-- The body obligation of the region's pipeline, at every point. -/
theorem body_obligation (c : Dev nD) : BodyObligation (dat (F := F) V c) (defs₀ (F := F)) Variants.none () Set.univ := fun t => by
  rw [bigSep_W2, bigSep_W2]
  exact sound_body V c t

/-- What the region is entered with is the invariant before the first point. -/
theorem Phi_in (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the accumulator's contents are forgotten. -/
theorem Phi_out (c : Dev nD) : (dat V c).Φ (Fin.last cfg2.N) ⊢ Pipeline.ΦA spec2 c := by
  have ht : (Fin.last cfg2.N).val ≠ 0 := by rw [Fin.val_last]; have : cfg2.N = 64 := N_2; omega
  rw [show (dat V c).Φ (Fin.last cfg2.N) = PhiS V c (Fin.last cfg2.N).val (Nat.le_of_lt_succ (Fin.last cfg2.N).isLt) from rfl, PhiS_pos V c _ _ ht, PhiA_eq]
  iintro ⟨⟨HS, Hrest⟩, Hg⟩
  isplitl [HS Hrest]
  · isplitl [HS]
    · iexists _; iexact HS
    iexact Hrest
  iexact Hg

end Cert.Kernel.Hop

end
-- ==== Proof.K.PoolRuns.lean ====
/-
  Region 3 of the kernel (pooling): what its runs are stated over. At grid point (c, k) the body adds
  into the two outputs' blocks (c, ·, ·) — reset at k = 0 — the products (assignment block)ᵀ · (embedding block)
  and (assignment block)ᵀ · (hop block), the blocks being rows 2048·(2c + k) … of their arrays. The outputs'
  buffers are kept between the two points of a core and written back after the second.
-/
import proofs.«110719_j498216206442_2_alg».proof.Proof.Gen.Kernel.Launch
import proofs.«110719_j498216206442_2_alg».proof.Proof.Gen.Kernel.Skeleton
import proofs.«110719_j498216206442_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reset branch is taken: k is 0. -/
abbrev isFirst (i : grid3.Coords) : Prop := (Scalar.cmpi .ne (Scalar.extui (Scalar.cmpi .eq (BitVec.ofNat 32 (i 1).val) 0#32)) 0#32) = 1#1
theorem isFirst_iff : ∀ t : Fin cfg3.N, isFirst (grid3.coords t) ↔ t.val % 2 = 0 :=
  (by decide +kernel : ∀ t : Fin grid3.N, isFirst (grid3.coords t) ↔ t.val % 2 = 0)

abbrev viewX : View sig .tc .vmem S1x128x128 .f32 := (Memref.whole cc3_stg3_0 : Memref sig .tc .vmem S1x128x128 .f32).view
abbrev viewA : View sig .tc .vmem S1x128x128 .f32 := (Memref.whole cc3_stg4_0 : Memref sig .tc .vmem S1x128x128 .f32).view
abbrev mAsg (t : Fin cfg3.N) : Memref sig .tc .vmem S2048x128 .f32 := win3_0.stage (cfg3.slots t 0)
abbrev hAsg (t : Fin cfg3.N) : (mAsg t).IsWhole := hstage3_0 ((cfg3.slots t 0).cast nbuf3_0)
abbrev mEmb (t : Fin cfg3.N) : Memref sig .tc .vmem S2048x128 .f32 := win3_1.stage (cfg3.slots t 1)
abbrev hEmb (t : Fin cfg3.N) : (mEmb t).IsWhole := hstage3_1 ((cfg3.slots t 1).cast nbuf3_1)
abbrev mHop (t : Fin cfg3.N) : Memref sig .tc .vmem S2048x128 .f32 := win3_2.stage (cfg3.slots t 2)
abbrev hHop (t : Fin cfg3.N) : (mHop t).IsWhole := hstage3_2 ((cfg3.slots t 2).cast nbuf3_2)
abbrev mX (t : Fin cfg3.N) : Memref sig .tc .vmem S1x128x128 .f32 := win3_3.stage (cfg3.slots t 3)
abbrev hX (t : Fin cfg3.N) : (mX t).IsWhole := hstage3_3 ((cfg3.slots t 3).cast nbuf3_3)
abbrev mA (t : Fin cfg3.N) : Memref sig .tc .vmem S1x128x128 .f32 := win3_4.stage (cfg3.slots t 4)
abbrev hA (t : Fin cfg3.N) : (mA t).IsWhole := hstage3_4 ((cfg3.slots t 4).cast nbuf3_4)

set_option maxHeartbeats 4000000 in
/-- k = 0: both outputs, found at anything, are reset and then receive the blocks' products. -/
noncomputable def runFirst (c : Dev nD) (i : grid3.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S1x128x128 .f32) (harg5 : arg5.IsWhole) (arg6 : Memref sig .tc .vmem S1x128x128 .f32) (harg6 : arg6.IsWhole) (hc0 : isFirst i)
    (x0 x1 x2 : Vec F S2048x128 .f32) :
    Σ' (L3 : List (View.Piece (Elt F) S1x128x128 .f32)), { L4 : List (View.Piece (Elt F) S1x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc3__pool_kernel i arg2 harg2 arg3 harg3 arg4 harg4 arg5 harg5 arg6 harg6) K } := by
  refine ⟨?_, ?_, fun E K => ?run⟩
  case run =>
    simp only [cc3__pool_kernel_eq_skeleton]; unfold cc3__pool_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

set_option maxHeartbeats 4000000 in
/-- k = 1: both outputs, found at what the point before left, receive the blocks' products. -/
noncomputable def runNext (c : Dev nD) (i : grid3.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S1x128x128 .f32) (harg5 : arg5.IsWhole) (arg6 : Memref sig .tc .vmem S1x128x128 .f32) (harg6 : arg6.IsWhole) (hc0 : ¬isFirst i)
    (x0 x1 x2 : Vec F S2048x128 .f32) (xo3 xo4 : Vec F S1x128x128 .f32) :
    Σ' (L3 : List (View.Piece (Elt F) S1x128x128 .f32)), { L4 : List (View.Piece (Elt F) S1x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo3 ∗ owns (c : Thread nD τ) arg6 fullShare xo4
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc3__pool_kernel i arg2 harg2 arg3 harg3 arg4 harg4 arg5 harg5 arg6 harg6) K } := by
  refine ⟨?_, ?_, fun E K => ?run⟩
  case run =>
    simp only [cc3__pool_kernel_eq_skeleton]; unfold cc3__pool_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

end Cert.Kernel.Pool

end
-- ==== Proof.K.Pool.lean ====
/-
  Region 3 (pooling): what its output buffers hold point by point, the proof data of its pipeline and the body
  obligation, the arrays read as the region finds them (`V`). After point (c, 0) each output's buffer holds the
  product over the rows of block 2c; after (c, 1) that plus the product over block 2c + 1, which is written back.
-/
import proofs.«110719_j498216206442_2_alg».proof.Proof.K.PoolRuns

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input window's current staging buffer holds its block at every point. -/
theorem before_asg_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_emb_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_hop_of {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

section Cases
variable (c : Dev nD) (i : grid3.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S1x128x128 .f32) (harg5 : arg5.IsWhole) (arg6 : Memref sig .tc .vmem S1x128x128 .f32) (harg6 : arg6.IsWhole)

theorem coverX_first (hc0 : isFirst i) (x0 x1 x2 : Vec F S2048x128 .f32) (y : S1x128x128.Idx) :
    ∃ pc ∈ (runFirst c i arg2 harg2 arg3 harg3 arg4 harg4 arg5 harg5 arg6 harg6 hc0 x0 x1 x2).1, y ∈ pc.1.set :=
  View.cover_of_tiledL (runFirst c i arg2 harg2 arg3 harg3 arg4 harg4 arg5 harg5 arg6 harg6 hc0 x0 x1 x2).1 S1x128x128.size (by sl_kernel_rfl) y
theorem coverA_first (hc0 : isFirst i) (x0 x1 x2 : Vec F S2048x128 .f32) (y : S1x128x128.Idx) :
    ∃ pc ∈ (runFirst c i arg2 harg2 arg3 harg3 arg4 harg4 arg5 harg5 arg6 harg6 hc0 x0 x1 x2).2.1, y ∈ pc.1.set :=
  View.cover_of_tiledL (runFirst c i arg2 harg2 arg3 harg3 arg4 harg4 arg5 harg5 arg6 harg6 hc0 x0 x1 x2).2.1 S1x128x128.size (by sl_kernel_rfl) y
def xFirst (hc0 : isFirst i) (x0 x1 x2 : Vec F S2048x128 .f32) : Vec F S1x128x128 .f32 :=
  viewX.read (Elt F) (viewX.writes (Elt F) viewX.junk (runFirst c i arg2 harg2 arg3 harg3 arg4 harg4 arg5 harg5 arg6 harg6 hc0 x0 x1 x2).1)
def aFirst (hc0 : isFirst i) (x0 x1 x2 : Vec F S2048x128 .f32) : Vec F S1x128x128 .f32 :=
  viewA.read (Elt F) (viewA.writes (Elt F) viewA.junk (runFirst c i arg2 harg2 arg3 harg3 arg4 harg4 arg5 harg5 arg6 harg6 hc0 x0 x1 x2).2.1)

theorem coverX_next (hc0 : ¬isFirst i) (x0 x1 x2 : Vec F S2048x128 .f32) (xo3 xo4 : Vec F S1x128x128 .f32) (y : S1x128x128.Idx) :
    ∃ pc ∈ (runNext c i arg2 harg2 arg3 harg3 arg4 harg4 arg5 harg5 arg6 harg6 hc0 x0 x1 x2 xo3 xo4).1, y ∈ pc.1.set :=
  View.cover_of_tiledL (runNext c i arg2 harg2 arg3 harg3 arg4 harg4 arg5 harg5 arg6 harg6 hc0 x0 x1 x2 xo3 xo4).1 S1x128x128.size (by sl_kernel_rfl) y
theorem coverA_next (hc0 : ¬isFirst i) (x0 x1 x2 : Vec F S2048x128 .f32) (xo3 xo4 : Vec F S1x128x128 .f32) (y : S1x128x128.Idx) :
    ∃ pc ∈ (runNext c i arg2 harg2 arg3 harg3 arg4 harg4 arg5 harg5 arg6 harg6 hc0 x0 x1 x2 xo3 xo4).2.1, y ∈ pc.1.set :=
  View.cover_of_tiledL (runNext c i arg2 harg2 arg3 harg3 arg4 harg4 arg5 harg5 arg6 harg6 hc0 x0 x1 x2 xo3 xo4).2.1 S1x128x128.size (by sl_kernel_rfl) y
def xNext (hc0 : ¬isFirst i) (x0 x1 x2 : Vec F S2048x128 .f32) (xo3 xo4 : Vec F S1x128x128 .f32) : Vec F S1x128x128 .f32 :=
  viewX.read (Elt F) (viewX.writes (Elt F) viewX.junk (runNext c i arg2 harg2 arg3 harg3 arg4 harg4 arg5 harg5 arg6 harg6 hc0 x0 x1 x2 xo3 xo4).1)
def aNext (hc0 : ¬isFirst i) (x0 x1 x2 : Vec F S2048x128 .f32) (xo3 xo4 : Vec F S1x128x128 .f32) : Vec F S1x128x128 .f32 :=
  viewA.read (Elt F) (viewA.writes (Elt F) viewA.junk (runNext c i arg2 harg2 arg3 harg3 arg4 harg4 arg5 harg5 arg6 harg6 hc0 x0 x1 x2 xo3 xo4).2.1)

end Cases

/-- What the two outputs' buffers hold after the body at position `n`. -/
def outsAt (c : Dev nD) : (n : ℕ) → n < cfg3.N → Vec F S1x128x128 .f32 × Vec F S1x128x128 .f32
  | 0, hn => (xFirst c (grid3.coords ⟨0, hn⟩) (mAsg ⟨0, hn⟩) (hAsg ⟨0, hn⟩) (mEmb ⟨0, hn⟩) (hEmb ⟨0, hn⟩) (mHop ⟨0, hn⟩) (hHop ⟨0, hn⟩) (mX ⟨0, hn⟩) (hX ⟨0, hn⟩) (mA ⟨0, hn⟩) (hA ⟨0, hn⟩) ((isFirst_iff ⟨0, hn⟩).mpr (Nat.zero_mod _)) (iblk V c 0 ⟨0, hn⟩) (iblk V c 1 ⟨0, hn⟩) (iblk V c 2 ⟨0, hn⟩),
      aFirst c (grid3.coords ⟨0, hn⟩) (mAsg ⟨0, hn⟩) (hAsg ⟨0, hn⟩) (mEmb ⟨0, hn⟩) (hEmb ⟨0, hn⟩) (mHop ⟨0, hn⟩) (hHop ⟨0, hn⟩) (mX ⟨0, hn⟩) (hX ⟨0, hn⟩) (mA ⟨0, hn⟩) (hA ⟨0, hn⟩) ((isFirst_iff ⟨0, hn⟩).mpr (Nat.zero_mod _)) (iblk V c 0 ⟨0, hn⟩) (iblk V c 1 ⟨0, hn⟩) (iblk V c 2 ⟨0, hn⟩))
  | n + 1, hn =>
    if h0 : (n + 1) % 2 = 0 then
      (xFirst c (grid3.coords ⟨n + 1, hn⟩) (mAsg ⟨n + 1, hn⟩) (hAsg ⟨n + 1, hn⟩) (mEmb ⟨n + 1, hn⟩) (hEmb ⟨n + 1, hn⟩) (mHop ⟨n + 1, hn⟩) (hHop ⟨n + 1, hn⟩) (mX ⟨n + 1, hn⟩) (hX ⟨n + 1, hn⟩) (mA ⟨n + 1, hn⟩) (hA ⟨n + 1, hn⟩) ((isFirst_iff ⟨n + 1, hn⟩).mpr h0) (iblk V c 0 ⟨n + 1, hn⟩) (iblk V c 1 ⟨n + 1, hn⟩) (iblk V c 2 ⟨n + 1, hn⟩),
       aFirst c (grid3.coords ⟨n + 1, hn⟩) (mAsg ⟨n + 1, hn⟩) (hAsg ⟨n + 1, hn⟩) (mEmb ⟨n + 1, hn⟩) (hEmb ⟨n + 1, hn⟩) (mHop ⟨n + 1, hn⟩) (hHop ⟨n + 1, hn⟩) (mX ⟨n + 1, hn⟩) (hX ⟨n + 1, hn⟩) (mA ⟨n + 1, hn⟩) (hA ⟨n + 1, hn⟩) ((isFirst_iff ⟨n + 1, hn⟩).mpr h0) (iblk V c 0 ⟨n + 1, hn⟩) (iblk V c 1 ⟨n + 1, hn⟩) (iblk V c 2 ⟨n + 1, hn⟩))
    else
      (xNext c (grid3.coords ⟨n + 1, hn⟩) (mAsg ⟨n + 1, hn⟩) (hAsg ⟨n + 1, hn⟩) (mEmb ⟨n + 1, hn⟩) (hEmb ⟨n + 1, hn⟩) (mHop ⟨n + 1, hn⟩) (hHop ⟨n + 1, hn⟩) (mX ⟨n + 1, hn⟩) (hX ⟨n + 1, hn⟩) (mA ⟨n + 1, hn⟩) (hA ⟨n + 1, hn⟩) (fun h => h0 ((isFirst_iff ⟨n + 1, hn⟩).mp h)) (iblk V c 0 ⟨n + 1, hn⟩) (iblk V c 1 ⟨n + 1, hn⟩) (iblk V c 2 ⟨n + 1, hn⟩) (outsAt c n (Nat.lt_of_succ_lt hn)).1 (outsAt c n (Nat.lt_of_succ_lt hn)).2,
       aNext c (grid3.coords ⟨n + 1, hn⟩) (mAsg ⟨n + 1, hn⟩) (hAsg ⟨n + 1, hn⟩) (mEmb ⟨n + 1, hn⟩) (hEmb ⟨n + 1, hn⟩) (mHop ⟨n + 1, hn⟩) (hHop ⟨n + 1, hn⟩) (mX ⟨n + 1, hn⟩) (hX ⟨n + 1, hn⟩) (mA ⟨n + 1, hn⟩) (hA ⟨n + 1, hn⟩) (fun h => h0 ((isFirst_iff ⟨n + 1, hn⟩).mp h)) (iblk V c 0 ⟨n + 1, hn⟩) (iblk V c 1 ⟨n + 1, hn⟩) (iblk V c 2 ⟨n + 1, hn⟩) (outsAt c n (Nat.lt_of_succ_lt hn)).1 (outsAt c n (Nat.lt_of_succ_lt hn)).2)

theorem outsAt_first (c : Dev nD) (t : Fin cfg3.N) (h0 : t.val % 2 = 0) :
    outsAt V c t.val t.isLt = (xFirst c (grid3.coords t) (mAsg t) (hAsg t) (mEmb t) (hEmb t) (mHop t) (hHop t) (mX t) (hX t) (mA t) (hA t) ((isFirst_iff t).mpr h0) (iblk V c 0 t) (iblk V c 1 t) (iblk V c 2 t),
      aFirst c (grid3.coords t) (mAsg t) (hAsg t) (mEmb t) (hEmb t) (mHop t) (hHop t) (mX t) (hX t) (mA t) (hA t) ((isFirst_iff t).mpr h0) (iblk V c 0 t) (iblk V c 1 t) (iblk V c 2 t)) := by
  obtain ⟨n, hn⟩ := t
  cases n with
  | zero => exact rfl
  | succ n => exact (dif_pos h0).trans rfl

theorem outsAt_next (c : Dev nD) (t : Fin cfg3.N) (h0 : ¬t.val % 2 = 0) :
    outsAt V c t.val t.isLt = (
      xNext c (grid3.coords t) (mAsg t) (hAsg t) (mEmb t) (hEmb t) (mHop t) (hHop t) (mX t) (hX t) (mA t) (hA t) (fun h => h0 ((isFirst_iff t).mp h)) (iblk V c 0 t) (iblk V c 1 t) (iblk V c 2 t) (outsAt V c (t.val - 1) (Nat.lt_of_le_of_lt (Nat.sub_le _ _) t.isLt)).1 (outsAt V c (t.val - 1) (Nat.lt_of_le_of_lt (Nat.sub_le _ _) t.isLt)).2,
      aNext c (grid3.coords t) (mAsg t) (hAsg t) (mEmb t) (hEmb t) (mHop t) (hHop t) (mX t) (hX t) (mA t) (hA t) (fun h => h0 ((isFirst_iff t).mp h)) (iblk V c 0 t) (iblk V c 1 t) (iblk V c 2 t) (outsAt V c (t.val - 1) (Nat.lt_of_le_of_lt (Nat.sub_le _ _) t.isLt)).1 (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The proof data -/

def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => (outsAt V c t.val t.isLt).1
    | ⟨4, _⟩ => (outsAt V c t.val t.isLt).2
  Φ _ := Pipeline.ΦA spec3 c
  q _ := fullShare
  owed _ := 0

theorem A_eq (c : Dev nD) (w : Fin cfg3.W) : (dat V c).A w = V c (Pipeline.arrRef spec3 w) := by
  dsimp only [dat]
theorem after_asg (c : Dev nD) (t : Fin cfg3.N) : (dat V c).after 0 t = iblk V c 0 t := by dsimp only [dat]
theorem after_emb (c : Dev nD) (t : Fin cfg3.N) : (dat V c).after 1 t = iblk V c 1 t := by dsimp only [dat]
theorem after_hop (c : Dev nD) (t : Fin cfg3.N) : (dat V c).after 2 t = iblk V c 2 t := by dsimp only [dat]
theorem after_x (c : Dev nD) (t : Fin cfg3.N) : (dat V c).after 3 t = (outsAt V c t.val t.isLt).1 := by dsimp only [dat]
theorem after_a (c : Dev nD) (t : Fin cfg3.N) : (dat V c).after 4 t = (outsAt V c t.val t.isLt).2 := by dsimp only [dat]
theorem before_asg (c : Dev nD) (t : Fin cfg3.N) (d) : (dat V c).before 0 t d = iblk V c 0 t :=
  before_asg_of V (dat V c) (A_eq V c 0) (after_asg V c) t d
theorem before_emb (c : Dev nD) (t : Fin cfg3.N) (d) : (dat V c).before 1 t d = iblk V c 1 t :=
  before_emb_of V (dat V c) (A_eq V c 1) (after_emb V c) t d
theorem before_hop (c : Dev nD) (t : Fin cfg3.N) (d) : (dat V c).before 2 t d = iblk V c 2 t :=
  before_hop_of V (dat V c) (A_eq V c 2) (after_hop V c) t d

/-- At a core's second point each output's buffer holds what the body left at the first: it was not written back between. -/
theorem before_x_next (c : Dev nD) (t : Fin cfg3.N) (h0 : ¬t.val % 2 = 0) (d) :
    (dat V c).before 3 t d = (outsAt V c (t.val - 1) (Nat.lt_of_le_of_lt (Nat.sub_le _ _) t.isLt)).1 := by
  have hN : t.val < 4 := lt_of_lt_of_eq t.isLt (show cfg3.N = 4 from N_3)
  rw [Dat.before_out_kept _ 3 rfl t (by omega) (Bool.eq_false_iff.mpr fun h => by have := (flush3_3 _).mp h; dsimp only at this; omega)
    (fun _ => rfl) (fun _ _ => rfl)]
  dsimp only [dat]
theorem before_a_next (c : Dev nD) (t : Fin cfg3.N) (h0 : ¬t.val % 2 = 0) (d) :
    (dat V c).before 4 t d = (outsAt V c (t.val - 1) (Nat.lt_of_le_of_lt (Nat.sub_le _ _) t.isLt)).2 := by
  have hN : t.val < 4 := lt_of_lt_of_eq t.isLt (show cfg3.N = 4 from N_3)
  rw [Dat.before_out_kept _ 4 rfl t (by omega) (Bool.eq_false_iff.mpr fun h => by have := (flush3_4 _).mp h; dsimp only at this; omega)
    (fun _ => rfl) (fun _ _ => rfl)]
  dsimp only [dat]

/-! ## The body obligation -/

def bodyPre (c : Dev nD) (t : Fin cfg3.N) : sProp 𝕄 :=
  iprop((dat V c).Φ t.castSucc ∗ (dat V c).owesAt () t.castSucc
    ∗ (∃ d, owns (c : Thread nD τ) (mAsg t) fullShare ((dat V c).before 0 t d))
    ∗ (∃ d, owns (c : Thread nD τ) (mEmb t) fullShare ((dat V c).before 1 t d))
    ∗ (∃ d, owns (c : Thread nD τ) (mHop t) fullShare ((dat V c).before 2 t d))
    ∗ (∃ d, owns (c : Thread nD τ) (mX t) fullShare ((dat V c).before 3 t d))
    ∗ (∃ d, owns (c : Thread nD τ) (mA t) fullShare ((dat V c).before 4 t d)))

def bodyPost (c : Dev nD) (t : Fin cfg3.N) : sProp 𝕄 :=
  iprop((dat V c).Φ t.succ ∗ (dat V c).owesAt () t.succ
    ∗ owns (c : Thread nD τ) (mAsg t) fullShare ((dat V c).after 0 t)
    ∗ owns (c : Thread nD τ) (mEmb t) fullShare ((dat V c).after 1 t)
    ∗ owns (c : Thread nD τ) (mHop t) fullShare ((dat V c).after 2 t)
    ∗ owns (c : Thread nD τ) (mX t) fullShare ((dat V c).after 3 t)
    ∗ owns (c : Thread nD τ) (mA t) fullShare ((dat V c).after 4 t))

set_option maxHeartbeats 4800000 in
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_asg, before_emb, before_hop]
  rw [show (dat V c).Φ t.succ = (dat V c).Φ t.castSucc from rfl,
    show (dat V c).owesAt () t.succ = (dat V c).owesAt () t.castSucc from rfl,
    after_asg, after_emb, after_hop, after_x, after_a]
  have hN : t.val < 4 := lt_of_lt_of_eq t.isLt (show cfg3.N = 4 from N_3)
  by_cases h0 : t.val % 2 = 0
  · rw [outsAt_first V c t h0]
    unfold xFirst aFirst; (try dsimp only)
    iintro ⟨HΦ, Ho, ⟨%d0, H0⟩, ⟨%d1, H1⟩, ⟨%d2, H2⟩, ⟨%d3, H3⟩, ⟨%d4, H4⟩⟩
    iapply ((runFirst c (grid3.coords t) _ _ _ _ _ _ _ _ _ _ ((isFirst_iff t).mpr h0) (iblk V c 0 t) (iblk V c 1 t) (iblk V c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (coverX_first c _ _ _ _ _ _ _ _ _ _ _ _ _ _ _)
    unfold owns; iexists _; isplitr
    swap; · iexact H4
    ipureintro; exact View.read_writes_of_cover _ _ _ _ _ (coverA_first c _ _ _ _ _ _ _ _ _ _ _ _ _ _ _)
  · rw [outsAt_next V c t h0]
    simp only [before_x_next V c t h0, before_a_next V c t h0]
    unfold xNext aNext; (try dsimp only)
    iintro ⟨HΦ, Ho, ⟨%d0, H0⟩, ⟨%d1, H1⟩, ⟨%d2, H2⟩, ⟨%d3, H3⟩, ⟨%d4, H4⟩⟩
    iapply ((runNext c (grid3.coords t) _ _ _ _ _ _ _ _ _ _ (fun h => h0 ((isFirst_iff t).mp h)) (iblk V c 0 t) (iblk V c 1 t) (iblk V c 2 t) _ _).2.2 Set.univ _)
    isplitl [H0]; · iexact H0
    isplitl [H1]; · iexact H1
    isplitl [H2]; · iexact H2
    isplitl [H3]; · iexact H3
    isplitl [H4]; · iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (coverX_next c _ _ _ _ _ _ _ _ _ _ _ _ _ _ _ _ _)
    unfold owns; iexists _; isplitr
    swap; · iexact H4
    ipureintro; exact View.read_writes_of_cover _ _ _ _ _ (coverA_next c _ _ _ _ _ _ _ _ _ _ _ _ _ _ _ _ _)

/-- The body obligation of the region's pipeline, at every point. -/
theorem body_obligation (c : Dev nD) : BodyObligation (dat (F := F) V c) (defs₀ (F := F)) Variants.none () Set.univ := fun t => by
  rw [bigSep_W3, bigSep_W3]
  exact sound_body V c t

end Cert.Kernel.Pool

end
-- ==== Proof.K.Run.lean ====
/-
  The run of the kernel's @main, read at any float instance: a degree pass, four host operations, the propagation pass, the hop
  pass, the pooling pass, four host operations. The buffer contents at each boundary are a fold from the launch
  memory: a host stretch applies its operations, a region replaces its output arrays by what its write-backs
  leave. Over that fold every weakly fair execution terminates, and the final memory holds every unscoped buffer
  at the last valuation.
-/
import proofs.«110719_j498216206442_2_alg».proof.Proof.K.DegBody
import proofs.«110719_j498216206442_2_alg».proof.Proof.K.EmbedBody
import proofs.«110719_j498216206442_2_alg».proof.Proof.K.EmbedArrays
import proofs.«110719_j498216206442_2_alg».proof.Proof.K.HopBody
import proofs.«110719_j498216206442_2_alg».proof.Proof.K.Pool
import Idealize.ShloMosaic.Lib.Pipeline.RegionsLoop

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After the degree pass: its two outputs at what its write-backs leave. -/
def W1 (c : Dev nD) : Valuation τ sig (Elt F) :=
  Pipeline.withArrays spec0 c (W0 m ρ c) fun w => (Deg.dat (V0 m ρ) c).arrAt w cfg0.N
theorem W1_arr (c : Dev nD) (w : Fin cfg0.W) :
    W1 m ρ c (Proc.devRef .tc (Pipeline.arrRef spec0 w)) = (Deg.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (Deg.dat (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the four host operations between the first two passes. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- After the propagation pass: its two outputs at what its write-backs leave, every other buffer as entered. -/
def W3 (c : Dev nD) : Valuation τ sig (Elt F) :=
  Function.update (Function.update (W2 m ρ c) main_v5_0 ((Embed.dat (V2 m ρ) c).arrAt 9 cfg1.N)) main_v5_1 ((Embed.dat (V2 m ρ) c).arrAt 10 cfg1.N)
abbrev V3 : (c : Dev nD) → (b : Ref sig .tc) → Buf (Elt F) ((c : Thread nD τ).loc b) := fun c b => W3 m ρ c b

/-- After the hop pass. -/
def W4 (c : Dev nD) : Valuation τ sig (Elt F) :=
  Pipeline.withArrays spec2 c (W3 m ρ c) fun w => (Hop.dat (V3 m ρ) c).arrAt w cfg2.N
theorem W4_arr (c : Dev nD) (w : Fin cfg2.W) :
    W4 m ρ c (Proc.devRef .tc (Pipeline.arrRef spec2 w)) = (Hop.dat (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (Hop.dat (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After the pooling pass. -/
def W5 (c : Dev nD) : Valuation τ sig (Elt F) :=
  Pipeline.withArrays spec3 c (W4 m ρ c) fun w => (Pool.dat (V4 m ρ) c).arrAt w cfg3.N
theorem W5_arr (c : Dev nD) (w : Fin cfg3.W) :
    W5 m ρ c (Proc.devRef .tc (Pipeline.arrRef spec3 w)) = (Pool.dat (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
abbrev V5 : (c : Dev nD) → (b : Ref sig .tc) → Buf (Elt F) ((c : Thread nD τ).loc b) := fun c b => W5 m ρ c b
theorem hF3 (c : Dev nD) (w : Fin cfg3.W) : (Pool.dat (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

/-- After the four host operations at the end. -/
abbrev W6 : Dev nD → Valuation τ sig (Elt F) := fun c => StableHlo.after hostOps4 (W5 m ρ c)

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => Deg.dat (V0 m ρ) c
  | ⟨1, _⟩ => fun c => Embed.dat (V2 m ρ) c
  | ⟨2, _⟩ => fun c => Hop.dat (V3 m ρ) c
  | ⟨3, _⟩ => fun c => Pool.dat (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh : (hostOps1 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The degree pass as a segment -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Deg.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Deg.Phi_in (V0 m ρ) c)
    unfold Pipeline.ΦA
    iintro ⟨Hp, -, Hr⟩
    isplitl [Hr]; · iexact Hr
    iexact Hp
  hout c := by
    rw [Pipeline.ownSems0_none]
    refine BIBase.Entails.trans (Deg.Phi_out (V0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The propagation pass as a segment -/

theorem V3_emb (c : Dev nD) : V3 m ρ c main_v5_0 = (Embed.dat (V2 m ρ) c).arrAt 9 cfg1.N := by
  show W3 m ρ c (Proc.devRef .tc main_v5_0) = _
  unfold W3
  rw [Function.update_of_ne (StableHlo.devRef_ne_of_ne (by decide) : (Proc.devRef .tc main_v5_0 : DevRef τ sig) ≠ Proc.devRef .tc main_v5_1)]
  exact Function.update_self ..
theorem V3_asg (c : Dev nD) : V3 m ρ c main_v5_1 = (Embed.dat (V2 m ρ) c).arrAt 10 cfg1.N := by
  show W3 m ρ c (Proc.devRef .tc main_v5_1) = _
  unfold W3
  exact Function.update_self ..
theorem V3_of_ne (c : Dev nD) (b : Ref sig .tc) (h0 : b ≠ main_v5_0) (h1 : b ≠ main_v5_1) : V3 m ρ c b = V2 m ρ c b := by
  show W3 m ρ c (Proc.devRef .tc b) = W2 m ρ c (Proc.devRef .tc b)
  unfold W3
  rw [Function.update_of_ne (StableHlo.devRef_ne_of_ne h1 : (Proc.devRef .tc b : DevRef τ sig) ≠ Proc.devRef .tc main_v5_1),
    Function.update_of_ne (StableHlo.devRef_ne_of_ne h0 : (Proc.devRef .tc b : DevRef τ sig) ≠ Proc.devRef .tc main_v5_0)]

/-- After the propagation pass every array of its windows is where the boundary's contents has it: an input as entered, the two outputs at what the write-backs leave. -/
theorem hF1 (c : Dev nD) : ∀ w : Fin cfg1.W, (Embed.dat (V2 m ρ) c).arrAt w cfg1.N = V3 m ρ c (Pipeline.arrRef spec1 w)
  | ⟨0, _⟩ => ((Embed.dat (V2 m ρ) c).arrAt_in 0 rfl _).trans ((Embed.A_eq (V2 m ρ) c 0).trans (V3_of_ne m ρ c _ (by decide) (by decide)).symm)
  | ⟨1, _⟩ => ((Embed.dat (V2 m ρ) c).arrAt_in 1 rfl _).trans ((Embed.A_eq (V2 m ρ) c 1).trans (V3_of_ne m ρ c _ (by decide) (by decide)).symm)
  | ⟨2, _⟩ => ((Embed.dat (V2 m ρ) c).arrAt_in 2 rfl _).trans ((Embed.A_eq (V2 m ρ) c 2).trans (V3_of_ne m ρ c _ (by decide) (by decide)).symm)
  | ⟨3, _⟩ => ((Embed.dat (V2 m ρ) c).arrAt_in 3 rfl _).trans ((Embed.A_eq (V2 m ρ) c 3).trans (V3_of_ne m ρ c _ (by decide) (by decide)).symm)
  | ⟨4, _⟩ => ((Embed.dat (V2 m ρ) c).arrAt_in 4 rfl _).trans ((Embed.A_eq (V2 m ρ) c 4).trans (V3_of_ne m ρ c _ (by decide) (by decide)).symm)
  | ⟨5, _⟩ => ((Embed.dat (V2 m ρ) c).arrAt_in 5 rfl _).trans ((Embed.A_eq (V2 m ρ) c 5).trans (V3_of_ne m ρ c _ (by decide) (by decide)).symm)
  | ⟨6, _⟩ => ((Embed.dat (V2 m ρ) c).arrAt_in 6 rfl _).trans ((Embed.A_eq (V2 m ρ) c 6).trans (V3_of_ne m ρ c _ (by decide) (by decide)).symm)
  | ⟨7, _⟩ => ((Embed.dat (V2 m ρ) c).arrAt_in 7 rfl _).trans ((Embed.A_eq (V2 m ρ) c 7).trans (V3_of_ne m ρ c _ (by decide) (by decide)).symm)
  | ⟨8, _⟩ => ((Embed.dat (V2 m ρ) c).arrAt_in 8 rfl _).trans ((Embed.A_eq (V2 m ρ) c 8).trans (V3_of_ne m ρ c _ (by decide) (by decide)).symm)
  | ⟨9, _⟩ => (V3_emb m ρ c).symm
  | ⟨10, _⟩ => (V3_asg m ρ c).symm

set_option backward.isDefEq.respectTransparency.types false in
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (Embed.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit : (unscopedBufs c (V2 m ρ c) : sProp 𝕄) ⊢ iprop((pdats m ρ 1 c).arrays ((pdats m ρ 1 c).arrAt · 0) ∗ Pipeline.unscopedRest spec1 c (V2 m ρ c)) := by
      rw [Pipeline.unscopedBufs_split₀ (Pipeline.pin (pcfgs (F := F)) adm) 1 winFacts₀1.arr_unscoped c (V2 m ρ c)]
      exact sep_mono (Embed.arrays_of_arrBufs (V2 m ρ) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Embed.Phi_in (V2 m ρ) c)
    unfold Pipeline.ΦA
    iintro ⟨Hp, -, Hr⟩
    isplitl [Hr]; · iexact Hr
    iexact Hp
  hout c := by
    rw [Pipeline.ownSems0_none]
    refine BIBase.Entails.trans (Embed.Phi_out (V2 m ρ) c) ?_
    unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (V2 m ρ c)) ⊢ (unscopedBufs c (V3 m ρ c) : sProp 𝕄) := by
      rw [Pipeline.unscopedBufs_split₀ (Pipeline.pin (pcfgs (F := F)) adm) 1 winFacts₀1.arr_unscoped c (V3 m ρ c)]
      refine sep_mono (Embed.arrBufs_of_arrays (V2 m ρ) c (V3 m ρ c) (hF1 m ρ c)) (Entails.of_eq ?_)
      unfold Pipeline.unscopedRest
      exact bigSep_congr fun b hb => by
        rw [V3_of_ne m ρ c b (fun e => (Finset.mem_sdiff.mp hb).2 (Finset.mem_image.mpr ⟨9, Finset.mem_univ _, e.symm⟩))
          (fun e => (Finset.mem_sdiff.mp hb).2 (Finset.mem_image.mpr ⟨10, Finset.mem_univ _, e.symm⟩))]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The hop pass as a segment -/

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Hop.body_obligation (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Hop.Phi_in (V3 m ρ) c)
    unfold Pipeline.ΦA
    iintro ⟨Hp, -, Hr⟩
    isplitl [Hr]; · iexact Hr
    iexact Hp
  hout c := by
    rw [Pipeline.ownSems0_none]
    refine BIBase.Entails.trans (Hop.Phi_out (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The pooling pass as a segment -/

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (Pool.body_obligation (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .region (reg2 m ρ),
    .region (reg3 m ρ),
    .host (hseg hostOps4 hostOps4_sub hostOps4_fresh (W5 m ρ)) ]
theorem main_run (c : Dev nD) : main (F := F) c = Pipeline.Seg.run (segs m ρ) := (main_chain c).trans (by chain_rfl)

/-- The last thread state without the `owes`: every unscoped buffer at the last valuation, the generator register at some state. -/
abbrev Tₙ (c : Dev nD) : sProp 𝕄 := iprop(StableHlo.held (c : Thread nD τ) (Pipeline.ucRefs τ sig) (W6 m ρ c) ∗ ∃ r, prngReg c r)

set_option backward.isDefEq.respectTransparency.types false in
/-- THE RUN: from any memory with zero counters every weakly fair execution of @main on the TensorCores terminates,
    nothing faulting, and every final state holds every unscoped buffer at the last valuation of the fold. -/
theorem run : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => (show iprop(StableHlo.held (c : Thread nD τ) (Pipeline.ucRefs τ sig) (W6 m ρ c) ∗ R c)
        ⊢ iprop(Tₙ m ρ c ∗ ∃ W, owes (c : Thread nD τ) (0 : CellTallies nD τ sig Unit) W) from by
      iintro ⟨Hh, Hp, HO⟩
      isplitl [Hh Hp]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.Kernel.Run

end
-- ==== Proof.K.Frame.lean ====
/-
  The frame of the kernel: through the fold of buffer contents every argument array reaches the end as
  launched, so the run's final memory holds the arguments unchanged.
-/
import proofs.«110719_j498216206442_2_alg».proof.Proof.K.Run
import proofs.«110719_j498216206442_2_alg».proof.Proof.Gen.Kernel.Regions

set_option maxRecDepth 16384

noncomputable section

namespace Cert.Kernel.FrameOf

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]
variable (m : (ℓ : Loc nD τ sig) → Buf (Elt F) ℓ) (ρ : Dev nD → PrngReg)

/-- `main_arg0` reaches the end as launched: no host operation writes it and every region only reads it or leaves it alone. -/
theorem W6_arg0 (c : Dev nD) : Run.W6 m ρ c (Proc.devRef .tc main_arg0) = m ((c : Thread nD τ).loc main_arg0) :=
  calc Run.W6 m ρ c (Proc.devRef .tc main_arg0)
    _ = Run.W5 m ρ c (Proc.devRef .tc main_arg0) := StableHlo.after_of_writes_sub Gen.hostOps4 (Run.W5 m ρ c) Gen.hostOps4_writes (r := main_arg0) (by decide)
    _ = Run.W4 m ρ c (Proc.devRef .tc main_arg0) := Run.W5_of_ne m ρ c main_arg0 (by decide)
    _ = Run.W3 m ρ c (Proc.devRef .tc main_arg0) := Run.W4_of_ne m ρ c main_arg0 (by decide)
    _ = Run.W2 m ρ c (Proc.devRef .tc main_arg0) := Run.V3_of_ne m ρ c main_arg0 (by decide) (by decide)
    _ = Run.W1 m ρ c (Proc.devRef .tc main_arg0) := StableHlo.after_of_writes_sub Gen.hostOps1 (Run.W1 m ρ c) Gen.hostOps1_writes (r := main_arg0) (by decide)
    _ = Run.W0 m ρ c (Proc.devRef .tc main_arg0) := Run.W1_of_ne m ρ c main_arg0 (by decide)
    _ = m ((c : Thread nD τ).loc main_arg0) := rfl

/-- `main_arg1` reaches the end as launched: no host operation writes it and every region only reads it or leaves it alone. -/
theorem W6_arg1 (c : Dev nD) : Run.W6 m ρ c (Proc.devRef .tc main_arg1) = m ((c : Thread nD τ).loc main_arg1) :=
  calc Run.W6 m ρ c (Proc.devRef .tc main_arg1)
    _ = Run.W5 m ρ c (Proc.devRef .tc main_arg1) := StableHlo.after_of_writes_sub Gen.hostOps4 (Run.W5 m ρ c) Gen.hostOps4_writes (r := main_arg1) (by decide)
    _ = Run.W4 m ρ c (Proc.devRef .tc main_arg1) := Run.W5_of_ne m ρ c main_arg1 (by decide)
    _ = Run.W3 m ρ c (Proc.devRef .tc main_arg1) := Run.W4_of_ne m ρ c main_arg1 (by decide)
    _ = Run.W2 m ρ c (Proc.devRef .tc main_arg1) := Run.V3_of_ne m ρ c main_arg1 (by decide) (by decide)
    _ = Run.W1 m ρ c (Proc.devRef .tc main_arg1) := StableHlo.after_of_writes_sub Gen.hostOps1 (Run.W1 m ρ c) Gen.hostOps1_writes (r := main_arg1) (by decide)
    _ = Run.W0 m ρ c (Proc.devRef .tc main_arg1) := (Run.W1_arr m ρ c 0).trans (((Deg.dat (Run.V0 m ρ) c).arrAt_in 0 rfl _).trans (Deg.A_eq (Run.V0 m ρ) c 0))
    _ = m ((c : Thread nD τ).loc main_arg1) := rfl

/-- `main_arg2` reaches the end as launched: no host operation writes it and every region only reads it or leaves it alone. -/
theorem W6_arg2 (c : Dev nD) : Run.W6 m ρ c (Proc.devRef .tc main_arg2) = m ((c : Thread nD τ).loc main_arg2) :=
  calc Run.W6 m ρ c (Proc.devRef .tc main_arg2)
    _ = Run.W5 m ρ c (Proc.devRef .tc main_arg2) := StableHlo.after_of_writes_sub Gen.hostOps4 (Run.W5 m ρ c) Gen.hostOps4_writes (r := main_arg2) (by decide)
    _ = Run.W4 m ρ c (Proc.devRef .tc main_arg2) := Run.W5_of_ne m ρ c main_arg2 (by decide)
    _ = Run.W3 m ρ c (Proc.devRef .tc main_arg2) := Run.W4_of_ne m ρ c main_arg2 (by decide)
    _ = Run.W2 m ρ c (Proc.devRef .tc main_arg2) := Run.V3_of_ne m ρ c main_arg2 (by decide) (by decide)
    _ = Run.W1 m ρ c (Proc.devRef .tc main_arg2) := StableHlo.after_of_writes_sub Gen.hostOps1 (Run.W1 m ρ c) Gen.hostOps1_writes (r := main_arg2) (by decide)
    _ = Run.W0 m ρ c (Proc.devRef .tc main_arg2) := Run.W1_of_ne m ρ c main_arg2 (by decide)
    _ = m ((c : Thread nD τ).loc main_arg2) := rfl

/-- `main_arg3` reaches the end as launched: no host operation writes it and every region only reads it or leaves it alone. -/
theorem W6_arg3 (c : Dev nD) : Run.W6 m ρ c (Proc.devRef .tc main_arg3) = m ((c : Thread nD τ).loc main_arg3) :=
  calc Run.W6 m ρ c (Proc.devRef .tc main_arg3)
    _ = Run.W5 m ρ c (Proc.devRef .tc main_arg3) := StableHlo.after_of_writes_sub Gen.hostOps4 (Run.W5 m ρ c) Gen.hostOps4_writes (r := main_arg3) (by decide)
    _ = Run.W4 m ρ c (Proc.devRef .tc main_arg3) := Run.W5_of_ne m ρ c main_arg3 (by decide)
    _ = Run.W3 m ρ c (Proc.devRef .tc main_arg3) := Run.W4_of_ne m ρ c main_arg3 (by decide)
    _ = Run.W2 m ρ c (Proc.devRef .tc main_arg3) := Run.V3_of_ne m ρ c main_arg3 (by decide) (by decide)
    _ = Run.W1 m ρ c (Proc.devRef .tc main_arg3) := StableHlo.after_of_writes_sub Gen.hostOps1 (Run.W1 m ρ c) Gen.hostOps1_writes (r := main_arg3) (by decide)
    _ = Run.W0 m ρ c (Proc.devRef .tc main_arg3) := Run.W1_of_ne m ρ c main_arg3 (by decide)
    _ = m ((c : Thread nD τ).loc main_arg3) := rfl

/-- `main_arg4` reaches the end as launched: no host operation writes it and every region only reads it or leaves it alone. -/
theorem W6_arg4 (c : Dev nD) : Run.W6 m ρ c (Proc.devRef .tc main_arg4) = m ((c : Thread nD τ).loc main_arg4) :=
  calc Run.W6 m ρ c (Proc.devRef .tc main_arg4)
    _ = Run.W5 m ρ c (Proc.devRef .tc main_arg4) := StableHlo.after_of_writes_sub Gen.hostOps4 (Run.W5 m ρ c) Gen.hostOps4_writes (r := main_arg4) (by decide)
    _ = Run.W4 m ρ c (Proc.devRef .tc main_arg4) := Run.W5_of_ne m ρ c main_arg4 (by decide)
    _ = Run.W3 m ρ c (Proc.devRef .tc main_arg4) := Run.W4_of_ne m ρ c main_arg4 (by decide)
    _ = Run.W2 m ρ c (Proc.devRef .tc main_arg4) := Run.V3_of_ne m ρ c main_arg4 (by decide) (by decide)
    _ = Run.W1 m ρ c (Proc.devRef .tc main_arg4) := StableHlo.after_of_writes_sub Gen.hostOps1 (Run.W1 m ρ c) Gen.hostOps1_writes (r := main_arg4) (by decide)
    _ = Run.W0 m ρ c (Proc.devRef .tc main_arg4) := Run.W1_of_ne m ρ c main_arg4 (by decide)
    _ = m ((c : Thread nD τ).loc main_arg4) := rfl

/-- `main_arg5` reaches the end as launched: no host operation writes it and every region only reads it or leaves it alone. -/
theorem W6_arg5 (c : Dev nD) : Run.W6 m ρ c (Proc.devRef .tc main_arg5) = m ((c : Thread nD τ).loc main_arg5) :=
  calc Run.W6 m ρ c (Proc.devRef .tc main_arg5)
    _ = Run.W5 m ρ c (Proc.devRef .tc main_arg5) := StableHlo.after_of_writes_sub Gen.hostOps4 (Run.W5 m ρ c) Gen.hostOps4_writes (r := main_arg5) (by decide)
    _ = Run.W4 m ρ c (Proc.devRef .tc main_arg5) := Run.W5_of_ne m ρ c main_arg5 (by decide)
    _ = Run.W3 m ρ c (Proc.devRef .tc main_arg5) := Run.W4_of_ne m ρ c main_arg5 (by decide)
    _ = Run.W2 m ρ c (Proc.devRef .tc main_arg5) := Run.V3_of_ne m ρ c main_arg5 (by decide) (by decide)
    _ = Run.W1 m ρ c (Proc.devRef .tc main_arg5) := StableHlo.after_of_writes_sub Gen.hostOps1 (Run.W1 m ρ c) Gen.hostOps1_writes (r := main_arg5) (by decide)
    _ = Run.W0 m ρ c (Proc.devRef .tc main_arg5) := Run.W1_of_ne m ρ c main_arg5 (by decide)
    _ = m ((c : Thread nD τ).loc main_arg5) := rfl

/-- Every weakly fair execution of @main terminates, nothing faulting, with the six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (Run.mem_uc main_arg0 (by decide))).trans (W6_arg0 m ρ c),
     (h c _ (Run.mem_uc main_arg1 (by decide))).trans (W6_arg1 m ρ c),
     (h c _ (Run.mem_uc main_arg2 (by decide))).trans (W6_arg2 m ρ c),
     (h c _ (Run.mem_uc main_arg3 (by decide))).trans (W6_arg3 m ρ c),
     (h c _ (Run.mem_uc main_arg4 (by decide))).trans (W6_arg4 m ρ c),
     (h c _ (Run.mem_uc main_arg5 (by decide))).trans (W6_arg5 m ρ c)⟩) (Run.run m ρ)

end Cert.Kernel.FrameOf

end
-- ==== Proof.KI.DegBase.lean ====
/-
  Region 0 of the idealized kernel (the degree pass): what its runs are stated over. The body adds, at every
  grid point (i, k), the lane sums of the 1024×1024 block (i, k) of the adjacency matrix into a 1024×1 scratch
  column (reset at k = 0), copies the block to the second output, and at k = 7 stores
  where(acc + 1 > 0, rsqrt(acc + 1), 0), broadcast along 128 lanes, into the first output's block (i, 0).
  Here: the branch conditions in closed form over the 64 points, where the first output is idle, the
  memrefs the pipeline hands the body at a point, and the region invariant split at the scratch column.
-/
import proofs.«110719_j498216206442_2_alg».proof.Proof.Gen.KernelIdeal.Launch
import proofs.«110719_j498216206442_2_alg».proof.Proof.Gen.KernelIdeal.Skeleton
import proofs.«110719_j498216206442_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Deg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions over the grid -/

/-- The reset branch is taken: the reduction coordinate k is 0. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)

/-- The finishing branch is taken: k is 7. -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

theorem live_in : ∀ t : Fin cfg0.N, cfg0.idle 0 (grid0.coords t) = false := by decide +kernel
theorem live_copy : ∀ t : Fin cfg0.N, cfg0.idle 2 (grid0.coords t) = false := by decide +kernel
theorem idle_out : ∀ t : Fin cfg0.N, ¬isLast (grid0.coords t) → cfg0.idle 1 (grid0.coords t) = true := by decide +kernel
theorem noFlush_out : ∀ t : Fin cfg0.N, ¬isLast (grid0.coords t) → (cfg0.win 1).flush t = false := by decide +kernel
theorem live_out : ∀ t : Fin cfg0.N, isLast (grid0.coords t) → cfg0.idle 1 (grid0.coords t) = false := by decide +kernel

/-! ## The memrefs at a point -/

abbrev viewOut : View sig .tc .vmem S1024x128 .f32 := (Memref.whole cc0_stg1_0 : Memref sig .tc .vmem S1024x128 .f32).view
abbrev viewCopy : View sig .tc .vmem S1024x1024 .bf16 := (Memref.whole cc0_stg2_0 : Memref sig .tc .vmem S1024x1024 .bf16).view
abbrev mIn (t : Fin cfg0.N) : Memref sig .tc .vmem S1024x1024 .f32 := win0_0.stage (cfg0.slots t 0)
abbrev hIn (t : Fin cfg0.N) : (mIn t).IsWhole := hstage0_0 ((cfg0.slots t 0).cast nbuf0_0)
abbrev mOut (t : Fin cfg0.N) : Memref sig .tc .vmem S1024x128 .f32 := win0_1.stage (cfg0.slots t 1)
abbrev hOut (t : Fin cfg0.N) : (mOut t).IsWhole := hstage0_1 ((cfg0.slots t 1).cast nbuf0_1)
abbrev mCopy (t : Fin cfg0.N) : Memref sig .tc .vmem S1024x1024 .bf16 := win0_2.stage (cfg0.slots t 2)
abbrev hCopy (t : Fin cfg0.N) : (mCopy t).IsWhole := hstage0_2 ((cfg0.slots t 2).cast nbuf0_2)
/-- The scratch column. -/
abbrev mAcc : Memref sig .tc .vmem S1024x1 .f32 := Memref.whole cc0_scratch0
abbrev viewAcc : View sig .tc .vmem S1024x1 .f32 := mAcc.view

/-- The class invariant with the scratch column as a memref owned at some contents. -/
theorem PhiA_eq (c : Dev nD) :
    (Pipeline.ΦA spec0 c : sProp 𝕄)
      = iprop(iprop((∃ d, owns (c : Thread nD τ) mAcc fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [mAcc, owns_whole]; try rfl

end Cert.KernelIdeal.Deg

end
-- ==== Proof.KI.DegRuns.lean ====
/-
  Region 0 (the degree pass): the body's run in each of its three control cases. In every case the input
  block is left as found and the copy output and the scratch column end with the pieces the stores wrote;
  the first output is handed back untouched except at k = 7, where it too ends with its one piece.
-/
import proofs.«110719_j498216206442_2_alg».proof.Proof.KI.DegBase

set_option maxRecDepth 16384

noncomputable section

namespace Cert.KernelIdeal.Deg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- k = 0: the scratch column, found at anything, is reset and then receives the block's lane sums. -/
noncomputable def runFirst (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x1024 .bf16) (harg4 : arg4.IsWhole) (arg5 : Memref sig .tc .vmem S1024x1 .f32) (harg5 : arg5.IsWhole) (hc0 : isFirst i) (hc1 : ¬isLast i)
    (x0 : Vec F S1024x1024 .f32) :
    Σ' (L2 : List (View.Piece (Elt F) S1024x1024 .bf16)), { LS : List (View.Piece (Elt F) S1024x1 .f32) //
      ∀ (xi1 : Vec F S1024x128 .f32) (E : Set ℕ) (K : PUnit → sProp 𝕄),
        iprop(owns (c : Thread nD τ) arg2 fullShare x0 ∗ owns (c : Thread nD τ) arg3 fullShare xi1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare xi1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS)) -∗ K ⟨⟩))
          ⊢ wp frame (wpE (defs₀ (F := F)) Variants.none c none) E (cc0__deg_kernel i arg2 harg2 arg3 harg3 arg4 harg4 arg5 harg5) K } := by
  refine ⟨?_, ?_, fun xi1 E K => ?run⟩
  case run =>
    simp only [cc0__deg_kernel_eq_skeleton]; unfold cc0__deg_kernel_skel
    unfold owns
    iintro ⟨⟨%f0, %hf0, H0⟩, ⟨%f1, %hf1, H1⟩, ⟨%d2, %f2, -, H2⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

set_option maxHeartbeats 4000000 in
/-- 0 < k < 7: the scratch column, found at what the point before left, receives the block's lane sums. -/
noncomputable def runMid (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x1024 .bf16) (harg4 : arg4.IsWhole) (arg5 : Memref sig .tc .vmem S1024x1 .f32) (harg5 : arg5.IsWhole) (hc0 : ¬isFirst i) (hc1 : ¬isLast i)
    (x0 : Vec F S1024x1024 .f32) (xs : Vec F S1024x1 .f32) :
    Σ' (L2 : List (View.Piece (Elt F) S1024x1024 .bf16)), { LS : List (View.Piece (Elt F) S1024x1 .f32) //
      ∀ (xi1 : Vec F S1024x128 .f32) (E : Set ℕ) (K : PUnit → sProp 𝕄),
        iprop(owns (c : Thread nD τ) arg2 fullShare x0 ∗ owns (c : Thread nD τ) arg3 fullShare xi1 ∗ (∃ d, owns (c : Thread nD τ) arg4 fullShare d) ∗ owns (c : Thread nD τ) arg5 fullShare xs
            ∗ (iprop(owns (c : Thread nD τ) arg2 fullShare x0 ∗ owns (c : Thread nD τ) arg3 fullShare xi1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS)) -∗ K ⟨⟩))
          ⊢ wp frame (wpE (defs₀ (F := F)) Variants.none c none) E (cc0__deg_kernel i arg2 harg2 arg3 harg3 arg4 harg4 arg5 harg5) K } := by
  refine ⟨?_, ?_, fun xi1 E K => ?run⟩
  case run =>
    simp only [cc0__deg_kernel_eq_skeleton]; unfold cc0__deg_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

set_option maxHeartbeats 4000000 in
/-- k = 7: after the last lane sums the first output receives where(acc + 1 > 0, rsqrt(acc + 1), 0) along its lanes. -/
noncomputable def runLast (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x1024 .bf16) (harg4 : arg4.IsWhole) (arg5 : Memref sig .tc .vmem S1024x1 .f32) (harg5 : arg5.IsWhole) (hc0 : ¬isFirst i) (hc1 : isLast i)
    (x0 : Vec F S1024x1024 .f32) (xs : Vec F S1024x1 .f32) :
    Σ' (L1 : List (View.Piece (Elt F) S1024x128 .f32)) (L2 : List (View.Piece (Elt F) S1024x1024 .bf16)), { LS : List (View.Piece (Elt F) S1024x1 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ owns (c : Thread nD τ) arg5 fullShare xs
            ∗ (iprop(owns (c : Thread nD τ) arg2 fullShare x0
                ∗ (∃ f, arg3.view.loc (c : Thread nD τ) ↦[arg3.view.set]{fullShare} arg3.view.writes (Elt F) f L1)
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS)) -∗ K ⟨⟩))
          ⊢ wp frame (wpE (defs₀ (F := F)) Variants.none c none) E (cc0__deg_kernel i arg2 harg2 arg3 harg3 arg4 harg4 arg5 harg5) K } := by
  refine ⟨?_, ?_, ?_, fun E K => ?run⟩
  case run =>
    simp only [cc0__deg_kernel_eq_skeleton]; unfold cc0__deg_kernel_skel
    unfold owns
    iintro ⟨⟨%f0, %hf0, H0⟩, ⟨%d1, %f1, -, H1⟩, ⟨%d2, %f2, -, H2⟩, ⟨%fs, %hfs, HS⟩, Hk⟩
    obtain rfl := harg2.eq_unread hf0; obtain rfl := harg5.eq_unread hfs
    sl_exec (disch := first | exact hc0 | exact hc1)
    sl_step
    iapply Hk
    isplitl [H0]
    · iexists _; isplitr; · ipureintro; exact harg2.read_unread _
      iexact H0
    isplitl [H1]; · iexists _; iexact H1
    isplitl [H2]; · iexists _; iexact H2
    iexists _; iexact HS

end Cert.KernelIdeal.Deg

end
-- ==== Proof.KI.Deg.lean ====
/-
  Region 0 (the degree pass): what its buffers hold point by point, the proof data of its pipeline, and the body
  obligation. The arrays are read as the region finds them (a parameter `V`, the buffer contents at the region's
  entry). After point t the copy output holds the bf16 reading of block t of the adjacency matrix, the scratch
  column holds the running lane sums of the blocks (i, 0..k), and at k = 7 the first output's block holds
  where(acc + 1 > 0, rsqrt(acc + 1), 0) along its lanes.
-/
import proofs.«110719_j498216206442_2_alg».proof.Proof.KI.DegRuns

set_option maxRecDepth 16384

noncomputable section

namespace Cert.KernelIdeal.Deg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point. -/
theorem before_in_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

section Cases
variable (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x1024 .bf16) (harg4 : arg4.IsWhole) (arg5 : Memref sig .tc .vmem S1024x1 .f32) (harg5 : arg5.IsWhole)

theorem coverCopy_first (hc0 : isFirst i) (hc1 : ¬isLast i) (x0 : Vec F S1024x1024 .f32) (y : S1024x1024.Idx) :
    ∃ pc ∈ (runFirst c i arg2 harg2 arg3 harg3 arg4 harg4 arg5 harg5 hc0 hc1 x0).1, y ∈ pc.1.set :=
  View.cover_of_tiledL (runFirst c i arg2 harg2 arg3 harg3 arg4 harg4 arg5 harg5 hc0 hc1 x0).1 S1024x1024.size (by sl_kernel_rfl) y
theorem coverAcc_first (hc0 : isFirst i) (hc1 : ¬isLast i) (x0 : Vec F S1024x1024 .f32) (y : S1024x1.Idx) :
    ∃ pc ∈ (runFirst c i arg2 harg2 arg3 harg3 arg4 harg4 arg5 harg5 hc0 hc1 x0).2.1, y ∈ pc.1.set :=
  View.cover_of_tiledL (runFirst c i arg2 harg2 arg3 harg3 arg4 harg4 arg5 harg5 hc0 hc1 x0).2.1 S1024x1.size (by sl_kernel_rfl) y
def copyFirst (hc0 : isFirst i) (hc1 : ¬isLast i) (x0 : Vec F S1024x1024 .f32) : Vec F S1024x1024 .bf16 :=
  viewCopy.read (Elt F) (viewCopy.writes (Elt F) viewCopy.junk (runFirst c i arg2 harg2 arg3 harg3 arg4 harg4 arg5 harg5 hc0 hc1 x0).1)
def accFirst (hc0 : isFirst i) (hc1 : ¬isLast i) (x0 : Vec F S1024x1024 .f32) : Vec F S1024x1 .f32 :=
  viewAcc.read (Elt F) (viewAcc.writes (Elt F) viewAcc.junk (runFirst c i arg2 harg2 arg3 harg3 arg4 harg4 arg5 harg5 hc0 hc1 x0).2.1)

theorem coverCopy_mid (hc0 : ¬isFirst i) (hc1 : ¬isLast i) (x0 : Vec F S1024x1024 .f32) (xs : Vec F S1024x1 .f32) (y : S1024x1024.Idx) :
    ∃ pc ∈ (runMid c i arg2 harg2 arg3 harg3 arg4 harg4 arg5 harg5 hc0 hc1 x0 xs).1, y ∈ pc.1.set :=
  View.cover_of_tiledL (runMid c i arg2 harg2 arg3 harg3 arg4 harg4 arg5 harg5 hc0 hc1 x0 xs).1 S1024x1024.size (by sl_kernel_rfl) y
theorem coverAcc_mid (hc0 : ¬isFirst i) (hc1 : ¬isLast i) (x0 : Vec F S1024x1024 .f32) (xs : Vec F S1024x1 .f32) (y : S1024x1.Idx) :
    ∃ pc ∈ (runMid c i arg2 harg2 arg3 harg3 arg4 harg4 arg5 harg5 hc0 hc1 x0 xs).2.1, y ∈ pc.1.set :=
  View.cover_of_tiledL (runMid c i arg2 harg2 arg3 harg3 arg4 harg4 arg5 harg5 hc0 hc1 x0 xs).2.1 S1024x1.size (by sl_kernel_rfl) y
def copyMid (hc0 : ¬isFirst i) (hc1 : ¬isLast i) (x0 : Vec F S1024x1024 .f32) (xs : Vec F S1024x1 .f32) : Vec F S1024x1024 .bf16 :=
  viewCopy.read (Elt F) (viewCopy.writes (Elt F) viewCopy.junk (runMid c i arg2 harg2 arg3 harg3 arg4 harg4 arg5 harg5 hc0 hc1 x0 xs).1)
def accMid (hc0 : ¬isFirst i) (hc1 : ¬isLast i) (x0 : Vec F S1024x1024 .f32) (xs : Vec F S1024x1 .f32) : Vec F S1024x1 .f32 :=
  viewAcc.read (Elt F) (viewAcc.writes (Elt F) viewAcc.junk (runMid c i arg2 harg2 arg3 harg3 arg4 harg4 arg5 harg5 hc0 hc1 x0 xs).2.1)

theorem coverOut_last (hc0 : ¬isFirst i) (hc1 : isLast i) (x0 : Vec F S1024x1024 .f32) (xs : Vec F S1024x1 .f32) (y : S1024x128.Idx) :
    ∃ pc ∈ (runLast c i arg2 harg2 arg3 harg3 arg4 harg4 arg5 harg5 hc0 hc1 x0 xs).1, y ∈ pc.1.set :=
  View.cover_of_tiledL (runLast c i arg2 harg2 arg3 harg3 arg4 harg4 arg5 harg5 hc0 hc1 x0 xs).1 S1024x128.size (by sl_kernel_rfl) y
theorem coverCopy_last (hc0 : ¬isFirst i) (hc1 : isLast i) (x0 : Vec F S1024x1024 .f32) (xs : Vec F S1024x1 .f32) (y : S1024x1024.Idx) :
    ∃ pc ∈ (runLast c i arg2 harg2 arg3 harg3 arg4 harg4 arg5 harg5 hc0 hc1 x0 xs).2.1, y ∈ pc.1.set :=
  View.cover_of_tiledL (runLast c i arg2 harg2 arg3 harg3 arg4 harg4 arg5 harg5 hc0 hc1 x0 xs).2.1 S1024x1024.size (by sl_kernel_rfl) y
theorem coverAcc_last (hc0 : ¬isFirst i) (hc1 : isLast i) (x0 : Vec F S1024x1024 .f32) (xs : Vec F S1024x1 .f32) (y : S1024x1.Idx) :
    ∃ pc ∈ (runLast c i arg2 harg2 arg3 harg3 arg4 harg4 arg5 harg5 hc0 hc1 x0 xs).2.2.1, y ∈ pc.1.set :=
  View.cover_of_tiledL (runLast c i arg2 harg2 arg3 harg3 arg4 harg4 arg5 harg5 hc0 hc1 x0 xs).2.2.1 S1024x1.size (by sl_kernel_rfl) y
def outLast (hc0 : ¬isFirst i) (hc1 : isLast i) (x0 : Vec F S1024x1024 .f32) (xs : Vec F S1024x1 .f32) : Vec F S1024x128 .f32 :=
  viewOut.read (Elt F) (viewOut.writes (Elt F) viewOut.junk (runLast c i arg2 harg2 arg3 harg3 arg4 harg4 arg5 harg5 hc0 hc1 x0 xs).1)
def copyLast (hc0 : ¬isFirst i) (hc1 : isLast i) (x0 : Vec F S1024x1024 .f32) (xs : Vec F S1024x1 .f32) : Vec F S1024x1024 .bf16 :=
  viewCopy.read (Elt F) (viewCopy.writes (Elt F) viewCopy.junk (runLast c i arg2 harg2 arg3 harg3 arg4 harg4 arg5 harg5 hc0 hc1 x0 xs).2.1)
def accLast (hc0 : ¬isFirst i) (hc1 : isLast i) (x0 : Vec F S1024x1024 .f32) (xs : Vec F S1024x1 .f32) : Vec F S1024x1 .f32 :=
  viewAcc.read (Elt F) (viewAcc.writes (Elt F) viewAcc.junk (runLast c i arg2 harg2 arg3 harg3 arg4 harg4 arg5 harg5 hc0 hc1 x0 xs).2.2.1)

end Cases

/-- A placeholder for the first output's buffer at the points where the body stores nothing into it: nothing consults it. -/
def outIdle : Vec F S1024x128 .f32 := viewOut.read (Elt F) (viewOut.writes (Elt F) viewOut.junk [])

/-! ## Point by point -/

/-- What the first output's buffer, the copy output's buffer and the scratch column hold after the body at position `n`. -/
def outsAt (c : Dev nD) : (n : ℕ) → n < cfg0.N → Vec F S1024x128 .f32 × Vec F S1024x1024 .bf16 × Vec F S1024x1 .f32
  | 0, hn => (outIdle,
      copyFirst c (grid0.coords ⟨0, hn⟩) (mIn ⟨0, hn⟩) (hIn ⟨0, hn⟩) (mOut ⟨0, hn⟩) (hOut ⟨0, hn⟩) (mCopy ⟨0, hn⟩) (hCopy ⟨0, hn⟩) mAcc (Memref.isWhole_whole _) ((isFirst_iff ⟨0, hn⟩).mpr (Nat.zero_mod _)) (fun h => (fun h => by (try dsimp only at h); omega) ((isLast_iff ⟨0, hn⟩).mp h)) (iblk V c 0 ⟨0, hn⟩),
      accFirst c (grid0.coords ⟨0, hn⟩) (mIn ⟨0, hn⟩) (hIn ⟨0, hn⟩) (mOut ⟨0, hn⟩) (hOut ⟨0, hn⟩) (mCopy ⟨0, hn⟩) (hCopy ⟨0, hn⟩) mAcc (Memref.isWhole_whole _) ((isFirst_iff ⟨0, hn⟩).mpr (Nat.zero_mod _)) (fun h => (fun h => by (try dsimp only at h); omega) ((isLast_iff ⟨0, hn⟩).mp h)) (iblk V c 0 ⟨0, hn⟩))
  | n + 1, hn =>
    if h0 : (n + 1) % 8 = 0 then
      if h1 : (n + 1) % 8 = 7 then False.elim (by omega)
      else (outIdle,
        copyFirst c (grid0.coords ⟨n + 1, hn⟩) (mIn ⟨n + 1, hn⟩) (hIn ⟨n + 1, hn⟩) (mOut ⟨n + 1, hn⟩) (hOut ⟨n + 1, hn⟩) (mCopy ⟨n + 1, hn⟩) (hCopy ⟨n + 1, hn⟩) mAcc (Memref.isWhole_whole _) ((isFirst_iff ⟨n + 1, hn⟩).mpr h0) (fun h => h1 ((isLast_iff ⟨n + 1, hn⟩).mp h)) (iblk V c 0 ⟨n + 1, hn⟩),
        accFirst c (grid0.coords ⟨n + 1, hn⟩) (mIn ⟨n + 1, hn⟩) (hIn ⟨n + 1, hn⟩) (mOut ⟨n + 1, hn⟩) (hOut ⟨n + 1, hn⟩) (mCopy ⟨n + 1, hn⟩) (hCopy ⟨n + 1, hn⟩) mAcc (Memref.isWhole_whole _) ((isFirst_iff ⟨n + 1, hn⟩).mpr h0) (fun h => h1 ((isLast_iff ⟨n + 1, hn⟩).mp h)) (iblk V c 0 ⟨n + 1, hn⟩))
    else
      if h1 : (n + 1) % 8 = 7 then
        (outLast c (grid0.coords ⟨n + 1, hn⟩) (mIn ⟨n + 1, hn⟩) (hIn ⟨n + 1, hn⟩) (mOut ⟨n + 1, hn⟩) (hOut ⟨n + 1, hn⟩) (mCopy ⟨n + 1, hn⟩) (hCopy ⟨n + 1, hn⟩) mAcc (Memref.isWhole_whole _) (fun h => h0 ((isFirst_iff ⟨n + 1, hn⟩).mp h)) ((isLast_iff ⟨n + 1, hn⟩).mpr h1) (iblk V c 0 ⟨n + 1, hn⟩) (outsAt c n (Nat.lt_of_succ_lt hn)).2.2,
         copyLast c (grid0.coords ⟨n + 1, hn⟩) (mIn ⟨n + 1, hn⟩) (hIn ⟨n + 1, hn⟩) (mOut ⟨n + 1, hn⟩) (hOut ⟨n + 1, hn⟩) (mCopy ⟨n + 1, hn⟩) (hCopy ⟨n + 1, hn⟩) mAcc (Memref.isWhole_whole _) (fun h => h0 ((isFirst_iff ⟨n + 1, hn⟩).mp h)) ((isLast_iff ⟨n + 1, hn⟩).mpr h1) (iblk V c 0 ⟨n + 1, hn⟩) (outsAt c n (Nat.lt_of_succ_lt hn)).2.2,
         accLast c (grid0.coords ⟨n + 1, hn⟩) (mIn ⟨n + 1, hn⟩) (hIn ⟨n + 1, hn⟩) (mOut ⟨n + 1, hn⟩) (hOut ⟨n + 1, hn⟩) (mCopy ⟨n + 1, hn⟩) (hCopy ⟨n + 1, hn⟩) mAcc (Memref.isWhole_whole _) (fun h => h0 ((isFirst_iff ⟨n + 1, hn⟩).mp h)) ((isLast_iff ⟨n + 1, hn⟩).mpr h1) (iblk V c 0 ⟨n + 1, hn⟩) (outsAt c n (Nat.lt_of_succ_lt hn)).2.2)
      else
        (outIdle,
         copyMid c (grid0.coords ⟨n + 1, hn⟩) (mIn ⟨n + 1, hn⟩) (hIn ⟨n + 1, hn⟩) (mOut ⟨n + 1, hn⟩) (hOut ⟨n + 1, hn⟩) (mCopy ⟨n + 1, hn⟩) (hCopy ⟨n + 1, hn⟩) mAcc (Memref.isWhole_whole _) (fun h => h0 ((isFirst_iff ⟨n + 1, hn⟩).mp h)) (fun h => h1 ((isLast_iff ⟨n + 1, hn⟩).mp h)) (iblk V c 0 ⟨n + 1, hn⟩) (outsAt c n (Nat.lt_of_succ_lt hn)).2.2,
         accMid c (grid0.coords ⟨n + 1, hn⟩) (mIn ⟨n + 1, hn⟩) (hIn ⟨n + 1, hn⟩) (mOut ⟨n + 1, hn⟩) (hOut ⟨n + 1, hn⟩) (mCopy ⟨n + 1, hn⟩) (hCopy ⟨n + 1, hn⟩) mAcc (Memref.isWhole_whole _) (fun h => h0 ((isFirst_iff ⟨n + 1, hn⟩).mp h)) (fun h => h1 ((isLast_iff ⟨n + 1, hn⟩).mp h)) (iblk V c 0 ⟨n + 1, hn⟩) (outsAt c n (Nat.lt_of_succ_lt hn)).2.2)

theorem outsAt_first (c : Dev nD) (t : Fin cfg0.N) (h0 : t.val % 8 = 0) (h1 : ¬t.val % 8 = 7) :
    outsAt V c t.val t.isLt = (outIdle,
      copyFirst c (grid0.coords t) (mIn t) (hIn t) (mOut t) (hOut t) (mCopy t) (hCopy t) mAcc (Memref.isWhole_whole _) ((isFirst_iff t).mpr h0) (fun h => h1 ((isLast_iff t).mp h)) (iblk V c 0 t),
      accFirst c (grid0.coords t) (mIn t) (hIn t) (mOut t) (hOut t) (mCopy t) (hCopy t) mAcc (Memref.isWhole_whole _) ((isFirst_iff t).mpr h0) (fun h => h1 ((isLast_iff t).mp h)) (iblk V c 0 t)) := by
  obtain ⟨n, hn⟩ := t
  cases n with
  | zero => exact rfl
  | succ n => exact (dif_pos h0).trans ((dif_neg h1).trans rfl)

theorem outsAt_mid (c : Dev nD) (t : Fin cfg0.N) (h0 : ¬t.val % 8 = 0) (h1 : ¬t.val % 8 = 7) :
    outsAt V c t.val t.isLt = (outIdle,
      copyMid c (grid0.coords t) (mIn t) (hIn t) (mOut t) (hOut t) (mCopy t) (hCopy t) mAcc (Memref.isWhole_whole _) (fun h => h0 ((isFirst_iff t).mp h)) (fun h => h1 ((isLast_iff t).mp h)) (iblk V c 0 t) (outsAt V c (t.val - 1) (Nat.lt_of_le_of_lt (Nat.sub_le _ _) t.isLt)).2.2,
      accMid c (grid0.coords t) (mIn t) (hIn t) (mOut t) (hOut t) (mCopy t) (hCopy t) mAcc (Memref.isWhole_whole _) (fun h => h0 ((isFirst_iff t).mp h)) (fun h => h1 ((isLast_iff t).mp h)) (iblk V c 0 t) (outsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 8 = 0) (h1 : t.val % 8 = 7) :
    outsAt V c t.val t.isLt = (
      outLast c (grid0.coords t) (mIn t) (hIn t) (mOut t) (hOut t) (mCopy t) (hCopy t) mAcc (Memref.isWhole_whole _) (fun h => h0 ((isFirst_iff t).mp h)) ((isLast_iff t).mpr h1) (iblk V c 0 t) (outsAt V c (t.val - 1) (Nat.lt_of_le_of_lt (Nat.sub_le _ _) t.isLt)).2.2,
      copyLast c (grid0.coords t) (mIn t) (hIn t) (mOut t) (hOut t) (mCopy t) (hCopy t) mAcc (Memref.isWhole_whole _) (fun h => h0 ((isFirst_iff t).mp h)) ((isLast_iff t).mpr h1) (iblk V c 0 t) (outsAt V c (t.val - 1) (Nat.lt_of_le_of_lt (Nat.sub_le _ _) t.isLt)).2.2,
      accLast c (grid0.coords t) (mIn t) (hIn t) (mOut t) (hOut t) (mCopy t) (hCopy t) mAcc (Memref.isWhole_whole _) (fun h => h0 ((isFirst_iff t).mp h)) ((isLast_iff t).mpr h1) (iblk V c 0 t) (outsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the first point the class's invariant (the scratch column at anything); afterwards the
    scratch column at what the point before left, the other scoped buffers and the generator register as they are. -/
def PhiS (c : Dev nD) : (n : ℕ) → n ≤ cfg0.N → sProp 𝕄
  | 0, _ => Pipeline.ΦA spec0 c
  | n + 1, hn => iprop(iprop(owns (c : Thread nD τ) mAcc fullShare ((outsAt V c n hn).2.2) ∗ Pipeline.scopedRestBut (Ix := Unit) (Name := ℕ) (U := UR sig nD τ) (Lvl := ℕ) (Val := Elt F) spec0 c [cc0_scratch0]) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) mAcc fullShare ((outsAt V c n hn).2.2) ∗ Pipeline.scopedRestBut (Ix := Unit) (Name := ℕ) (U := UR sig nD τ) (Lvl := ℕ) (Val := Elt F) spec0 c [cc0_scratch0]) ∗ (∃ r, prngReg c r)) := rfl
theorem PhiS_pos (c : Dev nD) (n : ℕ) (h : n ≤ cfg0.N) (hz : n ≠ 0) :
    PhiS V c n h = iprop(iprop(owns (c : Thread nD τ) mAcc fullShare ((outsAt V c (n - 1) (by omega)).2.2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => (outsAt V c t.val t.isLt).1
    | ⟨2, _⟩ => (outsAt V c t.val t.isLt).2.1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem Phi_castSucc (c : Dev nD) (t : Fin cfg0.N) :
    (dat V c).Φ t.castSucc = PhiS V c t.val (Nat.le_of_lt t.isLt) := by
  dsimp only [dat]; simp only [Fin.coe_castSucc]
theorem after_in (c : Dev nD) (t : Fin cfg0.N) : (dat V c).after 0 t = iblk V c 0 t := by dsimp only [dat]
theorem after_out (c : Dev nD) (t : Fin cfg0.N) : (dat V c).after 1 t = (outsAt V c t.val t.isLt).1 := by dsimp only [dat]
theorem after_copy (c : Dev nD) (t : Fin cfg0.N) : (dat V c).after 2 t = (outsAt V c t.val t.isLt).2.1 := by dsimp only [dat]
theorem before_in (c : Dev nD) (t : Fin cfg0.N) (d) : (dat V c).before 0 t d = iblk V c 0 t :=
  before_in_of V (dat V c) (A_eq V c 0) (after_in V c) t d

end Cert.KernelIdeal.Deg

end
-- ==== Proof.KI.DegBody.lean ====
/-
  Region 0 (the degree pass): the body obligation. At a point the input's buffer holds its block; the closed
  forms say which control case the point is in; the invariant hands the body the scratch column at what the point
  before left (at anything at the very first point) and takes it back at this point's running sums.
-/
import proofs.«110719_j498216206442_2_alg».proof.Proof.KI.Deg

set_option maxRecDepth 16384

noncomputable section

namespace Cert.KernelIdeal.Deg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre (c : Dev nD) (t : Fin cfg0.N) : sProp 𝕄 :=
  iprop((dat V c).Φ t.castSucc ∗ (dat V c).owesAt () t.castSucc
    ∗ (∃ d, owns (c : Thread nD τ) (mIn t) fullShare ((dat V c).before 0 t d))
    ∗ (∃ d, owns (c : Thread nD τ) (mOut t) fullShare ((dat V c).before 1 t d))
    ∗ (∃ d, owns (c : Thread nD τ) (mCopy t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg0.N = 64 from N_0)
  rw [show (dat V c).leavesExact 0 t = owns (c : Thread nD τ) (mIn t) fullShare ((dat V c).after 0 t) from by
    unfold Dat.leavesExact; rw [live_in t], after_in]
  rw [show (dat V c).leavesExact 2 t = owns (c : Thread nD τ) (mCopy t) fullShare ((dat V c).after 2 t) from by
    unfold Dat.leavesExact; rw [live_copy t], after_copy]
  by_cases h0 : t.val % 8 = 0
  · have h1 : ¬t.val % 8 = 7 := by omega
    rw [Dat.leavesExact_idle (dat V c) 1 t (idle_out t (fun h => h1 ((isLast_iff t).mp h))) (noFlush_out t (fun h => h1 ((isLast_iff t).mp h)))]
    rw [outsAt_first V c t h0 h1]
    unfold copyFirst accFirst; (try dsimp only)
    by_cases hz : t.val = 0
    · rw [Phi_castSucc V c t, PhiS_zero V c _ _ hz, PhiA_eq]
      iintro ⟨⟨⟨HS, Hrest⟩, Hg⟩, Ho, ⟨%d0, H0⟩, ⟨%d1, H1⟩, ⟨%d2, H2⟩⟩
      iapply ((runFirst c (grid0.coords t) _ _ _ _ _ _ _ _ ((isFirst_iff t).mpr h0) (fun h => h1 ((isLast_iff t).mp h)) (iblk V c 0 t)).2.2 _ Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (coverAcc_first c _ _ _ _ _ _ _ _ _ _ _ _)
          iexact Hrest
        iexact Hg
      isplitl [Ho]; · iexact Ho
      isplitl [H0]; · iexact H0
      isplitl [H1]; · iexists _; iexact H1
      unfold owns; iexists _; isplitr
      swap; · iexact H2
      ipureintro; exact View.read_writes_of_cover _ _ _ _ _ (coverCopy_first c _ _ _ _ _ _ _ _ _ _ _ _)
    · rw [Phi_castSucc V c t, PhiS_pos V c _ _ hz]
      iintro ⟨⟨⟨HS, Hrest⟩, Hg⟩, Ho, ⟨%d0, H0⟩, ⟨%d1, H1⟩, ⟨%d2, H2⟩⟩
      iapply ((runFirst c (grid0.coords t) _ _ _ _ _ _ _ _ ((isFirst_iff t).mpr h0) (fun h => h1 ((isLast_iff t).mp h)) (iblk V c 0 t)).2.2 _ Set.univ _)
      isplitl [H0]; · iexact H0
      isplitl [H1]; · iexact H1
      isplitl [H2]; · iexists _; iexact H2
      isplitl [HS]; · iexists _; iexact HS
      iintro ⟨H0, H1, ⟨%e2, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (coverAcc_first c _ _ _ _ _ _ _ _ _ _ _ _)
          iexact Hrest
        iexact Hg
      isplitl [Ho]; · iexact Ho
      isplitl [H0]; · iexact H0
      isplitl [H1]; · iexists _; iexact H1
      unfold owns; iexists _; isplitr
      swap; · iexact H2
      ipureintro; exact View.read_writes_of_cover _ _ _ _ _ (coverCopy_first c _ _ _ _ _ _ _ _ _ _ _ _)
  · have hz : t.val ≠ 0 := by omega
    by_cases h1 : t.val % 8 = 7
    · rw [show (dat V c).leavesExact 1 t = owns (c : Thread nD τ) (mOut t) fullShare ((dat V c).after 1 t) from by
        unfold Dat.leavesExact; rw [live_out t ((isLast_iff t).mpr h1)], after_out]
      rw [outsAt_last V c t h0 h1]
      unfold outLast copyLast accLast; (try dsimp only)
      rw [Phi_castSucc V c t, PhiS_pos V c _ _ hz]
      iintro ⟨⟨⟨HS, Hrest⟩, Hg⟩, Ho, ⟨%d0, H0⟩, ⟨%d1, H1⟩, ⟨%d2, H2⟩⟩
      iapply ((runLast c (grid0.coords t) _ _ _ _ _ _ _ _ (fun h => h0 ((isFirst_iff t).mp h)) ((isLast_iff t).mpr h1) (iblk V c 0 t) _).2.2.2 Set.univ _)
      isplitl [H0]; · iexact H0
      isplitl [H1]; · iexists _; iexact H1
      isplitl [H2]; · iexists _; iexact H2
      isplitl [HS]; · iexact HS
      iintro ⟨H0, ⟨%e1, H1⟩, ⟨%e2, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (coverAcc_last c _ _ _ _ _ _ _ _ _ _ _ _ _)
          iexact Hrest
        iexact Hg
      isplitl [Ho]; · iexact Ho
      isplitl [H0]; · iexact H0
      isplitl [H1]
      · unfold owns; iexists _; isplitr
        swap; · iexact H1
        ipureintro; exact View.read_writes_of_cover _ _ _ _ _ (coverOut_last c _ _ _ _ _ _ _ _ _ _ _ _ _)
      unfold owns; iexists _; isplitr
      swap; · iexact H2
      ipureintro; exact View.read_writes_of_cover _ _ _ _ _ (coverCopy_last c _ _ _ _ _ _ _ _ _ _ _ _ _)
    · rw [Dat.leavesExact_idle (dat V c) 1 t (idle_out t (fun h => h1 ((isLast_iff t).mp h))) (noFlush_out t (fun h => h1 ((isLast_iff t).mp h)))]
      rw [outsAt_mid V c t h0 h1]
      unfold copyMid accMid; (try dsimp only)
      rw [Phi_castSucc V c t, PhiS_pos V c _ _ hz]
      iintro ⟨⟨⟨HS, Hrest⟩, Hg⟩, Ho, ⟨%d0, H0⟩, ⟨%d1, H1⟩, ⟨%d2, H2⟩⟩
      iapply ((runMid c (grid0.coords t) _ _ _ _ _ _ _ _ (fun h => h0 ((isFirst_iff t).mp h)) (fun h => h1 ((isLast_iff t).mp h)) (iblk V c 0 t) _).2.2 _ Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (coverAcc_mid c _ _ _ _ _ _ _ _ _ _ _ _ _)
          iexact Hrest
        iexact Hg
      isplitl [Ho]; · iexact Ho
      isplitl [H0]; · iexact H0
      isplitl [H1]; · iexists _; iexact H1
      unfold owns; iexists _; isplitr
      swap; · iexact H2
      ipureintro; exact View.read_writes_of_cover _ _ _ _ _ (coverCopy_mid c _ _ _ _ _ _ _ _ _ _ _ _ _)

/-- The body obligation of the region's pipeline, at every point. -/
theorem body_obligation (c : Dev nD) : BodyObligation (dat (F := F) V c) (defs₀ (F := F)) Variants.none () Set.univ := fun t => by
  rw [bigSep_W0, bigSep_W0]
  exact sound_body V c t

/-- What the region is entered with is the invariant before the first point. -/
theorem Phi_in (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the scratch column's contents are forgotten. -/
theorem Phi_out (c : Dev nD) : (dat V c).Φ (Fin.last cfg0.N) ⊢ Pipeline.ΦA spec0 c := by
  have ht : (Fin.last cfg0.N).val ≠ 0 := by rw [Fin.val_last]; have : cfg0.N = 64 := N_0; omega
  rw [show (dat V c).Φ (Fin.last cfg0.N) = PhiS V c (Fin.last cfg0.N).val (Nat.le_of_lt_succ (Fin.last cfg0.N).isLt) from rfl, PhiS_pos V c _ _ ht, PhiA_eq]
  iintro ⟨⟨HS, Hrest⟩, Hg⟩
  isplitl [HS Hrest]
  · isplitl [HS]
    · iexists _; iexact HS
    iexact Hrest
  iexact Hg

end Cert.KernelIdeal.Deg

end
-- ==== Proof.KI.EmbedRuns.lean ====
/-
  Region 1 of the idealized kernel (the normalized propagation, the embedding and the soft assignment): what
  its runs are stated over, and the body's run in each of its three control cases. At every grid point (i, k)
  the body adds (adjacency block (i, k)) · (d_k ⊙ X_k) into a 1024×128 scratch accumulator (reset at k = 0);
  at k = 7 it forms AX = d_i ⊙ (acc + d_i ⊙ X_i), the embedding AX · Weᵀ + be and the row softmax of
  AX · Waᵀ + ba, and stores them into the two outputs' blocks (i, 0).
-/
import proofs.«110719_j498216206442_2_alg».proof.Proof.Gen.KernelIdeal.Launch
import proofs.«110719_j498216206442_2_alg».proof.Proof.Gen.KernelIdeal.Skeleton
import proofs.«110719_j498216206442_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Embed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions over the grid -/

/-- The reset branch is taken: the reduction coordinate k is 0. -/
abbrev isFirst (i : grid1.Coords) : Prop := (Scalar.cmpi .ne (Scalar.extui (Scalar.cmpi .eq (BitVec.ofNat 32 (i 1).val) 0#32)) 0#32) = 1#1
theorem isFirst_iff : ∀ t : Fin cfg1.N, isFirst (grid1.coords t) ↔ t.val % 8 = 0 :=
  (by decide +kernel : ∀ t : Fin grid1.N, isFirst (grid1.coords t) ↔ t.val % 8 = 0)

/-- The finishing branch is taken: k is 7. -/
abbrev isLast (i : grid1.Coords) : Prop := k1_cond2 i = 1#1
theorem isLast_iff : ∀ t : Fin cfg1.N, isLast (grid1.coords t) ↔ t.val % 8 = 7 :=
  (by decide +kernel : ∀ t : Fin grid1.N, isLast (grid1.coords t) ↔ t.val % 8 = 7)

/-! ## Where the windows are idle -/

theorem live_in : ∀ (w : Fin 9) (t : Fin cfg1.N), cfg1.idle (w.castLE (by decide)) (grid1.coords t) = false := by decide +kernel
theorem idle_z : ∀ t : Fin cfg1.N, ¬isLast (grid1.coords t) → cfg1.idle 9 (grid1.coords t) = true := by decide +kernel
theorem noFlush_z : ∀ t : Fin cfg1.N, ¬isLast (grid1.coords t) → (cfg1.win 9).flush t = false := by decide +kernel
theorem live_z : ∀ t : Fin cfg1.N, isLast (grid1.coords t) → cfg1.idle 9 (grid1.coords t) = false := by decide +kernel
theorem idle_s : ∀ t : Fin cfg1.N, ¬isLast (grid1.coords t) → cfg1.idle 10 (grid1.coords t) = true := by decide +kernel
theorem noFlush_s : ∀ t : Fin cfg1.N, ¬isLast (grid1.coords t) → (cfg1.win 10).flush t = false := by decide +kernel
theorem live_s : ∀ t : Fin cfg1.N, isLast (grid1.coords t) → cfg1.idle 10 (grid1.coords t) = false := by decide +kernel

/-! ## The memrefs at a point -/

abbrev viewZ : View sig .tc .vmem S1024x128 .f32 := (Memref.whole cc1_stg9_0 : Memref sig .tc .vmem S1024x128 .f32).view
abbrev viewS : View sig .tc .vmem S1024x128 .f32 := (Memref.whole cc1_stg10_0 : Memref sig .tc .vmem S1024x128 .f32).view
abbrev mAdj (t : Fin cfg1.N) : Memref sig .tc .vmem S1024x1024 .bf16 := win1_0.stage (cfg1.slots t 0)
abbrev hAdj (t : Fin cfg1.N) : (mAdj t).IsWhole := hstage1_0 ((cfg1.slots t 0).cast nbuf1_0)
abbrev mXk (t : Fin cfg1.N) : Memref sig .tc .vmem S1024x128 .f32 := win1_1.stage (cfg1.slots t 1)
abbrev hXk (t : Fin cfg1.N) : (mXk t).IsWhole := hstage1_1 ((cfg1.slots t 1).cast nbuf1_1)
abbrev mDk (t : Fin cfg1.N) : Memref sig .tc .vmem S1024x128 .f32 := win1_2.stage (cfg1.slots t 2)
abbrev hDk (t : Fin cfg1.N) : (mDk t).IsWhole := hstage1_2 ((cfg1.slots t 2).cast nbuf1_2)
abbrev mXi (t : Fin cfg1.N) : Memref sig .tc .vmem S1024x128 .f32 := win1_3.stage (cfg1.slots t 3)
abbrev hXi (t : Fin cfg1.N) : (mXi t).IsWhole := hstage1_3 ((cfg1.slots t 3).cast nbuf1_3)
abbrev mDi (t : Fin cfg1.N) : Memref sig .tc .vmem S1024x128 .f32 := win1_4.stage (cfg1.slots t 4)
abbrev hDi (t : Fin cfg1.N) : (mDi t).IsWhole := hstage1_4 ((cfg1.slots t 4).cast nbuf1_4)
abbrev mWe (t : Fin cfg1.N) : Memref sig .tc .vmem S128x128 .f32 := win1_5.stage (cfg1.slots t 5)
abbrev hWe (t : Fin cfg1.N) : (mWe t).IsWhole := hstage1_5 ((cfg1.slots t 5).cast nbuf1_5)
abbrev mBe (t : Fin cfg1.N) : Memref sig .tc .vmem S1x128 .f32 := win1_6.stage (cfg1.slots t 6)
abbrev hBe (t : Fin cfg1.N) : (mBe t).IsWhole := hstage1_6 ((cfg1.slots t 6).cast nbuf1_6)
abbrev mWa (t : Fin cfg1.N) : Memref sig .tc .vmem S128x128 .f32 := win1_7.stage (cfg1.slots t 7)
abbrev hWa (t : Fin cfg1.N) : (mWa t).IsWhole := hstage1_7 ((cfg1.slots t 7).cast nbuf1_7)
abbrev mBa (t : Fin cfg1.N) : Memref sig .tc .vmem S1x128 .f32 := win1_8.stage (cfg1.slots t 8)
abbrev hBa (t : Fin cfg1.N) : (mBa t).IsWhole := hstage1_8 ((cfg1.slots t 8).cast nbuf1_8)
abbrev mZ (t : Fin cfg1.N) : Memref sig .tc .vmem S1024x128 .f32 := win1_9.stage (cfg1.slots t 9)
abbrev hZ (t : Fin cfg1.N) : (mZ t).IsWhole := hstage1_9 ((cfg1.slots t 9).cast nbuf1_9)
abbrev mS (t : Fin cfg1.N) : Memref sig .tc .vmem S1024x128 .f32 := win1_10.stage (cfg1.slots t 10)
abbrev hS (t : Fin cfg1.N) : (mS t).IsWhole := hstage1_10 ((cfg1.slots t 10).cast nbuf1_10)
/-- The scratch accumulator. -/
abbrev mAcc : Memref sig .tc .vmem S1024x128 .f32 := Memref.whole cc1_scratch0
abbrev viewAcc : View sig .tc .vmem S1024x128 .f32 := mAcc.view

/-- The class invariant with the scratch accumulator as a memref owned at some contents. -/
theorem PhiA_eq (c : Dev nD) :
    (Pipeline.ΦA spec1 c : sProp 𝕄)
      = iprop(iprop((∃ d, owns (c : Thread nD τ) mAcc fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [mAcc, owns_whole]; try rfl

/-! ## The runs -/

set_option maxHeartbeats 8000000 in
/-- k = 0: the accumulator, found at anything, is reset and then receives the blocks' product. -/
noncomputable def runFirst (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : isFirst i) (hc1 : ¬isLast i)
    (x0 : Vec F S1024x1024 .bf16) (x1 x2 x3 x4 : Vec F S1024x128 .f32) (x5 : Vec F S128x128 .f32) (x6 : Vec F S1x128 .f32) (x7 : Vec F S128x128 .f32) (x8 : Vec F S1x128 .f32) :
    { LS : List (View.Piece (Elt F) S1024x128 .f32) //
      ∀ (xi9 xi10 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xi10 ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xi10
                ∗ (∃ f, arg13.view.loc (c : Thread nD τ) ↦[arg13.view.set]{fullShare} arg13.view.writes (Elt F) f LS)) -∗ K ⟨⟩))
          ⊢ wp frame (wpE (defs₀ (F := F)) Variants.none c none) E (cc1__stageB_kernel i arg2 harg2 arg3 harg3 arg4 harg4 arg5 harg5 arg6 harg6 arg7 harg7 arg8 harg8 arg9 harg9 arg10 harg10 arg11 harg11 arg12 harg12 arg13 harg13) K } := by
  refine ⟨?_, fun xi9 xi10 E K => ?run⟩
  case run =>
    simp only [cc1__stageB_kernel_eq_skeleton]; unfold cc1__stageB_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; iexact HS

set_option maxHeartbeats 8000000 in
/-- 0 < k < 7: the accumulator, found at what the point before left, receives the blocks' product. -/
noncomputable def runMid (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : ¬isFirst i) (hc1 : ¬isLast i)
    (x0 : Vec F S1024x1024 .bf16) (x1 x2 x3 x4 : Vec F S1024x128 .f32) (x5 : Vec F S128x128 .f32) (x6 : Vec F S1x128 .f32) (x7 : Vec F S128x128 .f32) (x8 : Vec F S1x128 .f32) (xs : Vec F S1024x128 .f32) :
    { LS : List (View.Piece (Elt F) S1024x128 .f32) //
      ∀ (xi9 xi10 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xi10 ∗ owns (c : Thread nD τ) arg13 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xi10
                ∗ (∃ f, arg13.view.loc (c : Thread nD τ) ↦[arg13.view.set]{fullShare} arg13.view.writes (Elt F) f LS)) -∗ K ⟨⟩))
          ⊢ wp frame (wpE (defs₀ (F := F)) Variants.none c none) E (cc1__stageB_kernel i arg2 harg2 arg3 harg3 arg4 harg4 arg5 harg5 arg6 harg6 arg7 harg7 arg8 harg8 arg9 harg9 arg10 harg10 arg11 harg11 arg12 harg12 arg13 harg13) K } := by
  refine ⟨?_, fun xi9 xi10 E K => ?run⟩
  case run =>
    simp only [cc1__stageB_kernel_eq_skeleton]; unfold cc1__stageB_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; iexact HS

set_option maxHeartbeats 8000000 in
/-- k = 7: after the last product the two outputs receive the embedding and the soft assignment of the block's rows. -/
noncomputable def runLast (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (hc0 : ¬isFirst i) (hc1 : isLast i)
    (x0 : Vec F S1024x1024 .bf16) (x1 x2 x3 x4 : Vec F S1024x128 .f32) (x5 : Vec F S128x128 .f32) (x6 : Vec F S1x128 .f32) (x7 : Vec F S128x128 .f32) (x8 : Vec F S1x128 .f32) (xs : Vec F S1024x128 .f32) :
    Σ' (L9 : List (View.Piece (Elt F) S1024x128 .f32)) (L10 : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ owns (c : Thread nD τ) arg13 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
                ∗ (∃ f, arg11.view.loc (c : Thread nD τ) ↦[arg11.view.set]{fullShare} arg11.view.writes (Elt F) f L9)
                ∗ (∃ f, arg12.view.loc (c : Thread nD τ) ↦[arg12.view.set]{fullShare} arg12.view.writes (Elt F) f L10)
                ∗ (∃ f, arg13.view.loc (c : Thread nD τ) ↦[arg13.view.set]{fullShare} arg13.view.writes (Elt F) f LS)) -∗ K ⟨⟩))
          ⊢ wp frame (wpE (defs₀ (F := F)) Variants.none c none) E (cc1__stageB_kernel i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc1__stageB_kernel_eq_skeleton]; unfold cc1__stageB_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg13.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    iexists _; iexact HS

end Cert.KernelIdeal.Embed

end
-- ==== Proof.KI.Embed.lean ====
/-
  Region 1 (the normalized propagation, the embedding and the soft assignment): what its buffers hold point by
  point and the proof data of its pipeline, the arrays read as the region finds them (`V`). After point (i, k)
  the scratch accumulator holds the sum over the blocks 0..k of (adjacency block (i, ·)) · (d ⊙ X of block ·);
  at k = 7 the two outputs' blocks (i, 0) hold the embedding and the soft assignment of the rows of block i.
-/
import proofs.«110719_j498216206442_2_alg».proof.Proof.KI.EmbedRuns

set_option maxRecDepth 16384

noncomputable section

namespace Cert.KernelIdeal.Embed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not. -/
theorem before_Adj_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_Xk_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_Dk_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_Xi_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_Di_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_We_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_Be_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_Wa_of {c : Dev nD} (dat : Dat τ (Elt F) Unit ℕ (UR sig nD τ) ℕ cfg1 c) (hA : dat.A 7 = V c (Pipeline.arrRef spec1 7))
    (hafter : ∀ t, dat.after 7 t = iblk V c 7 t) (t : Fin cfg1.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_Ba_of {c : Dev nD} (dat : Dat τ (Elt F) Unit ℕ (UR sig nD τ) ℕ cfg1 c) (hA : dat.A 8 = V c (Pipeline.arrRef spec1 8))
    (hafter : ∀ t, dat.after 8 t = iblk V c 8 t) (t : Fin cfg1.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

section Cases
variable (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole)

theorem coverAcc_first (hc0 : isFirst i) (hc1 : ¬isLast i) (x0 : Vec F S1024x1024 .bf16) (x1 x2 x3 x4 : Vec F S1024x128 .f32) (x5 : Vec F S128x128 .f32) (x6 : Vec F S1x128 .f32) (x7 : Vec F S128x128 .f32) (x8 : Vec F S1x128 .f32) (y : S1024x128.Idx) :
    ∃ pc ∈ (runFirst c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).1, y ∈ pc.1.set :=
  View.cover_of_tiledL (runFirst c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).1 S1024x128.size (by sl_kernel_rfl) y
def accFirst (hc0 : isFirst i) (hc1 : ¬isLast i) (x0 : Vec F S1024x1024 .bf16) (x1 x2 x3 x4 : Vec F S1024x128 .f32) (x5 : Vec F S128x128 .f32) (x6 : Vec F S1x128 .f32) (x7 : Vec F S128x128 .f32) (x8 : Vec F S1x128 .f32) : Vec F S1024x128 .f32 :=
  viewAcc.read (Elt F) (viewAcc.writes (Elt F) viewAcc.junk (runFirst c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).1)

theorem coverAcc_mid (hc0 : ¬isFirst i) (hc1 : ¬isLast i) (x0 : Vec F S1024x1024 .bf16) (x1 x2 x3 x4 : Vec F S1024x128 .f32) (x5 : Vec F S128x128 .f32) (x6 : Vec F S1x128 .f32) (x7 : Vec F S128x128 .f32) (x8 : Vec F S1x128 .f32) (xs : Vec F S1024x128 .f32) (y : S1024x128.Idx) :
    ∃ pc ∈ (runMid c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs).1, y ∈ pc.1.set :=
  View.cover_of_tiledL (runMid c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs).1 S1024x128.size (by sl_kernel_rfl) y
def accMid (hc0 : ¬isFirst i) (hc1 : ¬isLast i) (x0 : Vec F S1024x1024 .bf16) (x1 x2 x3 x4 : Vec F S1024x128 .f32) (x5 : Vec F S128x128 .f32) (x6 : Vec F S1x128 .f32) (x7 : Vec F S128x128 .f32) (x8 : Vec F S1x128 .f32) (xs : Vec F S1024x128 .f32) : Vec F S1024x128 .f32 :=
  viewAcc.read (Elt F) (viewAcc.writes (Elt F) viewAcc.junk (runMid c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs).1)

theorem coverZ_last (hc0 : ¬isFirst i) (hc1 : isLast i) (x0 : Vec F S1024x1024 .bf16) (x1 x2 x3 x4 : Vec F S1024x128 .f32) (x5 : Vec F S128x128 .f32) (x6 : Vec F S1x128 .f32) (x7 : Vec F S128x128 .f32) (x8 : Vec F S1x128 .f32) (xs : Vec F S1024x128 .f32) (y : S1024x128.Idx) :
    ∃ pc ∈ (runLast c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs).1, y ∈ pc.1.set :=
  View.cover_of_tiledL (runLast c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs).1 S1024x128.size (by sl_kernel_rfl) y
theorem coverS_last (hc0 : ¬isFirst i) (hc1 : isLast i) (x0 : Vec F S1024x1024 .bf16) (x1 x2 x3 x4 : Vec F S1024x128 .f32) (x5 : Vec F S128x128 .f32) (x6 : Vec F S1x128 .f32) (x7 : Vec F S128x128 .f32) (x8 : Vec F S1x128 .f32) (xs : Vec F S1024x128 .f32) (y : S1024x128.Idx) :
    ∃ pc ∈ (runLast c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs).2.1, y ∈ pc.1.set :=
  View.cover_of_tiledL (runLast c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs).2.1 S1024x128.size (by sl_kernel_rfl) y
theorem coverAcc_last (hc0 : ¬isFirst i) (hc1 : isLast i) (x0 : Vec F S1024x1024 .bf16) (x1 x2 x3 x4 : Vec F S1024x128 .f32) (x5 : Vec F S128x128 .f32) (x6 : Vec F S1x128 .f32) (x7 : Vec F S128x128 .f32) (x8 : Vec F S1x128 .f32) (xs : Vec F S1024x128 .f32) (y : S1024x128.Idx) :
    ∃ pc ∈ (runLast c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs).2.2.1, y ∈ pc.1.set :=
  View.cover_of_tiledL (runLast c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs).2.2.1 S1024x128.size (by sl_kernel_rfl) y
def zLast (hc0 : ¬isFirst i) (hc1 : isLast i) (x0 : Vec F S1024x1024 .bf16) (x1 x2 x3 x4 : Vec F S1024x128 .f32) (x5 : Vec F S128x128 .f32) (x6 : Vec F S1x128 .f32) (x7 : Vec F S128x128 .f32) (x8 : Vec F S1x128 .f32) (xs : Vec F S1024x128 .f32) : Vec F S1024x128 .f32 :=
  viewZ.read (Elt F) (viewZ.writes (Elt F) viewZ.junk (runLast c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs).1)
def sLast (hc0 : ¬isFirst i) (hc1 : isLast i) (x0 : Vec F S1024x1024 .bf16) (x1 x2 x3 x4 : Vec F S1024x128 .f32) (x5 : Vec F S128x128 .f32) (x6 : Vec F S1x128 .f32) (x7 : Vec F S128x128 .f32) (x8 : Vec F S1x128 .f32) (xs : Vec F S1024x128 .f32) : Vec F S1024x128 .f32 :=
  viewS.read (Elt F) (viewS.writes (Elt F) viewS.junk (runLast c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs).2.1)
def accLast (hc0 : ¬isFirst i) (hc1 : isLast i) (x0 : Vec F S1024x1024 .bf16) (x1 x2 x3 x4 : Vec F S1024x128 .f32) (x5 : Vec F S128x128 .f32) (x6 : Vec F S1x128 .f32) (x7 : Vec F S128x128 .f32) (x8 : Vec F S1x128 .f32) (xs : Vec F S1024x128 .f32) : Vec F S1024x128 .f32 :=
  viewAcc.read (Elt F) (viewAcc.writes (Elt F) viewAcc.junk (runLast c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs).2.2.1)

end Cases

/-- Placeholders for the outputs' buffers at the points where the body stores nothing into them: nothing consults them. -/
def zIdle : Vec F S1024x128 .f32 := viewZ.read (Elt F) (viewZ.writes (Elt F) viewZ.junk [])
def sIdle : Vec F S1024x128 .f32 := viewS.read (Elt F) (viewS.writes (Elt F) viewS.junk [])

/-- What the two outputs' buffers and the scratch accumulator hold after the body at position `n`. -/
def outsAt (c : Dev nD) : (n : ℕ) → n < cfg1.N → Vec F S1024x128 .f32 × Vec F S1024x128 .f32 × Vec F S1024x128 .f32
  | 0, hn => (zIdle, sIdle,
      accFirst c (grid1.coords ⟨0, hn⟩) (mAdj ⟨0, hn⟩) (hAdj ⟨0, hn⟩) (mXk ⟨0, hn⟩) (hXk ⟨0, hn⟩) (mDk ⟨0, hn⟩) (hDk ⟨0, hn⟩) (mXi ⟨0, hn⟩) (hXi ⟨0, hn⟩) (mDi ⟨0, hn⟩) (hDi ⟨0, hn⟩) (mWe ⟨0, hn⟩) (hWe ⟨0, hn⟩) (mBe ⟨0, hn⟩) (hBe ⟨0, hn⟩) (mWa ⟨0, hn⟩) (hWa ⟨0, hn⟩) (mBa ⟨0, hn⟩) (hBa ⟨0, hn⟩) (mZ ⟨0, hn⟩) (hZ ⟨0, hn⟩) (mS ⟨0, hn⟩) (hS ⟨0, hn⟩) mAcc (Memref.isWhole_whole _) ((isFirst_iff ⟨0, hn⟩).mpr (Nat.zero_mod _)) (fun h => (fun h => by (try dsimp only at h); omega) ((isLast_iff ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩))
  | n + 1, hn =>
    if h0 : (n + 1) % 8 = 0 then
      if h1 : (n + 1) % 8 = 7 then False.elim (by omega)
      else (zIdle, sIdle,
        accFirst c (grid1.coords ⟨n + 1, hn⟩) (mAdj ⟨n + 1, hn⟩) (hAdj ⟨n + 1, hn⟩) (mXk ⟨n + 1, hn⟩) (hXk ⟨n + 1, hn⟩) (mDk ⟨n + 1, hn⟩) (hDk ⟨n + 1, hn⟩) (mXi ⟨n + 1, hn⟩) (hXi ⟨n + 1, hn⟩) (mDi ⟨n + 1, hn⟩) (hDi ⟨n + 1, hn⟩) (mWe ⟨n + 1, hn⟩) (hWe ⟨n + 1, hn⟩) (mBe ⟨n + 1, hn⟩) (hBe ⟨n + 1, hn⟩) (mWa ⟨n + 1, hn⟩) (hWa ⟨n + 1, hn⟩) (mBa ⟨n + 1, hn⟩) (hBa ⟨n + 1, hn⟩) (mZ ⟨n + 1, hn⟩) (hZ ⟨n + 1, hn⟩) (mS ⟨n + 1, hn⟩) (hS ⟨n + 1, hn⟩) mAcc (Memref.isWhole_whole _) ((isFirst_iff ⟨n + 1, hn⟩).mpr h0) (fun h => h1 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩))
    else
      if h1 : (n + 1) % 8 = 7 then
        (zLast c (grid1.coords ⟨n + 1, hn⟩) (mAdj ⟨n + 1, hn⟩) (hAdj ⟨n + 1, hn⟩) (mXk ⟨n + 1, hn⟩) (hXk ⟨n + 1, hn⟩) (mDk ⟨n + 1, hn⟩) (hDk ⟨n + 1, hn⟩) (mXi ⟨n + 1, hn⟩) (hXi ⟨n + 1, hn⟩) (mDi ⟨n + 1, hn⟩) (hDi ⟨n + 1, hn⟩) (mWe ⟨n + 1, hn⟩) (hWe ⟨n + 1, hn⟩) (mBe ⟨n + 1, hn⟩) (hBe ⟨n + 1, hn⟩) (mWa ⟨n + 1, hn⟩) (hWa ⟨n + 1, hn⟩) (mBa ⟨n + 1, hn⟩) (hBa ⟨n + 1, hn⟩) (mZ ⟨n + 1, hn⟩) (hZ ⟨n + 1, hn⟩) (mS ⟨n + 1, hn⟩) (hS ⟨n + 1, hn⟩) mAcc (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (outsAt c n (Nat.lt_of_succ_lt hn)).2.2,
         sLast c (grid1.coords ⟨n + 1, hn⟩) (mAdj ⟨n + 1, hn⟩) (hAdj ⟨n + 1, hn⟩) (mXk ⟨n + 1, hn⟩) (hXk ⟨n + 1, hn⟩) (mDk ⟨n + 1, hn⟩) (hDk ⟨n + 1, hn⟩) (mXi ⟨n + 1, hn⟩) (hXi ⟨n + 1, hn⟩) (mDi ⟨n + 1, hn⟩) (hDi ⟨n + 1, hn⟩) (mWe ⟨n + 1, hn⟩) (hWe ⟨n + 1, hn⟩) (mBe ⟨n + 1, hn⟩) (hBe ⟨n + 1, hn⟩) (mWa ⟨n + 1, hn⟩) (hWa ⟨n + 1, hn⟩) (mBa ⟨n + 1, hn⟩) (hBa ⟨n + 1, hn⟩) (mZ ⟨n + 1, hn⟩) (hZ ⟨n + 1, hn⟩) (mS ⟨n + 1, hn⟩) (hS ⟨n + 1, hn⟩) mAcc (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (outsAt c n (Nat.lt_of_succ_lt hn)).2.2,
         accLast c (grid1.coords ⟨n + 1, hn⟩) (mAdj ⟨n + 1, hn⟩) (hAdj ⟨n + 1, hn⟩) (mXk ⟨n + 1, hn⟩) (hXk ⟨n + 1, hn⟩) (mDk ⟨n + 1, hn⟩) (hDk ⟨n + 1, hn⟩) (mXi ⟨n + 1, hn⟩) (hXi ⟨n + 1, hn⟩) (mDi ⟨n + 1, hn⟩) (hDi ⟨n + 1, hn⟩) (mWe ⟨n + 1, hn⟩) (hWe ⟨n + 1, hn⟩) (mBe ⟨n + 1, hn⟩) (hBe ⟨n + 1, hn⟩) (mWa ⟨n + 1, hn⟩) (hWa ⟨n + 1, hn⟩) (mBa ⟨n + 1, hn⟩) (hBa ⟨n + 1, hn⟩) (mZ ⟨n + 1, hn⟩) (hZ ⟨n + 1, hn⟩) (mS ⟨n + 1, hn⟩) (hS ⟨n + 1, hn⟩) mAcc (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (outsAt c n (Nat.lt_of_succ_lt hn)).2.2)
      else
        (zIdle, sIdle,
         accMid c (grid1.coords ⟨n + 1, hn⟩) (mAdj ⟨n + 1, hn⟩) (hAdj ⟨n + 1, hn⟩) (mXk ⟨n + 1, hn⟩) (hXk ⟨n + 1, hn⟩) (mDk ⟨n + 1, hn⟩) (hDk ⟨n + 1, hn⟩) (mXi ⟨n + 1, hn⟩) (hXi ⟨n + 1, hn⟩) (mDi ⟨n + 1, hn⟩) (hDi ⟨n + 1, hn⟩) (mWe ⟨n + 1, hn⟩) (hWe ⟨n + 1, hn⟩) (mBe ⟨n + 1, hn⟩) (hBe ⟨n + 1, hn⟩) (mWa ⟨n + 1, hn⟩) (hWa ⟨n + 1, hn⟩) (mBa ⟨n + 1, hn⟩) (hBa ⟨n + 1, hn⟩) (mZ ⟨n + 1, hn⟩) (hZ ⟨n + 1, hn⟩) (mS ⟨n + 1, hn⟩) (hS ⟨n + 1, hn⟩) mAcc (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (outsAt c n (Nat.lt_of_succ_lt hn)).2.2)

theorem outsAt_first (c : Dev nD) (t : Fin cfg1.N) (h0 : t.val % 8 = 0) (h1 : ¬t.val % 8 = 7) :
    outsAt V c t.val t.isLt = (zIdle, sIdle,
      accFirst c (grid1.coords t) (mAdj t) (hAdj t) (mXk t) (hXk t) (mDk t) (hDk t) (mXi t) (hXi t) (mDi t) (hDi t) (mWe t) (hWe t) (mBe t) (hBe t) (mWa t) (hWa t) (mBa t) (hBa t) (mZ t) (hZ t) (mS t) (hS t) mAcc (Memref.isWhole_whole _) ((isFirst_iff t).mpr h0) (fun h => h1 ((isLast_iff t).mp h)) (iblk V c 0 t) (iblk V c 1 t) (iblk V c 2 t) (iblk V c 3 t) (iblk V c 4 t) (iblk V c 5 t) (iblk V c 6 t) (iblk V c 7 t) (iblk V c 8 t)) := by
  obtain ⟨n, hn⟩ := t
  cases n with
  | zero => exact rfl
  | succ n => exact (dif_pos h0).trans ((dif_neg h1).trans rfl)

theorem outsAt_mid (c : Dev nD) (t : Fin cfg1.N) (h0 : ¬t.val % 8 = 0) (h1 : ¬t.val % 8 = 7) :
    outsAt V c t.val t.isLt = (zIdle, sIdle,
      accMid c (grid1.coords t) (mAdj t) (hAdj t) (mXk t) (hXk t) (mDk t) (hDk t) (mXi t) (hXi t) (mDi t) (hDi t) (mWe t) (hWe t) (mBe t) (hBe t) (mWa t) (hWa t) (mBa t) (hBa t) (mZ t) (hZ t) (mS t) (hS t) mAcc (Memref.isWhole_whole _) (fun h => h0 ((isFirst_iff t).mp h)) (fun h => h1 ((isLast_iff t).mp h)) (iblk V c 0 t) (iblk V c 1 t) (iblk V c 2 t) (iblk V c 3 t) (iblk V c 4 t) (iblk V c 5 t) (iblk V c 6 t) (iblk V c 7 t) (iblk V c 8 t) (outsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg1.N) (h0 : ¬t.val % 8 = 0) (h1 : t.val % 8 = 7) :
    outsAt V c t.val t.isLt = (
      zLast c (grid1.coords t) (mAdj t) (hAdj t) (mXk t) (hXk t) (mDk t) (hDk t) (mXi t) (hXi t) (mDi t) (hDi t) (mWe t) (hWe t) (mBe t) (hBe t) (mWa t) (hWa t) (mBa t) (hBa t) (mZ t) (hZ t) (mS t) (hS t) mAcc (Memref.isWhole_whole _) (fun h => h0 ((isFirst_iff t).mp h)) ((isLast_iff t).mpr h1) (iblk V c 0 t) (iblk V c 1 t) (iblk V c 2 t) (iblk V c 3 t) (iblk V c 4 t) (iblk V c 5 t) (iblk V c 6 t) (iblk V c 7 t) (iblk V c 8 t) (outsAt V c (t.val - 1) (Nat.lt_of_le_of_lt (Nat.sub_le _ _) t.isLt)).2.2,
      sLast c (grid1.coords t) (mAdj t) (hAdj t) (mXk t) (hXk t) (mDk t) (hDk t) (mXi t) (hXi t) (mDi t) (hDi t) (mWe t) (hWe t) (mBe t) (hBe t) (mWa t) (hWa t) (mBa t) (hBa t) (mZ t) (hZ t) (mS t) (hS t) mAcc (Memref.isWhole_whole _) (fun h => h0 ((isFirst_iff t).mp h)) ((isLast_iff t).mpr h1) (iblk V c 0 t) (iblk V c 1 t) (iblk V c 2 t) (iblk V c 3 t) (iblk V c 4 t) (iblk V c 5 t) (iblk V c 6 t) (iblk V c 7 t) (iblk V c 8 t) (outsAt V c (t.val - 1) (Nat.lt_of_le_of_lt (Nat.sub_le _ _) t.isLt)).2.2,
      accLast c (grid1.coords t) (mAdj t) (hAdj t) (mXk t) (hXk t) (mDk t) (hDk t) (mXi t) (hXi t) (mDi t) (hDi t) (mWe t) (hWe t) (mBe t) (hBe t) (mWa t) (hWa t) (mBa t) (hBa t) (mZ t) (hZ t) (mS t) (hS t) mAcc (Memref.isWhole_whole _) (fun h => h0 ((isFirst_iff t).mp h)) ((isLast_iff t).mpr h1) (iblk V c 0 t) (iblk V c 1 t) (iblk V c 2 t) (iblk V c 3 t) (iblk V c 4 t) (iblk V c 5 t) (iblk V c 6 t) (iblk V c 7 t) (iblk V c 8 t) (outsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

def PhiS (c : Dev nD) : (n : ℕ) → n ≤ cfg1.N → sProp 𝕄
  | 0, _ => Pipeline.ΦA spec1 c
  | n + 1, hn => iprop(iprop(owns (c : Thread nD τ) mAcc fullShare ((outsAt V c n hn).2.2) ∗ Pipeline.scopedRestBut (Ix := Unit) (Name := ℕ) (U := UR sig nD τ) (Lvl := ℕ) (Val := Elt F) spec1 c [cc1_scratch0]) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(owns (c : Thread nD τ) mAcc fullShare ((outsAt V c n hn).2.2) ∗ Pipeline.scopedRestBut (Ix := Unit) (Name := ℕ) (U := UR sig nD τ) (Lvl := ℕ) (Val := Elt F) spec1 c [cc1_scratch0]) ∗ (∃ r, prngReg c r)) := rfl
theorem PhiS_pos (c : Dev nD) (n : ℕ) (h : n ≤ cfg1.N) (hz : n ≠ 0) :
    PhiS V c n h = iprop(iprop(owns (c : Thread nD τ) mAcc fullShare ((outsAt V c (n - 1) (by omega)).2.2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The node features and the degree scaling are each staged through two windows (the rows of block k and the rows
    of block i), so each of those two windows holds its array at half the share. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => (outsAt V c t.val t.isLt).1
    | ⟨10, _⟩ => (outsAt V c t.val t.isLt).2.1
  Φ t := PhiS V c t.val (Nat.le_of_lt_succ t.isLt)
  q w := match w with
    | ⟨1, _⟩ => fullShare.left
    | ⟨3, _⟩ => fullShare.right
    | ⟨2, _⟩ => fullShare.left
    | ⟨4, _⟩ => fullShare.right
    | _ => fullShare
  owed _ := 0

theorem A_eq (c : Dev nD) (w : Fin cfg1.W) : (dat V c).A w = V c (Pipeline.arrRef spec1 w) := by
  dsimp only [dat]
theorem Phi_castSucc (c : Dev nD) (t : Fin cfg1.N) :
    (dat V c).Φ t.castSucc = PhiS V c t.val (Nat.le_of_lt t.isLt) := by
  dsimp only [dat]; simp only [Fin.coe_castSucc]
theorem after_Adj (c : Dev nD) (t : Fin cfg1.N) : (dat V c).after 0 t = iblk V c 0 t := by dsimp only [dat]
theorem before_Adj (c : Dev nD) (t : Fin cfg1.N) (d) : (dat V c).before 0 t d = iblk V c 0 t :=
  before_Adj_of V (dat V c) (A_eq V c 0) (after_Adj V c) t d
theorem after_Xk (c : Dev nD) (t : Fin cfg1.N) : (dat V c).after 1 t = iblk V c 1 t := by dsimp only [dat]
theorem before_Xk (c : Dev nD) (t : Fin cfg1.N) (d) : (dat V c).before 1 t d = iblk V c 1 t :=
  before_Xk_of V (dat V c) (A_eq V c 1) (after_Xk V c) t d
theorem after_Dk (c : Dev nD) (t : Fin cfg1.N) : (dat V c).after 2 t = iblk V c 2 t := by dsimp only [dat]
theorem before_Dk (c : Dev nD) (t : Fin cfg1.N) (d) : (dat V c).before 2 t d = iblk V c 2 t :=
  before_Dk_of V (dat V c) (A_eq V c 2) (after_Dk V c) t d
theorem after_Xi (c : Dev nD) (t : Fin cfg1.N) : (dat V c).after 3 t = iblk V c 3 t := by dsimp only [dat]
theorem before_Xi (c : Dev nD) (t : Fin cfg1.N) (d) : (dat V c).before 3 t d = iblk V c 3 t :=
  before_Xi_of V (dat V c) (A_eq V c 3) (after_Xi V c) t d
theorem after_Di (c : Dev nD) (t : Fin cfg1.N) : (dat V c).after 4 t = iblk V c 4 t := by dsimp only [dat]
theorem before_Di (c : Dev nD) (t : Fin cfg1.N) (d) : (dat V c).before 4 t d = iblk V c 4 t :=
  before_Di_of V (dat V c) (A_eq V c 4) (after_Di V c) t d
theorem after_We (c : Dev nD) (t : Fin cfg1.N) : (dat V c).after 5 t = iblk V c 5 t := by dsimp only [dat]
theorem before_We (c : Dev nD) (t : Fin cfg1.N) (d) : (dat V c).before 5 t d = iblk V c 5 t :=
  before_We_of V (dat V c) (A_eq V c 5) (after_We V c) t d
theorem after_Be (c : Dev nD) (t : Fin cfg1.N) : (dat V c).after 6 t = iblk V c 6 t := by dsimp only [dat]
theorem before_Be (c : Dev nD) (t : Fin cfg1.N) (d) : (dat V c).before 6 t d = iblk V c 6 t :=
  before_Be_of V (dat V c) (A_eq V c 6) (after_Be V c) t d
theorem after_Wa (c : Dev nD) (t : Fin cfg1.N) : (dat V c).after 7 t = iblk V c 7 t := by dsimp only [dat]
theorem before_Wa (c : Dev nD) (t : Fin cfg1.N) (d) : (dat V c).before 7 t d = iblk V c 7 t :=
  before_Wa_of V (dat V c) (A_eq V c 7) (after_Wa V c) t d
theorem after_Ba (c : Dev nD) (t : Fin cfg1.N) : (dat V c).after 8 t = iblk V c 8 t := by dsimp only [dat]
theorem before_Ba (c : Dev nD) (t : Fin cfg1.N) (d) : (dat V c).before 8 t d = iblk V c 8 t :=
  before_Ba_of V (dat V c) (A_eq V c 8) (after_Ba V c) t d
theorem after_z (c : Dev nD) (t : Fin cfg1.N) : (dat V c).after 9 t = (outsAt V c t.val t.isLt).1 := by dsimp only [dat]
theorem after_s (c : Dev nD) (t : Fin cfg1.N) : (dat V c).after 10 t = (outsAt V c t.val t.isLt).2.1 := by dsimp only [dat]

end Cert.KernelIdeal.Embed

end
-- ==== Proof.KI.EmbedBody.lean ====
/-
  Region 1 (the normalized propagation, the embedding and the soft assignment): the body obligation. At a point
  the nine inputs' buffers hold their blocks; the closed forms say which control case the point is in; the
  invariant hands the body the accumulator at what the point before left (at anything at the very first point)
  and takes it back at this point's running sum.
-/
import proofs.«110719_j498216206442_2_alg».proof.Proof.KI.Embed

set_option maxRecDepth 16384

noncomputable section

namespace Cert.KernelIdeal.Embed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre (c : Dev nD) (t : Fin cfg1.N) : sProp 𝕄 :=
  iprop((dat V c).Φ t.castSucc ∗ (dat V c).owesAt () t.castSucc
    ∗ (∃ d, owns (c : Thread nD τ) (mAdj t) fullShare ((dat V c).before 0 t d))
    ∗ (∃ d, owns (c : Thread nD τ) (mXk t) fullShare ((dat V c).before 1 t d))
    ∗ (∃ d, owns (c : Thread nD τ) (mDk t) fullShare ((dat V c).before 2 t d))
    ∗ (∃ d, owns (c : Thread nD τ) (mXi t) fullShare ((dat V c).before 3 t d))
    ∗ (∃ d, owns (c : Thread nD τ) (mDi t) fullShare ((dat V c).before 4 t d))
    ∗ (∃ d, owns (c : Thread nD τ) (mWe t) fullShare ((dat V c).before 5 t d))
    ∗ (∃ d, owns (c : Thread nD τ) (mBe t) fullShare ((dat V c).before 6 t d))
    ∗ (∃ d, owns (c : Thread nD τ) (mWa t) fullShare ((dat V c).before 7 t d))
    ∗ (∃ d, owns (c : Thread nD τ) (mBa t) fullShare ((dat V c).before 8 t d))
    ∗ (∃ d, owns (c : Thread nD τ) (mZ t) fullShare ((dat V c).before 9 t d))
    ∗ (∃ d, owns (c : Thread nD τ) (mS t) fullShare ((dat V c).before 10 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t)

set_option maxHeartbeats 16000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_Adj, before_Xk, before_Dk, before_Xi, before_Di, before_We, before_Be, before_Wa, before_Ba]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg1.N = 64 from N_1)
  rw [show (dat V c).leavesExact 0 t = owns (c : Thread nD τ) (mAdj t) fullShare ((dat V c).after 0 t) from by
    unfold Dat.leavesExact; rw [show cfg1.idle 0 (grid1.coords t) = false from live_in 0 t], after_Adj]
  rw [show (dat V c).leavesExact 1 t = owns (c : Thread nD τ) (mXk t) fullShare ((dat V c).after 1 t) from by
    unfold Dat.leavesExact; rw [show cfg1.idle 1 (grid1.coords t) = false from live_in 1 t], after_Xk]
  rw [show (dat V c).leavesExact 2 t = owns (c : Thread nD τ) (mDk t) fullShare ((dat V c).after 2 t) from by
    unfold Dat.leavesExact; rw [show cfg1.idle 2 (grid1.coords t) = false from live_in 2 t], after_Dk]
  rw [show (dat V c).leavesExact 3 t = owns (c : Thread nD τ) (mXi t) fullShare ((dat V c).after 3 t) from by
    unfold Dat.leavesExact; rw [show cfg1.idle 3 (grid1.coords t) = false from live_in 3 t], after_Xi]
  rw [show (dat V c).leavesExact 4 t = owns (c : Thread nD τ) (mDi t) fullShare ((dat V c).after 4 t) from by
    unfold Dat.leavesExact; rw [show cfg1.idle 4 (grid1.coords t) = false from live_in 4 t], after_Di]
  rw [show (dat V c).leavesExact 5 t = owns (c : Thread nD τ) (mWe t) fullShare ((dat V c).after 5 t) from by
    unfold Dat.leavesExact; rw [show cfg1.idle 5 (grid1.coords t) = false from live_in 5 t], after_We]
  rw [show (dat V c).leavesExact 6 t = owns (c : Thread nD τ) (mBe t) fullShare ((dat V c).after 6 t) from by
    unfold Dat.leavesExact; rw [show cfg1.idle 6 (grid1.coords t) = false from live_in 6 t], after_Be]
  rw [show (dat V c).leavesExact 7 t = owns (c : Thread nD τ) (mWa t) fullShare ((dat V c).after 7 t) from by
    unfold Dat.leavesExact; rw [show cfg1.idle 7 (grid1.coords t) = false from live_in 7 t], after_Wa]
  rw [show (dat V c).leavesExact 8 t = owns (c : Thread nD τ) (mBa t) fullShare ((dat V c).after 8 t) from by
    unfold Dat.leavesExact; rw [show cfg1.idle 8 (grid1.coords t) = false from live_in 8 t], after_Ba]
  by_cases h0 : t.val % 8 = 0
  · have h1 : ¬t.val % 8 = 7 := by omega
    rw [Dat.leavesExact_idle (dat V c) 9 t (idle_z t (fun h => h1 ((isLast_iff t).mp h))) (noFlush_z t (fun h => h1 ((isLast_iff t).mp h)))]
    rw [Dat.leavesExact_idle (dat V c) 10 t (idle_s t (fun h => h1 ((isLast_iff t).mp h))) (noFlush_s t (fun h => h1 ((isLast_iff t).mp h)))]
    rw [outsAt_first V c t h0 h1]
    unfold accFirst; (try dsimp only)
    by_cases hz : t.val = 0
    · rw [Phi_castSucc V c t, PhiS_zero V c _ _ hz, PhiA_eq]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runFirst c (grid1.coords t) _ _ _ _ _ _ _ _ _ _ _ _ _ _ _ _ _ _ _ _ _ _ _ _ ((isFirst_iff t).mpr h0) (fun h => h1 ((isLast_iff t).mp h)) (iblk V c 0 t) (iblk V c 1 t) (iblk V c 2 t) (iblk V c 3 t) (iblk V c 4 t) (iblk V c 5 t) (iblk V c 6 t) (iblk V c 7 t) (iblk V c 8 t)).2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS]; · iexact HS
      iintro ⟨H0, H1, H2, H3, H4, H5, H6, H7, H8, H9, H10, ⟨%es, HS⟩⟩
      isplitl [HS Hrest Hg]
      · isplitl [HS Hrest]
        · isplitl [HS]
          · unfold owns; iexists _; isplitr
            swap; · iexact HS
            ipureintro; exact View.read_writes_of_cover _ _ _ _ _ (coverAcc_first c _ _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iexists _; iexact H10
    · rw [Phi_castSucc V c t, PhiS_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runFirst c (grid1.coords t) _ _ _ _ _ _ _ _ _ _ _ _ _ _ _ _ _ _ _ _ _ _ _ _ ((isFirst_iff t).mpr h0) (fun h => h1 ((isLast_iff t).mp h)) (iblk V c 0 t) (iblk V c 1 t) (iblk V c 2 t) (iblk V c 3 t) (iblk V c 4 t) (iblk V c 5 t) (iblk V c 6 t) (iblk V c 7 t) (iblk V c 8 t)).2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS]; · iexists _; iexact HS
      iintro ⟨H0, H1, H2, H3, H4, H5, H6, H7, H8, H9, H10, ⟨%es, HS⟩⟩
      isplitl [HS Hrest Hg]
      · isplitl [HS Hrest]
        · isplitl [HS]
          · unfold owns; iexists _; isplitr
            swap; · iexact HS
            ipureintro; exact View.read_writes_of_cover _ _ _ _ _ (coverAcc_first c _ _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iexists _; iexact H10
  · have hz : t.val ≠ 0 := by omega
    by_cases h1 : t.val % 8 = 7
    · rw [show (dat V c).leavesExact 9 t = owns (c : Thread nD τ) (mZ t) fullShare ((dat V c).after 9 t) from by
        unfold Dat.leavesExact; rw [live_z t ((isLast_iff t).mpr h1)], after_z]
      rw [show (dat V c).leavesExact 10 t = owns (c : Thread nD τ) (mS t) fullShare ((dat V c).after 10 t) from by
        unfold Dat.leavesExact; rw [live_s t ((isLast_iff t).mpr h1)], after_s]
      rw [outsAt_last V c t h0 h1]
      unfold zLast sLast accLast; (try dsimp only)
      rw [Phi_castSucc V c t, PhiS_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runLast c (grid1.coords t) _ _ _ _ _ _ _ _ _ _ _ _ _ _ _ _ _ _ _ _ _ _ _ _ (fun h => h0 ((isFirst_iff t).mp h)) ((isLast_iff t).mpr h1) (iblk V c 0 t) (iblk V c 1 t) (iblk V c 2 t) (iblk V c 3 t) (iblk V c 4 t) (iblk V c 5 t) (iblk V c 6 t) (iblk V c 7 t) (iblk V c 8 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [HS]; · iexact HS
      iintro ⟨H0, H1, H2, H3, H4, H5, H6, H7, H8, ⟨%e9, H9⟩, ⟨%e10, H10⟩, ⟨%es, HS⟩⟩
      isplitl [HS Hrest Hg]
      · isplitl [HS Hrest]
        · isplitl [HS]
          · unfold owns; iexists _; isplitr
            swap; · iexact HS
            ipureintro; exact View.read_writes_of_cover _ _ _ _ _ (coverAcc_last c _ _ _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (coverZ_last c _ _ _ _ _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (coverS_last c _ _ _ _ _ _ _ _ _ _ _ _ _ _ _ _ _ _ _ _ _ _ _ _ _ _ _ _ _ _ _ _ _ _ _ _ _)
    · rw [Dat.leavesExact_idle (dat V c) 9 t (idle_z t (fun h => h1 ((isLast_iff t).mp h))) (noFlush_z t (fun h => h1 ((isLast_iff t).mp h)))]
      rw [Dat.leavesExact_idle (dat V c) 10 t (idle_s t (fun h => h1 ((isLast_iff t).mp h))) (noFlush_s t (fun h => h1 ((isLast_iff t).mp h)))]
      rw [outsAt_mid V c t h0 h1]
      unfold accMid; (try dsimp only)
      rw [Phi_castSucc V c t, PhiS_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runMid c (grid1.coords t) _ _ _ _ _ _ _ _ _ _ _ _ _ _ _ _ _ _ _ _ _ _ _ _ (fun h => h0 ((isFirst_iff t).mp h)) (fun h => h1 ((isLast_iff t).mp h)) (iblk V c 0 t) (iblk V c 1 t) (iblk V c 2 t) (iblk V c 3 t) (iblk V c 4 t) (iblk V c 5 t) (iblk V c 6 t) (iblk V c 7 t) (iblk V c 8 t) _).2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS]; · iexact HS
      iintro ⟨H0, H1, H2, H3, H4, H5, H6, H7, H8, H9, H10, ⟨%es, HS⟩⟩
      isplitl [HS Hrest Hg]
      · isplitl [HS Hrest]
        · isplitl [HS]
          · unfold owns; iexists _; isplitr
            swap; · iexact HS
            ipureintro; exact View.read_writes_of_cover _ _ _ _ _ (coverAcc_mid c _ _ _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iexists _; iexact H10

/-- The body obligation of the region's pipeline, at every point. -/
theorem body_obligation (c : Dev nD) : BodyObligation (dat (F := F) V c) (defs₀ (F := F)) Variants.none () Set.univ := fun t => by
  rw [bigSep_W1, bigSep_W1]
  exact sound_body V c t

/-- What the region is entered with is the invariant before the first point. -/
theorem Phi_in (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the accumulator's contents are forgotten. -/
theorem Phi_out (c : Dev nD) : (dat V c).Φ (Fin.last cfg1.N) ⊢ Pipeline.ΦA spec1 c := by
  have ht : (Fin.last cfg1.N).val ≠ 0 := by rw [Fin.val_last]; have : cfg1.N = 64 := N_1; omega
  rw [show (dat V c).Φ (Fin.last cfg1.N) = PhiS V c (Fin.last cfg1.N).val (Nat.le_of_lt_succ (Fin.last cfg1.N).isLt) from rfl, PhiS_pos V c _ _ ht, PhiA_eq]
  iintro ⟨⟨HS, Hrest⟩, Hg⟩
  isplitl [HS Hrest]
  · isplitl [HS]
    · iexists _; iexact HS
    iexact Hrest
  iexact Hg

end Cert.KernelIdeal.Embed

end
-- ==== Proof.KI.EmbedArrays.lean ====
/-
  Region 1: its windows' arrays against the buffers behind them. The node features and the degree scaling are each
  behind two windows (1 and 3, 2 and 4), held at the two halves of the share; the other arrays are behind one
  window each. At the region's entry the buffers, whole, split into the windows' arrays; at its exit the arrays —
  the inputs unchanged, the two outputs at what the write-backs leave — join back into the buffers.
-/
import proofs.«110719_j498216206442_2_alg».proof.Proof.KI.Embed

set_option maxRecDepth 16384

noncomputable section

namespace Cert.KernelIdeal.Embed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the region's arrays, one by one (each named by the first window on it). -/
theorem arrBufs_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc (Pipeline.arrRef spec1 0)) ↦{fullShare} V' (Pipeline.arrRef spec1 0)) ∗ (((c : Thread nD τ).loc (Pipeline.arrRef spec1 1)) ↦{fullShare} V' (Pipeline.arrRef spec1 1)) ∗ (((c : Thread nD τ).loc (Pipeline.arrRef spec1 2)) ↦{fullShare} V' (Pipeline.arrRef spec1 2))
          ∗ (((c : Thread nD τ).loc (Pipeline.arrRef spec1 5)) ↦{fullShare} V' (Pipeline.arrRef spec1 5)) ∗ (((c : Thread nD τ).loc (Pipeline.arrRef spec1 6)) ↦{fullShare} V' (Pipeline.arrRef spec1 6)) ∗ (((c : Thread nD τ).loc (Pipeline.arrRef spec1 7)) ↦{fullShare} V' (Pipeline.arrRef spec1 7)) ∗ (((c : Thread nD τ).loc (Pipeline.arrRef spec1 8)) ↦{fullShare} V' (Pipeline.arrRef spec1 8))
          ∗ (((c : Thread nD τ).loc (Pipeline.arrRef spec1 9)) ↦{fullShare} V' (Pipeline.arrRef spec1 9)) ∗ (((c : Thread nD τ).loc (Pipeline.arrRef spec1 10)) ↦{fullShare} V' (Pipeline.arrRef spec1 10))) := by
  unfold Pipeline.arrBufs
  exact Idealize.SL.BI.bigSep_eq_bigSepL_of_eq [(Pipeline.arrRef spec1 0), (Pipeline.arrRef spec1 1), (Pipeline.arrRef spec1 2), (Pipeline.arrRef spec1 5), (Pipeline.arrRef spec1 6), (Pipeline.arrRef spec1 7), (Pipeline.arrRef spec1 8), (Pipeline.arrRef spec1 9), (Pipeline.arrRef spec1 10)] (by decide) (by decide) _

theorem share_adj (c : Dev nD) : (dat V c).share 0 = fullShare := rfl
theorem share_xk (c : Dev nD) : (dat V c).share 1 = fullShare.left := rfl
theorem share_dk (c : Dev nD) : (dat V c).share 2 = fullShare.left := rfl
theorem share_xi (c : Dev nD) : (dat V c).share 3 = fullShare.right := rfl
theorem share_di (c : Dev nD) : (dat V c).share 4 = fullShare.right := rfl
theorem share_we (c : Dev nD) : (dat V c).share 5 = fullShare := rfl
theorem share_be (c : Dev nD) : (dat V c).share 6 = fullShare := rfl
theorem share_wa (c : Dev nD) : (dat V c).share 7 = fullShare := rfl
theorem share_ba (c : Dev nD) : (dat V c).share 8 = fullShare := rfl
theorem share_z (c : Dev nD) : (dat V c).share 9 = fullShare := rfl
theorem share_s (c : Dev nD) : (dat V c).share 10 = fullShare := rfl

set_option maxHeartbeats 8000000 in
/-- The windows' arrays, one by one, each at its window's share. -/
theorem arrays_eq (c : Dev nD) (G : (w : Fin cfg1.W) → Buf (Elt F) ((cfg1.win w).arr.view.loc (c : Thread nD τ))) :
    ((dat V c).arrays G : sProp 𝕄)
      = iprop((((c : Thread nD τ).loc (Pipeline.arrRef spec1 0)) ↦{fullShare} G 0) ∗ (((c : Thread nD τ).loc (Pipeline.arrRef spec1 1)) ↦{fullShare.left} G 1) ∗ (((c : Thread nD τ).loc (Pipeline.arrRef spec1 2)) ↦{fullShare.left} G 2)
          ∗ (((c : Thread nD τ).loc (Pipeline.arrRef spec1 3)) ↦{fullShare.right} G 3) ∗ (((c : Thread nD τ).loc (Pipeline.arrRef spec1 4)) ↦{fullShare.right} G 4)
          ∗ (((c : Thread nD τ).loc (Pipeline.arrRef spec1 5)) ↦{fullShare} G 5) ∗ (((c : Thread nD τ).loc (Pipeline.arrRef spec1 6)) ↦{fullShare} G 6) ∗ (((c : Thread nD τ).loc (Pipeline.arrRef spec1 7)) ↦{fullShare} G 7) ∗ (((c : Thread nD τ).loc (Pipeline.arrRef spec1 8)) ↦{fullShare} G 8)
          ∗ (((c : Thread nD τ).loc (Pipeline.arrRef spec1 9)) ↦{fullShare} G 9) ∗ (((c : Thread nD τ).loc (Pipeline.arrRef spec1 10)) ↦{fullShare} G 10)) := by
  have h : ((dat V c).arrays G : sProp 𝕄) = bigSep Finset.univ fun w : Fin cfg1.W => (((c : Thread nD τ).loc (Pipeline.arrRef spec1 w)) ↦{(dat V c).share w} G w : sProp 𝕄) := by
    unfold Dat.arrays
    exact bigSep_congr fun w _ => by rw [(arr_whole1 w).set_eq_univ]
  rw [h, bigSep_W1, share_adj, share_xk, share_dk, share_xi, share_di, share_we, share_be, share_wa, share_ba, share_z, share_s]

/-- The two windows on the node features are on one buffer, and so are the two on the degree scaling. -/
theorem arr_xi : Pipeline.arrRef spec1 3 = Pipeline.arrRef spec1 1 := rfl
theorem arr_di : Pipeline.arrRef spec1 4 = Pipeline.arrRef spec1 2 := rfl

set_option maxHeartbeats 8000000 in
/-- Entry: the buffers behind the arrays, whole at the region's entry contents, are the windows' arrays at the proof
    data's entry contents — the two buffers staged twice split into the two halves of their share. -/
theorem arrays_of_arrBufs (c : Dev nD) :
    (Pipeline.arrBufs (Ix := Unit) (Name := ℕ) (U := UR sig nD τ) (Lvl := ℕ) spec1 c (V c) : sProp 𝕄) ⊢ (dat V c).arrays ((dat V c).arrAt · 0) := by
  rw [arrBufs_eq, arrays_eq]
  have hA : ∀ w, (dat V c).arrAt w 0 = V c (Pipeline.arrRef spec1 w) := fun _ => rfl
  rw [hA 0, hA 1, hA 2, hA 3, hA 4, hA 5, hA 6, hA 7, hA 8, hA 9, hA 10, arr_xi, arr_di]
  iintro ⟨H0, Hx, Hd, H5, H6, H7, H8, H9, H10⟩
  ihave Ha := (pointsTo_share (PosShare.mem_left_op_right fullShare)).1 $$ Hx
  ihave Hb := (pointsTo_share (PosShare.mem_left_op_right fullShare)).1 $$ Hd
  icases Ha with ⟨HaL, HaR⟩
  icases Hb with ⟨HbL, HbR⟩
  isplitl [H0]; · iexact H0
  isplitl [HaL]; · iexact HaL
  isplitl [HbL]; · iexact HbL
  isplitl [HaR]; · iexact HaR
  isplitl [HbR]; · iexact HbR
  isplitl [H5]; · iexact H5
  isplitl [H6]; · iexact H6
  isplitl [H7]; · iexact H7
  isplitl [H8]; · iexact H8
  isplitl [H9]; · iexact H9
  iexact H10

set_option maxHeartbeats 8000000 in
/-- Exit: the windows' arrays after the last write-back are the buffers behind them, whole, at any contents that
    has every array there: the halves of the two buffers staged twice join. -/
theorem arrBufs_of_arrays (c : Dev nD) (V' : (b : Ref sig .tc) → Buf (Elt F) ((c : Thread nD τ).loc b))
    (hF : ∀ w, (dat V c).arrAt w cfg1.N = V' (Pipeline.arrRef spec1 w)) :
    ((dat V c).arrays ((dat V c).arrAt · cfg1.N) : sProp 𝕄) ⊢ Pipeline.arrBufs (Ix := Unit) (Name := ℕ) (U := UR sig nD τ) (Lvl := ℕ) spec1 c V' := by
  rw [arrBufs_eq, arrays_eq]
  rw [hF 0, hF 1, hF 2, hF 3, hF 4, hF 5, hF 6, hF 7, hF 8, hF 9, hF 10, arr_xi, arr_di]
  iintro ⟨H0, HaL, HbL, HaR, HbR, H5, H6, H7, H8, H9, H10⟩
  isplitl [H0]; · iexact H0
  isplitl [HaL HaR]
  · iapply (pointsTo_share (PosShare.mem_left_op_right fullShare)).2
    isplitl [HaL]; · iexact HaL
    iexact HaR
  isplitl [HbL HbR]
  · iapply (pointsTo_share (PosShare.mem_left_op_right fullShare)).2
    isplitl [HbL]; · iexact HbL
    iexact HbR
  isplitl [H5]; · iexact H5
  isplitl [H6]; · iexact H6
  isplitl [H7]; · iexact H7
  isplitl [H8]; · iexact H8
  isplitl [H9]; · iexact H9
  iexact H10

end Cert.KernelIdeal.Embed

end
-- ==== Proof.KI.HopBase.lean ====
/-
  Region 2 of the idealized kernel (one hop of the adjacency matrix over the soft assignment): what its runs
  are stated over. At every grid point (i, k) the body adds the product of block (i, k) of the bf16 adjacency
  copy with block k of the assignment matrix into a 1024×128 scratch accumulator (reset at k = 0), and at k = 7
  stores the accumulator into the output's block (i, 0).
-/
import proofs.«110719_j498216206442_2_alg».proof.Proof.Gen.KernelIdeal.Launch
import proofs.«110719_j498216206442_2_alg».proof.Proof.Gen.KernelIdeal.Skeleton
import proofs.«110719_j498216206442_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hop

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions over the grid -/

/-- The reset branch is taken: the reduction coordinate k is 0. -/
abbrev isFirst (i : grid2.Coords) : Prop := (Scalar.cmpi .ne (Scalar.extui (Scalar.cmpi .eq (BitVec.ofNat 32 (i 1).val) 0#32)) 0#32) = 1#1
theorem isFirst_iff : ∀ t : Fin cfg2.N, isFirst (grid2.coords t) ↔ t.val % 8 = 0 :=
  (by decide +kernel : ∀ t : Fin grid2.N, isFirst (grid2.coords t) ↔ t.val % 8 = 0)

/-- The finishing branch is taken: k is 7. -/
abbrev isLast (i : grid2.Coords) : Prop := k2_cond2 i = 1#1
theorem isLast_iff : ∀ t : Fin cfg2.N, isLast (grid2.coords t) ↔ t.val % 8 = 7 :=
  (by decide +kernel : ∀ t : Fin grid2.N, isLast (grid2.coords t) ↔ t.val % 8 = 7)

/-! ## Where the windows are idle -/

theorem live_adj : ∀ t : Fin cfg2.N, cfg2.idle 0 (grid2.coords t) = false := by decide +kernel
theorem live_asg : ∀ t : Fin cfg2.N, cfg2.idle 1 (grid2.coords t) = false := by decide +kernel
theorem idle_out : ∀ t : Fin cfg2.N, ¬isLast (grid2.coords t) → cfg2.idle 2 (grid2.coords t) = true := by decide +kernel
theorem noFlush_out : ∀ t : Fin cfg2.N, ¬isLast (grid2.coords t) → (cfg2.win 2).flush t = false := by decide +kernel
theorem live_out : ∀ t : Fin cfg2.N, isLast (grid2.coords t) → cfg2.idle 2 (grid2.coords t) = false := by decide +kernel

/-! ## The memrefs at a point -/

abbrev viewOut : View sig .tc .vmem S1024x128 .f32 := (Memref.whole cc2_stg2_0 : Memref sig .tc .vmem S1024x128 .f32).view
abbrev mAdj (t : Fin cfg2.N) : Memref sig .tc .vmem S1024x1024 .bf16 := win2_0.stage (cfg2.slots t 0)
abbrev hAdj (t : Fin cfg2.N) : (mAdj t).IsWhole := hstage2_0 ((cfg2.slots t 0).cast nbuf2_0)
abbrev mAsg (t : Fin cfg2.N) : Memref sig .tc .vmem S1024x128 .f32 := win2_1.stage (cfg2.slots t 1)
abbrev hAsg (t : Fin cfg2.N) : (mAsg t).IsWhole := hstage2_1 ((cfg2.slots t 1).cast nbuf2_1)
abbrev mOut (t : Fin cfg2.N) : Memref sig .tc .vmem S1024x128 .f32 := win2_2.stage (cfg2.slots t 2)
abbrev hOut (t : Fin cfg2.N) : (mOut t).IsWhole := hstage2_2 ((cfg2.slots t 2).cast nbuf2_2)
/-- The scratch accumulator. -/
abbrev mAcc : Memref sig .tc .vmem S1024x128 .f32 := Memref.whole cc2_scratch0
abbrev viewAcc : View sig .tc .vmem S1024x128 .f32 := mAcc.view

/-- The class invariant with the scratch accumulator as a memref owned at some contents. -/
theorem PhiA_eq (c : Dev nD) :
    (Pipeline.ΦA spec2 c : sProp 𝕄)
      = iprop(iprop((∃ d, owns (c : Thread nD τ) mAcc fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [mAcc, owns_whole]; try rfl

end Cert.KernelIdeal.Hop

end
-- ==== Proof.KI.HopRuns.lean ====
/-
  Region 2 (one hop of the adjacency matrix over the soft assignment): the body's run in each of its three
  control cases. The two input blocks are left as found; the scratch accumulator ends with the pieces the
  stores wrote; the output is handed back untouched except at k = 7, where it ends with its one piece.
-/
import proofs.«110719_j498216206442_2_alg».proof.Proof.KI.HopBase

set_option maxRecDepth 16384

noncomputable section

namespace Cert.KernelIdeal.Hop

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- k = 0: the accumulator, found at anything, is reset and then receives the blocks' product. -/
noncomputable def runFirst (c : Dev nD) (i : grid2.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : isFirst i) (hc1 : ¬isLast i)
    (x0 : Vec F S1024x1024 .bf16) (x1 : Vec F S1024x128 .f32) :
    { LS : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS)) -∗ K ⟨⟩))
          ⊢ wp frame (wpE (defs₀ (F := F)) Variants.none c none) E (cc2__stageC_kernel i arg2 harg2 arg3 harg3 arg4 harg4 arg5 harg5) K } := by
  refine ⟨?_, fun xi2 E K => ?run⟩
  case run =>
    simp only [cc2__stageC_kernel_eq_skeleton]; unfold cc2__stageC_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 4000000 in
/-- 0 < k < 7: the accumulator, found at what the point before left, receives the blocks' product. -/
noncomputable def runMid (c : Dev nD) (i : grid2.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬isFirst i) (hc1 : ¬isLast i)
    (x0 : Vec F S1024x1024 .bf16) (x1 : Vec F S1024x128 .f32) (xs : Vec F S1024x128 .f32) :
    { LS : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS)) -∗ K ⟨⟩))
          ⊢ wp frame (wpE (defs₀ (F := F)) Variants.none c none) E (cc2__stageC_kernel i arg2 harg2 arg3 harg3 arg4 harg4 arg5 harg5) K } := by
  refine ⟨?_, fun xi2 E K => ?run⟩
  case run =>
    simp only [cc2__stageC_kernel_eq_skeleton]; unfold cc2__stageC_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 4000000 in
/-- k = 7: after the last product the output receives the accumulator. -/
noncomputable def runLast (c : Dev nD) (i : grid2.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬isFirst i) (hc1 : isLast i)
    (x0 : Vec F S1024x1024 .bf16) (x1 : Vec F S1024x128 .f32) (xs : Vec F S1024x128 .f32) :
    Σ' (L2 : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS)) -∗ K ⟨⟩))
          ⊢ wp frame (wpE (defs₀ (F := F)) Variants.none c none) E (cc2__stageC_kernel i arg2 harg2 arg3 harg3 arg4 harg4 arg5 harg5) K } := by
  refine ⟨?_, ?_, fun E K => ?run⟩
  case run =>
    simp only [cc2__stageC_kernel_eq_skeleton]; unfold cc2__stageC_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Hop

end
-- ==== Proof.KI.Hop.lean ====
/-
  Region 2 (one hop of the adjacency matrix over the soft assignment): what its buffers hold point by point and
  the proof data of its pipeline, the arrays read as the region finds them (`V`). After point (i, k) the scratch
  accumulator holds the sum over the blocks 0..k of (adjacency block (i, ·)) · (assignment block ·), and at
  k = 7 the output's block (i, 0) holds it.
-/
import proofs.«110719_j498216206442_2_alg».proof.Proof.KI.HopRuns

set_option maxRecDepth 16384

noncomputable section

namespace Cert.KernelIdeal.Hop

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current staging buffer holds its block at every point. -/
theorem before_adj_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_asg_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

section Cases
variable (c : Dev nD) (i : grid2.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole)

theorem coverAcc_first (hc0 : isFirst i) (hc1 : ¬isLast i) (x0 : Vec F S1024x1024 .bf16) (x1 : Vec F S1024x128 .f32) (y : S1024x128.Idx) :
    ∃ pc ∈ (runFirst c i arg2 harg2 arg3 harg3 arg4 harg4 arg5 harg5 hc0 hc1 x0 x1).1, y ∈ pc.1.set :=
  View.cover_of_tiledL (runFirst c i arg2 harg2 arg3 harg3 arg4 harg4 arg5 harg5 hc0 hc1 x0 x1).1 S1024x128.size (by sl_kernel_rfl) y
def accFirst (hc0 : isFirst i) (hc1 : ¬isLast i) (x0 : Vec F S1024x1024 .bf16) (x1 : Vec F S1024x128 .f32) : Vec F S1024x128 .f32 :=
  viewAcc.read (Elt F) (viewAcc.writes (Elt F) viewAcc.junk (runFirst c i arg2 harg2 arg3 harg3 arg4 harg4 arg5 harg5 hc0 hc1 x0 x1).1)

theorem coverAcc_mid (hc0 : ¬isFirst i) (hc1 : ¬isLast i) (x0 : Vec F S1024x1024 .bf16) (x1 : Vec F S1024x128 .f32) (xs : Vec F S1024x128 .f32) (y : S1024x128.Idx) :
    ∃ pc ∈ (runMid c i arg2 harg2 arg3 harg3 arg4 harg4 arg5 harg5 hc0 hc1 x0 x1 xs).1, y ∈ pc.1.set :=
  View.cover_of_tiledL (runMid c i arg2 harg2 arg3 harg3 arg4 harg4 arg5 harg5 hc0 hc1 x0 x1 xs).1 S1024x128.size (by sl_kernel_rfl) y
def accMid (hc0 : ¬isFirst i) (hc1 : ¬isLast i) (x0 : Vec F S1024x1024 .bf16) (x1 : Vec F S1024x128 .f32) (xs : Vec F S1024x128 .f32) : Vec F S1024x128 .f32 :=
  viewAcc.read (Elt F) (viewAcc.writes (Elt F) viewAcc.junk (runMid c i arg2 harg2 arg3 harg3 arg4 harg4 arg5 harg5 hc0 hc1 x0 x1 xs).1)

theorem coverOut_last (hc0 : ¬isFirst i) (hc1 : isLast i) (x0 : Vec F S1024x1024 .bf16) (x1 : Vec F S1024x128 .f32) (xs : Vec F S1024x128 .f32) (y : S1024x128.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S1024x128.size (by sl_kernel_rfl) y
theorem coverAcc_last (hc0 : ¬isFirst i) (hc1 : isLast i) (x0 : Vec F S1024x1024 .bf16) (x1 : Vec F S1024x128 .f32) (xs : Vec F S1024x128 .f32) (y : S1024x128.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S1024x128.size (by sl_kernel_rfl) y
def outLast (hc0 : ¬isFirst i) (hc1 : isLast i) (x0 : Vec F S1024x1024 .bf16) (x1 : Vec F S1024x128 .f32) (xs : Vec F S1024x128 .f32) : Vec F S1024x128 .f32 :=
  viewOut.read (Elt F) (viewOut.writes (Elt F) viewOut.junk (runLast c i arg2 harg2 arg3 harg3 arg4 harg4 arg5 harg5 hc0 hc1 x0 x1 xs).1)
def accLast (hc0 : ¬isFirst i) (hc1 : isLast i) (x0 : Vec F S1024x1024 .bf16) (x1 : Vec F S1024x128 .f32) (xs : Vec F S1024x128 .f32) : Vec F S1024x128 .f32 :=
  viewAcc.read (Elt F) (viewAcc.writes (Elt F) viewAcc.junk (runLast c i arg2 harg2 arg3 harg3 arg4 harg4 arg5 harg5 hc0 hc1 x0 x1 xs).2.1)

end Cases

/-- A placeholder for the output's buffer at the points where the body stores nothing into it: nothing consults it. -/
def outIdle : Vec F S1024x128 .f32 := viewOut.read (Elt F) (viewOut.writes (Elt F) viewOut.junk [])

/-! ## Point by point -/

/-- What the output's buffer and the scratch accumulator hold after the body at position `n`. -/
def outsAt (c : Dev nD) : (n : ℕ) → n < cfg2.N → Vec F S1024x128 .f32 × Vec F S1024x128 .f32
  | 0, hn => (outIdle,
      accFirst c (grid2.coords ⟨0, hn⟩) (mAdj ⟨0, hn⟩) (hAdj ⟨0, hn⟩) (mAsg ⟨0, hn⟩) (hAsg ⟨0, hn⟩) (mOut ⟨0, hn⟩) (hOut ⟨0, hn⟩) mAcc (Memref.isWhole_whole _) ((isFirst_iff ⟨0, hn⟩).mpr (Nat.zero_mod _)) (fun h => (fun h => by (try dsimp only at h); omega) ((isLast_iff ⟨0, hn⟩).mp h)) (iblk V c 0 ⟨0, hn⟩) (iblk V c 1 ⟨0, hn⟩))
  | n + 1, hn =>
    if h0 : (n + 1) % 8 = 0 then
      if h1 : (n + 1) % 8 = 7 then False.elim (by omega)
      else (outIdle,
        accFirst c (grid2.coords ⟨n + 1, hn⟩) (mAdj ⟨n + 1, hn⟩) (hAdj ⟨n + 1, hn⟩) (mAsg ⟨n + 1, hn⟩) (hAsg ⟨n + 1, hn⟩) (mOut ⟨n + 1, hn⟩) (hOut ⟨n + 1, hn⟩) mAcc (Memref.isWhole_whole _) ((isFirst_iff ⟨n + 1, hn⟩).mpr h0) (fun h => h1 ((isLast_iff ⟨n + 1, hn⟩).mp h)) (iblk V c 0 ⟨n + 1, hn⟩) (iblk V c 1 ⟨n + 1, hn⟩))
    else
      if h1 : (n + 1) % 8 = 7 then
        (outLast c (grid2.coords ⟨n + 1, hn⟩) (mAdj ⟨n + 1, hn⟩) (hAdj ⟨n + 1, hn⟩) (mAsg ⟨n + 1, hn⟩) (hAsg ⟨n + 1, hn⟩) (mOut ⟨n + 1, hn⟩) (hOut ⟨n + 1, hn⟩) mAcc (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (outsAt c n (Nat.lt_of_succ_lt hn)).2,
         accLast c (grid2.coords ⟨n + 1, hn⟩) (mAdj ⟨n + 1, hn⟩) (hAdj ⟨n + 1, hn⟩) (mAsg ⟨n + 1, hn⟩) (hAsg ⟨n + 1, hn⟩) (mOut ⟨n + 1, hn⟩) (hOut ⟨n + 1, hn⟩) mAcc (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (outsAt c n (Nat.lt_of_succ_lt hn)).2)
      else
        (outIdle,
         accMid c (grid2.coords ⟨n + 1, hn⟩) (mAdj ⟨n + 1, hn⟩) (hAdj ⟨n + 1, hn⟩) (mAsg ⟨n + 1, hn⟩) (hAsg ⟨n + 1, hn⟩) (mOut ⟨n + 1, hn⟩) (hOut ⟨n + 1, hn⟩) mAcc (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (outsAt c n (Nat.lt_of_succ_lt hn)).2)

theorem outsAt_first (c : Dev nD) (t : Fin cfg2.N) (h0 : t.val % 8 = 0) (h1 : ¬t.val % 8 = 7) :
    outsAt V c t.val t.isLt = (outIdle,
      accFirst c (grid2.coords t) (mAdj t) (hAdj t) (mAsg t) (hAsg t) (mOut t) (hOut t) mAcc (Memref.isWhole_whole _) ((isFirst_iff t).mpr h0) (fun h => h1 ((isLast_iff t).mp h)) (iblk V c 0 t) (iblk V c 1 t)) := by
  obtain ⟨n, hn⟩ := t
  cases n with
  | zero => exact rfl
  | succ n => exact (dif_pos h0).trans ((dif_neg h1).trans rfl)

theorem outsAt_mid (c : Dev nD) (t : Fin cfg2.N) (h0 : ¬t.val % 8 = 0) (h1 : ¬t.val % 8 = 7) :
    outsAt V c t.val t.isLt = (outIdle,
      accMid c (grid2.coords t) (mAdj t) (hAdj t) (mAsg t) (hAsg t) (mOut t) (hOut t) mAcc (Memref.isWhole_whole _) (fun h => h0 ((isFirst_iff t).mp h)) (fun h => h1 ((isLast_iff t).mp h)) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg2.N) (h0 : ¬t.val % 8 = 0) (h1 : t.val % 8 = 7) :
    outsAt V c t.val t.isLt = (
      outLast c (grid2.coords t) (mAdj t) (hAdj t) (mAsg t) (hAsg t) (mOut t) (hOut t) mAcc (Memref.isWhole_whole _) (fun h => h0 ((isFirst_iff t).mp h)) ((isLast_iff t).mpr h1) (iblk V c 0 t) (iblk V c 1 t) (outsAt V c (t.val - 1) (Nat.lt_of_le_of_lt (Nat.sub_le _ _) t.isLt)).2,
      accLast c (grid2.coords t) (mAdj t) (hAdj t) (mAsg t) (hAsg t) (mOut t) (hOut t) mAcc (Memref.isWhole_whole _) (fun h => h0 ((isFirst_iff t).mp h)) ((isLast_iff t).mpr h1) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the first point the class's invariant (the accumulator at anything); afterwards the
    accumulator at what the point before left, the other scoped buffers and the generator register as they are. -/
def PhiS (c : Dev nD) : (n : ℕ) → n ≤ cfg2.N → sProp 𝕄
  | 0, _ => Pipeline.ΦA spec2 c
  | n + 1, hn => iprop(iprop(owns (c : Thread nD τ) mAcc fullShare ((outsAt V c n hn).2) ∗ Pipeline.scopedRestBut (Ix := Unit) (Name := ℕ) (U := UR sig nD τ) (Lvl := ℕ) (Val := Elt F) spec2 c [cc2_scratch0]) ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(iprop(owns (c : Thread nD τ) mAcc fullShare ((outsAt V c n hn).2) ∗ Pipeline.scopedRestBut (Ix := Unit) (Name := ℕ) (U := UR sig nD τ) (Lvl := ℕ) (Val := Elt F) spec2 c [cc2_scratch0]) ∗ (∃ r, prngReg c r)) := rfl
theorem PhiS_pos (c : Dev nD) (n : ℕ) (h : n ≤ cfg2.N) (hz : n ≠ 0) :
    PhiS V c n h = iprop(iprop(owns (c : Thread nD τ) mAcc fullShare ((outsAt V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]
theorem Phi_castSucc (c : Dev nD) (t : Fin cfg2.N) :
    (dat V c).Φ t.castSucc = PhiS V c t.val (Nat.le_of_lt t.isLt) := by
  dsimp only [dat]; simp only [Fin.coe_castSucc]
theorem after_adj (c : Dev nD) (t : Fin cfg2.N) : (dat V c).after 0 t = iblk V c 0 t := by dsimp only [dat]
theorem after_asg (c : Dev nD) (t : Fin cfg2.N) : (dat V c).after 1 t = iblk V c 1 t := by dsimp only [dat]
theorem after_out (c : Dev nD) (t : Fin cfg2.N) : (dat V c).after 2 t = (outsAt V c t.val t.isLt).1 := by dsimp only [dat]
theorem before_adj (c : Dev nD) (t : Fin cfg2.N) (d) : (dat V c).before 0 t d = iblk V c 0 t :=
  before_adj_of V (dat V c) (A_eq V c 0) (after_adj V c) t d
theorem before_asg (c : Dev nD) (t : Fin cfg2.N) (d) : (dat V c).before 1 t d = iblk V c 1 t :=
  before_asg_of V (dat V c) (A_eq V c 1) (after_asg V c) t d

end Cert.KernelIdeal.Hop

end
-- ==== Proof.KI.HopBody.lean ====
/-
  Region 2 (one hop of the adjacency matrix over the soft assignment): the body obligation. At a point the two
  inputs' buffers hold their blocks; the closed forms say which control case the point is in; the invariant hands
  the body the accumulator at what the point before left (at anything at the very first point) and takes it back
  at this point's running sum.
-/
import proofs.«110719_j498216206442_2_alg».proof.Proof.KI.Hop

set_option maxRecDepth 16384

noncomputable section

namespace Cert.KernelIdeal.Hop

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre (c : Dev nD) (t : Fin cfg2.N) : sProp 𝕄 :=
  iprop((dat V c).Φ t.castSucc ∗ (dat V c).owesAt () t.castSucc
    ∗ (∃ d, owns (c : Thread nD τ) (mAdj t) fullShare ((dat V c).before 0 t d))
    ∗ (∃ d, owns (c : Thread nD τ) (mAsg t) fullShare ((dat V c).before 1 t d))
    ∗ (∃ d, owns (c : Thread nD τ) (mOut t) fullShare ((dat V c).before 2 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_adj, before_asg]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg2.N = 64 from N_2)
  rw [show (dat V c).leavesExact 0 t = owns (c : Thread nD τ) (mAdj t) fullShare ((dat V c).after 0 t) from by
    unfold Dat.leavesExact; rw [live_adj t], after_adj]
  rw [show (dat V c).leavesExact 1 t = owns (c : Thread nD τ) (mAsg t) fullShare ((dat V c).after 1 t) from by
    unfold Dat.leavesExact; rw [live_asg t], after_asg]
  by_cases h0 : t.val % 8 = 0
  · have h1 : ¬t.val % 8 = 7 := by omega
    rw [Dat.leavesExact_idle (dat V c) 2 t (idle_out t (fun h => h1 ((isLast_iff t).mp h))) (noFlush_out t (fun h => h1 ((isLast_iff t).mp h)))]
    rw [outsAt_first V c t h0 h1]
    unfold accFirst; (try dsimp only)
    by_cases hz : t.val = 0
    · rw [Phi_castSucc V c t, PhiS_zero V c _ _ hz, PhiA_eq]
      iintro ⟨⟨⟨HS, Hrest⟩, Hg⟩, Ho, ⟨%d0, H0⟩, ⟨%d1, H1⟩, ⟨%d2, H2⟩⟩
      iapply ((runFirst c (grid2.coords t) _ _ _ _ _ _ _ _ ((isFirst_iff t).mpr h0) (fun h => h1 ((isLast_iff t).mp h)) (iblk V c 0 t) (iblk V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (coverAcc_first c _ _ _ _ _ _ _ _ _ _ _ _ _)
          iexact Hrest
        iexact Hg
      isplitl [Ho]; · iexact Ho
      isplitl [H0]; · iexact H0
      isplitl [H1]; · iexact H1
      iexists _; iexact H2
    · rw [Phi_castSucc V c t, PhiS_pos V c _ _ hz]
      iintro ⟨⟨⟨HS, Hrest⟩, Hg⟩, Ho, ⟨%d0, H0⟩, ⟨%d1, H1⟩, ⟨%d2, H2⟩⟩
      iapply ((runFirst c (grid2.coords t) _ _ _ _ _ _ _ _ ((isFirst_iff t).mpr h0) (fun h => h1 ((isLast_iff t).mp h)) (iblk V c 0 t) (iblk V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (coverAcc_first c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := by omega
    by_cases h1 : t.val % 8 = 7
    · rw [show (dat V c).leavesExact 2 t = owns (c : Thread nD τ) (mOut t) fullShare ((dat V c).after 2 t) from by
        unfold Dat.leavesExact; rw [live_out t ((isLast_iff t).mpr h1)], after_out]
      rw [outsAt_last V c t h0 h1]
      unfold outLast accLast; (try dsimp only)
      rw [Phi_castSucc V c t, PhiS_pos V c _ _ hz]
      iintro ⟨⟨⟨HS, Hrest⟩, Hg⟩, Ho, ⟨%d0, H0⟩, ⟨%d1, H1⟩, ⟨%d2, H2⟩⟩
      iapply ((runLast c (grid2.coords t) _ _ _ _ _ _ _ _ (fun h => h0 ((isFirst_iff t).mp h)) ((isLast_iff t).mpr h1) (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (coverAcc_last c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (coverOut_last c _ _ _ _ _ _ _ _ _ _ _ _ _ _)
    · rw [Dat.leavesExact_idle (dat V c) 2 t (idle_out t (fun h => h1 ((isLast_iff t).mp h))) (noFlush_out t (fun h => h1 ((isLast_iff t).mp h)))]
      rw [outsAt_mid V c t h0 h1]
      unfold accMid; (try dsimp only)
      rw [Phi_castSucc V c t, PhiS_pos V c _ _ hz]
      iintro ⟨⟨⟨HS, Hrest⟩, Hg⟩, Ho, ⟨%d0, H0⟩, ⟨%d1, H1⟩, ⟨%d2, H2⟩⟩
      iapply ((runMid c (grid2.coords t) _ _ _ _ _ _ _ _ (fun h => h0 ((isFirst_iff t).mp h)) (fun h => h1 ((isLast_iff t).mp h)) (iblk V c 0 t) (iblk V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (coverAcc_mid c _ _ _ _ _ _ _ _ _ _ _ _ _ _)
          iexact Hrest
        iexact Hg
      isplitl [Ho]; · iexact Ho
      isplitl [H0]; · iexact H0
      isplitl [H1]; · iexact H1
      iexists _; iexact H2

/-- The body obligation of the region's pipeline, at every point. -/
theorem body_obligation (c : Dev nD) : BodyObligation (dat (F := F) V c) (defs₀ (F := F)) Variants.none () Set.univ := fun t => by
  rw [bigSep_W2, bigSep_W2]
  exact sound_body V c t

/-- What the region is entered with is the invariant before the first point. -/
theorem Phi_in (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the accumulator's contents are forgotten. -/
theorem Phi_out (c : Dev nD) : (dat V c).Φ (Fin.last cfg2.N) ⊢ Pipeline.ΦA spec2 c := by
  have ht : (Fin.last cfg2.N).val ≠ 0 := by rw [Fin.val_last]; have : cfg2.N = 64 := N_2; omega
  rw [show (dat V c).Φ (Fin.last cfg2.N) = PhiS V c (Fin.last cfg2.N).val (Nat.le_of_lt_succ (Fin.last cfg2.N).isLt) from rfl, PhiS_pos V c _ _ ht, PhiA_eq]
  iintro ⟨⟨HS, Hrest⟩, Hg⟩
  isplitl [HS Hrest]
  · isplitl [HS]
    · iexists _; iexact HS
    iexact Hrest
  iexact Hg

end Cert.KernelIdeal.Hop

end
-- ==== Proof.KI.PoolRuns.lean ====
/-
  Region 3 of the idealized kernel (pooling): what its runs are stated over. At grid point (c, k) the body adds
  into the two outputs' blocks (c, ·, ·) — reset at k = 0 — the products (assignment block)ᵀ · (embedding block)
  and (assignment block)ᵀ · (hop block), the blocks being rows 2048·(2c + k) … of their arrays. The outputs'
  buffers are kept between the two points of a core and written back after the second.
-/
import proofs.«110719_j498216206442_2_alg».proof.Proof.Gen.KernelIdeal.Launch
import proofs.«110719_j498216206442_2_alg».proof.Proof.Gen.KernelIdeal.Skeleton
import proofs.«110719_j498216206442_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reset branch is taken: k is 0. -/
abbrev isFirst (i : grid3.Coords) : Prop := (Scalar.cmpi .ne (Scalar.extui (Scalar.cmpi .eq (BitVec.ofNat 32 (i 1).val) 0#32)) 0#32) = 1#1
theorem isFirst_iff : ∀ t : Fin cfg3.N, isFirst (grid3.coords t) ↔ t.val % 2 = 0 :=
  (by decide +kernel : ∀ t : Fin grid3.N, isFirst (grid3.coords t) ↔ t.val % 2 = 0)

abbrev viewX : View sig .tc .vmem S1x128x128 .f32 := (Memref.whole cc3_stg3_0 : Memref sig .tc .vmem S1x128x128 .f32).view
abbrev viewA : View sig .tc .vmem S1x128x128 .f32 := (Memref.whole cc3_stg4_0 : Memref sig .tc .vmem S1x128x128 .f32).view
abbrev mAsg (t : Fin cfg3.N) : Memref sig .tc .vmem S2048x128 .f32 := win3_0.stage (cfg3.slots t 0)
abbrev hAsg (t : Fin cfg3.N) : (mAsg t).IsWhole := hstage3_0 ((cfg3.slots t 0).cast nbuf3_0)
abbrev mEmb (t : Fin cfg3.N) : Memref sig .tc .vmem S2048x128 .f32 := win3_1.stage (cfg3.slots t 1)
abbrev hEmb (t : Fin cfg3.N) : (mEmb t).IsWhole := hstage3_1 ((cfg3.slots t 1).cast nbuf3_1)
abbrev mHop (t : Fin cfg3.N) : Memref sig .tc .vmem S2048x128 .f32 := win3_2.stage (cfg3.slots t 2)
abbrev hHop (t : Fin cfg3.N) : (mHop t).IsWhole := hstage3_2 ((cfg3.slots t 2).cast nbuf3_2)
abbrev mX (t : Fin cfg3.N) : Memref sig .tc .vmem S1x128x128 .f32 := win3_3.stage (cfg3.slots t 3)
abbrev hX (t : Fin cfg3.N) : (mX t).IsWhole := hstage3_3 ((cfg3.slots t 3).cast nbuf3_3)
abbrev mA (t : Fin cfg3.N) : Memref sig .tc .vmem S1x128x128 .f32 := win3_4.stage (cfg3.slots t 4)
abbrev hA (t : Fin cfg3.N) : (mA t).IsWhole := hstage3_4 ((cfg3.slots t 4).cast nbuf3_4)

set_option maxHeartbeats 4000000 in
/-- k = 0: both outputs, found at anything, are reset and then receive the blocks' products. -/
noncomputable def runFirst (c : Dev nD) (i : grid3.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S1x128x128 .f32) (harg5 : arg5.IsWhole) (arg6 : Memref sig .tc .vmem S1x128x128 .f32) (harg6 : arg6.IsWhole) (hc0 : isFirst i)
    (x0 x1 x2 : Vec F S2048x128 .f32) :
    Σ' (L3 : List (View.Piece (Elt F) S1x128x128 .f32)), { L4 : List (View.Piece (Elt F) S1x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc3__pool_kernel i arg2 harg2 arg3 harg3 arg4 harg4 arg5 harg5 arg6 harg6) K } := by
  refine ⟨?_, ?_, fun E K => ?run⟩
  case run =>
    simp only [cc3__pool_kernel_eq_skeleton]; unfold cc3__pool_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

set_option maxHeartbeats 4000000 in
/-- k = 1: both outputs, found at what the point before left, receive the blocks' products. -/
noncomputable def runNext (c : Dev nD) (i : grid3.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S1x128x128 .f32) (harg5 : arg5.IsWhole) (arg6 : Memref sig .tc .vmem S1x128x128 .f32) (harg6 : arg6.IsWhole) (hc0 : ¬isFirst i)
    (x0 x1 x2 : Vec F S2048x128 .f32) (xo3 xo4 : Vec F S1x128x128 .f32) :
    Σ' (L3 : List (View.Piece (Elt F) S1x128x128 .f32)), { L4 : List (View.Piece (Elt F) S1x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo3 ∗ owns (c : Thread nD τ) arg6 fullShare xo4
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc3__pool_kernel i arg2 harg2 arg3 harg3 arg4 harg4 arg5 harg5 arg6 harg6) K } := by
  refine ⟨?_, ?_, fun E K => ?run⟩
  case run =>
    simp only [cc3__pool_kernel_eq_skeleton]; unfold cc3__pool_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

end Cert.KernelIdeal.Pool

end
-- ==== Proof.KI.Pool.lean ====
/-
  Region 3 (pooling): what its output buffers hold point by point, the proof data of its pipeline and the body
  obligation, the arrays read as the region finds them (`V`). After point (c, 0) each output's buffer holds the
  product over the rows of block 2c; after (c, 1) that plus the product over block 2c + 1, which is written back.
-/
import proofs.«110719_j498216206442_2_alg».proof.Proof.KI.PoolRuns

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input window's current staging buffer holds its block at every point. -/
theorem before_asg_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_emb_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_hop_of {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

section Cases
variable (c : Dev nD) (i : grid3.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S1x128x128 .f32) (harg5 : arg5.IsWhole) (arg6 : Memref sig .tc .vmem S1x128x128 .f32) (harg6 : arg6.IsWhole)

theorem coverX_first (hc0 : isFirst i) (x0 x1 x2 : Vec F S2048x128 .f32) (y : S1x128x128.Idx) :
    ∃ pc ∈ (runFirst c i arg2 harg2 arg3 harg3 arg4 harg4 arg5 harg5 arg6 harg6 hc0 x0 x1 x2).1, y ∈ pc.1.set :=
  View.cover_of_tiledL (runFirst c i arg2 harg2 arg3 harg3 arg4 harg4 arg5 harg5 arg6 harg6 hc0 x0 x1 x2).1 S1x128x128.size (by sl_kernel_rfl) y
theorem coverA_first (hc0 : isFirst i) (x0 x1 x2 : Vec F S2048x128 .f32) (y : S1x128x128.Idx) :
    ∃ pc ∈ (runFirst c i arg2 harg2 arg3 harg3 arg4 harg4 arg5 harg5 arg6 harg6 hc0 x0 x1 x2).2.1, y ∈ pc.1.set :=
  View.cover_of_tiledL (runFirst c i arg2 harg2 arg3 harg3 arg4 harg4 arg5 harg5 arg6 harg6 hc0 x0 x1 x2).2.1 S1x128x128.size (by sl_kernel_rfl) y
def xFirst (hc0 : isFirst i) (x0 x1 x2 : Vec F S2048x128 .f32) : Vec F S1x128x128 .f32 :=
  viewX.read (Elt F) (viewX.writes (Elt F) viewX.junk (runFirst c i arg2 harg2 arg3 harg3 arg4 harg4 arg5 harg5 arg6 harg6 hc0 x0 x1 x2).1)
def aFirst (hc0 : isFirst i) (x0 x1 x2 : Vec F S2048x128 .f32) : Vec F S1x128x128 .f32 :=
  viewA.read (Elt F) (viewA.writes (Elt F) viewA.junk (runFirst c i arg2 harg2 arg3 harg3 arg4 harg4 arg5 harg5 arg6 harg6 hc0 x0 x1 x2).2.1)

theorem coverX_next (hc0 : ¬isFirst i) (x0 x1 x2 : Vec F S2048x128 .f32) (xo3 xo4 : Vec F S1x128x128 .f32) (y : S1x128x128.Idx) :
    ∃ pc ∈ (runNext c i arg2 harg2 arg3 harg3 arg4 harg4 arg5 harg5 arg6 harg6 hc0 x0 x1 x2 xo3 xo4).1, y ∈ pc.1.set :=
  View.cover_of_tiledL (runNext c i arg2 harg2 arg3 harg3 arg4 harg4 arg5 harg5 arg6 harg6 hc0 x0 x1 x2 xo3 xo4).1 S1x128x128.size (by sl_kernel_rfl) y
theorem coverA_next (hc0 : ¬isFirst i) (x0 x1 x2 : Vec F S2048x128 .f32) (xo3 xo4 : Vec F S1x128x128 .f32) (y : S1x128x128.Idx) :
    ∃ pc ∈ (runNext c i arg2 harg2 arg3 harg3 arg4 harg4 arg5 harg5 arg6 harg6 hc0 x0 x1 x2 xo3 xo4).2.1, y ∈ pc.1.set :=
  View.cover_of_tiledL (runNext c i arg2 harg2 arg3 harg3 arg4 harg4 arg5 harg5 arg6 harg6 hc0 x0 x1 x2 xo3 xo4).2.1 S1x128x128.size (by sl_kernel_rfl) y
def xNext (hc0 : ¬isFirst i) (x0 x1 x2 : Vec F S2048x128 .f32) (xo3 xo4 : Vec F S1x128x128 .f32) : Vec F S1x128x128 .f32 :=
  viewX.read (Elt F) (viewX.writes (Elt F) viewX.junk (runNext c i arg2 harg2 arg3 harg3 arg4 harg4 arg5 harg5 arg6 harg6 hc0 x0 x1 x2 xo3 xo4).1)
def aNext (hc0 : ¬isFirst i) (x0 x1 x2 : Vec F S2048x128 .f32) (xo3 xo4 : Vec F S1x128x128 .f32) : Vec F S1x128x128 .f32 :=
  viewA.read (Elt F) (viewA.writes (Elt F) viewA.junk (runNext c i arg2 harg2 arg3 harg3 arg4 harg4 arg5 harg5 arg6 harg6 hc0 x0 x1 x2 xo3 xo4).2.1)

end Cases

/-- What the two outputs' buffers hold after the body at position `n`. -/
def outsAt (c : Dev nD) : (n : ℕ) → n < cfg3.N → Vec F S1x128x128 .f32 × Vec F S1x128x128 .f32
  | 0, hn => (xFirst c (grid3.coords ⟨0, hn⟩) (mAsg ⟨0, hn⟩) (hAsg ⟨0, hn⟩) (mEmb ⟨0, hn⟩) (hEmb ⟨0, hn⟩) (mHop ⟨0, hn⟩) (hHop ⟨0, hn⟩) (mX ⟨0, hn⟩) (hX ⟨0, hn⟩) (mA ⟨0, hn⟩) (hA ⟨0, hn⟩) ((isFirst_iff ⟨0, hn⟩).mpr (Nat.zero_mod _)) (iblk V c 0 ⟨0, hn⟩) (iblk V c 1 ⟨0, hn⟩) (iblk V c 2 ⟨0, hn⟩),
      aFirst c (grid3.coords ⟨0, hn⟩) (mAsg ⟨0, hn⟩) (hAsg ⟨0, hn⟩) (mEmb ⟨0, hn⟩) (hEmb ⟨0, hn⟩) (mHop ⟨0, hn⟩) (hHop ⟨0, hn⟩) (mX ⟨0, hn⟩) (hX ⟨0, hn⟩) (mA ⟨0, hn⟩) (hA ⟨0, hn⟩) ((isFirst_iff ⟨0, hn⟩).mpr (Nat.zero_mod _)) (iblk V c 0 ⟨0, hn⟩) (iblk V c 1 ⟨0, hn⟩) (iblk V c 2 ⟨0, hn⟩))
  | n + 1, hn =>
    if h0 : (n + 1) % 2 = 0 then
      (xFirst c (grid3.coords ⟨n + 1, hn⟩) (mAsg ⟨n + 1, hn⟩) (hAsg ⟨n + 1, hn⟩) (mEmb ⟨n + 1, hn⟩) (hEmb ⟨n + 1, hn⟩) (mHop ⟨n + 1, hn⟩) (hHop ⟨n + 1, hn⟩) (mX ⟨n + 1, hn⟩) (hX ⟨n + 1, hn⟩) (mA ⟨n + 1, hn⟩) (hA ⟨n + 1, hn⟩) ((isFirst_iff ⟨n + 1, hn⟩).mpr h0) (iblk V c 0 ⟨n + 1, hn⟩) (iblk V c 1 ⟨n + 1, hn⟩) (iblk V c 2 ⟨n + 1, hn⟩),
       aFirst c (grid3.coords ⟨n + 1, hn⟩) (mAsg ⟨n + 1, hn⟩) (hAsg ⟨n + 1, hn⟩) (mEmb ⟨n + 1, hn⟩) (hEmb ⟨n + 1, hn⟩) (mHop ⟨n + 1, hn⟩) (hHop ⟨n + 1, hn⟩) (mX ⟨n + 1, hn⟩) (hX ⟨n + 1, hn⟩) (mA ⟨n + 1, hn⟩) (hA ⟨n + 1, hn⟩) ((isFirst_iff ⟨n + 1, hn⟩).mpr h0) (iblk V c 0 ⟨n + 1, hn⟩) (iblk V c 1 ⟨n + 1, hn⟩) (iblk V c 2 ⟨n + 1, hn⟩))
    else
      (xNext c (grid3.coords ⟨n + 1, hn⟩) (mAsg ⟨n + 1, hn⟩) (hAsg ⟨n + 1, hn⟩) (mEmb ⟨n + 1, hn⟩) (hEmb ⟨n + 1, hn⟩) (mHop ⟨n + 1, hn⟩) (hHop ⟨n + 1, hn⟩) (mX ⟨n + 1, hn⟩) (hX ⟨n + 1, hn⟩) (mA ⟨n + 1, hn⟩) (hA ⟨n + 1, hn⟩) (fun h => h0 ((isFirst_iff ⟨n + 1, hn⟩).mp h)) (iblk V c 0 ⟨n + 1, hn⟩) (iblk V c 1 ⟨n + 1, hn⟩) (iblk V c 2 ⟨n + 1, hn⟩) (outsAt c n (Nat.lt_of_succ_lt hn)).1 (outsAt c n (Nat.lt_of_succ_lt hn)).2,
       aNext c (grid3.coords ⟨n + 1, hn⟩) (mAsg ⟨n + 1, hn⟩) (hAsg ⟨n + 1, hn⟩) (mEmb ⟨n + 1, hn⟩) (hEmb ⟨n + 1, hn⟩) (mHop ⟨n + 1, hn⟩) (hHop ⟨n + 1, hn⟩) (mX ⟨n + 1, hn⟩) (hX ⟨n + 1, hn⟩) (mA ⟨n + 1, hn⟩) (hA ⟨n + 1, hn⟩) (fun h => h0 ((isFirst_iff ⟨n + 1, hn⟩).mp h)) (iblk V c 0 ⟨n + 1, hn⟩) (iblk V c 1 ⟨n + 1, hn⟩) (iblk V c 2 ⟨n + 1, hn⟩) (outsAt c n (Nat.lt_of_succ_lt hn)).1 (outsAt c n (Nat.lt_of_succ_lt hn)).2)

theorem outsAt_first (c : Dev nD) (t : Fin cfg3.N) (h0 : t.val % 2 = 0) :
    outsAt V c t.val t.isLt = (xFirst c (grid3.coords t) (mAsg t) (hAsg t) (mEmb t) (hEmb t) (mHop t) (hHop t) (mX t) (hX t) (mA t) (hA t) ((isFirst_iff t).mpr h0) (iblk V c 0 t) (iblk V c 1 t) (iblk V c 2 t),
      aFirst c (grid3.coords t) (mAsg t) (hAsg t) (mEmb t) (hEmb t) (mHop t) (hHop t) (mX t) (hX t) (mA t) (hA t) ((isFirst_iff t).mpr h0) (iblk V c 0 t) (iblk V c 1 t) (iblk V c 2 t)) := by
  obtain ⟨n, hn⟩ := t
  cases n with
  | zero => exact rfl
  | succ n => exact (dif_pos h0).trans rfl

theorem outsAt_next (c : Dev nD) (t : Fin cfg3.N) (h0 : ¬t.val % 2 = 0) :
    outsAt V c t.val t.isLt = (
      xNext c (grid3.coords t) (mAsg t) (hAsg t) (mEmb t) (hEmb t) (mHop t) (hHop t) (mX t) (hX t) (mA t) (hA t) (fun h => h0 ((isFirst_iff t).mp h)) (iblk V c 0 t) (iblk V c 1 t) (iblk V c 2 t) (outsAt V c (t.val - 1) (Nat.lt_of_le_of_lt (Nat.sub_le _ _) t.isLt)).1 (outsAt V c (t.val - 1) (Nat.lt_of_le_of_lt (Nat.sub_le _ _) t.isLt)).2,
      aNext c (grid3.coords t) (mAsg t) (hAsg t) (mEmb t) (hEmb t) (mHop t) (hHop t) (mX t) (hX t) (mA t) (hA t) (fun h => h0 ((isFirst_iff t).mp h)) (iblk V c 0 t) (iblk V c 1 t) (iblk V c 2 t) (outsAt V c (t.val - 1) (Nat.lt_of_le_of_lt (Nat.sub_le _ _) t.isLt)).1 (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The proof data -/

def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => (outsAt V c t.val t.isLt).1
    | ⟨4, _⟩ => (outsAt V c t.val t.isLt).2
  Φ _ := Pipeline.ΦA spec3 c
  q _ := fullShare
  owed _ := 0

theorem A_eq (c : Dev nD) (w : Fin cfg3.W) : (dat V c).A w = V c (Pipeline.arrRef spec3 w) := by
  dsimp only [dat]
theorem after_asg (c : Dev nD) (t : Fin cfg3.N) : (dat V c).after 0 t = iblk V c 0 t := by dsimp only [dat]
theorem after_emb (c : Dev nD) (t : Fin cfg3.N) : (dat V c).after 1 t = iblk V c 1 t := by dsimp only [dat]
theorem after_hop (c : Dev nD) (t : Fin cfg3.N) : (dat V c).after 2 t = iblk V c 2 t := by dsimp only [dat]
theorem after_x (c : Dev nD) (t : Fin cfg3.N) : (dat V c).after 3 t = (outsAt V c t.val t.isLt).1 := by dsimp only [dat]
theorem after_a (c : Dev nD) (t : Fin cfg3.N) : (dat V c).after 4 t = (outsAt V c t.val t.isLt).2 := by dsimp only [dat]
theorem before_asg (c : Dev nD) (t : Fin cfg3.N) (d) : (dat V c).before 0 t d = iblk V c 0 t :=
  before_asg_of V (dat V c) (A_eq V c 0) (after_asg V c) t d
theorem before_emb (c : Dev nD) (t : Fin cfg3.N) (d) : (dat V c).before 1 t d = iblk V c 1 t :=
  before_emb_of V (dat V c) (A_eq V c 1) (after_emb V c) t d
theorem before_hop (c : Dev nD) (t : Fin cfg3.N) (d) : (dat V c).before 2 t d = iblk V c 2 t :=
  before_hop_of V (dat V c) (A_eq V c 2) (after_hop V c) t d

/-- At a core's second point each output's buffer holds what the body left at the first: it was not written back between. -/
theorem before_x_next (c : Dev nD) (t : Fin cfg3.N) (h0 : ¬t.val % 2 = 0) (d) :
    (dat V c).before 3 t d = (outsAt V c (t.val - 1) (Nat.lt_of_le_of_lt (Nat.sub_le _ _) t.isLt)).1 := by
  have hN : t.val < 4 := lt_of_lt_of_eq t.isLt (show cfg3.N = 4 from N_3)
  rw [Dat.before_out_kept _ 3 rfl t (by omega) (Bool.eq_false_iff.mpr fun h => by have := (flush3_3 _).mp h; dsimp only at this; omega)
    (fun _ => rfl) (fun _ _ => rfl)]
  dsimp only [dat]
theorem before_a_next (c : Dev nD) (t : Fin cfg3.N) (h0 : ¬t.val % 2 = 0) (d) :
    (dat V c).before 4 t d = (outsAt V c (t.val - 1) (Nat.lt_of_le_of_lt (Nat.sub_le _ _) t.isLt)).2 := by
  have hN : t.val < 4 := lt_of_lt_of_eq t.isLt (show cfg3.N = 4 from N_3)
  rw [Dat.before_out_kept _ 4 rfl t (by omega) (Bool.eq_false_iff.mpr fun h => by have := (flush3_4 _).mp h; dsimp only at this; omega)
    (fun _ => rfl) (fun _ _ => rfl)]
  dsimp only [dat]

/-! ## The body obligation -/

def bodyPre (c : Dev nD) (t : Fin cfg3.N) : sProp 𝕄 :=
  iprop((dat V c).Φ t.castSucc ∗ (dat V c).owesAt () t.castSucc
    ∗ (∃ d, owns (c : Thread nD τ) (mAsg t) fullShare ((dat V c).before 0 t d))
    ∗ (∃ d, owns (c : Thread nD τ) (mEmb t) fullShare ((dat V c).before 1 t d))
    ∗ (∃ d, owns (c : Thread nD τ) (mHop t) fullShare ((dat V c).before 2 t d))
    ∗ (∃ d, owns (c : Thread nD τ) (mX t) fullShare ((dat V c).before 3 t d))
    ∗ (∃ d, owns (c : Thread nD τ) (mA t) fullShare ((dat V c).before 4 t d)))

def bodyPost (c : Dev nD) (t : Fin cfg3.N) : sProp 𝕄 :=
  iprop((dat V c).Φ t.succ ∗ (dat V c).owesAt () t.succ
    ∗ owns (c : Thread nD τ) (mAsg t) fullShare ((dat V c).after 0 t)
    ∗ owns (c : Thread nD τ) (mEmb t) fullShare ((dat V c).after 1 t)
    ∗ owns (c : Thread nD τ) (mHop t) fullShare ((dat V c).after 2 t)
    ∗ owns (c : Thread nD τ) (mX t) fullShare ((dat V c).after 3 t)
    ∗ owns (c : Thread nD τ) (mA t) fullShare ((dat V c).after 4 t))

set_option maxHeartbeats 4800000 in
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_asg, before_emb, before_hop]
  rw [show (dat V c).Φ t.succ = (dat V c).Φ t.castSucc from rfl,
    show (dat V c).owesAt () t.succ = (dat V c).owesAt () t.castSucc from rfl,
    after_asg, after_emb, after_hop, after_x, after_a]
  have hN : t.val < 4 := lt_of_lt_of_eq t.isLt (show cfg3.N = 4 from N_3)
  by_cases h0 : t.val % 2 = 0
  · rw [outsAt_first V c t h0]
    unfold xFirst aFirst; (try dsimp only)
    iintro ⟨HΦ, Ho, ⟨%d0, H0⟩, ⟨%d1, H1⟩, ⟨%d2, H2⟩, ⟨%d3, H3⟩, ⟨%d4, H4⟩⟩
    iapply ((runFirst c (grid3.coords t) _ _ _ _ _ _ _ _ _ _ ((isFirst_iff t).mpr h0) (iblk V c 0 t) (iblk V c 1 t) (iblk V c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (coverX_first c _ _ _ _ _ _ _ _ _ _ _ _ _ _ _)
    unfold owns; iexists _; isplitr
    swap; · iexact H4
    ipureintro; exact View.read_writes_of_cover _ _ _ _ _ (coverA_first c _ _ _ _ _ _ _ _ _ _ _ _ _ _ _)
  · rw [outsAt_next V c t h0]
    simp only [before_x_next V c t h0, before_a_next V c t h0]
    unfold xNext aNext; (try dsimp only)
    iintro ⟨HΦ, Ho, ⟨%d0, H0⟩, ⟨%d1, H1⟩, ⟨%d2, H2⟩, ⟨%d3, H3⟩, ⟨%d4, H4⟩⟩
    iapply ((runNext c (grid3.coords t) _ _ _ _ _ _ _ _ _ _ (fun h => h0 ((isFirst_iff t).mp h)) (iblk V c 0 t) (iblk V c 1 t) (iblk V c 2 t) _ _).2.2 Set.univ _)
    isplitl [H0]; · iexact H0
    isplitl [H1]; · iexact H1
    isplitl [H2]; · iexact H2
    isplitl [H3]; · iexact H3
    isplitl [H4]; · iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (coverX_next c _ _ _ _ _ _ _ _ _ _ _ _ _ _ _ _ _)
    unfold owns; iexists _; isplitr
    swap; · iexact H4
    ipureintro; exact View.read_writes_of_cover _ _ _ _ _ (coverA_next c _ _ _ _ _ _ _ _ _ _ _ _ _ _ _ _ _)

/-- The body obligation of the region's pipeline, at every point. -/
theorem body_obligation (c : Dev nD) : BodyObligation (dat (F := F) V c) (defs₀ (F := F)) Variants.none () Set.univ := fun t => by
  rw [bigSep_W3, bigSep_W3]
  exact sound_body V c t

end Cert.KernelIdeal.Pool

end
-- ==== Proof.KI.Run.lean ====
/-
  The run of the idealized kernel's @main: a degree pass, four host operations, the propagation pass, the hop
  pass, the pooling pass, four host operations. The buffer contents at each boundary are a fold from the launch
  memory: a host stretch applies its operations, a region replaces its output arrays by what its write-backs
  leave. Over that fold every weakly fair execution terminates, and the final memory holds every unscoped buffer
  at the last valuation.
-/
import proofs.«110719_j498216206442_2_alg».proof.Proof.KI.DegBody
import proofs.«110719_j498216206442_2_alg».proof.Proof.KI.EmbedBody
import proofs.«110719_j498216206442_2_alg».proof.Proof.KI.EmbedArrays
import proofs.«110719_j498216206442_2_alg».proof.Proof.KI.HopBody
import proofs.«110719_j498216206442_2_alg».proof.Proof.KI.Pool
import Idealize.ShloMosaic.Lib.Pipeline.RegionsLoop

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After the degree pass: its two outputs at what its write-backs leave. -/
def W1 (c : Dev nD) : Valuation τ sig (Elt F) :=
  Pipeline.withArrays spec0 c (W0 m ρ c) fun w => (Deg.dat (V0 m ρ) c).arrAt w cfg0.N
theorem W1_arr (c : Dev nD) (w : Fin cfg0.W) :
    W1 m ρ c (Proc.devRef .tc (Pipeline.arrRef spec0 w)) = (Deg.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (Deg.dat (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the four host operations between the first two passes. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- After the propagation pass: its two outputs at what its write-backs leave, every other buffer as entered. -/
def W3 (c : Dev nD) : Valuation τ sig (Elt F) :=
  Function.update (Function.update (W2 m ρ c) main_v5_0 ((Embed.dat (V2 m ρ) c).arrAt 9 cfg1.N)) main_v5_1 ((Embed.dat (V2 m ρ) c).arrAt 10 cfg1.N)
abbrev V3 : (c : Dev nD) → (b : Ref sig .tc) → Buf (Elt F) ((c : Thread nD τ).loc b) := fun c b => W3 m ρ c b

/-- After the hop pass. -/
def W4 (c : Dev nD) : Valuation τ sig (Elt F) :=
  Pipeline.withArrays spec2 c (W3 m ρ c) fun w => (Hop.dat (V3 m ρ) c).arrAt w cfg2.N
theorem W4_arr (c : Dev nD) (w : Fin cfg2.W) :
    W4 m ρ c (Proc.devRef .tc (Pipeline.arrRef spec2 w)) = (Hop.dat (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (Hop.dat (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After the pooling pass. -/
def W5 (c : Dev nD) : Valuation τ sig (Elt F) :=
  Pipeline.withArrays spec3 c (W4 m ρ c) fun w => (Pool.dat (V4 m ρ) c).arrAt w cfg3.N
theorem W5_arr (c : Dev nD) (w : Fin cfg3.W) :
    W5 m ρ c (Proc.devRef .tc (Pipeline.arrRef spec3 w)) = (Pool.dat (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
abbrev V5 : (c : Dev nD) → (b : Ref sig .tc) → Buf (Elt F) ((c : Thread nD τ).loc b) := fun c b => W5 m ρ c b
theorem hF3 (c : Dev nD) (w : Fin cfg3.W) : (Pool.dat (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

/-- After the four host operations at the end. -/
abbrev W6 : Dev nD → Valuation τ sig (Elt F) := fun c => StableHlo.after hostOps4 (W5 m ρ c)

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => Deg.dat (V0 m ρ) c
  | ⟨1, _⟩ => fun c => Embed.dat (V2 m ρ) c
  | ⟨2, _⟩ => fun c => Hop.dat (V3 m ρ) c
  | ⟨3, _⟩ => fun c => Pool.dat (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh : (hostOps1 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The degree pass as a segment -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Deg.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Deg.Phi_in (V0 m ρ) c)
    unfold Pipeline.ΦA
    iintro ⟨Hp, -, Hr⟩
    isplitl [Hr]; · iexact Hr
    iexact Hp
  hout c := by
    rw [Pipeline.ownSems0_none]
    refine BIBase.Entails.trans (Deg.Phi_out (V0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The propagation pass as a segment -/

theorem V3_emb (c : Dev nD) : V3 m ρ c main_v5_0 = (Embed.dat (V2 m ρ) c).arrAt 9 cfg1.N := by
  show W3 m ρ c (Proc.devRef .tc main_v5_0) = _
  unfold W3
  rw [Function.update_of_ne (StableHlo.devRef_ne_of_ne (by decide) : (Proc.devRef .tc main_v5_0 : DevRef τ sig) ≠ Proc.devRef .tc main_v5_1)]
  exact Function.update_self ..
theorem V3_asg (c : Dev nD) : V3 m ρ c main_v5_1 = (Embed.dat (V2 m ρ) c).arrAt 10 cfg1.N := by
  show W3 m ρ c (Proc.devRef .tc main_v5_1) = _
  unfold W3
  exact Function.update_self ..
theorem V3_of_ne (c : Dev nD) (b : Ref sig .tc) (h0 : b ≠ main_v5_0) (h1 : b ≠ main_v5_1) : V3 m ρ c b = V2 m ρ c b := by
  show W3 m ρ c (Proc.devRef .tc b) = W2 m ρ c (Proc.devRef .tc b)
  unfold W3
  rw [Function.update_of_ne (StableHlo.devRef_ne_of_ne h1 : (Proc.devRef .tc b : DevRef τ sig) ≠ Proc.devRef .tc main_v5_1),
    Function.update_of_ne (StableHlo.devRef_ne_of_ne h0 : (Proc.devRef .tc b : DevRef τ sig) ≠ Proc.devRef .tc main_v5_0)]

/-- After the propagation pass every array of its windows is where the boundary's contents has it: an input as entered, the two outputs at what the write-backs leave. -/
theorem hF1 (c : Dev nD) : ∀ w : Fin cfg1.W, (Embed.dat (V2 m ρ) c).arrAt w cfg1.N = V3 m ρ c (Pipeline.arrRef spec1 w)
  | ⟨0, _⟩ => ((Embed.dat (V2 m ρ) c).arrAt_in 0 rfl _).trans ((Embed.A_eq (V2 m ρ) c 0).trans (V3_of_ne m ρ c _ (by decide) (by decide)).symm)
  | ⟨1, _⟩ => ((Embed.dat (V2 m ρ) c).arrAt_in 1 rfl _).trans ((Embed.A_eq (V2 m ρ) c 1).trans (V3_of_ne m ρ c _ (by decide) (by decide)).symm)
  | ⟨2, _⟩ => ((Embed.dat (V2 m ρ) c).arrAt_in 2 rfl _).trans ((Embed.A_eq (V2 m ρ) c 2).trans (V3_of_ne m ρ c _ (by decide) (by decide)).symm)
  | ⟨3, _⟩ => ((Embed.dat (V2 m ρ) c).arrAt_in 3 rfl _).trans ((Embed.A_eq (V2 m ρ) c 3).trans (V3_of_ne m ρ c _ (by decide) (by decide)).symm)
  | ⟨4, _⟩ => ((Embed.dat (V2 m ρ) c).arrAt_in 4 rfl _).trans ((Embed.A_eq (V2 m ρ) c 4).trans (V3_of_ne m ρ c _ (by decide) (by decide)).symm)
  | ⟨5, _⟩ => ((Embed.dat (V2 m ρ) c).arrAt_in 5 rfl _).trans ((Embed.A_eq (V2 m ρ) c 5).trans (V3_of_ne m ρ c _ (by decide) (by decide)).symm)
  | ⟨6, _⟩ => ((Embed.dat (V2 m ρ) c).arrAt_in 6 rfl _).trans ((Embed.A_eq (V2 m ρ) c 6).trans (V3_of_ne m ρ c _ (by decide) (by decide)).symm)
  | ⟨7, _⟩ => ((Embed.dat (V2 m ρ) c).arrAt_in 7 rfl _).trans ((Embed.A_eq (V2 m ρ) c 7).trans (V3_of_ne m ρ c _ (by decide) (by decide)).symm)
  | ⟨8, _⟩ => ((Embed.dat (V2 m ρ) c).arrAt_in 8 rfl _).trans ((Embed.A_eq (V2 m ρ) c 8).trans (V3_of_ne m ρ c _ (by decide) (by decide)).symm)
  | ⟨9, _⟩ => (V3_emb m ρ c).symm
  | ⟨10, _⟩ => (V3_asg m ρ c).symm

set_option backward.isDefEq.respectTransparency.types false in
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (Embed.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit : (unscopedBufs c (V2 m ρ c) : sProp 𝕄) ⊢ iprop((pdats m ρ 1 c).arrays ((pdats m ρ 1 c).arrAt · 0) ∗ Pipeline.unscopedRest spec1 c (V2 m ρ c)) := by
      rw [Pipeline.unscopedBufs_split₀ (Pipeline.pin (pcfgs (F := F)) adm) 1 winFacts₀1.arr_unscoped c (V2 m ρ c)]
      exact sep_mono (Embed.arrays_of_arrBufs (V2 m ρ) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Embed.Phi_in (V2 m ρ) c)
    unfold Pipeline.ΦA
    iintro ⟨Hp, -, Hr⟩
    isplitl [Hr]; · iexact Hr
    iexact Hp
  hout c := by
    rw [Pipeline.ownSems0_none]
    refine BIBase.Entails.trans (Embed.Phi_out (V2 m ρ) c) ?_
    unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (V2 m ρ c)) ⊢ (unscopedBufs c (V3 m ρ c) : sProp 𝕄) := by
      rw [Pipeline.unscopedBufs_split₀ (Pipeline.pin (pcfgs (F := F)) adm) 1 winFacts₀1.arr_unscoped c (V3 m ρ c)]
      refine sep_mono (Embed.arrBufs_of_arrays (V2 m ρ) c (V3 m ρ c) (hF1 m ρ c)) (Entails.of_eq ?_)
      unfold Pipeline.unscopedRest
      exact bigSep_congr fun b hb => by
        rw [V3_of_ne m ρ c b (fun e => (Finset.mem_sdiff.mp hb).2 (Finset.mem_image.mpr ⟨9, Finset.mem_univ _, e.symm⟩))
          (fun e => (Finset.mem_sdiff.mp hb).2 (Finset.mem_image.mpr ⟨10, Finset.mem_univ _, e.symm⟩))]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The hop pass as a segment -/

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Hop.body_obligation (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Hop.Phi_in (V3 m ρ) c)
    unfold Pipeline.ΦA
    iintro ⟨Hp, -, Hr⟩
    isplitl [Hr]; · iexact Hr
    iexact Hp
  hout c := by
    rw [Pipeline.ownSems0_none]
    refine BIBase.Entails.trans (Hop.Phi_out (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The pooling pass as a segment -/

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (Pool.body_obligation (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .region (reg2 m ρ),
    .region (reg3 m ρ),
    .host (hseg hostOps4 hostOps4_sub hostOps4_fresh (W5 m ρ)) ]
theorem main_run (c : Dev nD) : main (F := F) c = Pipeline.Seg.run (segs m ρ) := (main_chain c).trans (by chain_rfl)

/-- The last thread state without the `owes`: every unscoped buffer at the last valuation, the generator register at some state. -/
abbrev Tₙ (c : Dev nD) : sProp 𝕄 := iprop(StableHlo.held (c : Thread nD τ) (Pipeline.ucRefs τ sig) (W6 m ρ c) ∗ ∃ r, prngReg c r)

set_option backward.isDefEq.respectTransparency.types false in
/-- THE RUN: from any memory with zero counters every weakly fair execution of @main on the TensorCores terminates,
    nothing faulting, and every final state holds every unscoped buffer at the last valuation of the fold. -/
theorem run : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => (show iprop(StableHlo.held (c : Thread nD τ) (Pipeline.ucRefs τ sig) (W6 m ρ c) ∗ R c)
        ⊢ iprop(Tₙ m ρ c ∗ ∃ W, owes (c : Thread nD τ) (0 : CellTallies nD τ sig Unit) W) from by
      iintro ⟨Hh, Hp, HO⟩
      isplitl [Hh Hp]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.KernelIdeal.Run

end
-- ==== Proof.KI.Frame.lean ====
/-
  The frame of the idealized kernel: through the fold of buffer contents every argument array reaches the end as
  launched, so the run's final memory holds the arguments unchanged.
-/
import proofs.«110719_j498216206442_2_alg».proof.Proof.KI.Run
import proofs.«110719_j498216206442_2_alg».proof.Proof.Gen.KernelIdeal.Regions

set_option maxRecDepth 16384

noncomputable section

namespace Cert.KernelIdeal.FrameOf

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]
variable (m : (ℓ : Loc nD τ sig) → Buf (Elt F) ℓ) (ρ : Dev nD → PrngReg)

/-- `main_arg0` reaches the end as launched: no host operation writes it and every region only reads it or leaves it alone. -/
theorem W6_arg0 (c : Dev nD) : Run.W6 m ρ c (Proc.devRef .tc main_arg0) = m ((c : Thread nD τ).loc main_arg0) :=
  calc Run.W6 m ρ c (Proc.devRef .tc main_arg0)
    _ = Run.W5 m ρ c (Proc.devRef .tc main_arg0) := StableHlo.after_of_writes_sub Gen.hostOps4 (Run.W5 m ρ c) Gen.hostOps4_writes (r := main_arg0) (by decide)
    _ = Run.W4 m ρ c (Proc.devRef .tc main_arg0) := Run.W5_of_ne m ρ c main_arg0 (by decide)
    _ = Run.W3 m ρ c (Proc.devRef .tc main_arg0) := Run.W4_of_ne m ρ c main_arg0 (by decide)
    _ = Run.W2 m ρ c (Proc.devRef .tc main_arg0) := Run.V3_of_ne m ρ c main_arg0 (by decide) (by decide)
    _ = Run.W1 m ρ c (Proc.devRef .tc main_arg0) := StableHlo.after_of_writes_sub Gen.hostOps1 (Run.W1 m ρ c) Gen.hostOps1_writes (r := main_arg0) (by decide)
    _ = Run.W0 m ρ c (Proc.devRef .tc main_arg0) := Run.W1_of_ne m ρ c main_arg0 (by decide)
    _ = m ((c : Thread nD τ).loc main_arg0) := rfl

/-- `main_arg1` reaches the end as launched: no host operation writes it and every region only reads it or leaves it alone. -/
theorem W6_arg1 (c : Dev nD) : Run.W6 m ρ c (Proc.devRef .tc main_arg1) = m ((c : Thread nD τ).loc main_arg1) :=
  calc Run.W6 m ρ c (Proc.devRef .tc main_arg1)
    _ = Run.W5 m ρ c (Proc.devRef .tc main_arg1) := StableHlo.after_of_writes_sub Gen.hostOps4 (Run.W5 m ρ c) Gen.hostOps4_writes (r := main_arg1) (by decide)
    _ = Run.W4 m ρ c (Proc.devRef .tc main_arg1) := Run.W5_of_ne m ρ c main_arg1 (by decide)
    _ = Run.W3 m ρ c (Proc.devRef .tc main_arg1) := Run.W4_of_ne m ρ c main_arg1 (by decide)
    _ = Run.W2 m ρ c (Proc.devRef .tc main_arg1) := Run.V3_of_ne m ρ c main_arg1 (by decide) (by decide)
    _ = Run.W1 m ρ c (Proc.devRef .tc main_arg1) := StableHlo.after_of_writes_sub Gen.hostOps1 (Run.W1 m ρ c) Gen.hostOps1_writes (r := main_arg1) (by decide)
    _ = Run.W0 m ρ c (Proc.devRef .tc main_arg1) := (Run.W1_arr m ρ c 0).trans (((Deg.dat (Run.V0 m ρ) c).arrAt_in 0 rfl _).trans (Deg.A_eq (Run.V0 m ρ) c 0))
    _ = m ((c : Thread nD τ).loc main_arg1) := rfl

/-- `main_arg2` reaches the end as launched: no host operation writes it and every region only reads it or leaves it alone. -/
theorem W6_arg2 (c : Dev nD) : Run.W6 m ρ c (Proc.devRef .tc main_arg2) = m ((c : Thread nD τ).loc main_arg2) :=
  calc Run.W6 m ρ c (Proc.devRef .tc main_arg2)
    _ = Run.W5 m ρ c (Proc.devRef .tc main_arg2) := StableHlo.after_of_writes_sub Gen.hostOps4 (Run.W5 m ρ c) Gen.hostOps4_writes (r := main_arg2) (by decide)
    _ = Run.W4 m ρ c (Proc.devRef .tc main_arg2) := Run.W5_of_ne m ρ c main_arg2 (by decide)
    _ = Run.W3 m ρ c (Proc.devRef .tc main_arg2) := Run.W4_of_ne m ρ c main_arg2 (by decide)
    _ = Run.W2 m ρ c (Proc.devRef .tc main_arg2) := Run.V3_of_ne m ρ c main_arg2 (by decide) (by decide)
    _ = Run.W1 m ρ c (Proc.devRef .tc main_arg2) := StableHlo.after_of_writes_sub Gen.hostOps1 (Run.W1 m ρ c) Gen.hostOps1_writes (r := main_arg2) (by decide)
    _ = Run.W0 m ρ c (Proc.devRef .tc main_arg2) := Run.W1_of_ne m ρ c main_arg2 (by decide)
    _ = m ((c : Thread nD τ).loc main_arg2) := rfl

/-- `main_arg3` reaches the end as launched: no host operation writes it and every region only reads it or leaves it alone. -/
theorem W6_arg3 (c : Dev nD) : Run.W6 m ρ c (Proc.devRef .tc main_arg3) = m ((c : Thread nD τ).loc main_arg3) :=
  calc Run.W6 m ρ c (Proc.devRef .tc main_arg3)
    _ = Run.W5 m ρ c (Proc.devRef .tc main_arg3) := StableHlo.after_of_writes_sub Gen.hostOps4 (Run.W5 m ρ c) Gen.hostOps4_writes (r := main_arg3) (by decide)
    _ = Run.W4 m ρ c (Proc.devRef .tc main_arg3) := Run.W5_of_ne m ρ c main_arg3 (by decide)
    _ = Run.W3 m ρ c (Proc.devRef .tc main_arg3) := Run.W4_of_ne m ρ c main_arg3 (by decide)
    _ = Run.W2 m ρ c (Proc.devRef .tc main_arg3) := Run.V3_of_ne m ρ c main_arg3 (by decide) (by decide)
    _ = Run.W1 m ρ c (Proc.devRef .tc main_arg3) := StableHlo.after_of_writes_sub Gen.hostOps1 (Run.W1 m ρ c) Gen.hostOps1_writes (r := main_arg3) (by decide)
    _ = Run.W0 m ρ c (Proc.devRef .tc main_arg3) := Run.W1_of_ne m ρ c main_arg3 (by decide)
    _ = m ((c : Thread nD τ).loc main_arg3) := rfl

/-- `main_arg4` reaches the end as launched: no host operation writes it and every region only reads it or leaves it alone. -/
theorem W6_arg4 (c : Dev nD) : Run.W6 m ρ c (Proc.devRef .tc main_arg4) = m ((c : Thread nD τ).loc main_arg4) :=
  calc Run.W6 m ρ c (Proc.devRef .tc main_arg4)
    _ = Run.W5 m ρ c (Proc.devRef .tc main_arg4) := StableHlo.after_of_writes_sub Gen.hostOps4 (Run.W5 m ρ c) Gen.hostOps4_writes (r := main_arg4) (by decide)
    _ = Run.W4 m ρ c (Proc.devRef .tc main_arg4) := Run.W5_of_ne m ρ c main_arg4 (by decide)
    _ = Run.W3 m ρ c (Proc.devRef .tc main_arg4) := Run.W4_of_ne m ρ c main_arg4 (by decide)
    _ = Run.W2 m ρ c (Proc.devRef .tc main_arg4) := Run.V3_of_ne m ρ c main_arg4 (by decide) (by decide)
    _ = Run.W1 m ρ c (Proc.devRef .tc main_arg4) := StableHlo.after_of_writes_sub Gen.hostOps1 (Run.W1 m ρ c) Gen.hostOps1_writes (r := main_arg4) (by decide)
    _ = Run.W0 m ρ c (Proc.devRef .tc main_arg4) := Run.W1_of_ne m ρ c main_arg4 (by decide)
    _ = m ((c : Thread nD τ).loc main_arg4) := rfl

/-- `main_arg5` reaches the end as launched: no host operation writes it and every region only reads it or leaves it alone. -/
theorem W6_arg5 (c : Dev nD) : Run.W6 m ρ c (Proc.devRef .tc main_arg5) = m ((c : Thread nD τ).loc main_arg5) :=
  calc Run.W6 m ρ c (Proc.devRef .tc main_arg5)
    _ = Run.W5 m ρ c (Proc.devRef .tc main_arg5) := StableHlo.after_of_writes_sub Gen.hostOps4 (Run.W5 m ρ c) Gen.hostOps4_writes (r := main_arg5) (by decide)
    _ = Run.W4 m ρ c (Proc.devRef .tc main_arg5) := Run.W5_of_ne m ρ c main_arg5 (by decide)
    _ = Run.W3 m ρ c (Proc.devRef .tc main_arg5) := Run.W4_of_ne m ρ c main_arg5 (by decide)
    _ = Run.W2 m ρ c (Proc.devRef .tc main_arg5) := Run.V3_of_ne m ρ c main_arg5 (by decide) (by decide)
    _ = Run.W1 m ρ c (Proc.devRef .tc main_arg5) := StableHlo.after_of_writes_sub Gen.hostOps1 (Run.W1 m ρ c) Gen.hostOps1_writes (r := main_arg5) (by decide)
    _ = Run.W0 m ρ c (Proc.devRef .tc main_arg5) := Run.W1_of_ne m ρ c main_arg5 (by decide)
    _ = m ((c : Thread nD τ).loc main_arg5) := rfl

/-- Every weakly fair execution of @main terminates, nothing faulting, with the six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (Run.mem_uc main_arg0 (by decide))).trans (W6_arg0 m ρ c),
     (h c _ (Run.mem_uc main_arg1 (by decide))).trans (W6_arg1 m ρ c),
     (h c _ (Run.mem_uc main_arg2 (by decide))).trans (W6_arg2 m ρ c),
     (h c _ (Run.mem_uc main_arg3 (by decide))).trans (W6_arg3 m ρ c),
     (h c _ (Run.mem_uc main_arg4 (by decide))).trans (W6_arg4 m ρ c),
     (h c _ (Run.mem_uc main_arg5 (by decide))).trans (W6_arg5 m ρ c)⟩) (Run.run m ρ)

end Cert.KernelIdeal.FrameOf

end
-- ==== Proof.KI.DegPieces.lean ====
/-
  Region 0 (the degree pass): what each control case leaves, as arithmetic of the blocks it read. The copy
  output always receives the adjacency block read at bf16; the scratch column receives the column it held
  (the zero column at k = 0) plus the block's lane sums; at k = 7 the first output receives, along its lanes,
  where(acc + 1 > 0, rsqrt(acc + 1), 0) of the completed column.
-/
import proofs.«110719_j498216206442_2_alg».proof.Proof.KI.Deg
import Idealize.ShloMosaic.Lib.Pipeline.Value

set_option maxRecDepth 16384

noncomputable section

namespace Cert.KernelIdeal.Deg

open Cert.KernelIdeal Cert.KernelIdeal.Gen
open Idealize.ShloMosaic Idealize.ShloMosaic.TcCoe Idealize.ShloMosaic.Tactic
open Idealize.SL.Sem
open Idealize.ShloMosaic.Pipeline (Dat Cfg Window)

variable {F : FTy → Type} [FloatOps F]

theorem hz : (![0, 0] : Fin 2 → Nat) = fun _ => 0 := funext fun a => by fin_cases a <;> rfl

section Cases
variable (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x1024 .bf16) (harg4 : arg4.IsWhole) (arg5 : Memref sig .tc .vmem S1024x1 .f32) (harg5 : arg5.IsWhole)

/-- A middle point adds the block's lane sums to the column it found. -/
theorem accMid_eq (hc0 : ¬isFirst i) (hc1 : ¬isLast i) (x0 : Vec F S1024x1024 .f32) (xs : Vec F S1024x1 .f32) :
    accMid c i arg2 harg2 arg3 harg3 arg4 harg4 arg5 harg5 hc0 hc1 x0 xs = k0_pay2 x0 xs := by
  unfold accMid
  rw [View.read_writes_eq_canon _ _ _ (coverAcc_mid c i arg2 harg2 arg3 harg3 arg4 harg4 arg5 harg5 hc0 hc1 x0 xs)]
  unfold runMid
  dsimp only
  rw [View.canon_unit_zero hz]
  simp only [View.readAt_eq_ld, harg2.read_unread, harg5.read_unread, View.ld_unit_zero (S := S1024x1024) hz, View.ld_unit_zero (S := S1024x1) hz]

/-- A middle point copies the block, read at bf16. -/
theorem copyMid_eq (hc0 : ¬isFirst i) (hc1 : ¬isLast i) (x0 : Vec F S1024x1024 .f32) (xs : Vec F S1024x1 .f32) :
    copyMid c i arg2 harg2 arg3 harg3 arg4 harg4 arg5 harg5 hc0 hc1 x0 xs = k0_pay3 x0 := by
  unfold copyMid
  rw [View.read_writes_eq_canon _ _ _ (coverCopy_mid c i arg2 harg2 arg3 harg3 arg4 harg4 arg5 harg5 hc0 hc1 x0 xs)]
  unfold runMid
  dsimp only
  rw [View.canon_unit_zero hz]
  simp only [View.readAt_eq_ld, harg2.read_unread, View.ld_unit_zero (S := S1024x1024) hz]

/-- The first point of a row of blocks resets the column and then adds the block's lane sums. -/
theorem accFirst_eq (hc0 : isFirst i) (hc1 : ¬isLast i) (x0 : Vec F S1024x1024 .f32) :
    accFirst c i arg2 harg2 arg3 harg3 arg4 harg4 arg5 harg5 hc0 hc1 x0 = k0_pay2 x0 k0_pay1 := by
  unfold accFirst
  rw [View.read_writes_eq_canon _ _ _ (coverAcc_first c i arg2 harg2 arg3 harg3 arg4 harg4 arg5 harg5 hc0 hc1 x0)]
  unfold runFirst
  dsimp only
  sl_unfold_words
  rw [View.canon_cons_unit_zero (S := S1024x1) hz]
  simp only [View.readAt_eq_ld, harg2.read_unread, View.ld_unit_zero (S := S1024x1024) hz, View.readCov_unit_zero (S := S1024x1) _ hz]

theorem copyFirst_eq (hc0 : isFirst i) (hc1 : ¬isLast i) (x0 : Vec F S1024x1024 .f32) :
    copyFirst c i arg2 harg2 arg3 harg3 arg4 harg4 arg5 harg5 hc0 hc1 x0 = k0_pay3 x0 := by
  unfold copyFirst
  rw [View.read_writes_eq_canon _ _ _ (coverCopy_first c i arg2 harg2 arg3 harg3 arg4 harg4 arg5 harg5 hc0 hc1 x0)]
  unfold runFirst
  dsimp only
  rw [View.canon_unit_zero hz]
  simp only [View.readAt_eq_ld, harg2.read_unread, View.ld_unit_zero (S := S1024x1024) hz]

/-- The last point of a row of blocks adds its lane sums like a middle one, -/
theorem accLast_eq (hc0 : ¬isFirst i) (hc1 : isLast i) (x0 : Vec F S1024x1024 .f32) (xs : Vec F S1024x1 .f32) :
    accLast c i arg2 harg2 arg3 harg3 arg4 harg4 arg5 harg5 hc0 hc1 x0 xs = k0_pay2 x0 xs := by
  unfold accLast
  rw [View.read_writes_eq_canon _ _ _ (coverAcc_last c i arg2 harg2 arg3 harg3 arg4 harg4 arg5 harg5 hc0 hc1 x0 xs)]
  unfold runLast
  dsimp only
  sl_unfold_words
  rw [View.canon_unit_zero hz]
  simp only [View.readAt_eq_ld, harg2.read_unread, harg5.read_unread, View.ld_unit_zero (S := S1024x1024) hz, View.ld_unit_zero (S := S1024x1) hz]

theorem copyLast_eq (hc0 : ¬isFirst i) (hc1 : isLast i) (x0 : Vec F S1024x1024 .f32) (xs : Vec F S1024x1 .f32) :
    copyLast c i arg2 harg2 arg3 harg3 arg4 harg4 arg5 harg5 hc0 hc1 x0 xs = k0_pay3 x0 := by
  unfold copyLast
  rw [View.read_writes_eq_canon _ _ _ (coverCopy_last c i arg2 harg2 arg3 harg3 arg4 harg4 arg5 harg5 hc0 hc1 x0 xs)]
  unfold runLast
  dsimp only
  rw [View.canon_unit_zero hz]
  simp only [View.readAt_eq_ld, harg2.read_unread, View.ld_unit_zero (S := S1024x1024) hz]

/-- and stores, along the first output's lanes, the finishing arithmetic of the completed column. -/
theorem outLast_eq (hc0 : ¬isFirst i) (hc1 : isLast i) (x0 : Vec F S1024x1024 .f32) (xs : Vec F S1024x1 .f32) :
    outLast c i arg2 harg2 arg3 harg3 arg4 harg4 arg5 harg5 hc0 hc1 x0 xs = k0_pay4 (k0_pay2 x0 xs) := by
  unfold outLast
  rw [View.read_writes_eq_canon _ _ _ (coverOut_last c i arg2 harg2 arg3 harg3 arg4 harg4 arg5 harg5 hc0 hc1 x0 xs)]
  unfold runLast
  dsimp only
  sl_unfold_words
  rw [View.canon_unit_zero hz]
  simp only [View.readAt_eq_ld, harg2.read_unread, harg5.read_unread, View.ld_unit_zero (S := S1024x1024) hz, View.ld_unit_zero (S := S1024x1) hz, View.readCov_unit_zero (S := S1024x1) _ hz]

end Cases
end Cert.KernelIdeal.Deg
end
-- ==== Proof.Spec.lean ====
/-
  The mathematics of the kernel, pass by pass, over the extended reals: each pass's outputs as closed-form
  functions of its input arrays, index by index. N = 8192 nodes, 128 features; rows are addressed in blocks of
  1024 (the three adjacency passes) or 2048 (pooling).
-/
import Idealize.ShloMosaic.PureOps.Ideal
import Idealize.ShloMosaic.Lib.ValueIdx

noncomputable section

namespace Cert.Spec

open Idealize.ShloMosaic Idealize.ShloMosaic.ValueIdx

/-- A matrix over the extended reals, indexed as the printed arrays are. -/
abbrev Mat (a b : Nat) : Type := (⟨2, ![a, b]⟩ : Shape).Idx → EReal

/-- Row (or column) j of block k, in blocks of 1024. -/
def row1024 (k : Fin 8) (j : Fin 1024) : Fin 8192 := ⟨1024 * k.val + j.val, by have := k.isLt; have := j.isLt; omega⟩
/-- Row n of block 2c + k, in blocks of 2048. -/
def row2048 (c k : Fin 2) (n : Fin 2048) : Fin 8192 := ⟨2048 * (2 * c.val + k.val) + n.val, by have := c.isLt; have := k.isLt; have := n.isLt; omega⟩

/-- The float literals the passes use. -/
abbrev zero : EReal := Ideal.ofBits .f32 0x00000000#32
abbrev one : EReal := Ideal.ofBits .f32 0x3F800000#32
abbrev negInf : EReal := Ideal.ofBits .f32 0xFF800000#32

/-! ## The degree pass -/

/-- The sum of row r of the adjacency matrix, taken block by block. -/
def rowSum (A : Mat 8192 8192) (r : Fin 8192) : EReal := ∑ k : Fin 8, ∑ j : Fin 1024, A (ix2 r (row1024 k j))
/-- The degree with the self loop. -/
def deg (A : Mat 8192 8192) (r : Fin 8192) : EReal := rowSum A r + one
/-- deg^(-1/2) where the degree is positive, zero elsewhere. -/
def dinv (A : Mat 8192 8192) (r : Fin 8192) : EReal :=
  Scalar.select (Ideal.cmp .ogt (deg A r) zero) (Ideal.rsqrt (deg A r)) zero

/-! ## The propagation pass -/

section Propagate
variable (Abf : Mat 8192 8192) (X Dv : Mat 8192 128) (WeT WaT : Mat 128 128) (be ba : Mat 1 128)

/-- The scaled features d ⊙ X. -/
def scaled (r : Fin 8192) (f : Fin 128) : EReal := Dv (ix2 r f) * X (ix2 r f)
/-- A · (d ⊙ X), block by block. -/
def spread (r : Fin 8192) (f : Fin 128) : EReal := ∑ k : Fin 8, ∑ j : Fin 1024, Abf (ix2 r (row1024 k j)) * scaled X Dv (row1024 k j) f
/-- d ⊙ (A · (d ⊙ X) + d ⊙ X): the normalized propagation with the self loop. -/
def ax (r : Fin 8192) (f : Fin 128) : EReal := Dv (ix2 r f) * (spread Abf X Dv r f + Dv (ix2 r f) * X (ix2 r f))
/-- The embedding AX · Weᵀ + be. -/
def emb (r : Fin 8192) (e : Fin 128) : EReal := (∑ f : Fin 128, ax Abf X Dv r f * WeT (ix2 f e)) + be (ix2 0 e)
/-- The assignment logits AX · Waᵀ + ba. -/
def logit (r : Fin 8192) (e : Fin 128) : EReal := (∑ f : Fin 128, ax Abf X Dv r f * WaT (ix2 f e)) + ba (ix2 0 e)
/-- The row maximum of the logits (from -∞). -/
def rowMax (r : Fin 8192) : EReal := max negInf ((Finset.univ : Finset (Fin 128)).fold max negInf (logit Abf X Dv WaT ba r))
/-- The shifted exponentials. -/
def expo (r : Fin 8192) (e : Fin 128) : EReal := Ideal.exp (logit Abf X Dv WaT ba r e - rowMax Abf X Dv WaT ba r)
/-- The row softmax: the soft assignment. -/
def soft (r : Fin 8192) (e : Fin 128) : EReal := Ideal.div (expo Abf X Dv WaT ba r e) (∑ e' : Fin 128, expo Abf X Dv WaT ba r e')

end Propagate

/-! ## The hop pass and the pooling pass -/

/-- A · S, block by block. -/
def hop (Abf : Mat 8192 8192) (S : Mat 8192 128) (r : Fin 8192) (e : Fin 128) : EReal :=
  ∑ k : Fin 8, ∑ j : Fin 1024, Abf (ix2 r (row1024 k j)) * S (ix2 (row1024 k j) e)
/-- Core c's part of Sᵀ · Z: the rows of blocks 2c and 2c + 1. -/
def pool (S Z : Mat 8192 128) (c : Fin 2) (a b : Fin 128) : EReal :=
  ∑ k : Fin 2, ∑ n : Fin 2048, S (ix2 (row2048 c k n) a) * Z (ix2 (row2048 c k n) b)

end Cert.Spec

end
-- ==== Proof.KI.DegValue.lean ====
/-
  Region 0 (the degree pass) read over the extended reals: what its two output arrays end holding. Point
  t = 8 i + k of the 8×8 grid handles the 1024×1024 block (i, k) of the adjacency matrix. The copy output
  receives every block unchanged (rounding to bf16 is the identity on the extended reals), so it ends as
  the matrix itself. The scratch column, zeroed at k = 0, gathers the row sums of the blocks (i, 0), …, (i, k);
  at k = 7 it holds the full row sums of rows 1024 i … 1024 i + 1023, summed block by block, and the first
  output's block (i, 0) receives where(rowSum + 1 > 0, rsqrt(rowSum + 1), 0) along its 128 lanes. The blocks
  written back tile both arrays.
-/
import proofs.«110719_j498216206442_2_alg».proof.Proof.KI.DegPieces
import proofs.«110719_j498216206442_2_alg».proof.Proof.Spec
import Idealize.ShloMosaic.PureOps.Ideal.Laws
import Idealize.ShloMosaic.Lib.ValueIdx
import Idealize.ShloMosaic.Lib.Pipeline.Value

set_option maxRecDepth 16384

noncomputable section

namespace Cert.KernelIdeal.Deg

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx

variable (V : (c : Dev nD) → (b : Ref sig .tc) → Buf (Elt Ideal) ((c : Thread nD τ).loc b))

/-! ## The grid and the blocks -/

/-- The printed index maps over the 64 points: point t = 8 i + k stages block (i, k) of the adjacency matrix and
    of its copy, and block (i, 0) of the first output. -/
theorem idx_facts : ∀ t : Fin cfg0.N,
    win0_0.index t (0 : Fin 2) = t.val / 8 ∧ win0_0.index t (1 : Fin 2) = t.val % 8
    ∧ win0_1.index t (0 : Fin 2) = t.val / 8 ∧ win0_1.index t (1 : Fin 2) = 0
    ∧ win0_2.index t (0 : Fin 2) = t.val / 8 ∧ win0_2.index t (1 : Fin 2) = t.val % 8 :=
  (by decide +kernel : ∀ t : Fin grid0.N, _)

/-- The copy is written back at every point; the first output when k = 7. -/
theorem flush_copy : ∀ t : Fin cfg0.N, (cfg0.win 2).flush t = true := by decide +kernel
theorem flush_out : ∀ t : Fin cfg0.N, (cfg0.win 1).flush t = true ↔ t.val % 8 = 7 := by decide +kernel

/-- The adjacency matrix as the region finds it. -/
abbrev adj (c : Dev nD) : S8192x8192.Idx → EReal := V c main_arg1

/-! ## The copy output -/

/-- Whatever the case, the copy output's buffer ends with the block read at bf16. -/
theorem copyAt (c : Dev nD) (t : Fin cfg0.N) : (outsAt V c t.val t.isLt).2.1 = k0_pay3 (iblk V c 0 t) := by
  by_cases h0 : t.val % 8 = 0
  · have h1 : ¬t.val % 8 = 7 := by omega
    rw [outsAt_first V c t h0 h1]
    dsimp only
    exact copyFirst_eq c (grid0.coords t) (mIn t) (hIn t) (mOut t) (hOut t) (mCopy t) (hCopy t) mAcc (Memref.isWhole_whole _) ((isFirst_iff t).mpr h0) (fun h => h1 ((isLast_iff t).mp h)) (iblk V c 0 t)
  · by_cases h1 : t.val % 8 = 7
    · rw [outsAt_last V c t h0 h1]
      dsimp only
      exact copyLast_eq c (grid0.coords t) (mIn t) (hIn t) (mOut t) (hOut t) (mCopy t) (hCopy t) mAcc (Memref.isWhole_whole _) (fun h => h0 ((isFirst_iff t).mp h)) ((isLast_iff t).mpr h1) (iblk V c 0 t) (outsAt V c (t.val - 1) (Nat.lt_of_le_of_lt (Nat.sub_le _ _) t.isLt)).2.2
    · rw [outsAt_mid V c t h0 h1]
      dsimp only
      exact copyMid_eq c (grid0.coords t) (mIn t) (hIn t) (mOut t) (hOut t) (mCopy t) (hCopy t) mAcc (Memref.isWhole_whole _) (fun h => h0 ((isFirst_iff t).mp h)) (fun h => h1 ((isLast_iff t).mp h)) (iblk V c 0 t) (outsAt V c (t.val - 1) (Nat.lt_of_le_of_lt (Nat.sub_le _ _) t.isLt)).2.2

/-- The adjacency block staged at point t and block t of the copy sit at the same place of their arrays. -/
theorem iblk_in_eq (c : Dev nD) (t : Fin cfg0.N) (y : S1024x1024.Idx) :
    (iblk V c 0 t : S1024x1024.Idx → EReal) y = adj V c (((cfg0.win 2).blk t).view.emb y) := by
  obtain ⟨e0, e1, -, -, e4, e5⟩ := idx_facts t
  unfold iblk
  rw [View.read_apply]
  show V c main_arg1 (((cfg0.win 0).blk t).view.emb y) = V c main_arg1 (((cfg0.win 2).blk t).view.emb y)
  have h0 : ((cfg0.win 0).blk t).view.emb y = ((cfg0.win 2).blk t).view.emb y := by
    funext a; apply Fin.ext
    match a with
    | ⟨0, _⟩ => show win0_0.index t (0 : Fin 2) * 1024 + 1 * (y 0).val = win0_2.index t (0 : Fin 2) * 1024 + 1 * (y 0).val; rw [e0, e4]
    | ⟨1, _⟩ => show win0_0.index t (1 : Fin 2) * 1024 + 1 * (y 1).val = win0_2.index t (1 : Fin 2) * 1024 + 1 * (y 1).val; rw [e1, e5]
  rw [h0]

/-- What point t writes back to the copy is block t of the adjacency matrix: rounding to bf16 is the identity on
    the extended reals. -/
theorem flushed_copy (c : Dev nD) (t : Fin cfg0.N) :
    (dat V c).flushed 2 t = ((cfg0.win 2).blk t).view.read (Elt Ideal) (adj V c) := by
  show (cfg0.win 2).cut (grid0.coords t) ((dat V c).after 2 t) = _
  rw [after_copy, copyAt]
  funext j
  exact iblk_in_eq V c t j

/-- An index of the copy is in point t's block iff each coordinate is in the block's range. -/
theorem mem_blk_copy (t : Fin cfg0.N) (i : S8192x8192.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0_1).slice (win0_2.rect t)).set ↔ _
  rw [View.set_slice_whole, Rect.mem_set_unit]
  exact Iff.rfl

/-- Entry (r, s) of the copy is in the block of point 8 (r / 1024) + s / 1024. -/
theorem cover_copy (i : S8192x8192.Idx) : ∃ t : Fin cfg0.N, (cfg0.win 2).flush t = true ∧ i ∈ ((cfg0.win 2).blk t).view.set := by
  have hi0 : (i 0).val < 8192 := (i 0).isLt
  have hi1 : (i 1).val < 8192 := (i 1).isLt
  have hN : cfg0.N = 64 := N_0
  obtain ⟨t, ht⟩ : ∃ t : Fin cfg0.N, t.val = 8 * ((i 0).val / 1024) + (i 1).val / 1024 := ⟨⟨8 * ((i 0).val / 1024) + (i 1).val / 1024, by rw [hN]; omega⟩, rfl⟩
  refine ⟨t, flush_copy t, ?_⟩
  obtain ⟨-, -, -, -, e4, e5⟩ := idx_facts t
  rw [mem_blk_copy]
  intro a
  match a with
  | ⟨0, _⟩ => show win0_2.index t (0 : Fin 2) * 1024 ≤ (i 0).val ∧ (i 0).val < win0_2.index t (0 : Fin 2) * 1024 + 1024; rw [e4, ht]; omega
  | ⟨1, _⟩ => show win0_2.index t (1 : Fin 2) * 1024 ≤ (i 1).val ∧ (i 1).val < win0_2.index t (1 : Fin 2) * 1024 + 1024; rw [e5, ht]; omega

/-- The copy output ends holding the adjacency matrix. -/
theorem final_copy (c : Dev nD) : ((dat V c).arrAt 2 cfg0.N : S8192x8192.Idx → EReal) = (V c main_arg1 : S8192x8192.Idx → EReal) :=
  (dat V c).arrAt_eq_of_cover 2 (adj V c) (fun t _ => flushed_copy V c t) cover_copy

/-! ## The payloads at an index -/

/-- The reset column is zero. -/
theorem pay1_apply (p : Fin 1024) : (k0_pay1 (F := Ideal) : S1024x1.Idx → EReal) (ix2 p (0 : Fin 1)) = 0 := by
  unfold k0_pay1
  rw [shapeCast_self]
  exact Ideal.ofBits_zero_f32

/-- The accumulating store: row p of the column it found plus the sum of row p of the block. -/
theorem pay2_apply (x : Vec Ideal S1024x1024 .f32) (a : Vec Ideal S1024x1 .f32) (p : Fin 1024) :
    (k0_pay2 x a : S1024x1.Idx → EReal) (ix2 p (0 : Fin 1)) = a (ix2 p (0 : Fin 1)) + ∑ q : Fin 1024, x (ix2 p q) := by
  unfold k0_pay2
  rw [shapeCast_self]
  refine congrArg (a (ix2 p (0 : Fin 1)) + ·) ?_
  refine (shapeCast_apply _ _ (ix2 p (0 : Fin 1)) (ix1 p) ?_).trans ?_
  · rw [Shape.rowMajor_val_one, Shape.rowMajor_val_two]; show p.val = p.val * 1 + 0; omega
  refine (Ideal.multiReduction_add_single x _ _ _ _ (ix1 p)).trans ?_
  show ∑ q : Fin 1024, x (reduces_S1024x1024_S1024.lift (ix1 p) q) = ∑ q : Fin 1024, x (ix2 p q)
  refine Finset.sum_congr rfl fun q _ => congrArg x (funext fun b => Fin.ext ?_)
  match b with
  | ⟨0, _⟩ => rfl
  | ⟨1, _⟩ => rfl

/-- The finishing store: along the lanes of row p, where(acc + 1 > 0, rsqrt(acc + 1), 0) of row p of the column. -/
theorem pay4_apply (a : Vec Ideal S1024x1 .f32) (p : Fin 1024) (l : Fin 128) :
    (k0_pay4 a : S1024x128.Idx → EReal) (ix2 p l)
      = Scalar.select (Ideal.cmp .ogt (a (ix2 p (0 : Fin 1)) + Ideal.ofBits .f32 0x3F800000#32) (Ideal.ofBits .f32 0x00000000#32))
          (Ideal.rsqrt (a (ix2 p (0 : Fin 1)) + Ideal.ofBits .f32 0x3F800000#32)) (Ideal.ofBits .f32 0x00000000#32) := by
  unfold k0_pay4
  refine (broadcastTo_apply _ _ (ix2 p l) (ix2 p (0 : Fin 1)) ?_).trans ?_
  · intro b
    match b with
    | ⟨0, _⟩ => rfl
    | ⟨1, _⟩ => rfl
  · rw [shapeCast_self]; rfl

/-! ## The scratch column, point by point -/

/-- The adjacency block staged at point t, as a 1024×1024 matrix. -/
abbrev blkIn (c : Dev nD) (t : Fin cfg0.N) : Vec Ideal S1024x1024 .f32 := iblk V c 0 t

/-- Entry (p, q) of the adjacency block staged at point t is entry (1024 (t / 8) + p, 1024 (t % 8) + q) of the matrix. -/
theorem iblk_in_apply (c : Dev nD) (t : Fin cfg0.N) (p q : Fin 1024) (r s : Fin 8192)
    (hr : r.val = 1024 * (t.val / 8) + p.val) (hs : s.val = 1024 * (t.val % 8) + q.val) :
    blkIn V c t (ix2 p q) = adj V c (ix2 r s) := by
  obtain ⟨e0, e1, -⟩ := idx_facts t
  unfold blkIn iblk
  rw [View.read_apply]
  show V c main_arg1 (((cfg0.win 0).blk t).view.emb (ix2 p q)) = V c main_arg1 (ix2 r s)
  refine congrArg (V c main_arg1) (funext fun a => Fin.ext ?_)
  match a with
  | ⟨0, _⟩ => show win0_0.index t (0 : Fin 2) * 1024 + 1 * p.val = r.val; rw [e0, hr]; omega
  | ⟨1, _⟩ => show win0_0.index t (1 : Fin 2) * 1024 + 1 * q.val = s.val; rw [e1, hs]; omega

/-- The sum of row p of the adjacency block staged at point n (zero past the grid). -/
def laneSum (c : Dev nD) (n : ℕ) (p : Fin 1024) : EReal :=
  if h : n < cfg0.N then ∑ q : Fin 1024, blkIn V c ⟨n, h⟩ (ix2 p q) else 0

theorem laneSum_of_lt (c : Dev nD) (n : ℕ) (h : n < cfg0.N) (p : Fin 1024) :
    laneSum V c n p = ∑ q : Fin 1024, blkIn V c ⟨n, h⟩ (ix2 p q) := by
  unfold laneSum; rw [dif_pos h]

/-- At k = 0 the column holds the block's lane sums: the reset column is zero. -/
theorem acc_first (c : Dev nD) (t : Fin cfg0.N) (h0 : t.val % 8 = 0) (p : Fin 1024) :
    ((outsAt V c t.val t.isLt).2.2 : S1024x1.Idx → EReal) (ix2 p (0 : Fin 1)) = laneSum V c t.val p := by
  have h1 : ¬t.val % 8 = 7 := by omega
  rw [outsAt_first V c t h0 h1]
  dsimp only
  rw [accFirst_eq c (grid0.coords t) (mIn t) (hIn t) (mOut t) (hOut t) (mCopy t) (hCopy t) mAcc (Memref.isWhole_whole _) ((isFirst_iff t).mpr h0) (fun h => h1 ((isLast_iff t).mp h)) (iblk V c 0 t)]
  exact (pay2_apply (blkIn V c t) (k0_pay1 (F := Ideal)) p).trans (by rw [pay1_apply, zero_add, laneSum_of_lt V c t.val t.isLt p])

/-- At k > 0 the column holds what the point before left plus the block's lane sums. -/
theorem acc_step (c : Dev nD) (t : Fin cfg0.N) (h0 : ¬t.val % 8 = 0) (p : Fin 1024) :
    ((outsAt V c t.val t.isLt).2.2 : S1024x1.Idx → EReal) (ix2 p (0 : Fin 1))
      = ((outsAt V c (t.val - 1) (Nat.lt_of_le_of_lt (Nat.sub_le _ _) t.isLt)).2.2 : S1024x1.Idx → EReal) (ix2 p (0 : Fin 1)) + laneSum V c t.val p := by
  by_cases h1 : t.val % 8 = 7
  · rw [outsAt_last V c t h0 h1]
    dsimp only
    rw [accLast_eq c (grid0.coords t) (mIn t) (hIn t) (mOut t) (hOut t) (mCopy t) (hCopy t) mAcc (Memref.isWhole_whole _) (fun h => h0 ((isFirst_iff t).mp h)) ((isLast_iff t).mpr h1) (iblk V c 0 t) (outsAt V c (t.val - 1) (Nat.lt_of_le_of_lt (Nat.sub_le _ _) t.isLt)).2.2]
    exact (pay2_apply (blkIn V c t) (outsAt V c (t.val - 1) (Nat.lt_of_le_of_lt (Nat.sub_le _ _) t.isLt)).2.2 p).trans (by rw [laneSum_of_lt V c t.val t.isLt p])
  · rw [outsAt_mid V c t h0 h1]
    dsimp only
    rw [accMid_eq c (grid0.coords t) (mIn t) (hIn t) (mOut t) (hOut t) (mCopy t) (hCopy t) mAcc (Memref.isWhole_whole _) (fun h => h0 ((isFirst_iff t).mp h)) (fun h => h1 ((isLast_iff t).mp h)) (iblk V c 0 t) (outsAt V c (t.val - 1) (Nat.lt_of_le_of_lt (Nat.sub_le _ _) t.isLt)).2.2]
    exact (pay2_apply (blkIn V c t) (outsAt V c (t.val - 1) (Nat.lt_of_le_of_lt (Nat.sub_le _ _) t.isLt)).2.2 p).trans (by rw [laneSum_of_lt V c t.val t.isLt p])

/-- After point n = 8 i + k the column holds, row by row, the lane sums of the blocks (i, 0), …, (i, k). -/
theorem acc_eq (c : Dev nD) : ∀ (n : ℕ) (h : n < cfg0.N) (p : Fin 1024),
    ((outsAt V c n h).2.2 : S1024x1.Idx → EReal) (ix2 p (0 : Fin 1)) = ∑ s ∈ Finset.range (n % 8 + 1), laneSum V c (8 * (n / 8) + s) p
  | 0, h, p => by
    rw [acc_first V c ⟨0, h⟩ rfl p]
    show laneSum V c 0 p = ∑ s ∈ Finset.range 1, laneSum V c (8 * (0 / 8) + s) p
    rw [Finset.sum_range_one]
  | n + 1, h, p => by
    by_cases h0 : (n + 1) % 8 = 0
    · rw [acc_first V c ⟨n + 1, h⟩ h0 p, h0, Finset.sum_range_one]
      show laneSum V c (n + 1) p = _
      congr 1; omega
    · rw [acc_step V c ⟨n + 1, h⟩ h0 p]
      show ((outsAt V c n (Nat.lt_of_succ_lt h)).2.2 : S1024x1.Idx → EReal) (ix2 p (0 : Fin 1)) + laneSum V c (n + 1) p = _
      rw [acc_eq c n (Nat.lt_of_succ_lt h) p]
      have e1 : (n + 1) % 8 = n % 8 + 1 := by omega
      have e2 : (n + 1) / 8 = n / 8 := by omega
      rw [e1, e2, Finset.sum_range_succ _ (n % 8 + 1)]
      congr 2; omega

/-- Over a whole row of blocks the lane sums add up to the row sum of the adjacency matrix, block by block. -/
theorem sum_laneSum (c : Dev nD) (t : Fin cfg0.N) (p : Fin 1024) (r : Fin 8192) (hr : r.val = 1024 * (t.val / 8) + p.val) :
    ∑ s ∈ Finset.range 8, laneSum V c (8 * (t.val / 8) + s) p = Cert.Spec.rowSum (adj V c) r := by
  have hN : cfg0.N = 64 := N_0
  have ht : t.val < 64 := by have := t.isLt; omega
  rw [Finset.sum_range]
  unfold Cert.Spec.rowSum
  refine Finset.sum_congr rfl fun k _ => ?_
  have hk8 : k.val < 8 := k.isLt
  have hk : 8 * (t.val / 8) + k.val < cfg0.N := Nat.lt_of_lt_of_eq (by omega : 8 * (t.val / 8) + k.val < 64) hN.symm
  rw [laneSum_of_lt V c _ hk p]
  refine Finset.sum_congr rfl fun j _ => ?_
  exact iblk_in_apply V c ⟨8 * (t.val / 8) + k.val, hk⟩ p j r (Cert.Spec.row1024 k j)
    (by show r.val = 1024 * ((8 * (t.val / 8) + k.val) / 8) + p.val; omega)
    (by show 1024 * k.val + j.val = 1024 * ((8 * (t.val / 8) + k.val) % 8) + j.val; omega)

/-! ## The first output -/

/-- At k = 7 the first output's buffer receives the finishing arithmetic of the completed column. -/
theorem out_last (c : Dev nD) (t : Fin cfg0.N) (h1 : t.val % 8 = 7) :
    (outsAt V c t.val t.isLt).1 = k0_pay4 (outsAt V c t.val t.isLt).2.2 := by
  have h0 : ¬t.val % 8 = 0 := by omega
  rw [outsAt_last V c t h0 h1]
  dsimp only
  rw [outLast_eq c (grid0.coords t) (mIn t) (hIn t) (mOut t) (hOut t) (mCopy t) (hCopy t) mAcc (Memref.isWhole_whole _) (fun h => h0 ((isFirst_iff t).mp h)) ((isLast_iff t).mpr h1) (iblk V c 0 t) (outsAt V c (t.val - 1) (Nat.lt_of_le_of_lt (Nat.sub_le _ _) t.isLt)).2.2, accLast_eq c (grid0.coords t) (mIn t) (hIn t) (mOut t) (hOut t) (mCopy t) (hCopy t) mAcc (Memref.isWhole_whole _) (fun h => h0 ((isFirst_iff t).mp h)) ((isLast_iff t).mpr h1) (iblk V c 0 t) (outsAt V c (t.val - 1) (Nat.lt_of_le_of_lt (Nat.sub_le _ _) t.isLt)).2.2]

/-- The degree normalizer as one array: every lane of row r holds dinv of row r. -/
abbrev dinvArr (c : Dev nD) : S8192x128.Idx → EReal := fun i => Cert.Spec.dinv (adj V c) (i 0)

/-- What a point with k = 7 writes back is its block of that array. -/
theorem flushed_out (c : Dev nD) (t : Fin cfg0.N) (hf : (cfg0.win 1).flush t = true) :
    (dat V c).flushed 1 t = ((cfg0.win 1).blk t).view.read (Elt Ideal) (dinvArr V c) := by
  have h1 : t.val % 8 = 7 := (flush_out t).mp hf
  show (cfg0.win 1).cut (grid0.coords t) ((dat V c).after 1 t) = _
  rw [after_out, out_last V c t h1]
  have key : ∀ y : S1024x128.Idx, (k0_pay4 (outsAt V c t.val t.isLt).2.2 : S1024x128.Idx → EReal) y
      = dinvArr V c (((cfg0.win 1).blk t).view.emb y) := by
    intro y
    obtain ⟨p, l, rfl⟩ : ∃ (p : Fin 1024) (l : Fin 128), y = ix2 p l := ⟨y 0, y 1, eq_ix2 y⟩
    obtain ⟨-, -, e2, e3, -⟩ := idx_facts t
    have hr : ((((cfg0.win 1).blk t).view.emb (ix2 p l)) 0 : Fin 8192).val = 1024 * (t.val / 8) + p.val := by
      show win0_1.index t (0 : Fin 2) * 1024 + 1 * p.val = _; rw [e2]; omega
    have hacc : ((outsAt V c t.val t.isLt).2.2 : S1024x1.Idx → EReal) (ix2 p (0 : Fin 1))
        = Cert.Spec.rowSum (adj V c) ((((cfg0.win 1).blk t).view.emb (ix2 p l)) 0) := by
      rw [acc_eq V c t.val t.isLt p, h1]
      exact sum_laneSum V c t p _ hr
    rw [pay4_apply (outsAt V c t.val t.isLt).2.2 p l, hacc]
    rfl
  funext j
  exact key j

/-- An index of the first output is in point t's block iff each coordinate is in the block's range. -/
theorem mem_blk_out (t : Fin cfg0.N) (i : S8192x128.Idx) :
    i ∈ ((cfg0.win 1).blk t).view.set ↔ ∀ a : Fin 2, win0_1.index t a * S1024x128.size a ≤ (i a).val ∧ (i a).val < win0_1.index t a * S1024x128.size a + S1024x128.size a := by
  show i ∈ ((View.whole main_v0_0).slice (win0_1.rect t)).set ↔ _
  rw [View.set_slice_whole, Rect.mem_set_unit]
  exact Iff.rfl

/-- Row r of the first output is in the block written back at point 8 (r / 1024) + 7. -/
theorem cover_out (i : S8192x128.Idx) : ∃ t : Fin cfg0.N, (cfg0.win 1).flush t = true ∧ i ∈ ((cfg0.win 1).blk t).view.set := by
  have hi0 : (i 0).val < 8192 := (i 0).isLt
  have hi1 : (i 1).val < 128 := (i 1).isLt
  have hN : cfg0.N = 64 := N_0
  obtain ⟨t, ht⟩ : ∃ t : Fin cfg0.N, t.val = 8 * ((i 0).val / 1024) + 7 := ⟨⟨8 * ((i 0).val / 1024) + 7, by rw [hN]; omega⟩, rfl⟩
  refine ⟨t, (flush_out t).mpr (by rw [ht]; omega), ?_⟩
  obtain ⟨-, -, e2, e3, -⟩ := idx_facts t
  rw [mem_blk_out]
  intro a
  match a with
  | ⟨0, _⟩ => show win0_1.index t (0 : Fin 2) * 1024 ≤ (i 0).val ∧ (i 0).val < win0_1.index t (0 : Fin 2) * 1024 + 1024; rw [e2, ht]; omega
  | ⟨1, _⟩ => show win0_1.index t (1 : Fin 2) * 128 ≤ (i 1).val ∧ (i 1).val < win0_1.index t (1 : Fin 2) * 128 + 128; rw [e3]; omega

/-- The first output ends holding, along the lanes of each row, the degree normalizer of that row. -/
theorem final_dinv (c : Dev nD) : ((dat V c).arrAt 1 cfg0.N : S8192x128.Idx → EReal)
    = fun i => Cert.Spec.dinv (V c main_arg1 : S8192x8192.Idx → EReal) (i 0) :=
  (dat V c).arrAt_eq_of_cover 1 (dinvArr V c) (flushed_out V c) cover_out

end Cert.KernelIdeal.Deg

end
-- ==== Proof.KI.EmbedPieces.lean ====
/-
  Region 1: what each control case of the body leaves in the scratch accumulator and in the two outputs' buffers,
  as the body's arithmetic applied to the blocks it loads. At k = 0 the accumulator is reset to zero and receives
  the first product; at every later k it receives the next product on top of what it held; at k = 7 the two
  outputs' buffers receive the embedding and the soft assignment formed from the finished accumulator.
-/
import proofs.«110719_j498216206442_2_alg».proof.Proof.KI.Embed
import Idealize.ShloMosaic.Lib.Pipeline.Value

set_option maxRecDepth 16384

noncomputable section

namespace Cert.KernelIdeal.Embed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz : (![0, 0] : Fin 2 → Nat) = fun _ => 0 := funext fun a => by fin_cases a <;> rfl

section Cases
variable (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S1024x128 .f32) (harg11 : arg11.IsWhole) (arg12 : Memref sig .tc .vmem S1024x128 .f32) (harg12 : arg12.IsWhole)

/-- 0 < k < 7: the accumulator holding `xs` ends at `xs` plus the product of the adjacency block and the scaled features. -/
theorem accMid_eq (hc0 : ¬isFirst i) (hc1 : ¬isLast i) (x0 : Vec F S1024x1024 .bf16) (x1 x2 x3 x4 : Vec F S1024x128 .f32) (x5 : Vec F S128x128 .f32) (x6 : Vec F S1x128 .f32) (x7 : Vec F S128x128 .f32) (x8 : Vec F S1x128 .f32) (xs : Vec F S1024x128 .f32) :
    accMid c i arg2 harg2 arg3 harg3 arg4 harg4 arg5 harg5 arg6 harg6 arg7 harg7 arg8 harg8 arg9 harg9 arg10 harg10 arg11 harg11 arg12 harg12 mAcc (Memref.isWhole_whole _) hc0 hc1 x0 x1 x2 x3 x4 x5 x6 x7 x8 xs = k1_pay2 x0 x2 x1 xs := by
  have hA : mAcc.IsWhole := Memref.isWhole_whole _
  unfold accMid
  rw [View.read_writes_eq_canon _ _ _ (coverAcc_mid c i arg2 harg2 arg3 harg3 arg4 harg4 arg5 harg5 arg6 harg6 arg7 harg7 arg8 harg8 arg9 harg9 arg10 harg10 arg11 harg11 arg12 harg12 mAcc (Memref.isWhole_whole _) hc0 hc1 x0 x1 x2 x3 x4 x5 x6 x7 x8 xs)]
  unfold runMid
  dsimp only
  rw [View.canon_unit_zero hz]
  simp only [View.readAt_eq_ld, harg2.read_unread, harg3.read_unread, harg4.read_unread, hA.read_unread, View.ld_unit_zero (S := S1024x128) hz, View.ld_unit_zero (S := S1024x1024) hz]

/-- k = 0: the accumulator is reset to the zero block and ends at zero plus the first product. -/
theorem accFirst_eq (hc0 : isFirst i) (hc1 : ¬isLast i) (x0 : Vec F S1024x1024 .bf16) (x1 x2 x3 x4 : Vec F S1024x128 .f32) (x5 : Vec F S128x128 .f32) (x6 : Vec F S1x128 .f32) (x7 : Vec F S128x128 .f32) (x8 : Vec F S1x128 .f32) :
    accFirst c i arg2 harg2 arg3 harg3 arg4 harg4 arg5 harg5 arg6 harg6 arg7 harg7 arg8 harg8 arg9 harg9 arg10 harg10 arg11 harg11 arg12 harg12 mAcc (Memref.isWhole_whole _) hc0 hc1 x0 x1 x2 x3 x4 x5 x6 x7 x8 = k1_pay2 x0 x2 x1 (k1_pay1 (F := F)) := by
  have hA : mAcc.IsWhole := Memref.isWhole_whole _
  unfold accFirst
  rw [View.read_writes_eq_canon _ _ _ (coverAcc_first c i arg2 harg2 arg3 harg3 arg4 harg4 arg5 harg5 arg6 harg6 arg7 harg7 arg8 harg8 arg9 harg9 arg10 harg10 arg11 harg11 arg12 harg12 mAcc (Memref.isWhole_whole _) hc0 hc1 x0 x1 x2 x3 x4 x5 x6 x7 x8)]
  unfold runFirst
  dsimp only
  sl_unfold_words
  rw [View.canon_cons_unit_zero (S := S1024x128) hz, View.readCov_unit_zero (S := S1024x128) _ hz]
  simp only [View.readAt_eq_ld, harg2.read_unread, harg3.read_unread, harg4.read_unread, View.ld_unit_zero (S := S1024x128) hz, View.ld_unit_zero (S := S1024x1024) hz]

/-- k = 7: the accumulator receives the last product as at every other k > 0. -/
theorem accLast_eq (hc0 : ¬isFirst i) (hc1 : isLast i) (x0 : Vec F S1024x1024 .bf16) (x1 x2 x3 x4 : Vec F S1024x128 .f32) (x5 : Vec F S128x128 .f32) (x6 : Vec F S1x128 .f32) (x7 : Vec F S128x128 .f32) (x8 : Vec F S1x128 .f32) (xs : Vec F S1024x128 .f32) :
    accLast c i arg2 harg2 arg3 harg3 arg4 harg4 arg5 harg5 arg6 harg6 arg7 harg7 arg8 harg8 arg9 harg9 arg10 harg10 arg11 harg11 arg12 harg12 mAcc (Memref.isWhole_whole _) hc0 hc1 x0 x1 x2 x3 x4 x5 x6 x7 x8 xs = k1_pay2 x0 x2 x1 xs := by
  have hA : mAcc.IsWhole := Memref.isWhole_whole _
  unfold accLast
  rw [View.read_writes_eq_canon _ _ _ (coverAcc_last c i arg2 harg2 arg3 harg3 arg4 harg4 arg5 harg5 arg6 harg6 arg7 harg7 arg8 harg8 arg9 harg9 arg10 harg10 arg11 harg11 arg12 harg12 mAcc (Memref.isWhole_whole _) hc0 hc1 x0 x1 x2 x3 x4 x5 x6 x7 x8 xs)]
  unfold runLast
  dsimp only
  sl_unfold_words
  rw [View.canon_unit_zero (S := S1024x128) hz]
  simp only [View.readAt_eq_ld, harg2.read_unread, harg3.read_unread, harg4.read_unread, hA.read_unread, View.ld_unit_zero (S := S1024x128) hz, View.ld_unit_zero (S := S1024x1024) hz]

/-- k = 7: the embedding's buffer receives the embedding formed from the finished accumulator. -/
theorem zLast_eq (hc0 : ¬isFirst i) (hc1 : isLast i) (x0 : Vec F S1024x1024 .bf16) (x1 x2 x3 x4 : Vec F S1024x128 .f32) (x5 : Vec F S128x128 .f32) (x6 : Vec F S1x128 .f32) (x7 : Vec F S128x128 .f32) (x8 : Vec F S1x128 .f32) (xs : Vec F S1024x128 .f32) :
    zLast c i arg2 harg2 arg3 harg3 arg4 harg4 arg5 harg5 arg6 harg6 arg7 harg7 arg8 harg8 arg9 harg9 arg10 harg10 arg11 harg11 arg12 harg12 mAcc (Memref.isWhole_whole _) hc0 hc1 x0 x1 x2 x3 x4 x5 x6 x7 x8 xs = k1_pay4 x4 x3 (k1_pay2 x0 x2 x1 xs) x4 x5 x6 := by
  have hA : mAcc.IsWhole := Memref.isWhole_whole _
  unfold zLast
  rw [View.read_writes_eq_canon _ _ _ (coverZ_last c i arg2 harg2 arg3 harg3 arg4 harg4 arg5 harg5 arg6 harg6 arg7 harg7 arg8 harg8 arg9 harg9 arg10 harg10 arg11 harg11 arg12 harg12 mAcc (Memref.isWhole_whole _) hc0 hc1 x0 x1 x2 x3 x4 x5 x6 x7 x8 xs)]
  unfold runLast
  dsimp only
  sl_unfold_words
  rw [View.canon_unit_zero (S := S1024x128) hz, View.readCov_unit_zero (S := S1024x128) _ hz]
  simp only [View.readAt_eq_ld, harg2.read_unread, harg3.read_unread, harg4.read_unread, harg5.read_unread, harg6.read_unread, harg7.read_unread, harg8.read_unread, hA.read_unread, View.ld_unit_zero (S := S1024x128) hz, View.ld_unit_zero (S := S1024x1024) hz, View.ld_unit_zero (S := S128x128) hz, View.ld_unit_zero (S := S1x128) hz]

/-- k = 7: the soft assignment's buffer receives the row softmax formed from the finished accumulator. -/
theorem sLast_eq (hc0 : ¬isFirst i) (hc1 : isLast i) (x0 : Vec F S1024x1024 .bf16) (x1 x2 x3 x4 : Vec F S1024x128 .f32) (x5 : Vec F S128x128 .f32) (x6 : Vec F S1x128 .f32) (x7 : Vec F S128x128 .f32) (x8 : Vec F S1x128 .f32) (xs : Vec F S1024x128 .f32) :
    sLast c i arg2 harg2 arg3 harg3 arg4 harg4 arg5 harg5 arg6 harg6 arg7 harg7 arg8 harg8 arg9 harg9 arg10 harg10 arg11 harg11 arg12 harg12 mAcc (Memref.isWhole_whole _) hc0 hc1 x0 x1 x2 x3 x4 x5 x6 x7 x8 xs = k1_pay5 x4 x3 (k1_pay2 x0 x2 x1 xs) x4 x7 x8 := by
  have hA : mAcc.IsWhole := Memref.isWhole_whole _
  unfold sLast
  rw [View.read_writes_eq_canon _ _ _ (coverS_last c i arg2 harg2 arg3 harg3 arg4 harg4 arg5 harg5 arg6 harg6 arg7 harg7 arg8 harg8 arg9 harg9 arg10 harg10 arg11 harg11 arg12 harg12 mAcc (Memref.isWhole_whole _) hc0 hc1 x0 x1 x2 x3 x4 x5 x6 x7 x8 xs)]
  unfold runLast
  dsimp only
  sl_unfold_words
  rw [View.canon_unit_zero (S := S1024x128) hz, View.readCov_unit_zero (S := S1024x128) _ hz]
  simp only [View.readAt_eq_ld, harg2.read_unread, harg3.read_unread, harg4.read_unread, harg5.read_unread, harg6.read_unread, harg9.read_unread, harg10.read_unread, hA.read_unread, View.ld_unit_zero (S := S1024x128) hz, View.ld_unit_zero (S := S1024x1024) hz, View.ld_unit_zero (S := S128x128) hz, View.ld_unit_zero (S := S1x128) hz]

end Cases
end Cert.KernelIdeal.Embed
end
-- ==== Proof.KI.EmbedAcc.lean ====
/-
  Region 1 over the extended reals: the scratch accumulator's invariant. After grid point (i, k) the accumulator
  holds, at row p and feature q of block i, the sum over the blocks 0..k of
  Σ_j A(1024 i + p, 1024 s + j) · (d(1024 s + j) · X(1024 s + j, q)).
-/
import proofs.«110719_j498216206442_2_alg».proof.Proof.KI.EmbedPieces
import Idealize.ShloMosaic.PureOps.Ideal.Laws
import Idealize.ShloMosaic.Lib.ValueIdx
import Idealize.ShloMosaic.Lib.ValueLayout

set_option maxRecDepth 16384

noncomputable section

namespace Cert.KernelIdeal.Embed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

theorem lhs_adj_0 (i : S1024x128.Idx) (k : dot_S1024x1024_S1024x128_S1024x128_1_0_0_1_n_n.contr.Idx) : (dot_S1024x1024_S1024x128_S1024x128_1_0_0_1_n_n.lhsIdx i k 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem lhs_adj_1 (i : S1024x128.Idx) (k : dot_S1024x1024_S1024x128_S1024x128_1_0_0_1_n_n.contr.Idx) : (dot_S1024x1024_S1024x128_S1024x128_1_0_0_1_n_n.lhsIdx i k 1).val = (k ⟨0, by decide⟩).val :=
  dot_S1024x1024_S1024x128_S1024x128_1_0_0_1_n_n.lhsIdx_val_of_single rfl i k
theorem rhs_adj_0 (i : S1024x128.Idx) (k : dot_S1024x1024_S1024x128_S1024x128_1_0_0_1_n_n.contr.Idx) : (dot_S1024x1024_S1024x128_S1024x128_1_0_0_1_n_n.rhsIdx i k 0).val = (k ⟨0, by decide⟩).val :=
  dot_S1024x1024_S1024x128_S1024x128_1_0_0_1_n_n.rhsIdx_val_of_single rfl i k
theorem rhs_adj_1 (i : S1024x128.Idx) (k : dot_S1024x1024_S1024x128_S1024x128_1_0_0_1_n_n.contr.Idx) : (dot_S1024x1024_S1024x128_S1024x128_1_0_0_1_n_n.rhsIdx i k 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- The accumulating step at a row p and a feature q: the carried value plus the row of the adjacency block
    against the column of the scaled features. -/
theorem pay2_apply (A : S1024x1024.Idx → EReal) (D X acc : S1024x128.Idx → EReal) (p : Fin 1024) (q : Fin 128) :
    (k1_pay2 (F := Ideal) A D X acc : S1024x128.Idx → EReal) (ix2 p q)
      = acc (ix2 p q) + ∑ j : Fin 1024, A (ix2 p j) * (D (ix2 j q) * X (ix2 j q)) := by
  unfold k1_pay2
  simp only [shapeCast_self]
  show acc (ix2 p q) + FloatOps.matmul (F := Ideal) dot_S1024x1024_S1024x128_S1024x128_1_0_0_1_n_n none (A : FVec Ideal S1024x1024 .bf16) (truncf .bf16 (mulf (D : FVec Ideal S1024x128 .f32) X) bitsLt_bf16_f32 : FVec Ideal S1024x128 .bf16) (constant (F := Ideal) S1024x128 .f32 0x00000000#32) (ix2 p q) = _
  refine congrArg (acc (ix2 p q) + ·) ?_
  refine (Ideal.matmul_constant_zero_apply dot_S1024x1024_S1024x128_S1024x128_1_0_0_1_n_n none (A : FVec Ideal S1024x1024 .bf16) (truncf .bf16 (mulf (D : FVec Ideal S1024x128 .f32) X) bitsLt_bf16_f32 : FVec Ideal S1024x128 .bf16) (ix2 p q)).trans ?_
  rw [← Equiv.sum_comp (contrEquiv1 dot_S1024x1024_S1024x128_S1024x128_1_0_0_1_n_n 1024 rfl rfl).symm]
  refine Finset.sum_congr rfl fun j _ => ?_
  have hk := contrEquiv1_symm_val dot_S1024x1024_S1024x128_S1024x128_1_0_0_1_n_n 1024 rfl rfl j
  have el : dot_S1024x1024_S1024x128_S1024x128_1_0_0_1_n_n.lhsIdx (ix2 p q) ((contrEquiv1 dot_S1024x1024_S1024x128_S1024x128_1_0_0_1_n_n 1024 rfl rfl).symm j) = ix2 p j := funext fun a => Fin.ext (by
    match a with
    | ⟨0, _⟩ => exact lhs_adj_0 _ _
    | ⟨1, _⟩ => exact (lhs_adj_1 _ _).trans hk)
  have er : dot_S1024x1024_S1024x128_S1024x128_1_0_0_1_n_n.rhsIdx (ix2 p q) ((contrEquiv1 dot_S1024x1024_S1024x128_S1024x128_1_0_0_1_n_n 1024 rfl rfl).symm j) = ix2 j q := funext fun a => Fin.ext (by
    match a with
    | ⟨0, _⟩ => exact (rhs_adj_0 _ _).trans hk
    | ⟨1, _⟩ => exact rhs_adj_1 _ _)
  rw [el, er]
  rfl

/-! ## The windows' index maps over the grid: point t is (t / 8, t % 8) -/

theorem idx_facts : ∀ t : Fin cfg1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val % 8 ∧ win1_2.index t (1 : Fin 2) = 0
    ∧ win1_3.index t (0 : Fin 2) = t.val / 8 ∧ win1_3.index t (1 : Fin 2) = 0
    ∧ win1_4.index t (0 : Fin 2) = t.val / 8 ∧ win1_4.index t (1 : Fin 2) = 0 :=
  (by decide +kernel : ∀ t : Fin grid1.N, _)

theorem idx_facts_whole : ∀ t : Fin cfg1.N,
    win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

theorem idx_facts_out : ∀ t : Fin cfg1.N,
    win1_9.index t (0 : Fin 2) = t.val / 8 ∧ win1_9.index t (1 : Fin 2) = 0
    ∧ win1_10.index t (0 : Fin 2) = t.val / 8 ∧ win1_10.index t (1 : Fin 2) = 0 :=
  (by decide +kernel : ∀ t : Fin grid1.N, _)

theorem lt_N (t : Fin cfg1.N) : t.val < 64 := lt_of_lt_of_eq t.isLt N_1

/-- Row j of block b, in blocks of 1024 (total in b; only b < 8 is used). -/
def rowN (b : ℕ) (j : Fin 1024) : Fin 8192 := ⟨(1024 * b + j.val) % 8192, Nat.mod_lt _ (by decide)⟩

variable (V : (c : Dev nD) → (b : Ref sig .tc) → Buf (Elt Ideal) ((c : Thread nD τ).loc b))

/-- The region's input arrays as matrices over the extended reals. -/
abbrev arrA (c : Dev nD) : S8192x8192.Idx → EReal := V c main_v0_1
abbrev arrX (c : Dev nD) : S8192x128.Idx → EReal := V c main_arg0
abbrev arrD (c : Dev nD) : S8192x128.Idx → EReal := V c main_v0_0

/-! ## The blocks, read off their arrays -/

theorem iblk_adj (c : Dev nD) (t : Fin cfg1.N) (p j : Fin 1024) :
    (iblk V c 0 t : S1024x1024.Idx → EReal) (ix2 p j)
      = arrA V c (ix2 (rowN (t.val / 8) p) (rowN (t.val % 8) j)) := by
  obtain ⟨e0, e1, -⟩ := idx_facts t
  have hN := lt_N t
  unfold iblk
  rw [View.read_apply]
  show (V c main_v0_1 : S8192x8192.Idx → EReal) (((cfg1.win 0).blk t).view.emb (ix2 p j)) = _
  congr 1
  funext a; apply Fin.ext
  match a with
  | ⟨0, _⟩ => show win1_0.index t (0 : Fin 2) * 1024 + 1 * p.val = (1024 * (t.val / 8) + p.val) % 8192; rw [e0]; omega
  | ⟨1, _⟩ => show win1_0.index t (1 : Fin 2) * 1024 + 1 * j.val = (1024 * (t.val % 8) + j.val) % 8192; rw [e1]; omega

theorem iblk_Xk (c : Dev nD) (t : Fin cfg1.N) (j : Fin 1024) (q : Fin 128) :
    (iblk V c 1 t : S1024x128.Idx → EReal) (ix2 j q)
      = arrX V c (ix2 (rowN (t.val % 8) j) q) := by
  obtain ⟨-, -, e0, e1, -⟩ := idx_facts t
  have hN := lt_N t
  unfold iblk
  rw [View.read_apply]
  show (V c main_arg0 : S8192x128.Idx → EReal) (((cfg1.win 1).blk t).view.emb (ix2 j q)) = _
  congr 1
  funext a; apply Fin.ext
  match a with
  | ⟨0, _⟩ => show win1_1.index t (0 : Fin 2) * 1024 + 1 * j.val = (1024 * (t.val % 8) + j.val) % 8192; rw [e0]; omega
  | ⟨1, _⟩ => show win1_1.index t (1 : Fin 2) * 128 + 1 * q.val = q.val; rw [e1]; omega

theorem iblk_Dk (c : Dev nD) (t : Fin cfg1.N) (j : Fin 1024) (q : Fin 128) :
    (iblk V c 2 t : S1024x128.Idx → EReal) (ix2 j q)
      = arrD V c (ix2 (rowN (t.val % 8) j) q) := by
  obtain ⟨-, -, -, -, e0, e1, -⟩ := idx_facts t
  have hN := lt_N t
  unfold iblk
  rw [View.read_apply]
  show (V c main_v0_0 : S8192x128.Idx → EReal) (((cfg1.win 2).blk t).view.emb (ix2 j q)) = _
  congr 1
  funext a; apply Fin.ext
  match a with
  | ⟨0, _⟩ => show win1_2.index t (0 : Fin 2) * 1024 + 1 * j.val = (1024 * (t.val % 8) + j.val) % 8192; rw [e0]; omega
  | ⟨1, _⟩ => show win1_2.index t (1 : Fin 2) * 128 + 1 * q.val = q.val; rw [e1]; omega

/-- Block s's share of row (bi, p) of A · (d ⊙ X), at feature q. -/
def term (c : Dev nD) (bi s : ℕ) (p : Fin 1024) (q : Fin 128) : EReal :=
  ∑ j : Fin 1024, arrA V c (ix2 (rowN bi p) (rowN s j)) * (arrD V c (ix2 (rowN s j) q) * arrX V c (ix2 (rowN s j) q))

/-- The accumulating step at point t over the blocks the windows hold there. -/
theorem pay2_blocks (c : Dev nD) (t : Fin cfg1.N) (acc : S1024x128.Idx → EReal) (p : Fin 1024) (q : Fin 128) :
    (k1_pay2 (F := Ideal) (iblk V c 0 t) (iblk V c 2 t) (iblk V c 1 t) acc : S1024x128.Idx → EReal) (ix2 p q)
      = acc (ix2 p q) + term V c (t.val / 8) (t.val % 8) p q := by
  refine (pay2_apply (iblk V c 0 t) (iblk V c 2 t) (iblk V c 1 t) acc p q).trans ?_
  refine congrArg (acc (ix2 p q) + ·) ?_
  unfold term
  refine Finset.sum_congr rfl fun j _ => ?_
  exact congrArg₂ (· * ·) (iblk_adj V c t p j) (congrArg₂ (· * ·) (iblk_Dk V c t j q) (iblk_Xk V c t j q))

/-- The reset value is zero. -/
theorem pay1_apply (p : Fin 1024) (q : Fin 128) : (k1_pay1 (F := Ideal) : S1024x128.Idx → EReal) (ix2 p q) = 0 := by
  unfold k1_pay1
  simp only [shapeCast_self]
  exact Ideal.ofBits_zero_f32

/-! ## The invariant -/

theorem acc_first (c : Dev nD) (t : Fin cfg1.N) (h0 : t.val % 8 = 0) (p : Fin 1024) (q : Fin 128) :
    ((outsAt V c t.val t.isLt).2.2 : S1024x128.Idx → EReal) (ix2 p q) = term V c (t.val / 8) (t.val % 8) p q := by
  have h1 : ¬t.val % 8 = 7 := by omega
  rw [outsAt_first V c t h0 h1]
  dsimp only
  rw [accFirst_eq]
  refine (pay2_blocks V c t _ p q).trans ?_
  rw [pay1_apply, zero_add]

theorem acc_next (c : Dev nD) (t : Fin cfg1.N) (h0 : ¬t.val % 8 = 0) (p : Fin 1024) (q : Fin 128) :
    ((outsAt V c t.val t.isLt).2.2 : S1024x128.Idx → EReal) (ix2 p q)
      = ((outsAt V c (t.val - 1) (Nat.lt_of_le_of_lt (Nat.sub_le _ _) t.isLt)).2.2 : S1024x128.Idx → EReal) (ix2 p q)
          + term V c (t.val / 8) (t.val % 8) p q := by
  by_cases h1 : t.val % 8 = 7
  · rw [outsAt_last V c t h0 h1]
    dsimp only
    rw [accLast_eq]
    exact pay2_blocks V c t _ p q
  · rw [outsAt_mid V c t h0 h1]
    dsimp only
    rw [accMid_eq]
    exact pay2_blocks V c t _ p q

/-- After point n = 8 i + k the accumulator holds the sum of the shares of the blocks 0..k of row block i. -/
theorem acc_inv (c : Dev nD) : ∀ (n : ℕ) (hn : n < cfg1.N) (p : Fin 1024) (q : Fin 128),
    ((outsAt V c n hn).2.2 : S1024x128.Idx → EReal) (ix2 p q) = ∑ s ∈ Finset.range (n % 8 + 1), term V c (n / 8) s p q
  | 0, hn, p, q => by
    refine (acc_first V c ⟨0, hn⟩ (by rfl) p q).trans ?_
    show term V c (0 / 8) (0 % 8) p q = _
    simp
  | n + 1, hn, p, q => by
    by_cases h0 : (n + 1) % 8 = 0
    · refine (acc_first V c ⟨n + 1, hn⟩ h0 p q).trans ?_
      show term V c ((n + 1) / 8) ((n + 1) % 8) p q = _
      rw [h0]; simp
    · refine (acc_next V c ⟨n + 1, hn⟩ h0 p q).trans ?_
      show ((outsAt V c n _).2.2 : S1024x128.Idx → EReal) (ix2 p q) + term V c ((n + 1) / 8) ((n + 1) % 8) p q = _
      rw [acc_inv c n (Nat.lt_of_succ_lt hn) p q]
      have e1 : (n + 1) / 8 = n / 8 := by omega
      have e2 : (n + 1) % 8 = n % 8 + 1 := by omega
      rw [e1, e2]
      exact (Finset.sum_range_succ _ _).symm

end Cert.KernelIdeal.Embed
end
-- ==== Proof.KI.EmbedValue.lean ====
/-
  Region 1 over the extended reals: the two output arrays after the region. Every row block i is written back once,
  at k = 7, when the accumulator holds the whole of A · (d ⊙ X) for its rows; the embedding is
  (d ⊙ (A · (d ⊙ X) + d ⊙ X)) · Weᵀ + be and the soft assignment the row softmax of the same with Waᵀ and ba.
-/
import proofs.«110719_j498216206442_2_alg».proof.Proof.KI.EmbedAcc
import proofs.«110719_j498216206442_2_alg».proof.Proof.Spec

set_option maxRecDepth 16384

noncomputable section

namespace Cert.KernelIdeal.Embed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

theorem lhs_feat_0 (i : S1024x128.Idx) (k : dot_S1024x128_S128x128_S1024x128_1_0_0_1_n_n.contr.Idx) : (dot_S1024x128_S128x128_S1024x128_1_0_0_1_n_n.lhsIdx i k 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem lhs_feat_1 (i : S1024x128.Idx) (k : dot_S1024x128_S128x128_S1024x128_1_0_0_1_n_n.contr.Idx) : (dot_S1024x128_S128x128_S1024x128_1_0_0_1_n_n.lhsIdx i k 1).val = (k ⟨0, by decide⟩).val :=
  dot_S1024x128_S128x128_S1024x128_1_0_0_1_n_n.lhsIdx_val_of_single rfl i k
theorem rhs_feat_0 (i : S1024x128.Idx) (k : dot_S1024x128_S128x128_S1024x128_1_0_0_1_n_n.contr.Idx) : (dot_S1024x128_S128x128_S1024x128_1_0_0_1_n_n.rhsIdx i k 0).val = (k ⟨0, by decide⟩).val :=
  dot_S1024x128_S128x128_S1024x128_1_0_0_1_n_n.rhsIdx_val_of_single rfl i k
theorem rhs_feat_1 (i : S1024x128.Idx) (k : dot_S1024x128_S128x128_S1024x128_1_0_0_1_n_n.contr.Idx) : (dot_S1024x128_S128x128_S1024x128_1_0_0_1_n_n.rhsIdx i k 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- The normalized propagation with the self loop at a row p and a feature f, from the finished accumulator. -/
theorem pay3_apply (Di Xi acc Di' : S1024x128.Idx → EReal) (p : Fin 1024) (f : Fin 128) :
    (k1_pay3 (F := Ideal) Di Xi acc Di' : S1024x128.Idx → EReal) (ix2 p f)
      = Di' (ix2 p f) * (acc (ix2 p f) + Di (ix2 p f) * Xi (ix2 p f)) := by
  unfold k1_pay3
  simp only [shapeCast_self]
  rfl

/-- A feature map applied to the propagated features, plus its bias row, at a row p and an output feature e. -/
theorem lin_apply (P : S1024x128.Idx → EReal) (W : S128x128.Idx → EReal) (b : S1x128.Idx → EReal) (p : Fin 1024) (e : Fin 128) :
    (addf (F := Ideal) (matmul (F := Ideal) (φ₁ := .bf16) (φ₂ := .bf16) dot_S1024x128_S128x128_S1024x128_1_0_0_1_n_n none (P : FVec Ideal S1024x128 .bf16) (truncf .bf16 (W : FVec Ideal S128x128 .f32) bitsLt_bf16_f32 : FVec Ideal S128x128 .bf16) (constant (F := Ideal) S1024x128 .f32 0x00000000#32))
        (broadcastTo S1024x128 b broadcasts_S1x128_S1024x128) : S1024x128.Idx → EReal) (ix2 p e)
      = (∑ f : Fin 128, P (ix2 p f) * W (ix2 f e)) + b (ix2 (0 : Fin 1) e) := by
  show FloatOps.matmul (F := Ideal) (φ₁ := .bf16) (φ₂ := .bf16) dot_S1024x128_S128x128_S1024x128_1_0_0_1_n_n none (P : FVec Ideal S1024x128 .bf16) (truncf .bf16 (W : FVec Ideal S128x128 .f32) bitsLt_bf16_f32 : FVec Ideal S128x128 .bf16) (constant (F := Ideal) S1024x128 .f32 0x00000000#32) (ix2 p e)
      + broadcastTo S1024x128 b broadcasts_S1x128_S1024x128 (ix2 p e) = _
  refine congrArg₂ (· + ·) ?_ (broadcastTo_1b_ab_apply b broadcasts_S1x128_S1024x128 p e)
  refine (Ideal.matmul_constant_zero_apply (φ₁ := .bf16) (φ₂ := .bf16) dot_S1024x128_S128x128_S1024x128_1_0_0_1_n_n none (P : FVec Ideal S1024x128 .bf16) (truncf .bf16 (W : FVec Ideal S128x128 .f32) bitsLt_bf16_f32 : FVec Ideal S128x128 .bf16) (ix2 p e)).trans ?_
  rw [← Equiv.sum_comp (contrEquiv1 dot_S1024x128_S128x128_S1024x128_1_0_0_1_n_n 128 rfl rfl).symm]
  refine Finset.sum_congr rfl fun f _ => ?_
  have hk := contrEquiv1_symm_val dot_S1024x128_S128x128_S1024x128_1_0_0_1_n_n 128 rfl rfl f
  have el : dot_S1024x128_S128x128_S1024x128_1_0_0_1_n_n.lhsIdx (ix2 p e) ((contrEquiv1 dot_S1024x128_S128x128_S1024x128_1_0_0_1_n_n 128 rfl rfl).symm f) = ix2 p f := funext fun a => Fin.ext (by
    match a with
    | ⟨0, _⟩ => exact lhs_feat_0 _ _
    | ⟨1, _⟩ => exact (lhs_feat_1 _ _).trans hk)
  have er : dot_S1024x128_S128x128_S1024x128_1_0_0_1_n_n.rhsIdx (ix2 p e) ((contrEquiv1 dot_S1024x128_S128x128_S1024x128_1_0_0_1_n_n 128 rfl rfl).symm f) = ix2 f e := funext fun a => Fin.ext (by
    match a with
    | ⟨0, _⟩ => exact (rhs_feat_0 _ _).trans hk
    | ⟨1, _⟩ => exact rhs_feat_1 _ _)
  rw [el, er]
  rfl

/-- The embedding's payload at a row p and an output feature e. -/
theorem pay4_apply (Di Xi acc Di' : S1024x128.Idx → EReal) (W : S128x128.Idx → EReal) (b : S1x128.Idx → EReal) (p : Fin 1024) (e : Fin 128) :
    (k1_pay4 (F := Ideal) Di Xi acc Di' W b : S1024x128.Idx → EReal) (ix2 p e)
      = (∑ f : Fin 128, (Di' (ix2 p f) * (acc (ix2 p f) + Di (ix2 p f) * Xi (ix2 p f))) * W (ix2 f e)) + b (ix2 (0 : Fin 1) e) := by
  unfold k1_pay4
  simp only [shapeCast_self]
  refine (lin_apply (k1_pay3 (F := Ideal) Di Xi acc Di') W b p e).trans ?_
  refine congrArg (· + b (ix2 (0 : Fin 1) e)) (Finset.sum_congr rfl fun f _ => ?_)
  exact congrArg (· * W (ix2 f e)) (pay3_apply Di Xi acc Di' p f)

variable (V : (c : Dev nD) → (b : Ref sig .tc) → Buf (Elt Ideal) ((c : Thread nD τ).loc b))

/-- The two feature maps and their bias rows as matrices over the extended reals. -/
abbrev arrWe (c : Dev nD) : S128x128.Idx → EReal := V c main_v1
abbrev arrBe (c : Dev nD) : S1x128.Idx → EReal := V c main_v3
abbrev arrWa (c : Dev nD) : S128x128.Idx → EReal := V c main_v2
abbrev arrBa (c : Dev nD) : S1x128.Idx → EReal := V c main_v4

/-! ## The remaining blocks, read off their arrays -/

theorem iblk_Xi (c : Dev nD) (t : Fin cfg1.N) (p : Fin 1024) (f : Fin 128) :
    (iblk V c 3 t : S1024x128.Idx → EReal) (ix2 p f) = arrX V c (ix2 (rowN (t.val / 8) p) f) := by
  obtain ⟨-, -, -, -, -, -, e0, e1, -⟩ := idx_facts t
  have hN := lt_N t
  unfold iblk
  rw [View.read_apply]
  show (V c main_arg0 : S8192x128.Idx → EReal) (((cfg1.win 3).blk t).view.emb (ix2 p f)) = _
  congr 1
  funext a; apply Fin.ext
  match a with
  | ⟨0, _⟩ => show win1_3.index t (0 : Fin 2) * 1024 + 1 * p.val = (1024 * (t.val / 8) + p.val) % 8192; rw [e0]; omega
  | ⟨1, _⟩ => show win1_3.index t (1 : Fin 2) * 128 + 1 * f.val = f.val; rw [e1]; omega

theorem iblk_Di (c : Dev nD) (t : Fin cfg1.N) (p : Fin 1024) (f : Fin 128) :
    (iblk V c 4 t : S1024x128.Idx → EReal) (ix2 p f) = arrD V c (ix2 (rowN (t.val / 8) p) f) := by
  obtain ⟨-, -, -, -, -, -, -, -, e0, e1⟩ := idx_facts t
  have hN := lt_N t
  unfold iblk
  rw [View.read_apply]
  show (V c main_v0_0 : S8192x128.Idx → EReal) (((cfg1.win 4).blk t).view.emb (ix2 p f)) = _
  congr 1
  funext a; apply Fin.ext
  match a with
  | ⟨0, _⟩ => show win1_4.index t (0 : Fin 2) * 1024 + 1 * p.val = (1024 * (t.val / 8) + p.val) % 8192; rw [e0]; omega
  | ⟨1, _⟩ => show win1_4.index t (1 : Fin 2) * 128 + 1 * f.val = f.val; rw [e1]; omega

theorem iblk_We (c : Dev nD) (t : Fin cfg1.N) (f : Fin 128) (e : Fin 128) :
    (iblk V c 5 t : S128x128.Idx → EReal) (ix2 f e) = arrWe V c (ix2 f e) := by
  obtain ⟨e0, e1, -⟩ := idx_facts_whole t
  have hN := lt_N t
  unfold iblk
  rw [View.read_apply]
  show (V c main_v1 : S128x128.Idx → EReal) (((cfg1.win 5).blk t).view.emb (ix2 f e)) = _
  congr 1
  funext a; apply Fin.ext
  match a with
  | ⟨0, _⟩ => show win1_5.index t (0 : Fin 2) * 128 + 1 * f.val = f.val; rw [e0]; omega
  | ⟨1, _⟩ => show win1_5.index t (1 : Fin 2) * 128 + 1 * e.val = e.val; rw [e1]; omega

theorem iblk_Be (c : Dev nD) (t : Fin cfg1.N) (z : Fin 1) (e : Fin 128) :
    (iblk V c 6 t : S1x128.Idx → EReal) (ix2 z e) = arrBe V c (ix2 z e) := by
  obtain ⟨-, -, e0, e1, -⟩ := idx_facts_whole t
  have hN := lt_N t
  unfold iblk
  rw [View.read_apply]
  show (V c main_v3 : S1x128.Idx → EReal) (((cfg1.win 6).blk t).view.emb (ix2 z e)) = _
  congr 1
  funext a; apply Fin.ext
  match a with
  | ⟨0, _⟩ => show win1_6.index t (0 : Fin 2) * 1 + 1 * z.val = z.val; rw [e0]; omega
  | ⟨1, _⟩ => show win1_6.index t (1 : Fin 2) * 128 + 1 * e.val = e.val; rw [e1]; omega

theorem iblk_Wa (c : Dev nD) (t : Fin cfg1.N) (f : Fin 128) (e : Fin 128) :
    (iblk V c 7 t : S128x128.Idx → EReal) (ix2 f e) = arrWa V c (ix2 f e) := by
  obtain ⟨-, -, -, -, e0, e1, -⟩ := idx_facts_whole t
  have hN := lt_N t
  unfold iblk
  rw [View.read_apply]
  show (V c main_v2 : S128x128.Idx → EReal) (((cfg1.win 7).blk t).view.emb (ix2 f e)) = _
  congr 1
  funext a; apply Fin.ext
  match a with
  | ⟨0, _⟩ => show win1_7.index t (0 : Fin 2) * 128 + 1 * f.val = f.val; rw [e0]; omega
  | ⟨1, _⟩ => show win1_7.index t (1 : Fin 2) * 128 + 1 * e.val = e.val; rw [e1]; omega

theorem iblk_Ba (c : Dev nD) (t : Fin cfg1.N) (z : Fin 1) (e : Fin 128) :
    (iblk V c 8 t : S1x128.Idx → EReal) (ix2 z e) = arrBa V c (ix2 z e) := by
  obtain ⟨-, -, -, -, -, -, e0, e1⟩ := idx_facts_whole t
  have hN := lt_N t
  unfold iblk
  rw [View.read_apply]
  show (V c main_v4 : S1x128.Idx → EReal) (((cfg1.win 8).blk t).view.emb (ix2 z e)) = _
  congr 1
  funext a; apply Fin.ext
  match a with
  | ⟨0, _⟩ => show win1_8.index t (0 : Fin 2) * 1 + 1 * z.val = z.val; rw [e0]; omega
  | ⟨1, _⟩ => show win1_8.index t (1 : Fin 2) * 128 + 1 * e.val = e.val; rw [e1]; omega

/-! ## The finished accumulator is A · (d ⊙ X) on the block's rows -/

theorem rowN_eq (k : Fin 8) (j : Fin 1024) : rowN k.val j = Cert.Spec.row1024 k j :=
  Fin.ext (by show (1024 * k.val + j.val) % 8192 = 1024 * k.val + j.val; have := k.isLt; have := j.isLt; omega)

theorem spread_eq (c : Dev nD) (bi : ℕ) (p : Fin 1024) (f : Fin 128) :
    ∑ s ∈ Finset.range 8, term V c bi s p f = Cert.Spec.spread (arrA V c) (arrX V c) (arrD V c) (rowN bi p) f := by
  rw [Finset.sum_range]
  unfold Cert.Spec.spread Cert.Spec.scaled term
  refine Finset.sum_congr rfl fun k _ => Finset.sum_congr rfl fun j _ => ?_
  rw [rowN_eq k j]

/-- At k = 7 the accumulator is the carried value plus the last product … -/
theorem accLast_at (c : Dev nD) (t : Fin cfg1.N) (h0 : ¬t.val % 8 = 0) (h7 : t.val % 8 = 7) :
    (outsAt V c t.val t.isLt).2.2
      = k1_pay2 (F := Ideal) (iblk V c 0 t) (iblk V c 2 t) (iblk V c 1 t) (outsAt V c (t.val - 1) (Nat.lt_of_le_of_lt (Nat.sub_le _ _) t.isLt)).2.2 := by
  rw [outsAt_last V c t h0 h7]
  dsimp only
  rw [accLast_eq]

/-- … which is the whole of A · (d ⊙ X) at the block's rows. -/
theorem acc_full (c : Dev nD) (t : Fin cfg1.N) (h0 : ¬t.val % 8 = 0) (h7 : t.val % 8 = 7) (p : Fin 1024) (f : Fin 128) :
    (k1_pay2 (F := Ideal) (iblk V c 0 t) (iblk V c 2 t) (iblk V c 1 t) (outsAt V c (t.val - 1) (Nat.lt_of_le_of_lt (Nat.sub_le _ _) t.isLt)).2.2 : S1024x128.Idx → EReal) (ix2 p f)
      = Cert.Spec.spread (arrA V c) (arrX V c) (arrD V c) (rowN (t.val / 8) p) f := by
  refine (congrFun (accLast_at V c t h0 h7) (ix2 p f)).symm.trans ?_
  refine (acc_inv V c t.val t.isLt p f).trans ?_
  rw [h7]
  exact spread_eq V c (t.val / 8) p f

/-! ## The embedding -/

/-- The embedding array: the closed form at every row and output feature. -/
def embArr (c : Dev nD) : S8192x128.Idx → EReal := fun i =>
  Cert.Spec.emb (arrA V c) (arrX V c) (arrD V c) (arrWe V c) (arrBe V c) (i 0) (i 1)

/-- What the embedding's buffer holds at k = 7, at a row p and an output feature e of the block. -/
theorem z_point (c : Dev nD) (t : Fin cfg1.N) (h0 : ¬t.val % 8 = 0) (h7 : t.val % 8 = 7) (p : Fin 1024) (e : Fin 128) :
    (k1_pay4 (F := Ideal) (iblk V c 4 t) (iblk V c 3 t)
        (k1_pay2 (F := Ideal) (iblk V c 0 t) (iblk V c 2 t) (iblk V c 1 t) (outsAt V c (t.val - 1) (Nat.lt_of_le_of_lt (Nat.sub_le _ _) t.isLt)).2.2)
        (iblk V c 4 t) (iblk V c 5 t) (iblk V c 6 t) : S1024x128.Idx → EReal) (ix2 p e)
      = Cert.Spec.emb (arrA V c) (arrX V c) (arrD V c) (arrWe V c) (arrBe V c) (rowN (t.val / 8) p) e := by
  refine (pay4_apply (iblk V c 4 t) (iblk V c 3 t) _ (iblk V c 4 t) (iblk V c 5 t) (iblk V c 6 t) p e).trans ?_
  unfold Cert.Spec.emb Cert.Spec.ax
  refine congrArg₂ (· + ·) (Finset.sum_congr rfl fun f _ => ?_) (iblk_Be V c t 0 e)
  refine congrArg₂ (· * ·) ?_ (iblk_We V c t f e)
  refine congrArg₂ (· * ·) (iblk_Di V c t p f) ?_
  exact congrArg₂ (· + ·) (acc_full V c t h0 h7 p f) (congrArg₂ (· * ·) (iblk_Di V c t p f) (iblk_Xi V c t p f))

/-- What point t writes back of the embedding is block t of the closed form. -/
theorem flushed_z (c : Dev nD) (t : Fin cfg1.N) (hf : (cfg1.win 9).flush t = true) :
    (dat V c).flushed 9 t = ((cfg1.win 9).blk t).view.read (Elt Ideal) (embArr V c) := by
  have h7 : t.val % 8 = 7 := (flush1_9 t).mp hf
  have h0 : ¬t.val % 8 = 0 := by omega
  obtain ⟨e0, e1, -⟩ := idx_facts_out t
  have hN := lt_N t
  show (cfg1.win 9).cut (grid1.coords t) ((dat V c).after 9 t) = _
  rw [after_z, outsAt_last V c t h0 h7]
  dsimp only
  rw [zLast_eq]
  funext y
  obtain ⟨p, e, rfl⟩ : ∃ (p : Fin 1024) (e : Fin 128), y = ix2 p e := ⟨y 0, y 1, eq_ix2 y⟩
  rw [View.read_apply]
  refine (z_point V c t h0 h7 p e).trans ?_
  show _ = Cert.Spec.emb (arrA V c) (arrX V c) (arrD V c) (arrWe V c) (arrBe V c) ((((cfg1.win 9).blk t).view.emb (ix2 p e)) 0) ((((cfg1.win 9).blk t).view.emb (ix2 p e)) 1)
  congr 1
  · apply Fin.ext
    show (1024 * (t.val / 8) + p.val) % 8192 = win1_9.index t (0 : Fin 2) * 1024 + 1 * p.val
    rw [e0]; omega
  · apply Fin.ext
    show e.val = win1_9.index t (1 : Fin 2) * 128 + 1 * e.val
    rw [e1]; omega

/-- An index of the embedding array is in point t's block iff each coordinate is in the block's range on its axis. -/
theorem mem_blk_z (t : Fin cfg1.N) (i : S8192x128.Idx) :
    i ∈ ((cfg1.win 9).blk t).view.set ↔ ∀ a : Fin 2, win1_9.index t a * S1024x128.size a ≤ (i a).val ∧ (i a).val < win1_9.index t a * S1024x128.size a + S1024x128.size a := by
  show i ∈ ((View.whole main_v5_0).slice (win1_9.rect t)).set ↔ _
  rw [View.set_slice_whole, Rect.mem_set_unit]
  exact Iff.rfl

/-- Every row is written back by the last point of its row block. -/
theorem cover_z (i : S8192x128.Idx) : ∃ t : Fin cfg1.N, (cfg1.win 9).flush t = true ∧ i ∈ ((cfg1.win 9).blk t).view.set := by
  have hi0 : (i 0).val < 8192 := idx2_lt0 i
  have hi1 : (i 1).val < 128 := idx2_lt1 i
  have hN : cfg1.N = 64 := N_1
  have ht : 8 * ((i 0).val / 1024) + 7 < cfg1.N := by rw [hN]; omega
  obtain ⟨e0, e1, -⟩ := idx_facts_out ⟨8 * ((i 0).val / 1024) + 7, ht⟩
  refine ⟨⟨8 * ((i 0).val / 1024) + 7, ht⟩, (flush1_9 _).mpr (by show (8 * ((i 0).val / 1024) + 7) % 8 = 7; omega), ?_⟩
  rw [mem_blk_z]
  intro a
  match a with
  | ⟨0, _⟩ =>
    show win1_9.index ⟨8 * ((i 0).val / 1024) + 7, ht⟩ (0 : Fin 2) * 1024 ≤ (i 0).val ∧ (i 0).val < win1_9.index ⟨8 * ((i 0).val / 1024) + 7, ht⟩ (0 : Fin 2) * 1024 + 1024
    rw [e0]; dsimp only; omega
  | ⟨1, _⟩ =>
    show win1_9.index ⟨8 * ((i 0).val / 1024) + 7, ht⟩ (1 : Fin 2) * 128 ≤ (i 1).val ∧ (i 1).val < win1_9.index ⟨8 * ((i 0).val / 1024) + 7, ht⟩ (1 : Fin 2) * 128 + 128
    rw [e1]; omega

/-- The embedding array after the region. -/
theorem final_emb (c : Dev nD) : ((dat V c).arrAt 9 cfg1.N : S8192x128.Idx → EReal) = fun i => Cert.Spec.emb (V c main_v0_1 : S8192x8192.Idx → EReal) (V c main_arg0 : S8192x128.Idx → EReal) (V c main_v0_0 : S8192x128.Idx → EReal) (V c main_v1 : S128x128.Idx → EReal) (V c main_v3 : S1x128.Idx → EReal) (i 0) (i 1) :=
  (dat V c).arrAt_eq_of_cover 9 (embArr V c) (fun t hf => flushed_z V c t hf) (fun i => cover_z i)

/-! ## The soft assignment -/

/-- A feature map applied to the propagated features plus its bias row, as the body forms it. -/
def linOf (P : FVec Ideal S1024x128 .bf16) (W : FVec Ideal S128x128 .f32) (b : FVec Ideal S1x128 .f32) : FVec Ideal S1024x128 .f32 :=
  addf (matmul (F := Ideal) (φ₁ := .bf16) (φ₂ := .bf16) dot_S1024x128_S128x128_S1024x128_1_0_0_1_n_n none P (truncf .bf16 (shapeCast S128x128 W shapeCasts_S128x128_S128x128) bitsLt_bf16_f32) (constant (F := Ideal) S1024x128 .f32 0x00000000#32))
    (broadcastTo S1024x128 (shapeCast S1x128 b shapeCasts_S1x128_S1x128) broadcasts_S1x128_S1024x128)

theorem linOf_apply (P : S1024x128.Idx → EReal) (W : S128x128.Idx → EReal) (b : S1x128.Idx → EReal) (p : Fin 1024) (e : Fin 128) :
    (linOf P W b : S1024x128.Idx → EReal) (ix2 p e) = (∑ f : Fin 128, P (ix2 p f) * W (ix2 f e)) + b (ix2 (0 : Fin 1) e) := by
  unfold linOf
  simp only [shapeCast_self]
  exact lin_apply P W b p e

/-- The row maximum of a block of logits, taken from -∞. -/
def rmax (Lv : FVec Ideal S1024x128 .f32) : FVec Ideal S1024 .f32 :=
  maximumf (broadcast S1024 (Scalar.ofBits (F := Ideal) .f32 0xFF800000#32))
    (multiReduction (F := Ideal) .maximumf [1] S1024 Lv 0xFF800000#32 reduces_S1024x128_S1024 (.inl rfl) rfl)

/-- The shifted exponentials of a block of logits. -/
def expv (Lv : FVec Ideal S1024x128 .f32) : FVec Ideal S1024x128 .f32 :=
  exp (subf Lv (broadcastTo S1024x128 (shapeCast S1024x1 (rmax Lv) shapeCasts_S1024_S1024x1) broadcasts_S1024x1_S1024x128))

/-- The row softmax of a block of logits. -/
def softRow (Lv : FVec Ideal S1024x128 .f32) : FVec Ideal S1024x128 .f32 :=
  divf (expv Lv) (broadcastTo S1024x128 (shapeCast S1024x1
    (multiReduction (F := Ideal) .add [1] S1024 (expv Lv) 0x00000000#32 reduces_S1024x128_S1024 (.inl rfl) rfl) shapeCasts_S1024_S1024x1) broadcasts_S1024x1_S1024x128)

/-- The soft assignment's payload is the row softmax of the logits. -/
theorem pay5_split (Di Xi acc Di' : FVec Ideal S1024x128 .f32) (W : FVec Ideal S128x128 .f32) (b : FVec Ideal S1x128 .f32) :
    k1_pay5 (F := Ideal) Di Xi acc Di' W b = softRow (linOf (k1_pay3 (F := Ideal) Di Xi acc Di') W b) := rfl

/-- A column of row values spread along the lanes reads the row's value. -/
theorem col_apply (x : S1024.Idx → EReal) (p : Fin 1024) (e : Fin 128) :
    (broadcastTo S1024x128 (shapeCast S1024x1 x shapeCasts_S1024_S1024x1) broadcasts_S1024x1_S1024x128 : S1024x128.Idx → EReal) (ix2 p e) = x (ix1 p) := by
  refine (broadcastTo_apply (shapeCast S1024x1 x shapeCasts_S1024_S1024x1) broadcasts_S1024x1_S1024x128 (ix2 p e) (ix2 p (0 : Fin 1)) fun a => ?_).trans ?_
  · match a with
    | ⟨0, _⟩ => show p.val = if (1024 : ℕ) = 1 then 0 else p.val; rw [if_neg (by decide)]
    | ⟨1, _⟩ => show (0 : ℕ) = if (1 : ℕ) = 1 then 0 else e.val; rw [if_pos rfl]
  · refine shapeCast_apply x shapeCasts_S1024_S1024x1 (ix2 p (0 : Fin 1)) (ix1 p) ?_
    rw [Shape.rowMajor_val_one, Shape.rowMajor_val_two]
    show p.val = p.val * 1 + 0
    omega

/-- The lane maximum at row p. -/
theorem rowmax_apply (Lv : S1024x128.Idx → EReal) (p : Fin 1024) :
    (multiReduction (F := Ideal) (φ := .f32) .maximumf [1] S1024 Lv 0xFF800000#32 reduces_S1024x128_S1024 (.inl rfl) rfl : S1024.Idx → EReal) (ix1 p)
      = (Finset.univ : Finset (Fin 128)).fold max Cert.Spec.negInf (fun e' => Lv (ix2 p e')) := by
  refine (Ideal.multiReduction_maximumf_single (φ := .f32) Lv 0xFF800000#32 reduces_S1024x128_S1024 (.inl rfl) rfl (ix1 p)).trans ?_
  show (Finset.univ : Finset (Fin 128)).fold max Cert.Spec.negInf (fun k => Lv (reduces_S1024x128_S1024.lift (ix1 p) k)) = _
  refine congrArg (fun g => (Finset.univ : Finset (Fin 128)).fold max Cert.Spec.negInf g) (funext fun k => ?_)
  refine congrArg Lv (funext fun a => Fin.ext ?_)
  match a with
  | ⟨0, _⟩ => rfl
  | ⟨1, _⟩ => rfl

/-- The lane sum at row p. -/
theorem rowsum_apply (E : S1024x128.Idx → EReal) (p : Fin 1024) :
    (multiReduction (F := Ideal) (φ := .f32) .add [1] S1024 E 0x00000000#32 reduces_S1024x128_S1024 (.inl rfl) rfl : S1024.Idx → EReal) (ix1 p)
      = ∑ e' : Fin 128, E (ix2 p e') := by
  refine (Ideal.multiReduction_add_single (φ := .f32) E 0x00000000#32 reduces_S1024x128_S1024 (.inl rfl) rfl (ix1 p)).trans ?_
  show ∑ k : Fin 128, E (reduces_S1024x128_S1024.lift (ix1 p) k) = _
  refine Finset.sum_congr rfl fun k _ => congrArg E (funext fun a => Fin.ext ?_)
  match a with
  | ⟨0, _⟩ => rfl
  | ⟨1, _⟩ => rfl

theorem rmax_apply (Lv : S1024x128.Idx → EReal) (p : Fin 1024) :
    (rmax Lv : S1024.Idx → EReal) (ix1 p) = max Cert.Spec.negInf ((Finset.univ : Finset (Fin 128)).fold max Cert.Spec.negInf (fun e' => Lv (ix2 p e'))) := by
  unfold rmax
  show max Cert.Spec.negInf _ = _
  exact congrArg (max Cert.Spec.negInf) (rowmax_apply Lv p)

theorem expv_apply (Lv : S1024x128.Idx → EReal) (p : Fin 1024) (e : Fin 128) :
    (expv Lv : S1024x128.Idx → EReal) (ix2 p e) = Ideal.exp (Lv (ix2 p e) - (rmax Lv : S1024.Idx → EReal) (ix1 p)) := by
  unfold expv
  show Ideal.exp (Lv (ix2 p e) - _) = _
  exact congrArg (fun m => Ideal.exp (Lv (ix2 p e) - m)) (col_apply (rmax Lv) p e)

theorem softRow_apply (Lv : S1024x128.Idx → EReal) (p : Fin 1024) (e : Fin 128) :
    (softRow Lv : S1024x128.Idx → EReal) (ix2 p e) = Ideal.div ((expv Lv : S1024x128.Idx → EReal) (ix2 p e)) (∑ e' : Fin 128, (expv Lv : S1024x128.Idx → EReal) (ix2 p e')) := by
  unfold softRow
  show Ideal.div ((expv Lv : S1024x128.Idx → EReal) (ix2 p e)) _ = _
  exact congrArg (Ideal.div ((expv Lv : S1024x128.Idx → EReal) (ix2 p e))) ((col_apply _ p e).trans (rowsum_apply (expv Lv) p))

/-- The row softmax of a block whose row p holds the logits lg. -/
theorem soft_of_logits (Lv : S1024x128.Idx → EReal) (p : Fin 1024) (lg : Fin 128 → EReal) (hL : ∀ e', Lv (ix2 p e') = lg e') (e : Fin 128) :
    (softRow Lv : S1024x128.Idx → EReal) (ix2 p e)
      = Ideal.div (Ideal.exp (lg e - max Cert.Spec.negInf ((Finset.univ : Finset (Fin 128)).fold max Cert.Spec.negInf lg)))
          (∑ e' : Fin 128, Ideal.exp (lg e' - max Cert.Spec.negInf ((Finset.univ : Finset (Fin 128)).fold max Cert.Spec.negInf lg))) := by
  have hfun : (fun e' => Lv (ix2 p e')) = lg := funext hL
  have hM : (rmax Lv : S1024.Idx → EReal) (ix1 p) = max Cert.Spec.negInf ((Finset.univ : Finset (Fin 128)).fold max Cert.Spec.negInf lg) := by
    rw [rmax_apply, hfun]
  have hE : ∀ e', (expv Lv : S1024x128.Idx → EReal) (ix2 p e') = Ideal.exp (lg e' - max Cert.Spec.negInf ((Finset.univ : Finset (Fin 128)).fold max Cert.Spec.negInf lg)) :=
    fun e' => by rw [expv_apply, hL e', hM]
  rw [softRow_apply, hE e]
  exact congrArg _ (Finset.sum_congr rfl fun e' _ => hE e')

/-- The normalized propagation with the self loop at k = 7, at a row p and a feature f of the block. -/
theorem ax_point (c : Dev nD) (t : Fin cfg1.N) (h0 : ¬t.val % 8 = 0) (h7 : t.val % 8 = 7) (p : Fin 1024) (f : Fin 128) :
    (k1_pay3 (F := Ideal) (iblk V c 4 t) (iblk V c 3 t)
        (k1_pay2 (F := Ideal) (iblk V c 0 t) (iblk V c 2 t) (iblk V c 1 t) (outsAt V c (t.val - 1) (Nat.lt_of_le_of_lt (Nat.sub_le _ _) t.isLt)).2.2)
        (iblk V c 4 t) : S1024x128.Idx → EReal) (ix2 p f)
      = Cert.Spec.ax (arrA V c) (arrX V c) (arrD V c) (rowN (t.val / 8) p) f := by
  refine (pay3_apply (iblk V c 4 t) (iblk V c 3 t) _ (iblk V c 4 t) p f).trans ?_
  unfold Cert.Spec.ax
  refine congrArg₂ (· * ·) (iblk_Di V c t p f) ?_
  exact congrArg₂ (· + ·) (acc_full V c t h0 h7 p f) (congrArg₂ (· * ·) (iblk_Di V c t p f) (iblk_Xi V c t p f))

/-- The logits at k = 7, at a row p and an output feature e of the block. -/
theorem logit_point (c : Dev nD) (t : Fin cfg1.N) (h0 : ¬t.val % 8 = 0) (h7 : t.val % 8 = 7) (p : Fin 1024) (e : Fin 128) :
    (linOf (k1_pay3 (F := Ideal) (iblk V c 4 t) (iblk V c 3 t)
        (k1_pay2 (F := Ideal) (iblk V c 0 t) (iblk V c 2 t) (iblk V c 1 t) (outsAt V c (t.val - 1) (Nat.lt_of_le_of_lt (Nat.sub_le _ _) t.isLt)).2.2)
        (iblk V c 4 t)) (iblk V c 7 t) (iblk V c 8 t) : S1024x128.Idx → EReal) (ix2 p e)
      = Cert.Spec.logit (arrA V c) (arrX V c) (arrD V c) (arrWa V c) (arrBa V c) (rowN (t.val / 8) p) e := by
  refine (linOf_apply _ (iblk V c 7 t) (iblk V c 8 t) p e).trans ?_
  unfold Cert.Spec.logit
  refine congrArg₂ (· + ·) (Finset.sum_congr rfl fun f _ => ?_) (iblk_Ba V c t 0 e)
  exact congrArg₂ (· * ·) (ax_point V c t h0 h7 p f) (iblk_Wa V c t f e)

/-- The soft assignment array: the closed form at every row and cluster. -/
def softArr (c : Dev nD) : S8192x128.Idx → EReal := fun i =>
  Cert.Spec.soft (arrA V c) (arrX V c) (arrD V c) (arrWa V c) (arrBa V c) (i 0) (i 1)

/-- What the soft assignment's buffer holds at k = 7, at a row p and a cluster e of the block. -/
theorem s_point (c : Dev nD) (t : Fin cfg1.N) (h0 : ¬t.val % 8 = 0) (h7 : t.val % 8 = 7) (p : Fin 1024) (e : Fin 128) :
    (k1_pay5 (F := Ideal) (iblk V c 4 t) (iblk V c 3 t)
        (k1_pay2 (F := Ideal) (iblk V c 0 t) (iblk V c 2 t) (iblk V c 1 t) (outsAt V c (t.val - 1) (Nat.lt_of_le_of_lt (Nat.sub_le _ _) t.isLt)).2.2)
        (iblk V c 4 t) (iblk V c 7 t) (iblk V c 8 t) : S1024x128.Idx → EReal) (ix2 p e)
      = Cert.Spec.soft (arrA V c) (arrX V c) (arrD V c) (arrWa V c) (arrBa V c) (rowN (t.val / 8) p) e := by
  refine (congrFun (pay5_split (iblk V c 4 t) (iblk V c 3 t) _ (iblk V c 4 t) (iblk V c 7 t) (iblk V c 8 t)) (ix2 p e)).trans ?_
  exact soft_of_logits _ p (Cert.Spec.logit (arrA V c) (arrX V c) (arrD V c) (arrWa V c) (arrBa V c) (rowN (t.val / 8) p))
    (fun e' => logit_point V c t h0 h7 p e') e

/-- What point t writes back of the soft assignment is block t of the closed form. -/
theorem flushed_s (c : Dev nD) (t : Fin cfg1.N) (hf : (cfg1.win 10).flush t = true) :
    (dat V c).flushed 10 t = ((cfg1.win 10).blk t).view.read (Elt Ideal) (softArr V c) := by
  have h7 : t.val % 8 = 7 := (flush1_10 t).mp hf
  have h0 : ¬t.val % 8 = 0 := by omega
  obtain ⟨-, -, e0, e1⟩ := idx_facts_out t
  have hN := lt_N t
  show (cfg1.win 10).cut (grid1.coords t) ((dat V c).after 10 t) = _
  rw [after_s, outsAt_last V c t h0 h7]
  dsimp only
  rw [sLast_eq]
  funext y
  obtain ⟨p, e, rfl⟩ : ∃ (p : Fin 1024) (e : Fin 128), y = ix2 p e := ⟨y 0, y 1, eq_ix2 y⟩
  rw [View.read_apply]
  refine (s_point V c t h0 h7 p e).trans ?_
  show _ = Cert.Spec.soft (arrA V c) (arrX V c) (arrD V c) (arrWa V c) (arrBa V c) ((((cfg1.win 10).blk t).view.emb (ix2 p e)) 0) ((((cfg1.win 10).blk t).view.emb (ix2 p e)) 1)
  congr 1
  · apply Fin.ext
    show (1024 * (t.val / 8) + p.val) % 8192 = win1_10.index t (0 : Fin 2) * 1024 + 1 * p.val
    rw [e0]; omega
  · apply Fin.ext
    show e.val = win1_10.index t (1 : Fin 2) * 128 + 1 * e.val
    rw [e1]; omega

/-- An index of the soft assignment array is in point t's block iff each coordinate is in the block's range on its axis. -/
theorem mem_blk_s (t : Fin cfg1.N) (i : S8192x128.Idx) :
    i ∈ ((cfg1.win 10).blk t).view.set ↔ ∀ a : Fin 2, win1_10.index t a * S1024x128.size a ≤ (i a).val ∧ (i a).val < win1_10.index t a * S1024x128.size a + S1024x128.size a := by
  show i ∈ ((View.whole main_v5_1).slice (win1_10.rect t)).set ↔ _
  rw [View.set_slice_whole, Rect.mem_set_unit]
  exact Iff.rfl

/-- Every row is written back by the last point of its row block. -/
theorem cover_s (i : S8192x128.Idx) : ∃ t : Fin cfg1.N, (cfg1.win 10).flush t = true ∧ i ∈ ((cfg1.win 10).blk t).view.set := by
  have hi0 : (i 0).val < 8192 := idx2_lt0 i
  have hi1 : (i 1).val < 128 := idx2_lt1 i
  have hN : cfg1.N = 64 := N_1
  have ht : 8 * ((i 0).val / 1024) + 7 < cfg1.N := by rw [hN]; omega
  obtain ⟨-, -, e0, e1⟩ := idx_facts_out ⟨8 * ((i 0).val / 1024) + 7, ht⟩
  refine ⟨⟨8 * ((i 0).val / 1024) + 7, ht⟩, (flush1_10 _).mpr (by show (8 * ((i 0).val / 1024) + 7) % 8 = 7; omega), ?_⟩
  rw [mem_blk_s]
  intro a
  match a with
  | ⟨0, _⟩ =>
    show win1_10.index ⟨8 * ((i 0).val / 1024) + 7, ht⟩ (0 : Fin 2) * 1024 ≤ (i 0).val ∧ (i 0).val < win1_10.index ⟨8 * ((i 0).val / 1024) + 7, ht⟩ (0 : Fin 2) * 1024 + 1024
    rw [e0]; dsimp only; omega
  | ⟨1, _⟩ =>
    show win1_10.index ⟨8 * ((i 0).val / 1024) + 7, ht⟩ (1 : Fin 2) * 128 ≤ (i 1).val ∧ (i 1).val < win1_10.index ⟨8 * ((i 0).val / 1024) + 7, ht⟩ (1 : Fin 2) * 128 + 128
    rw [e1]; omega

/-- The soft assignment array after the region. -/
theorem final_soft (c : Dev nD) : ((dat V c).arrAt 10 cfg1.N : S8192x128.Idx → EReal) = fun i => Cert.Spec.soft (V c main_v0_1 : S8192x8192.Idx → EReal) (V c main_arg0 : S8192x128.Idx → EReal) (V c main_v0_0 : S8192x128.Idx → EReal) (V c main_v2 : S128x128.Idx → EReal) (V c main_v4 : S1x128.Idx → EReal) (i 0) (i 1) :=
  (dat V c).arrAt_eq_of_cover 10 (softArr V c) (fun t hf => flushed_s V c t hf) (fun i => cover_s i)

end Cert.KernelIdeal.Embed
end
-- ==== Proof.KI.HopPieces.lean ====
/-
  Region 2 (one hop of the adjacency matrix over the soft assignment): what each control case leaves, as the
  body's arithmetic of the blocks it read. Whatever k is, the scratch accumulator ends at (what it held) + (the
  product of the two input blocks), where at k = 0 "what it held" is the zero block the reset has just stored;
  at k = 7 the output's block receives that same final accumulator.
-/
import proofs.«110719_j498216206442_2_alg».proof.Proof.KI.Hop
import Idealize.ShloMosaic.Lib.Pipeline.Value

set_option maxRecDepth 16384

noncomputable section

namespace Cert.KernelIdeal.Hop

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a whole-block load or store. -/
theorem hz : (![0, 0] : Fin 2 → Nat) = fun _ => 0 := funext fun a => by fin_cases a <;> rfl

section Cases
variable (c : Dev nD) (i : grid2.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole)

/-- k = 0: the accumulator ends at (the zero block) + (adjacency block) · (assignment block). -/
theorem accFirst_eq (hc0 : isFirst i) (hc1 : ¬isLast i) (x0 : Vec F S1024x1024 .bf16) (x1 : Vec F S1024x128 .f32) :
    accFirst c i arg2 harg2 arg3 harg3 arg4 harg4 arg5 harg5 hc0 hc1 x0 x1 = k2_pay2 x0 x1 (k2_pay1 (F := F)) := by
  unfold accFirst
  rw [View.read_writes_eq_canon _ _ _ (coverAcc_first c i arg2 harg2 arg3 harg3 arg4 harg4 arg5 harg5 hc0 hc1 x0 x1)]
  unfold runFirst
  dsimp only
  sl_unfold_words
  rw [View.canon_cons_unit_zero (S := S1024x128) hz, View.readCov_unit_zero (S := S1024x128) _ hz]
  simp only [View.readAt_eq_ld, harg2.read_unread, harg3.read_unread, View.ld_unit_zero (S := S1024x1024) hz, View.ld_unit_zero (S := S1024x128) hz]

/-- 0 < k < 7: the accumulator ends at (what it held) + (adjacency block) · (assignment block). -/
theorem accMid_eq (hc0 : ¬isFirst i) (hc1 : ¬isLast i) (x0 : Vec F S1024x1024 .bf16) (x1 : Vec F S1024x128 .f32) (xs : Vec F S1024x128 .f32) :
    accMid c i arg2 harg2 arg3 harg3 arg4 harg4 arg5 harg5 hc0 hc1 x0 x1 xs = k2_pay2 x0 x1 xs := by
  unfold accMid
  rw [View.read_writes_eq_canon _ _ _ (coverAcc_mid c i arg2 harg2 arg3 harg3 arg4 harg4 arg5 harg5 hc0 hc1 x0 x1 xs)]
  unfold runMid
  dsimp only
  rw [View.canon_unit_zero (S := S1024x128) hz]
  simp only [View.readAt_eq_ld, harg2.read_unread, harg3.read_unread, harg5.read_unread, View.ld_unit_zero (S := S1024x1024) hz, View.ld_unit_zero (S := S1024x128) hz]

/-- k = 7: the accumulator ends at (what it held) + (adjacency block) · (assignment block) … -/
theorem accLast_eq (hc0 : ¬isFirst i) (hc1 : isLast i) (x0 : Vec F S1024x1024 .bf16) (x1 : Vec F S1024x128 .f32) (xs : Vec F S1024x128 .f32) :
    accLast c i arg2 harg2 arg3 harg3 arg4 harg4 arg5 harg5 hc0 hc1 x0 x1 xs = k2_pay2 x0 x1 xs := by
  unfold accLast
  rw [View.read_writes_eq_canon _ _ _ (coverAcc_last c i arg2 harg2 arg3 harg3 arg4 harg4 arg5 harg5 hc0 hc1 x0 x1 xs)]
  unfold runLast
  dsimp only
  sl_unfold_words
  rw [View.canon_unit_zero (S := S1024x128) hz]
  simp only [View.readAt_eq_ld, harg2.read_unread, harg3.read_unread, harg5.read_unread, View.ld_unit_zero (S := S1024x1024) hz, View.ld_unit_zero (S := S1024x128) hz]

/-- … and the output's block receives exactly that. -/
theorem outLast_eq (hc0 : ¬isFirst i) (hc1 : isLast i) (x0 : Vec F S1024x1024 .bf16) (x1 : Vec F S1024x128 .f32) (xs : Vec F S1024x128 .f32) :
    outLast c i arg2 harg2 arg3 harg3 arg4 harg4 arg5 harg5 hc0 hc1 x0 x1 xs = k2_pay2 x0 x1 xs := by
  unfold outLast
  rw [View.read_writes_eq_canon _ _ _ (coverOut_last c i arg2 harg2 arg3 harg3 arg4 harg4 arg5 harg5 hc0 hc1 x0 x1 xs)]
  unfold runLast
  dsimp only
  sl_unfold_words
  rw [View.canon_unit_zero (S := S1024x128) hz, View.readCov_unit_zero (S := S1024x128) _ hz]
  simp only [View.readAt_eq_ld, harg2.read_unread, harg3.read_unread, harg5.read_unread, View.ld_unit_zero (S := S1024x1024) hz, View.ld_unit_zero (S := S1024x128) hz]

end Cases

end Cert.KernelIdeal.Hop

end
-- ==== Proof.KI.HopValue.lean ====
/-
  Region 2 (one hop of the adjacency matrix over the soft assignment), read over the extended reals: the output
  array ends at the matrix product (adjacency) · (assignment) of the two arrays as the region finds them.

  The grid point numbered n = 8 i + k multiplies block (i, k) of the adjacency (1024 × 1024) with row block k of the
  assignment (1024 × 128) and adds the product into the accumulator, which the point with k = 0 has reset to zero.
  Entry (p, q) of such a block product is the sum over the 1024 columns j of block k, so after point 8 i + k the
  accumulator's entry (p, q) is the sum over column blocks 0..k — and within each over its 1024 columns — of
  A (1024 i + p, 1024 k' + j) · S (1024 k' + j, q): an induction on the point. At k = 7 that is all of row
  1024 i + p of the product, and the output's block (i, 0) receives it; the eight row blocks tile the output.
-/
import proofs.«110719_j498216206442_2_alg».proof.Proof.KI.HopPieces
import proofs.«110719_j498216206442_2_alg».proof.Proof.Spec
import Idealize.ShloMosaic.PureOps.Ideal.Laws
import Idealize.ShloMosaic.Lib.ValueIdx
import Idealize.ShloMosaic.Lib.Pipeline.Value

set_option maxRecDepth 16384

noncomputable section

namespace Cert.KernelIdeal.Hop

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The body's arithmetic at an index -/

theorem dot_lhs0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem dot_lhs1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
theorem dot_rhs0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
theorem dot_rhs1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- The block product at (p, q): the sum over the 1024 columns j of the adjacency block of (p, j) · (j, q). -/
theorem blockProduct_apply (x0 : FVec Ideal S1024x1024 .bf16) (x1 : FVec Ideal S1024x128 .bf16) (p : Fin 1024) (q : Fin 128) :
    FloatOps.matmul dot_S1024x1024_S1024x128_S1024x128_1_0_0_1_n_n none x0 x1 (constant (F := Ideal) S1024x128 .f32 0x00000000#32) (ix2 p q)
      = ∑ j : Fin 1024, x0 (ix2 p j) * x1 (ix2 j q) := by
  rw [Ideal.matmul_constant_zero_apply, ← Equiv.sum_comp (contrEquiv1 dot_S1024x1024_S1024x128_S1024x128_1_0_0_1_n_n 1024 rfl rfl).symm]
  refine Finset.sum_congr rfl fun k _ => ?_
  have hk := contrEquiv1_symm_val dot_S1024x1024_S1024x128_S1024x128_1_0_0_1_n_n 1024 rfl rfl k
  have el : dot_S1024x1024_S1024x128_S1024x128_1_0_0_1_n_n.lhsIdx (ix2 p q) ((contrEquiv1 dot_S1024x1024_S1024x128_S1024x128_1_0_0_1_n_n 1024 rfl rfl).symm k) = ix2 p k := funext fun a => Fin.ext (by
    match a with
    | ⟨0, _⟩ => exact dot_lhs0 _ _
    | ⟨1, _⟩ => exact (dot_lhs1 _ _).trans hk)
  have er : dot_S1024x1024_S1024x128_S1024x128_1_0_0_1_n_n.rhsIdx (ix2 p q) ((contrEquiv1 dot_S1024x1024_S1024x128_S1024x128_1_0_0_1_n_n 1024 rfl rfl).symm k) = ix2 k q := funext fun a => Fin.ext (by
    match a with
    | ⟨0, _⟩ => exact (dot_rhs0 _ _).trans hk
    | ⟨1, _⟩ => exact dot_rhs1 _ _)
  rw [el, er]

/-- The accumulating store's value at (p, q): what the accumulator held there plus the block product. -/
theorem pay2_apply (x0 : Vec Ideal S1024x1024 .bf16) (x1 xs : Vec Ideal S1024x128 .f32) (p : Fin 1024) (q : Fin 128) :
    k2_pay2 (F := Ideal) x0 x1 xs (ix2 p q) = xs (ix2 p q) + ∑ j : Fin 1024, x0 (ix2 p j) * x1 (ix2 j q) := by
  unfold k2_pay2
  simp only [shapeCast_self]
  exact congrArg (xs (ix2 p q) + ·) (blockProduct_apply x0 x1 p q)

/-- The reset's value: zero everywhere. -/
theorem pay1_apply (p : Fin 1024) (q : Fin 128) : k2_pay1 (F := Ideal) (ix2 p q) = 0 := by
  unfold k2_pay1
  simp only [shapeCast_self]
  exact Ideal.ofBits_zero_f32

variable (V : (c : Dev nD) → (b : Ref sig .tc) → Buf (Elt Ideal) ((c : Thread nD τ).loc b))

/-! ## The windows' blocks, index by index -/

/-- The printed index maps over the grid: at point t = 8 i + k the adjacency's block is (i, k), the assignment's
    (k, 0), the output's (i, 0). -/
theorem idx_facts : ∀ t : Fin cfg2.N, win2_0.index t (0 : Fin 2) = t.val / 8 ∧ win2_0.index t (1 : Fin 2) = t.val % 8
    ∧ win2_1.index t (0 : Fin 2) = t.val % 8 ∧ win2_1.index t (1 : Fin 2) = 0
    ∧ win2_2.index t (0 : Fin 2) = t.val / 8 ∧ win2_2.index t (1 : Fin 2) = 0 :=
  (by decide +kernel : ∀ t : Fin grid2.N, _)

/-- The row block i and the column block k of the point numbered n = 8 i + k. -/
def blkRow (n : ℕ) : Fin 8 := ⟨n / 8 % 8, Nat.mod_lt _ (by decide)⟩
def blkCol (n : ℕ) : Fin 8 := ⟨n % 8, Nat.mod_lt _ (by decide)⟩

/-- The adjacency's block at point t, entry (p, j): row p of row block i, column j of column block k. -/
theorem adj_apply (c : Dev nD) (t : Fin cfg2.N) (p j : Fin 1024) :
    (iblk V c 0 t : Vec Ideal S1024x1024 .bf16) (ix2 p j)
      = (V c main_v0_1 : S8192x8192.Idx → EReal) (ix2 (Cert.Spec.row1024 (blkRow t.val) p) (Cert.Spec.row1024 (blkCol t.val) j)) := by
  obtain ⟨e0, e1, -, -, -, -⟩ := idx_facts t
  have hN : t.val < 64 := lt_of_lt_of_eq t.isLt (show cfg2.N = 64 from N_2)
  unfold iblk
  rw [View.read_apply]
  show V c main_v0_1 _ = V c main_v0_1 _
  congr 1
  funext a
  apply Fin.ext
  match a with
  | ⟨0, _⟩ => show win2_0.index t (0 : Fin 2) * 1024 + 1 * p.val = 1024 * (t.val / 8 % 8) + p.val; rw [e0]; omega
  | ⟨1, _⟩ => show win2_0.index t (1 : Fin 2) * 1024 + 1 * j.val = 1024 * (t.val % 8) + j.val; rw [e1]; omega

/-- The assignment's block at point t, entry (j, q): row j of row block k. -/
theorem asg_apply (c : Dev nD) (t : Fin cfg2.N) (j : Fin 1024) (q : Fin 128) :
    (iblk V c 1 t : Vec Ideal S1024x128 .f32) (ix2 j q)
      = (V c main_v5_1 : S8192x128.Idx → EReal) (ix2 (Cert.Spec.row1024 (blkCol t.val) j) q) := by
  obtain ⟨-, -, e2, e3, -, -⟩ := idx_facts t
  unfold iblk
  rw [View.read_apply]
  show V c main_v5_1 _ = V c main_v5_1 _
  congr 1
  funext a
  apply Fin.ext
  match a with
  | ⟨0, _⟩ => show win2_1.index t (0 : Fin 2) * 1024 + 1 * j.val = 1024 * (t.val % 8) + j.val; rw [e2]; omega
  | ⟨1, _⟩ => show win2_1.index t (1 : Fin 2) * 128 + 1 * q.val = q.val; rw [e3]; omega

/-! ## The accumulator, point by point -/

/-- The region's two input arrays as it finds them: the bf16 adjacency and the soft assignment. -/
abbrev adjArr (c : Dev nD) : S8192x8192.Idx → EReal := V c main_v0_1
abbrev asgArr (c : Dev nD) : S8192x128.Idx → EReal := V c main_v5_1

/-- Column block k's share of entry (r, e) of the product: the sum over the block's 1024 columns. -/
def term (A : Cert.Spec.Mat 8192 8192) (S : Cert.Spec.Mat 8192 128) (r : Fin 8192) (e : Fin 128) (k : Fin 8) : EReal :=
  ∑ j : Fin 1024, A (ix2 r (Cert.Spec.row1024 k j)) * S (ix2 (Cert.Spec.row1024 k j) e)

/-- The whole product is the shares of the eight column blocks, taken in order. -/
theorem hop_eq_range (A : Cert.Spec.Mat 8192 8192) (S : Cert.Spec.Mat 8192 128) (r : Fin 8192) (e : Fin 128) :
    Cert.Spec.hop A S r e = ∑ k ∈ Finset.range 8, term A S r e (blkCol k) := by
  unfold Cert.Spec.hop
  rw [← Fin.sum_univ_eq_sum_range (fun k => term A S r e (blkCol k)) 8]
  refine Finset.sum_congr rfl fun k _ => ?_
  rw [show blkCol k.val = k from Fin.ext (Nat.mod_eq_of_lt k.isLt)]
  rfl

/-- Two blocks that are row p of A against column block k, and column block k's rows of S at column q, multiply to
    column block k's share of entry (r, q). -/
theorem share_of_blocks (A : Cert.Spec.Mat 8192 8192) (S : Cert.Spec.Mat 8192 128) (x0 : Vec Ideal S1024x1024 .bf16) (x1 : Vec Ideal S1024x128 .f32)
    (r : Fin 8192) (k : Fin 8) (p : Fin 1024) (q : Fin 128)
    (h0 : ∀ j : Fin 1024, x0 (ix2 p j) = A (ix2 r (Cert.Spec.row1024 k j)))
    (h1 : ∀ j : Fin 1024, x1 (ix2 j q) = S (ix2 (Cert.Spec.row1024 k j) q)) :
    (∑ j : Fin 1024, x0 (ix2 p j) * x1 (ix2 j q)) = term A S r q k :=
  Finset.sum_congr rfl fun j _ => by rw [h0 j, h1 j]

/-- At a point with k = 0 the accumulator ends at zero plus the blocks' product. -/
theorem acc_first (c : Dev nD) (t : Fin cfg2.N) (h0 : t.val % 8 = 0) :
    (outsAt V c t.val t.isLt).2 = k2_pay2 (F := Ideal) (iblk V c 0 t) (iblk V c 1 t) (k2_pay1 (F := Ideal)) := by
  have h1 : ¬t.val % 8 = 7 := by omega
  rw [outsAt_first V c t h0 h1]
  dsimp only
  exact accFirst_eq c (grid2.coords t) (mAdj t) (hAdj t) (mAsg t) (hAsg t) (mOut t) (hOut t) mAcc (Memref.isWhole_whole _)
      ((isFirst_iff t).mpr h0) (fun h => h1 ((isLast_iff t).mp h)) (iblk V c 0 t) (iblk V c 1 t)

/-- At any other point it ends at what the point before left plus the blocks' product. -/
theorem acc_next (c : Dev nD) (t : Fin cfg2.N) (h0 : ¬t.val % 8 = 0) :
    (outsAt V c t.val t.isLt).2 = k2_pay2 (F := Ideal) (iblk V c 0 t) (iblk V c 1 t) (outsAt V c (t.val - 1) (Nat.lt_of_le_of_lt (Nat.sub_le _ _) t.isLt)).2 := by
  by_cases h1 : t.val % 8 = 7
  · rw [outsAt_last V c t h0 h1]
    dsimp only
    exact accLast_eq c (grid2.coords t) (mAdj t) (hAdj t) (mAsg t) (hAsg t) (mOut t) (hOut t) mAcc (Memref.isWhole_whole _)
        (fun h => h0 ((isFirst_iff t).mp h)) ((isLast_iff t).mpr h1) (iblk V c 0 t) (iblk V c 1 t) (outsAt V c (t.val - 1) (Nat.lt_of_le_of_lt (Nat.sub_le _ _) t.isLt)).2
  · rw [outsAt_mid V c t h0 h1]
    dsimp only
    exact accMid_eq c (grid2.coords t) (mAdj t) (hAdj t) (mAsg t) (hAsg t) (mOut t) (hOut t) mAcc (Memref.isWhole_whole _)
        (fun h => h0 ((isFirst_iff t).mp h)) (fun h => h1 ((isLast_iff t).mp h)) (iblk V c 0 t) (iblk V c 1 t) (outsAt V c (t.val - 1) (Nat.lt_of_le_of_lt (Nat.sub_le _ _) t.isLt)).2

/-- At k = 7 the output's buffer receives the accumulator. -/
theorem out_last (c : Dev nD) (t : Fin cfg2.N) (h7 : t.val % 8 = 7) :
    (outsAt V c t.val t.isLt).1 = (outsAt V c t.val t.isLt).2 := by
  have h0 : ¬t.val % 8 = 0 := by omega
  rw [outsAt_last V c t h0 h7]
  dsimp only
  rw [outLast_eq c (grid2.coords t) (mAdj t) (hAdj t) (mAsg t) (hAsg t) (mOut t) (hOut t) mAcc (Memref.isWhole_whole _)
      (fun h => h0 ((isFirst_iff t).mp h)) ((isLast_iff t).mpr h7) (iblk V c 0 t) (iblk V c 1 t) (outsAt V c (t.val - 1) (Nat.lt_of_le_of_lt (Nat.sub_le _ _) t.isLt)).2,
    accLast_eq c (grid2.coords t) (mAdj t) (hAdj t) (mAsg t) (hAsg t) (mOut t) (hOut t) mAcc (Memref.isWhole_whole _)
      (fun h => h0 ((isFirst_iff t).mp h)) ((isLast_iff t).mpr h7) (iblk V c 0 t) (iblk V c 1 t) (outsAt V c (t.val - 1) (Nat.lt_of_le_of_lt (Nat.sub_le _ _) t.isLt)).2]

/-- The same two facts at an entry (p, q). -/
theorem first_apply (c : Dev nD) (t : Fin cfg2.N) (h0 : t.val % 8 = 0) (p : Fin 1024) (q : Fin 128) :
    ((outsAt V c t.val t.isLt).2 : Vec Ideal S1024x128 .f32) (ix2 p q)
      = term (adjArr V c) (asgArr V c) (Cert.Spec.row1024 (blkRow t.val) p) q (blkCol t.val) := by
  refine (congrFun (acc_first V c t h0) (ix2 p q)).trans ?_
  refine (pay2_apply _ _ _ p q).trans ?_
  rw [pay1_apply, zero_add]
  exact share_of_blocks (adjArr V c) (asgArr V c) _ _ _ _ p q (adj_apply V c t p) (fun j => asg_apply V c t j q)

theorem next_apply (c : Dev nD) (t : Fin cfg2.N) (h0 : ¬t.val % 8 = 0) (p : Fin 1024) (q : Fin 128) :
    ((outsAt V c t.val t.isLt).2 : Vec Ideal S1024x128 .f32) (ix2 p q)
      = ((outsAt V c (t.val - 1) (Nat.lt_of_le_of_lt (Nat.sub_le _ _) t.isLt)).2 : Vec Ideal S1024x128 .f32) (ix2 p q)
        + term (adjArr V c) (asgArr V c) (Cert.Spec.row1024 (blkRow t.val) p) q (blkCol t.val) := by
  refine (congrFun (acc_next V c t h0) (ix2 p q)).trans ?_
  refine (pay2_apply _ _ _ p q).trans ?_
  exact congrArg (_ + ·) (share_of_blocks (adjArr V c) (asgArr V c) _ _ _ _ p q (adj_apply V c t p) (fun j => asg_apply V c t j q))

/-- THE INVARIANT: after the point numbered n = 8 i + k the accumulator's entry (p, q) is the shares of column
    blocks 0..k of entry (row p of row block i, q) of the array product. -/
theorem acc_eq (c : Dev nD) : ∀ (n : ℕ) (hn : n < cfg2.N) (p : Fin 1024) (q : Fin 128),
    ((outsAt V c n hn).2 : Vec Ideal S1024x128 .f32) (ix2 p q)
      = ∑ k ∈ Finset.range (n % 8 + 1), term (adjArr V c) (asgArr V c) (Cert.Spec.row1024 (blkRow n) p) q (blkCol k)
  | 0, hn, p, q => by
    rw [show (0 % 8 + 1) = 1 from rfl, Finset.sum_range_one]
    exact first_apply V c ⟨0, hn⟩ rfl p q
  | n + 1, hn, p, q => by
    by_cases h0 : (n + 1) % 8 = 0
    · rw [show (n + 1) % 8 + 1 = 1 from by omega, Finset.sum_range_one,
        show blkCol 0 = blkCol (n + 1) from Fin.ext (by show 0 % 8 = (n + 1) % 8; omega)]
      exact first_apply V c ⟨n + 1, hn⟩ h0 p q
    · have e3 : blkRow n = blkRow (n + 1) := Fin.ext (by show n / 8 % 8 = (n + 1) / 8 % 8; omega)
      rw [show (n + 1) % 8 + 1 = (n % 8 + 1) + 1 from by omega, Finset.sum_range_succ,
        show blkCol (n % 8 + 1) = blkCol (n + 1) from Fin.ext (by show (n % 8 + 1) % 8 = (n + 1) % 8; omega),
        ← e3, ← acc_eq c n (Nat.lt_of_succ_lt hn) p q, e3]
      exact next_apply V c ⟨n + 1, hn⟩ h0 p q

/-! ## The output array after the region -/

/-- The closed form: entry (r, e) of (adjacency) · (assignment), block by block. -/
abbrev hopArr (c : Dev nD) : S8192x128.Idx → EReal := fun i => Cert.Spec.hop (adjArr V c) (asgArr V c) (i 0) (i 1)

/-- WHAT A WRITE-BACK WRITES: at a point with k = 7 the accumulator holds all eight shares, so the block written back
    is rows 1024 i .. 1024 i + 1023 of the product. -/
theorem flushed_eq (c : Dev nD) (t : Fin cfg2.N) (hf : (cfg2.win 2).flush t = true) :
    (dat V c).flushed 2 t = ((cfg2.win 2).blk t).view.read (Elt Ideal) (hopArr V c) := by
  have h7 : t.val % 8 = 7 := (flush2_2 t).mp hf
  have hN : t.val < 64 := lt_of_lt_of_eq t.isLt (show cfg2.N = 64 from N_2)
  obtain ⟨-, -, -, -, e4, e5⟩ := idx_facts t
  have key : ∀ y : S1024x128.Idx, ((outsAt V c t.val t.isLt).2 : Vec Ideal S1024x128 .f32) y = hopArr V c (((cfg2.win 2).blk t).view.emb y) := by
    intro y
    obtain ⟨p, q, rfl⟩ : ∃ (p : Fin 1024) (q : Fin 128), y = ix2 p q := ⟨y 0, y 1, eq_ix2 y⟩
    have hemb : ((cfg2.win 2).blk t).view.emb (ix2 p q) = (ix2 (Cert.Spec.row1024 (blkRow t.val) p) q : S8192x128.Idx) := funext fun a => Fin.ext (by
      match a with
      | ⟨0, _⟩ => show win2_2.index t (0 : Fin 2) * 1024 + 1 * p.val = 1024 * (t.val / 8 % 8) + p.val; rw [e4]; omega
      | ⟨1, _⟩ => show win2_2.index t (1 : Fin 2) * 128 + 1 * q.val = q.val; rw [e5]; omega)
    rw [hemb]
    show _ = Cert.Spec.hop (adjArr V c) (asgArr V c) (Cert.Spec.row1024 (blkRow t.val) p) q
    rw [hop_eq_range, acc_eq V c t.val t.isLt p q, show t.val % 8 + 1 = 8 from by omega]
  show (cfg2.win 2).cut (grid2.coords t) ((dat V c).after 2 t) = _
  rw [after_out, out_last V c t h7]
  funext y
  rw [View.read_apply]
  exact key y

/-- An index of the output array is in point t's block iff each coordinate is in the block's range on its axis. -/
theorem mem_blk (t : Fin cfg2.N) (i : S8192x128.Idx) :
    i ∈ ((cfg2.win 2).blk t).view.set ↔ ∀ a : Fin 2, win2_2.index t a * S1024x128.size a ≤ (i a).val ∧ (i a).val < win2_2.index t a * S1024x128.size a + S1024x128.size a := by
  show i ∈ ((View.whole main_v6).slice (win2_2.rect t)).set ↔ _
  rw [View.set_slice_whole, Rect.mem_set_unit]
  exact Iff.rfl

/-- Every row r of the output is written back: by the last point of row block r / 1024. -/
theorem covered (i : S8192x128.Idx) : ∃ t : Fin cfg2.N, (cfg2.win 2).flush t = true ∧ i ∈ ((cfg2.win 2).blk t).view.set := by
  have hi0 : (i 0).val < 8192 := (i 0).isLt
  have hi1 : (i 1).val < 128 := (i 1).isLt
  have hN : cfg2.N = 64 := N_2
  obtain ⟨t, ht⟩ : ∃ t : Fin cfg2.N, t.val = 8 * ((i 0).val / 1024) + 7 := ⟨⟨8 * ((i 0).val / 1024) + 7, by rw [hN]; omega⟩, rfl⟩
  obtain ⟨-, -, -, -, e4, e5⟩ := idx_facts t
  refine ⟨t, (flush2_2 t).mpr (by omega), ?_⟩
  rw [mem_blk]
  intro a
  match a with
  | ⟨0, _⟩ => show win2_2.index t (0 : Fin 2) * 1024 ≤ (i 0).val ∧ (i 0).val < win2_2.index t (0 : Fin 2) * 1024 + 1024; rw [e4]; omega
  | ⟨1, _⟩ => show win2_2.index t (1 : Fin 2) * 128 ≤ (i 1).val ∧ (i 1).val < win2_2.index t (1 : Fin 2) * 128 + 128; rw [e5]; omega

/-- THE OUTPUT ARRAY after the region: the product of the adjacency with the soft assignment, the two read as the
    region finds them. -/
theorem final_hop (c : Dev nD) : ((dat V c).arrAt 2 cfg2.N : S8192x128.Idx → EReal)
    = fun i => Cert.Spec.hop (V c main_v0_1 : S8192x8192.Idx → EReal) (V c main_v5_1 : S8192x128.Idx → EReal) (i 0) (i 1) :=
  (dat V c).arrAt_eq_of_cover 2 (hopArr V c) (flushed_eq V c) covered

end Cert.KernelIdeal.Hop

end
-- ==== Proof.KI.PoolPieces.lean ====
/-
  Region 3 (pooling): what each control case leaves in the two outputs' buffers, as the body's arithmetic applied
  to the blocks it read. At k = 0 an output's buffer is first reset to the zero block and then receives
  (zero block) + (assignment block)ᵀ · (other block); at k = 1 it receives (what it held) + the same product.
-/
import proofs.«110719_j498216206442_2_alg».proof.Proof.KI.Pool
import Idealize.ShloMosaic.Lib.Pipeline.Value

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

section Cases
variable (c : Dev nD) (i : grid3.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S1x128x128 .f32) (harg5 : arg5.IsWhole) (arg6 : Memref sig .tc .vmem S1x128x128 .f32) (harg6 : arg6.IsWhole)

/-- k = 1, first output: what it held plus (assignment block)ᵀ · (embedding block). -/
theorem xNext_eq (hc0 : ¬isFirst i) (x0 x1 x2 : Vec F S2048x128 .f32) (xo3 xo4 : Vec F S1x128x128 .f32) :
    xNext c i arg2 harg2 arg3 harg3 arg4 harg4 arg5 harg5 arg6 harg6 hc0 x0 x1 x2 xo3 xo4 = k3_pay4 x0 x1 xo3 := by
  unfold xNext
  rw [View.read_writes_eq_canon _ _ _ (coverX_next c i arg2 harg2 arg3 harg3 arg4 harg4 arg5 harg5 arg6 harg6 hc0 x0 x1 x2 xo3 xo4)]
  unfold runNext
  dsimp only
  rw [View.canon_unit_zero hz3]
  simp only [View.readAt_eq_ld, harg2.read_unread, harg3.read_unread, harg5.read_unread,
    View.ld_unit_zero (S := S2048x128) hz2, View.ld_unit_zero (S := S1x128x128) hz3]

/-- k = 1, second output: what it held plus (assignment block)ᵀ · (hop block). -/
theorem aNext_eq (hc0 : ¬isFirst i) (x0 x1 x2 : Vec F S2048x128 .f32) (xo3 xo4 : Vec F S1x128x128 .f32) :
    aNext c i arg2 harg2 arg3 harg3 arg4 harg4 arg5 harg5 arg6 harg6 hc0 x0 x1 x2 xo3 xo4 = k3_pay5 x0 x2 xo4 := by
  unfold aNext
  rw [View.read_writes_eq_canon _ _ _ (coverA_next c i arg2 harg2 arg3 harg3 arg4 harg4 arg5 harg5 arg6 harg6 hc0 x0 x1 x2 xo3 xo4)]
  unfold runNext
  dsimp only
  rw [View.canon_unit_zero hz3]
  simp only [View.readAt_eq_ld, harg2.read_unread, harg4.read_unread, harg6.read_unread,
    View.ld_unit_zero (S := S2048x128) hz2, View.ld_unit_zero (S := S1x128x128) hz3]

/-- k = 0, first output: the zero block plus (assignment block)ᵀ · (embedding block). -/
theorem xFirst_eq (hc0 : isFirst i) (x0 x1 x2 : Vec F S2048x128 .f32) :
    xFirst c i arg2 harg2 arg3 harg3 arg4 harg4 arg5 harg5 arg6 harg6 hc0 x0 x1 x2 = k3_pay4 x0 x1 k3_pay1 := by
  unfold xFirst
  rw [View.read_writes_eq_canon _ _ _ (coverX_first c i arg2 harg2 arg3 harg3 arg4 harg4 arg5 harg5 arg6 harg6 hc0 x0 x1 x2)]
  unfold runFirst
  dsimp only
  sl_unfold_words
  rw [View.canon_cons_unit_zero (S := S1x128x128) hz3, View.readCov_unit_zero (S := S1x128x128) _ hz3]
  simp only [View.readAt_eq_ld, harg2.read_unread, harg3.read_unread,
    View.ld_unit_zero (S := S2048x128) hz2, View.ld_unit_zero (S := S1x128x128) hz3]

/-- k = 0, second output: the zero block plus (assignment block)ᵀ · (hop block). -/
theorem aFirst_eq (hc0 : isFirst i) (x0 x1 x2 : Vec F S2048x128 .f32) :
    aFirst c i arg2 harg2 arg3 harg3 arg4 harg4 arg5 harg5 arg6 harg6 hc0 x0 x1 x2 = k3_pay5 x0 x2 k3_pay2 := by
  unfold aFirst
  rw [View.read_writes_eq_canon _ _ _ (coverA_first c i arg2 harg2 arg3 harg3 arg4 harg4 arg5 harg5 arg6 harg6 hc0 x0 x1 x2)]
  unfold runFirst
  dsimp only
  sl_unfold_words
  rw [View.canon_cons_unit_zero (S := S1x128x128) hz3, View.readCov_unit_zero (S := S1x128x128) _ hz3]
  simp only [View.readAt_eq_ld, harg2.read_unread, harg4.read_unread,
    View.ld_unit_zero (S := S2048x128) hz2, View.ld_unit_zero (S := S1x128x128) hz3]

end Cases

end Cert.KernelIdeal.Pool

end
-- ==== Proof.KI.PoolValue.lean ====
/-
  Region 3 (pooling) over the extended reals: after the region the two outputs' arrays hold, at (q, a, b), core q's
  part of Sᵀ · Z — the sum over the rows r of blocks 2q and 2q + 1 (2048 rows each) of S(r, a) · Z(r, b) — with S the
  soft assignment and Z the embedding (first output) or the hop (second output). At a core's first point the buffer
  is reset and receives 0 + (block 2q's sum); at its second it receives that plus block 2q + 1's sum, which is
  written back to block (q, 0, 0) of the array; the two write-backs cover the array. Rounding the operands to bf16
  before the product is the identity on the extended reals.
-/
import proofs.«110719_j498216206442_2_alg».proof.Proof.KI.PoolPieces
import proofs.«110719_j498216206442_2_alg».proof.Proof.Spec
import Idealize.ShloMosaic.PureOps.Ideal.Laws
import Idealize.ShloMosaic.Lib.ValueLayout
import Idealize.ShloMosaic.Lib.Pipeline.Value

set_option maxRecDepth 16384

noncomputable section

namespace Cert.KernelIdeal.Pool

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

/-! ## The body's arithmetic at an index -/

/-- The product contracting the rows of both operands, into the zero block: entry (a, b) is the sum over the
    2048 rows n of (left operand at (n, a)) · (right operand at (n, b)). -/
theorem matT_apply (A B : FVec Ideal S2048x128 .bf16) (a b : Fin 128) :
    (matmul dot_S2048x128_S2048x128_S128x128_0_0_1_1_n_n none A B (constant (F := Ideal) S128x128 .f32 0x00000000#32) : FVec Ideal S128x128 .f32) (ix2 a b)
      = ∑ n : Fin 2048, A (ix2 n a) * B (ix2 n b) := by
  refine (Ideal.matmul_constant_zero_apply dot_S2048x128_S2048x128_S128x128_0_0_1_1_n_n none A B (ix2 a b)).trans ?_
  rw [← Equiv.sum_comp (contrEquiv1 dot_S2048x128_S2048x128_S128x128_0_0_1_1_n_n 2048 rfl rfl).symm]
  refine Finset.sum_congr rfl fun n _ => ?_
  have c2 := contrEquiv1_symm_val dot_S2048x128_S2048x128_S128x128_0_0_1_1_n_n 2048 rfl rfl n
  have l2 : dot_S2048x128_S2048x128_S128x128_0_0_1_1_n_n.lhsIdx (ix2 a b) ((contrEquiv1 _ 2048 rfl rfl).symm n) = ix2 n a := by
    funext ax; apply Fin.ext
    match ax with
    | ⟨0, _⟩ => simp [DotDims.lhsIdx, dot_S2048x128_S2048x128_S128x128_0_0_1_1_n_n]; exact c2
    | ⟨1, _⟩ => simp [DotDims.lhsIdx, dot_S2048x128_S2048x128_S128x128_0_0_1_1_n_n]; rfl
  have r2 : dot_S2048x128_S2048x128_S128x128_0_0_1_1_n_n.rhsIdx (ix2 a b) ((contrEquiv1 _ 2048 rfl rfl).symm n) = ix2 n b := by
    funext ax; apply Fin.ext
    match ax with
    | ⟨0, _⟩ => simp [DotDims.rhsIdx, dot_S2048x128_S2048x128_S128x128_0_0_1_1_n_n]; exact c2
    | ⟨1, _⟩ => simp [DotDims.rhsIdx, dot_S2048x128_S2048x128_S128x128_0_0_1_1_n_n]; rfl
  rw [l2, r2]

/-- The zero block the reset stores reads 0 everywhere. -/
theorem pay1_apply (j : S1x128x128.Idx) : (k3_pay1 (F := Ideal) : S1x128x128.Idx → EReal) j = 0 := by
  obtain ⟨u, a, b, rfl⟩ : ∃ (u : Fin 1) (a b : Fin 128), j = ix3 u a b := ⟨j 0, j 1, j 2, eq_ix3 j⟩
  unfold k3_pay1
  refine (shapeCast_ab_1ab_apply _ _ u a b).trans ?_
  exact Ideal.ofBits_zero_f32
theorem pay2_apply (j : S1x128x128.Idx) : (k3_pay2 (F := Ideal) : S1x128x128.Idx → EReal) j = 0 := by
  obtain ⟨u, a, b, rfl⟩ : ∃ (u : Fin 1) (a b : Fin 128), j = ix3 u a b := ⟨j 0, j 1, j 2, eq_ix3 j⟩
  unfold k3_pay2
  refine (shapeCast_ab_1ab_apply _ _ u a b).trans ?_
  exact Ideal.ofBits_zero_f32

/-- What the body stores into the first output: entry (a, b) of what the buffer held plus the sum over the block's
    rows n of (assignment at (n, a)) · (embedding at (n, b)); rounding the operands to bf16 is the identity on the
    extended reals. -/
theorem pay4_apply (x0 x1 : Vec Ideal S2048x128 .f32) (xo : Vec Ideal S1x128x128 .f32) (u : Fin 1) (a b : Fin 128) :
    (k3_pay4 (F := Ideal) x0 x1 xo : S1x128x128.Idx → EReal) (ix3 u a b)
      = (xo : S1x128x128.Idx → EReal) (ix3 0 a b) + ∑ n : Fin 2048, (x0 : S2048x128.Idx → EReal) (ix2 n a) * (x1 : S2048x128.Idx → EReal) (ix2 n b) := by
  unfold k3_pay4 k3_pay3
  refine (shapeCast_ab_1ab_apply _ _ u a b).trans ?_
  refine (addf_apply _ _ (ix2 a b)).trans ?_
  refine congrArg₂ (· + ·) (shapeCast_1ab_ab_apply _ _ a b) ?_
  refine (matT_apply _ _ a b).trans ?_
  refine Finset.sum_congr rfl fun n _ => ?_
  simp only [truncf_apply, shapeCast_self]
theorem pay5_apply (x0 x2 : Vec Ideal S2048x128 .f32) (xo : Vec Ideal S1x128x128 .f32) (u : Fin 1) (a b : Fin 128) :
    (k3_pay5 (F := Ideal) x0 x2 xo : S1x128x128.Idx → EReal) (ix3 u a b)
      = (xo : S1x128x128.Idx → EReal) (ix3 0 a b) + ∑ n : Fin 2048, (x0 : S2048x128.Idx → EReal) (ix2 n a) * (x2 : S2048x128.Idx → EReal) (ix2 n b) := by
  unfold k3_pay5 k3_pay3
  refine (shapeCast_ab_1ab_apply _ _ u a b).trans ?_
  refine (addf_apply _ _ (ix2 a b)).trans ?_
  refine congrArg₂ (· + ·) (shapeCast_1ab_ab_apply _ _ a b) ?_
  refine (matT_apply _ _ a b).trans ?_
  refine Finset.sum_congr rfl fun n _ => ?_
  simp only [truncf_apply, shapeCast_self]

/-! ## The blocks read off their arrays -/

variable (V : (c : Dev nD) → (b : Ref sig .tc) → Buf (Elt Ideal) ((c : Thread nD τ).loc b))

theorem lt4 (t : Fin cfg3.N) : t.val < 4 := lt_of_lt_of_eq t.isLt (show cfg3.N = 4 from N_3)

/-- The printed index maps, decided over the grid: at point t the three inputs' block is (t, 0), the two outputs'
    block is (t / 2, 0, 0). -/
theorem idx_facts : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 3) = t.val / 2 ∧ win3_3.index t (1 : Fin 3) = 0 ∧ win3_3.index t (2 : Fin 3) = 0)
    ∧ (win3_4.index t (0 : Fin 3) = t.val / 2 ∧ win3_4.index t (1 : Fin 3) = 0 ∧ win3_4.index t (2 : Fin 3) = 0) :=
  (by decide +kernel : ∀ t : Fin grid3.N, _)

/-- Row n of the assignment's block at point t is row 2048·t + n of the assignment. -/
theorem iblk_asg_apply (c : Dev nD) (t : Fin cfg3.N) (n : Fin 2048) (a : Fin 128) (r : Fin 8192) (hr : r.val = 2048 * t.val + n.val) :
    (iblk V c 0 t : S2048x128.Idx → EReal) (ix2 n a) = (V c main_v5_1 : S8192x128.Idx → EReal) (ix2 r a) := by
  obtain ⟨⟨e0, e1⟩, -, -, -, -⟩ := idx_facts t
  unfold iblk
  rw [View.read_apply]
  show V c main_v5_1 _ = V c main_v5_1 _
  refine congrArg _ ?_
  funext ax; apply Fin.ext
  match ax with
  | ⟨0, _⟩ => show win3_0.index t (0 : Fin 2) * 2048 + 1 * n.val = r.val; rw [e0, hr]; omega
  | ⟨1, _⟩ => show win3_0.index t (1 : Fin 2) * 128 + 1 * a.val = a.val; rw [e1]; omega
/-- The same for the embedding's block, -/
theorem iblk_emb_apply (c : Dev nD) (t : Fin cfg3.N) (n : Fin 2048) (a : Fin 128) (r : Fin 8192) (hr : r.val = 2048 * t.val + n.val) :
    (iblk V c 1 t : S2048x128.Idx → EReal) (ix2 n a) = (V c main_v5_0 : S8192x128.Idx → EReal) (ix2 r a) := by
  obtain ⟨-, ⟨e0, e1⟩, -, -, -⟩ := idx_facts t
  unfold iblk
  rw [View.read_apply]
  show V c main_v5_0 _ = V c main_v5_0 _
  refine congrArg _ ?_
  funext ax; apply Fin.ext
  match ax with
  | ⟨0, _⟩ => show win3_1.index t (0 : Fin 2) * 2048 + 1 * n.val = r.val; rw [e0, hr]; omega
  | ⟨1, _⟩ => show win3_1.index t (1 : Fin 2) * 128 + 1 * a.val = a.val; rw [e1]; omega
/-- and for the hop's. -/
theorem iblk_hop_apply (c : Dev nD) (t : Fin cfg3.N) (n : Fin 2048) (a : Fin 128) (r : Fin 8192) (hr : r.val = 2048 * t.val + n.val) :
    (iblk V c 2 t : S2048x128.Idx → EReal) (ix2 n a) = (V c main_v6 : S8192x128.Idx → EReal) (ix2 r a) := by
  obtain ⟨-, -, ⟨e0, e1⟩, -, -⟩ := idx_facts t
  unfold iblk
  rw [View.read_apply]
  show V c main_v6 _ = V c main_v6 _
  refine congrArg _ ?_
  funext ax; apply Fin.ext
  match ax with
  | ⟨0, _⟩ => show win3_2.index t (0 : Fin 2) * 2048 + 1 * n.val = r.val; rw [e0, hr]; omega
  | ⟨1, _⟩ => show win3_2.index t (1 : Fin 2) * 128 + 1 * a.val = a.val; rw [e1]; omega

/-- The three arrays the region reads, as matrices over the extended reals: the soft assignment, the embedding, the hop. -/
abbrev arrS (c : Dev nD) : S8192x128.Idx → EReal := V c main_v5_1
abbrev arrZ (c : Dev nD) : S8192x128.Idx → EReal := V c main_v5_0
abbrev arrH (c : Dev nD) : S8192x128.Idx → EReal := V c main_v6

/-! ## What the outputs' buffers hold after each point -/

/-- After a core's first point (t = 2q + k with k = 0) the first output's buffer holds, at (a, b), zero plus the
    sum over the rows n of block 2q + k of assignment(row, a) · embedding(row, b). -/
theorem x_first (c : Dev nD) (t : Fin cfg3.N) (h0 : t.val % 2 = 0) (u : Fin 1) (a b : Fin 128) (q k : Fin 2) (hqk : t.val = 2 * q.val + k.val) :
    ((outsAt V c t.val t.isLt).1 : S1x128x128.Idx → EReal) (ix3 u a b)
      = 0 + ∑ n : Fin 2048, arrS V c (ix2 (Cert.Spec.row2048 q k n) a) * arrZ V c (ix2 (Cert.Spec.row2048 q k n) b) := by
  rw [outsAt_first V c t h0]
  dsimp only
  rw [xFirst_eq, pay4_apply, pay1_apply]
  refine congrArg (0 + ·) (Finset.sum_congr rfl fun n _ => ?_)
  have hr : (Cert.Spec.row2048 q k n).val = 2048 * t.val + n.val := by
    show 2048 * (2 * q.val + k.val) + n.val = 2048 * t.val + n.val
    rw [hqk]
  rw [iblk_asg_apply V c t n a _ hr, iblk_emb_apply V c t n b _ hr]
/-- The same for the second output, with the hop in place of the embedding. -/
theorem a_first (c : Dev nD) (t : Fin cfg3.N) (h0 : t.val % 2 = 0) (u : Fin 1) (a b : Fin 128) (q k : Fin 2) (hqk : t.val = 2 * q.val + k.val) :
    ((outsAt V c t.val t.isLt).2 : S1x128x128.Idx → EReal) (ix3 u a b)
      = 0 + ∑ n : Fin 2048, arrS V c (ix2 (Cert.Spec.row2048 q k n) a) * arrH V c (ix2 (Cert.Spec.row2048 q k n) b) := by
  rw [outsAt_first V c t h0]
  dsimp only
  rw [aFirst_eq, pay5_apply, pay2_apply]
  refine congrArg (0 + ·) (Finset.sum_congr rfl fun n _ => ?_)
  have hr : (Cert.Spec.row2048 q k n).val = 2048 * t.val + n.val := by
    show 2048 * (2 * q.val + k.val) + n.val = 2048 * t.val + n.val
    rw [hqk]
  rw [iblk_asg_apply V c t n a _ hr, iblk_hop_apply V c t n b _ hr]
/-- After a core's second point (t = 2q + 1) the first output's buffer holds what the first point left plus the
    sum over the rows of block 2q + 1. -/
theorem x_next (c : Dev nD) (t : Fin cfg3.N) (h0 : ¬t.val % 2 = 0) (u : Fin 1) (a b : Fin 128) (q : Fin 2) (hq : t.val = 2 * q.val + 1) :
    ((outsAt V c t.val t.isLt).1 : S1x128x128.Idx → EReal) (ix3 u a b)
      = (0 + ∑ n : Fin 2048, arrS V c (ix2 (Cert.Spec.row2048 q 0 n) a) * arrZ V c (ix2 (Cert.Spec.row2048 q 0 n) b))
        + ∑ n : Fin 2048, arrS V c (ix2 (Cert.Spec.row2048 q 1 n) a) * arrZ V c (ix2 (Cert.Spec.row2048 q 1 n) b) := by
  have hlt : t.val - 1 < cfg3.N := Nat.lt_of_le_of_lt (Nat.sub_le _ _) t.isLt
  have hprev := x_first V c ⟨t.val - 1, hlt⟩ (by show (t.val - 1) % 2 = 0; omega) 0 a b q 0 (by show t.val - 1 = 2 * q.val + 0; omega)
  rw [outsAt_next V c t h0]
  dsimp only
  rw [xNext_eq, pay4_apply]
  refine congrArg₂ (· + ·) hprev (Finset.sum_congr rfl fun n _ => ?_)
  have hr : (Cert.Spec.row2048 q 1 n).val = 2048 * t.val + n.val := by
    show 2048 * (2 * q.val + 1) + n.val = 2048 * t.val + n.val
    rw [hq]
  rw [iblk_asg_apply V c t n a _ hr, iblk_emb_apply V c t n b _ hr]
/-- The same for the second output. -/
theorem a_next (c : Dev nD) (t : Fin cfg3.N) (h0 : ¬t.val % 2 = 0) (u : Fin 1) (a b : Fin 128) (q : Fin 2) (hq : t.val = 2 * q.val + 1) :
    ((outsAt V c t.val t.isLt).2 : S1x128x128.Idx → EReal) (ix3 u a b)
      = (0 + ∑ n : Fin 2048, arrS V c (ix2 (Cert.Spec.row2048 q 0 n) a) * arrH V c (ix2 (Cert.Spec.row2048 q 0 n) b))
        + ∑ n : Fin 2048, arrS V c (ix2 (Cert.Spec.row2048 q 1 n) a) * arrH V c (ix2 (Cert.Spec.row2048 q 1 n) b) := by
  have hlt : t.val - 1 < cfg3.N := Nat.lt_of_le_of_lt (Nat.sub_le _ _) t.isLt
  have hprev := a_first V c ⟨t.val - 1, hlt⟩ (by show (t.val - 1) % 2 = 0; omega) 0 a b q 0 (by show t.val - 1 = 2 * q.val + 0; omega)
  rw [outsAt_next V c t h0]
  dsimp only
  rw [aNext_eq, pay5_apply]
  refine congrArg₂ (· + ·) hprev (Finset.sum_congr rfl fun n _ => ?_)
  have hr : (Cert.Spec.row2048 q 1 n).val = 2048 * t.val + n.val := by
    show 2048 * (2 * q.val + 1) + n.val = 2048 * t.val + n.val
    rw [hq]
  rw [iblk_asg_apply V c t n a _ hr, iblk_hop_apply V c t n b _ hr]

/-! ## The arrays after the region -/

/-- The two-block sum of the closed form is zero plus the first block's sum plus the second's. -/
theorem pool_eq (S Z : S8192x128.Idx → EReal) (q : Fin 2) (a b : Fin 128) :
    Cert.Spec.pool S Z q a b
      = (0 + ∑ n : Fin 2048, S (ix2 (Cert.Spec.row2048 q 0 n) a) * Z (ix2 (Cert.Spec.row2048 q 0 n) b))
        + ∑ n : Fin 2048, S (ix2 (Cert.Spec.row2048 q 1 n) a) * Z (ix2 (Cert.Spec.row2048 q 1 n) b) := by
  unfold Cert.Spec.pool
  rw [Fin.sum_univ_two, zero_add]

/-- Core q's pooled features (assignment)ᵀ · (embedding) over its two blocks of rows, as contents of the first output's array. -/
abbrev poolX (c : Dev nD) : S2x128x128.Idx → EReal :=
  fun i => Cert.Spec.pool (arrS V c) (arrZ V c) (i 0) (i 1) (i 2)

/-- Entry (u, a, b) of the output's block at point t is entry (t / 2, a, b) of its array. -/
theorem emb_x (t : Fin cfg3.N) (u : Fin 1) (a b : Fin 128) (q : Fin 2) (hq : q.val = t.val / 2) :
    ((cfg3.win 3).blk t).view.emb (ix3 u a b) = (ix3 q a b : S2x128x128.Idx) := by
  obtain ⟨-, -, -, ⟨e0, e1, e2⟩, -⟩ := idx_facts t
  funext ax; apply Fin.ext
  match ax with
  | ⟨0, _⟩ => show win3_3.index t (0 : Fin 3) * 1 + 1 * u.val = q.val; rw [e0, hq]; omega
  | ⟨1, _⟩ => show win3_3.index t (1 : Fin 3) * 128 + 1 * a.val = a.val; rw [e1]; omega
  | ⟨2, _⟩ => show win3_3.index t (2 : Fin 3) * 128 + 1 * b.val = b.val; rw [e2]; omega

/-- What a core's second point writes back is that core's block of the closed form. -/
theorem flushed_x_eq (c : Dev nD) (t : Fin cfg3.N) (hf : (cfg3.win 3).flush t = true) :
    (dat V c).flushed 3 t = ((cfg3.win 3).blk t).view.read (Elt Ideal) (poolX V c) := by
  have h4 := lt4 t
  have h1 : t.val % 2 = 1 := (flush3_3 t).mp hf
  show (cfg3.win 3).cut (grid3.coords t) ((dat V c).after 3 t) = _
  rw [after_x]
  refine funext fun (j : S1x128x128.Idx) => ?_
  obtain ⟨u, a, b, rfl⟩ : ∃ (u : Fin 1) (a b : Fin 128), j = ix3 u a b := ⟨j 0, j 1, j 2, eq_ix3 j⟩
  rw [View.read_apply, emb_x t u a b ⟨t.val / 2, by omega⟩ rfl]
  show ((outsAt V c t.val t.isLt).1 : S1x128x128.Idx → EReal) (ix3 u a b) = Cert.Spec.pool (arrS V c) (arrZ V c) ⟨t.val / 2, _⟩ a b
  rw [pool_eq]
  exact x_next V c t (by omega) u a b ⟨t.val / 2, by omega⟩ (by show t.val = 2 * (t.val / 2) + 1; omega)

/-- Every entry (q, a, b) of the output's array is in the block core q's second point writes back. -/
theorem cover_x (i : S2x128x128.Idx) : ∃ t : Fin cfg3.N, (cfg3.win 3).flush t = true ∧ i ∈ ((cfg3.win 3).blk t).view.set := by
  have h0 : (i 0).val < 2 := (i 0).isLt
  have h1 : (i 1).val < 128 := (i 1).isLt
  have h2 : (i 2).val < 128 := (i 2).isLt
  have hN : cfg3.N = 4 := N_3
  obtain ⟨t, ht⟩ : ∃ t : Fin cfg3.N, t.val = 2 * (i 0).val + 1 := ⟨⟨2 * (i 0).val + 1, by omega⟩, rfl⟩
  refine ⟨t, (flush3_3 t).mpr (by omega), ?_⟩
  obtain ⟨-, -, -, ⟨e0, e1, e2⟩, -⟩ := idx_facts t
  show i ∈ ((View.whole main_v7_0).slice (win3_3.rect t)).set
  rw [View.set_slice_whole, Rect.mem_set_unit]
  intro ax
  match ax with
  | ⟨0, _⟩ => show win3_3.index t (0 : Fin 3) * 1 ≤ (i 0).val ∧ (i 0).val < win3_3.index t (0 : Fin 3) * 1 + 1; rw [e0]; omega
  | ⟨1, _⟩ => show win3_3.index t (1 : Fin 3) * 128 ≤ (i 1).val ∧ (i 1).val < win3_3.index t (1 : Fin 3) * 128 + 128; rw [e1]; omega
  | ⟨2, _⟩ => show win3_3.index t (2 : Fin 3) * 128 ≤ (i 2).val ∧ (i 2).val < win3_3.index t (2 : Fin 3) * 128 + 128; rw [e2]; omega

/-- After the region the first output's array holds, at (q, a, b), core q's part of (assignment)ᵀ · (embedding). -/
theorem final_x (c : Dev nD) : ((dat V c).arrAt 3 cfg3.N : S2x128x128.Idx → EReal)
    = fun i => Cert.Spec.pool (V c main_v5_1 : S8192x128.Idx → EReal) (V c main_v5_0 : S8192x128.Idx → EReal) (i 0) (i 1) (i 2) :=
  (dat V c).arrAt_eq_of_cover 3 (poolX V c) (flushed_x_eq V c) cover_x

/-- Core q's pooled adjacency (assignment)ᵀ · (hop), as contents of the second output's array. -/
abbrev poolA (c : Dev nD) : S2x128x128.Idx → EReal :=
  fun i => Cert.Spec.pool (arrS V c) (arrH V c) (i 0) (i 1) (i 2)

/-- Entry (u, a, b) of the output's block at point t is entry (t / 2, a, b) of its array. -/
theorem emb_a (t : Fin cfg3.N) (u : Fin 1) (a b : Fin 128) (q : Fin 2) (hq : q.val = t.val / 2) :
    ((cfg3.win 4).blk t).view.emb (ix3 u a b) = (ix3 q a b : S2x128x128.Idx) := by
  obtain ⟨-, -, -, -, ⟨e0, e1, e2⟩⟩ := idx_facts t
  funext ax; apply Fin.ext
  match ax with
  | ⟨0, _⟩ => show win3_4.index t (0 : Fin 3) * 1 + 1 * u.val = q.val; rw [e0, hq]; omega
  | ⟨1, _⟩ => show win3_4.index t (1 : Fin 3) * 128 + 1 * a.val = a.val; rw [e1]; omega
  | ⟨2, _⟩ => show win3_4.index t (2 : Fin 3) * 128 + 1 * b.val = b.val; rw [e2]; omega

/-- What a core's second point writes back is that core's block of the closed form. -/
theorem flushed_a_eq (c : Dev nD) (t : Fin cfg3.N) (hf : (cfg3.win 4).flush t = true) :
    (dat V c).flushed 4 t = ((cfg3.win 4).blk t).view.read (Elt Ideal) (poolA V c) := by
  have h4 := lt4 t
  have h1 : t.val % 2 = 1 := (flush3_4 t).mp hf
  show (cfg3.win 4).cut (grid3.coords t) ((dat V c).after 4 t) = _
  rw [after_a]
  refine funext fun (j : S1x128x128.Idx) => ?_
  obtain ⟨u, a, b, rfl⟩ : ∃ (u : Fin 1) (a b : Fin 128), j = ix3 u a b := ⟨j 0, j 1, j 2, eq_ix3 j⟩
  rw [View.read_apply, emb_a t u a b ⟨t.val / 2, by omega⟩ rfl]
  show ((outsAt V c t.val t.isLt).2 : S1x128x128.Idx → EReal) (ix3 u a b) = Cert.Spec.pool (arrS V c) (arrH V c) ⟨t.val / 2, _⟩ a b
  rw [pool_eq]
  exact a_next V c t (by omega) u a b ⟨t.val / 2, by omega⟩ (by show t.val = 2 * (t.val / 2) + 1; omega)

/-- Every entry (q, a, b) of the output's array is in the block core q's second point writes back. -/
theorem cover_a (i : S2x128x128.Idx) : ∃ t : Fin cfg3.N, (cfg3.win 4).flush t = true ∧ i ∈ ((cfg3.win 4).blk t).view.set := by
  have h0 : (i 0).val < 2 := (i 0).isLt
  have h1 : (i 1).val < 128 := (i 1).isLt
  have h2 : (i 2).val < 128 := (i 2).isLt
  have hN : cfg3.N = 4 := N_3
  obtain ⟨t, ht⟩ : ∃ t : Fin cfg3.N, t.val = 2 * (i 0).val + 1 := ⟨⟨2 * (i 0).val + 1, by omega⟩, rfl⟩
  refine ⟨t, (flush3_4 t).mpr (by omega), ?_⟩
  obtain ⟨-, -, -, -, ⟨e0, e1, e2⟩⟩ := idx_facts t
  show i ∈ ((View.whole main_v7_1).slice (win3_4.rect t)).set
  rw [View.set_slice_whole, Rect.mem_set_unit]
  intro ax
  match ax with
  | ⟨0, _⟩ => show win3_4.index t (0 : Fin 3) * 1 ≤ (i 0).val ∧ (i 0).val < win3_4.index t (0 : Fin 3) * 1 + 1; rw [e0]; omega
  | ⟨1, _⟩ => show win3_4.index t (1 : Fin 3) * 128 ≤ (i 1).val ∧ (i 1).val < win3_4.index t (1 : Fin 3) * 128 + 128; rw [e1]; omega
  | ⟨2, _⟩ => show win3_4.index t (2 : Fin 3) * 128 ≤ (i 2).val ∧ (i 2).val < win3_4.index t (2 : Fin 3) * 128 + 128; rw [e2]; omega

/-- After the region the second output's array holds, at (q, a, b), core q's part of (assignment)ᵀ · (hop). -/
theorem final_a (c : Dev nD) : ((dat V c).arrAt 4 cfg3.N : S2x128x128.Idx → EReal)
    = fun i => Cert.Spec.pool (V c main_v5_1 : S8192x128.Idx → EReal) (V c main_v6 : S8192x128.Idx → EReal) (i 0) (i 1) (i 2) :=
  (dat V c).arrAt_eq_of_cover 4 (poolA V c) (flushed_a_eq V c) cover_a

end Cert.KernelIdeal.Pool

end
-- ==== Proof.RefValue.lean ====
/-
  The reference, read in closed form over the extended reals. With A the adjacency matrix, X the features,
  (We, be) and (Wa, ba) the two linear maps: Â = A + I, deg = row sums of Â, d = deg^(-1/2) where positive,
  AX = (d_r Â_rk d_k) · X, the embedding Z = AX · Weᵀ + be, the soft assignment S = softmax(AX · Waᵀ + ba) by rows,
  and the results Sᵀ · Z, Sᵀ · (A · S), S — each stage of the reference's run is the closed form of the stage before.
-/
import proofs.«110719_j498216206442_2_alg».proof.Proof.Gen.ReferenceIdeal.Read
import proofs.«110719_j498216206442_2_alg».proof.Proof.Spec

noncomputable section

namespace Cert.RefValue

open Cert.ReferenceIdeal Cert.ReferenceIdeal.Gen Cert.ReferenceIdeal.Read
open Idealize.ShloMosaic Idealize.ShloMosaic.ValueIdx
open Cert.Spec (Mat zero one negInf)

/-! ## The closed forms -/

/-- The identity matrix as the reference builds it: the comparison of a row counter with a column counter, as a float. -/
def eye (r k : Fin 8192) : EReal :=
  FloatOps.uitofp (F := Ideal) .f32 (IntOp.cmpi .eq (IntOp.addi (BitVec.ofNat 32 r.val) 0#32) (BitVec.ofNat 32 k.val))

section
variable (A : Mat 8192 8192) (X : Mat 8192 128) (We Wa : Mat 128 128) (be ba : (⟨1, ![128]⟩ : Shape).Idx → EReal)

/-- Â = A + I. -/
def ahat (r k : Fin 8192) : EReal := A (ix2 r k) + eye r k
/-- The degree: the row sum of Â (from the zero literal). -/
def deg (r : Fin 8192) : EReal := zero + ∑ k : Fin 8192, ahat A r k
/-- deg^(-1/2) where the degree is positive, zero elsewhere. -/
def dinv (r : Fin 8192) : EReal := Scalar.select (Ideal.cmp .ogt (deg A r) zero) (Ideal.rsqrt (deg A r)) zero
/-- The normalized adjacency d_r Â_rk d_k. -/
def norm (r k : Fin 8192) : EReal := (dinv A r * ahat A r k) * dinv A k
/-- AX. -/
def ax (r : Fin 8192) (f : Fin 128) : EReal := ∑ k : Fin 8192, norm A r k * X (ix2 k f)
/-- The embedding AX · Weᵀ + be. -/
def emb (r : Fin 8192) (e : Fin 128) : EReal := (∑ f : Fin 128, ax A X r f * We (ix2 e f)) + be (ix1 e)
/-- The logits AX · Waᵀ + ba. -/
def logit (r : Fin 8192) (e : Fin 128) : EReal := (∑ f : Fin 128, ax A X r f * Wa (ix2 e f)) + ba (ix1 e)
/-- The row maximum (from -∞, twice, as the reference spells it). -/
def rowMax (r : Fin 8192) : EReal := max negInf ((Finset.univ : Finset (Fin 128)).fold max negInf (logit A X Wa ba r))
/-- The shifted exponentials. -/
def expo (r : Fin 8192) (e : Fin 128) : EReal := Ideal.exp (logit A X Wa ba r e - rowMax A X Wa ba r)
/-- The soft assignment: the row softmax. -/
def soft (r : Fin 8192) (e : Fin 128) : EReal := Ideal.div (expo A X Wa ba r e) (zero + ∑ e' : Fin 128, expo A X Wa ba r e')
/-- Sᵀ · Z. -/
def xnext (a b : Fin 128) : EReal := ∑ n : Fin 8192, soft A X Wa ba n a * emb A X We be n b
/-- A · S. -/
def hop (r : Fin 8192) (e : Fin 128) : EReal := ∑ k : Fin 8192, A (ix2 r k) * soft A X Wa ba k e
/-- Sᵀ · (A · S). -/
def anext (a b : Fin 128) : EReal := ∑ n : Fin 8192, soft A X Wa ba n a * hop A X Wa ba n b

end

/-! ## The reference's stages are the closed forms -/

section Stages
variable (x0 : (⟨S8192x128, .f32⟩ : BufTy).Contents (Elt Ideal)) (x1 : (⟨S8192x8192, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal))

theorem stage_ahat : (val_main_v6 (F := Ideal) x1 : S8192x8192.Idx → EReal) = fun i => ahat x1 (i 0) (i 1) := by
  funext i
  rw [val_main_v6_apply, val_main_v5_apply, val_main_v4_apply, val_main_v3_apply, val_main_v0_apply, val_main_v2_apply, val_main_c_apply, val_main_v1_apply]
  exact congrArg (fun j => x1 j + eye (i 0) (i 1)) (eq_ix2 i)

theorem stage_deg : (val_main_v7 (F := Ideal) x1 : S8192.Idx → EReal) = fun i => deg x1 (i 0) := by
  funext i
  rw [val_main_v7_apply, stage_ahat]
  rfl

theorem stage_dinv : (val_main_v11 (F := Ideal) x1 : S8192.Idx → EReal) = fun i => dinv x1 (i 0) := by
  funext i
  rw [val_main_v11_apply, val_main_v9_apply, val_main_v10_apply, val_main_call0_v1_apply, val_main_call0_v0_apply, val_main_cst_1_apply,
    val_main_v8_apply, val_main_cst_0_apply, stage_deg]
  rfl

theorem stage_norm : (val_main_v17 (F := Ideal) x1 : S8192x8192.Idx → EReal) = fun i => norm x1 (i 0) (i 1) := by
  funext i
  rw [val_main_v17_apply, val_main_v14_apply, val_main_v13_apply, val_main_v12_apply, val_main_v16_apply, val_main_v15_apply, stage_dinv, stage_ahat]
  rfl

theorem stage_ax : (val_main_v18 (F := Ideal) x0 x1 : S8192x128.Idx → EReal) = fun i => ax x1 x0 (i 0) (i 1) := by
  funext i
  rw [val_main_v18_apply, stage_norm]
  unfold ax
  refine Finset.sum_congr rfl fun k _ => ?_
  show norm x1 (i 0) k * x0 (ridx_main_v18 i k) = norm x1 (i 0) k * x0 (ix2 k (i 1))
  exact congrArg (fun j => norm x1 (i 0) k * x0 j) (funext fun a => by match a with | ⟨0, _⟩ => rfl | ⟨1, _⟩ => rfl)

theorem stage_emb : (val_main_v23 (F := Ideal) x0 x1 x2 x3 : S8192x128.Idx → EReal) = fun i => emb x1 x0 x2 x3 (i 0) (i 1) := by
  funext i
  rw [val_main_v23_apply, val_main_v20_apply, val_main_v22_apply, val_main_v21_apply, stage_ax]
  simp only [val_main_v19_apply]
  unfold emb
  refine congrArg₂ (· + ·) (Finset.sum_congr rfl fun f _ => ?_) ?_
  · show ax x1 x0 (i 0) f * x2 (idx_main_v19 (ridx_main_v20 i f)) = ax x1 x0 (i 0) f * x2 (ix2 (i 1) f)
    exact congrArg (fun j => ax x1 x0 (i 0) f * x2 j) (funext fun a => by match a with | ⟨0, _⟩ => rfl | ⟨1, _⟩ => rfl)
  · exact congrArg x3 (funext fun a => by match a with | ⟨0, _⟩ => rfl)

theorem stage_logit : (val_main_v28 (F := Ideal) x0 x1 x4 x5 : S8192x128.Idx → EReal) = fun i => logit x1 x0 x4 x5 (i 0) (i 1) := by
  funext i
  rw [val_main_v28_apply, val_main_v25_apply, val_main_v27_apply, val_main_v26_apply, stage_ax]
  simp only [val_main_v24_apply]
  unfold logit
  refine congrArg₂ (· + ·) (Finset.sum_congr rfl fun f _ => ?_) ?_
  · show ax x1 x0 (i 0) f * x4 (idx_main_v24 (ridx_main_v25 i f)) = ax x1 x0 (i 0) f * x4 (ix2 (i 1) f)
    exact congrArg (fun j => ax x1 x0 (i 0) f * x4 j) (funext fun a => by match a with | ⟨0, _⟩ => rfl | ⟨1, _⟩ => rfl)
  · exact congrArg x5 (funext fun a => by match a with | ⟨0, _⟩ => rfl)

theorem stage_rowmax : (val_main_v31 (F := Ideal) x0 x1 x4 x5 : S8192.Idx → EReal) = fun i => rowMax x1 x0 x4 x5 (i 0) := by
  funext i
  rw [val_main_v31_apply, val_main_v30_apply, val_main_cst_3_apply]
  unfold val_main_v29
  rw [Host.reduce_eq_fold_single FloatOps.maximumf _ _ reducesTo_S8192x128_S8192_d1 (by decide) h_S_, stage_logit]
  unfold rowMax
  refine congrArg (fun g => max negInf ((Finset.univ : Finset (Fin 128)).fold max negInf g)) (funext fun k => ?_)
  exact congrArg₂ (logit x1 x0 x4 x5) (Fin.ext rfl) (Fin.ext rfl)

theorem stage_expo : (val_main_v35 (F := Ideal) x0 x1 x4 x5 : S8192x128.Idx → EReal) = fun i => expo x1 x0 x4 x5 (i 0) (i 1) := by
  funext i
  rw [val_main_v35_apply, val_main_v34_apply, val_main_v33_apply, val_main_v32_apply, stage_rowmax, stage_logit]
  rfl

theorem stage_soft : (val_main_v39 (F := Ideal) x0 x1 x4 x5 : S8192x128.Idx → EReal) = fun i => soft x1 x0 x4 x5 (i 0) (i 1) := by
  funext i
  rw [val_main_v39_apply, val_main_v38_apply, val_main_v37_apply, val_main_v36_apply, stage_expo]
  unfold soft
  refine congrArg (fun s => Ideal.div (expo x1 x0 x4 x5 (i 0) (i 1)) (zero + s)) (Finset.sum_congr rfl fun k _ => ?_)
  exact congrArg₂ (expo x1 x0 x4 x5) (Fin.ext rfl) (Fin.ext rfl)

theorem stage_xnext : (val_main_v41 (F := Ideal) x0 x1 x2 x3 x4 x5 : S128x128.Idx → EReal) = fun i => xnext x1 x0 x2 x4 x3 x5 (i 0) (i 1) := by
  funext i
  rw [val_main_v41_apply, stage_emb]
  simp only [val_main_v40_apply]
  rw [stage_soft]
  unfold xnext
  refine Finset.sum_congr rfl fun n _ => ?_
  exact congrArg₂ (· * ·) (congrArg₂ (soft x1 x0 x4 x5) (Fin.ext rfl) (Fin.ext rfl)) (congrArg₂ (emb x1 x0 x2 x3) (Fin.ext rfl) (Fin.ext rfl))

theorem stage_hop : (val_main_v43 (F := Ideal) x0 x1 x4 x5 : S8192x128.Idx → EReal) = fun i => hop x1 x0 x4 x5 (i 0) (i 1) := by
  funext i
  rw [val_main_v43_apply, stage_soft]
  unfold hop
  refine Finset.sum_congr rfl fun k _ => ?_
  refine congrArg₂ (· * ·) (congrArg x1 (funext fun a => by match a with | ⟨0, _⟩ => rfl | ⟨1, _⟩ => rfl)) ?_
  exact congrArg₂ (soft x1 x0 x4 x5) (Fin.ext rfl) (Fin.ext rfl)

theorem stage_anext : (val_main_v44 (F := Ideal) x0 x1 x4 x5 : S128x128.Idx → EReal) = fun i => anext x1 x0 x4 x5 (i 0) (i 1) := by
  funext i
  rw [val_main_v44_apply, stage_hop]
  simp only [val_main_v42_apply]
  rw [stage_soft]
  unfold anext
  refine Finset.sum_congr rfl fun n _ => ?_
  exact congrArg₂ (· * ·) (congrArg₂ (soft x1 x0 x4 x5) (Fin.ext rfl) (Fin.ext rfl)) (congrArg₂ (hop x1 x0 x4 x5) (Fin.ext rfl) (Fin.ext rfl))

end Stages

end Cert.RefValue

end
-- ==== Proof.LibERealCoe.lean ====
/-
  Coercions between the reals and the extended reals, for a certificate whose inputs are all
  finite: every operation of the ideal instance, applied to (coercions of) real numbers, is the
  coercion of the corresponding real operation. Nothing here mentions a program or a size.
-/
import Idealize.ShloMosaic.PureOps.Ideal
import Idealize.ShloMosaic.PureOps.Ideal.Laws
import Mathlib.Data.EReal.Inv
import Mathlib.Data.Finset.Lattice.Fold
import Mathlib.Algebra.BigOperators.Group.Finset.Basic

namespace Cert.Lib.ERealCoe

open Idealize.ShloMosaic
open scoped BigOperators

universe u
variable {ι : Type u}

/-! ### Sums -/

/-- The coercion of a finite sum of reals is the sum of the coercions. -/
theorem coe_sum (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A finite sum of products of coerced reals is the coercion of the real sum of products. -/
theorem sum_mul_coe (s : Finset ι) (f g : ι → ℝ) :
    ∑ i ∈ s, ((f i : ℝ) : EReal) * ((g i : ℝ) : EReal) = ((∑ i ∈ s, f i * g i : ℝ) : EReal) := by
  rw [coe_sum]
  exact Finset.sum_congr rfl fun i _ => (EReal.coe_mul _ _).symm

/-! ### The pointwise operations -/

/-- The exponential of a real, at the ideal instance, is the real exponential. -/
theorem exp_coe (x : ℝ) : Ideal.exp ((x : ℝ) : EReal) = ((Real.exp x : ℝ) : EReal) := rfl

/-- The exponential of minus infinity, at the ideal instance, is zero. -/
theorem exp_bot : Ideal.exp (⊥ : EReal) = 0 := rfl

/-- The quotient of two reals with a nonzero divisor, at the ideal instance, is the real quotient. -/
theorem div_coe (a : ℝ) {b : ℝ} (hb : b ≠ 0) :
    Ideal.div ((a : ℝ) : EReal) ((b : ℝ) : EReal) = ((a / b : ℝ) : EReal) := by
  rw [Ideal.div_coe hb, ← EReal.coe_mul, mul_one_div]

/-- The difference of two reals is the same in the reals and in the extended reals. -/
theorem sub_coe (a b : ℝ) : ((a : ℝ) : EReal) - ((b : ℝ) : EReal) = ((a - b : ℝ) : EReal) :=
  (EReal.coe_sub a b).symm

/-- The sum of two reals is the same in the reals and in the extended reals. -/
theorem add_coe (a b : ℝ) : ((a : ℝ) : EReal) + ((b : ℝ) : EReal) = ((a + b : ℝ) : EReal) :=
  (EReal.coe_add a b).symm

/-- The product of two reals is the same in the reals and in the extended reals. -/
theorem mul_coe (a b : ℝ) : ((a : ℝ) : EReal) * ((b : ℝ) : EReal) = ((a * b : ℝ) : EReal) :=
  (EReal.coe_mul a b).symm

/-- The negation of a real is the same in the reals and in the extended reals. -/
theorem neg_coe (a : ℝ) : -((a : ℝ) : EReal) = ((-a : ℝ) : EReal) :=
  (EReal.coe_neg a).symm

/-- The coercion is monotone, so the maximum of two reals is the same in the reals and in the
    extended reals. -/
theorem max_coe (a b : ℝ) : max ((a : ℝ) : EReal) ((b : ℝ) : EReal) = ((max a b : ℝ) : EReal) :=
  (EReal.coe_strictMono.monotone.map_max).symm

/-- The minimum of two reals is the same in the reals and in the extended reals. -/
theorem min_coe (a b : ℝ) : min ((a : ℝ) : EReal) ((b : ℝ) : EReal) = ((min a b : ℝ) : EReal) :=
  (EReal.coe_strictMono.monotone.map_min).symm

/-- Minus infinity is neutral for the maximum, on the left. -/
theorem max_bot_left' (x : EReal) : max ⊥ x = x := max_bot_left x

/-- Minus infinity is neutral for the maximum, on the right. -/
theorem max_bot_right' (x : EReal) : max x ⊥ = x := max_bot_right x

/-! ### Maxima over a finite set -/

/-- The maximum over a nonempty finite set of coerced reals is the coercion of the real maximum:
    the coercion is monotone. -/
theorem sup'_coe (s : Finset ι) (hs : s.Nonempty) (F : ι → ℝ) :
    s.sup' hs (fun i => ((F i : ℝ) : EReal)) = ((s.sup' hs F : ℝ) : EReal) :=
  (Finset.comp_sup'_eq_sup'_comp hs (fun r : ℝ => (r : EReal))
    (fun a b => EReal.coe_strictMono.monotone.map_max)).symm

/-- Folding the maximum from minus infinity over a finite set is the supremum over it. -/
theorem fold_max_bot_eq_sup (s : Finset ι) (f : ι → EReal) :
    s.fold max ⊥ f = s.sup f := rfl

/-- Folding the maximum from minus infinity over a nonempty finite set is the maximum over it. -/
theorem fold_max_bot (s : Finset ι) (hs : s.Nonempty) (f : ι → EReal) :
    s.fold max ⊥ f = s.sup' hs f :=
  (Finset.sup'_eq_sup hs f).symm

/-- The same over all of Fin (n+1). -/
theorem fold_max_bot_univ {n : Nat} (f : Fin (n + 1) → EReal) :
    (Finset.univ : Finset (Fin (n + 1))).fold max ⊥ f = Finset.univ.sup' Finset.univ_nonempty f :=
  fold_max_bot _ _ f

/-- Folding the maximum from minus infinity over a nonempty finite set of coerced reals is the
    coercion of the real maximum. -/
theorem fold_max_bot_coe (s : Finset ι) (hs : s.Nonempty) (F : ι → ℝ) :
    s.fold max ⊥ (fun i => ((F i : ℝ) : EReal)) = ((s.sup' hs F : ℝ) : EReal) := by
  rw [fold_max_bot s hs, sup'_coe]

/-! ### Two f32 patterns -/

/-- The f32 pattern of minus infinity denotes the bottom of the extended reals. -/
theorem ofBits_neg_inf_f32 : Ideal.ofBits .f32 0xFF800000#32 = (⊥ : EReal) := by
  simp [Ideal.ofBits, Ideal.ieee]

/-- The f32 pattern of plus infinity denotes the top of the extended reals. -/
theorem ofBits_pos_inf_f32 : Ideal.ofBits .f32 0x7F800000#32 = (⊤ : EReal) := by
  simp [Ideal.ofBits, Ideal.ieee]

/-- The f32 pattern of zero denotes zero. -/
theorem ofBits_zero_f32 : Ideal.ofBits .f32 0x00000000#32 = (0 : EReal) :=
  Ideal.ofBits_zero_f32

/-! ### Families of finite entries -/

/-- Every entry of the family is (the coercion of) a real number. -/
def IsFin {ι : Type u} (f : ι → EReal) : Prop := ∀ i, ∃ r : ℝ, f i = (r : EReal)

/-- A family of finite entries is the coercion of a family of reals. -/
theorem IsFin.exists_real {f : ι → EReal} (h : IsFin f) :
    ∃ F : ι → ℝ, f = fun i => ((F i : ℝ) : EReal) :=
  ⟨fun i => Classical.choose (h i), funext fun i => Classical.choose_spec (h i)⟩

/-- The coercion of a family of reals has finite entries. -/
theorem isFin_coe (F : ι → ℝ) : IsFin (fun i => ((F i : ℝ) : EReal)) := fun i => ⟨F i, rfl⟩

/-- An extended real that is neither infinity is a real number. -/
theorem exists_real_of_ne {x : EReal} (hb : x ≠ ⊥) (ht : x ≠ ⊤) : ∃ r : ℝ, x = (r : EReal) :=
  ⟨x.toReal, (EReal.coe_toReal ht hb).symm⟩

/-- A finite sum of finite entries is finite. -/
theorem exists_real_sum (s : Finset ι) {f : ι → EReal} (hf : ∀ i ∈ s, ∃ r : ℝ, f i = (r : EReal)) :
    ∃ r : ℝ, ∑ i ∈ s, f i = (r : EReal) := by
  classical
  refine ⟨∑ i ∈ s, if h : i ∈ s then Classical.choose (hf i h) else 0, ?_⟩
  rw [coe_sum]
  refine Finset.sum_congr rfl fun i hi => ?_
  rw [dif_pos hi]
  exact Classical.choose_spec (hf i hi)

/-- A product of two finite entries is finite. -/
theorem exists_real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, mul_coe a b⟩

/-- A finite sum of products of finite entries is finite. -/
theorem exists_real_sum_mul (s : Finset ι) {f g : ι → EReal} (hf : IsFin f) (hg : IsFin g) :
    ∃ r : ℝ, ∑ i ∈ s, f i * g i = (r : EReal) :=
  exists_real_sum s fun i _ => exists_real_mul (hf i) (hg i)

end Cert.Lib.ERealCoe
-- ==== Proof.Algebra.lean ====
/-
  The algebra behind the certificate, free of any program. Rows in blocks: a sum over the 8 blocks of 1024
  (or the 2 × 2 blocks of 2048) rows is the sum over all 8192 rows. The propagation law: with finite entries,
  Σₙ ((d_r (a_n + δ_rn)) d_n) x_n = d_r ((Σₙ a_n (d_n x_n)) + d_r x_r) — distributivity, which is where
  finiteness is used.
-/
import proofs.«110719_j498216206442_2_alg».proof.Proof.Spec
import proofs.«110719_j498216206442_2_alg».proof.Proof.LibERealCoe
import Mathlib.Algebra.BigOperators.Fin
import Mathlib.Logic.Equiv.Fin.Basic
import Mathlib.Tactic.Ring
import Mathlib.Tactic.NormNum

noncomputable section

namespace Cert.Algebra

open Cert.Spec Cert.Lib.ERealCoe
open scoped BigOperators

/-- The blocks of 1024 rows partition the 8192 rows. -/
theorem sum_row1024 {M : Type*} [AddCommMonoid M] (g : Fin 8192 → M) :
    ∑ k : Fin 8, ∑ j : Fin 1024, g (row1024 k j) = ∑ n : Fin 8192, g n := by
  rw [← Fintype.sum_prod_type']
  refine Fintype.sum_equiv ((finProdFinEquiv (m := 8) (n := 1024)).trans (finCongr (by norm_num))) _ _ fun x => ?_
  refine congrArg g (Fin.ext ?_)
  simp [row1024, finProdFinEquiv]
  omega

/-- The 2 × 2 blocks of 2048 rows partition the 8192 rows. -/
theorem sum_row2048 {M : Type*} [AddCommMonoid M] (g : Fin 8192 → M) :
    ∑ c : Fin 2, ∑ k : Fin 2, ∑ n : Fin 2048, g (row2048 c k n) = ∑ m : Fin 8192, g m := by
  rw [← Fintype.sum_prod_type', ← Fintype.sum_prod_type']
  refine Fintype.sum_equiv (((finProdFinEquiv (m := 2) (n := 2)).prodCongr (Equiv.refl (Fin 2048))).trans
    ((finProdFinEquiv (m := 4) (n := 2048)).trans (finCongr (by norm_num)))) _ _ fun x => ?_
  refine congrArg g (Fin.ext ?_)
  simp [row2048, finProdFinEquiv]
  omega

section Propagate
variable {ι : Type*} [Fintype ι] [DecidableEq ι]

/-- The propagation law over the reals. -/
theorem propagate_real (r : ι) (a d x : ι → ℝ) :
    ∑ n, ((d r * (a n + (if r = n then 1 else 0))) * d n) * x n = d r * ((∑ n, a n * (d n * x n)) + d r * x r) := by
  have h : ∀ n, ((d r * (a n + (if r = n then 1 else 0))) * d n) * x n
      = d r * (a n * (d n * x n)) + (if r = n then d r * (d r * x r) else 0) := by
    intro n
    by_cases hn : r = n
    · subst hn; rw [if_pos rfl, if_pos rfl]; ring
    · rw [if_neg hn, if_neg hn]; ring
  simp only [h, Finset.sum_add_distrib, ← Finset.mul_sum, Finset.sum_ite_eq, Finset.mem_univ, if_true]
  ring

/-- The propagation law over the extended reals, for finite entries. -/
theorem propagate (r : ι) (a d x : ι → EReal) (ha : IsFin a) (hd : IsFin d) (hx : IsFin x) :
    ∑ n, ((d r * (a n + (if r = n then (1 : EReal) else 0))) * d n) * x n = d r * ((∑ n, a n * (d n * x n)) + d r * x r) := by
  obtain ⟨a', rfl⟩ := ha.exists_real
  obtain ⟨d', rfl⟩ := hd.exists_real
  obtain ⟨x', rfl⟩ := hx.exists_real
  have h1 : ∀ n, ((((d' r : ℝ) : EReal) * (((a' n : ℝ) : EReal) + (if r = n then (1 : EReal) else 0))) * ((d' n : ℝ) : EReal)) * ((x' n : ℝ) : EReal)
      = (((((d' r * (a' n + (if r = n then 1 else 0))) * d' n) * x' n : ℝ)) : EReal) := by
    intro n
    by_cases hn : r = n
    · rw [if_pos hn, if_pos hn]; push_cast; rfl
    · rw [if_neg hn, if_neg hn]; push_cast; rfl
  have h2 : ∀ n, ((a' n : ℝ) : EReal) * (((d' n : ℝ) : EReal) * ((x' n : ℝ) : EReal)) = (((a' n * (d' n * x' n) : ℝ)) : EReal) := by
    intro n; push_cast; rfl
  simp only [h1, h2, ← coe_sum]
  rw [propagate_real r a' d' x']
  push_cast
  rfl

end Propagate

end Cert.Algebra

end
-- ==== Proof.Bridge.lean ====
/-
  The bridge: the kernel's passes composed (the closed forms of Spec, each pass fed the pass before) equal the
  reference's closed forms, once the adjacency matrix and the features are finite. The degrees agree by
  re-association (the identity's row sums to one); the propagation agrees by the propagation law — the one place
  finiteness is used; the embedding, the logits and the softmax are then the same expressions; the hop and the
  pooling agree by re-association over the row blocks.
-/
import proofs.«110719_j498216206442_2_alg».proof.Proof.RefValue
import proofs.«110719_j498216206442_2_alg».proof.Proof.Algebra

noncomputable section

namespace Cert.Bridge

open Idealize.ShloMosaic Idealize.ShloMosaic.ValueIdx
open Cert.Spec (Mat zero one negInf row1024 row2048)
open Cert.Lib.ERealCoe Cert.Algebra
open scoped BigOperators

/-! ## The float literals -/

theorem zero_eq : zero = 0 := Ideal.ofBits_zero_f32
theorem one_eq : one = 1 := by
  show Ideal.ofBits .f32 0x3F800000#32 = 1
  simp [Ideal.ofBits, Ideal.ieee, -EReal.coe_mul]; norm_num

/-! ## The identity matrix -/

theorem eye_eq (r k : Fin 8192) : RefValue.eye r k = if r = k then 1 else 0 := by
  have hne : ∀ {r k : Fin 8192}, r ≠ k → BitVec.ofNat 32 r.val ≠ BitVec.ofNat 32 k.val := by
    intro r k h e
    have := congrArg BitVec.toNat e
    simp only [BitVec.toNat_ofNat] at this
    rw [Nat.mod_eq_of_lt (Nat.lt_of_lt_of_le r.isLt (by norm_num)), Nat.mod_eq_of_lt (Nat.lt_of_lt_of_le k.isLt (by norm_num))] at this
    exact h (Fin.ext this)
  unfold RefValue.eye IntOp.addi IntOp.cmpi
  rw [BitVec.add_zero]
  by_cases h : r = k
  · subst h
    rw [if_pos rfl, beq_self_eq_true]
    show (((BitVec.ofBool true).toNat : ℝ) : EReal) = 1
    simp
  · rw [if_neg h, beq_eq_false_iff_ne.mpr (hne h)]
    show (((BitVec.ofBool false).toNat : ℝ) : EReal) = 0
    simp

theorem sum_eye (r : Fin 8192) : ∑ k : Fin 8192, RefValue.eye r k = 1 := by
  simp only [eye_eq, Finset.sum_ite_eq, Finset.mem_univ, if_true]

/-! ## The degrees -/

variable (A : Mat 8192 8192) (X : Mat 8192 128) (We Wa : Mat 128 128) (be ba : (⟨1, ![128]⟩ : Shape).Idx → EReal)

theorem deg_eq (r : Fin 8192) : Spec.deg A r = RefValue.deg A r := by
  unfold Spec.deg Spec.rowSum RefValue.deg RefValue.ahat
  rw [sum_row1024 (fun n => A (ix2 r n)), Finset.sum_add_distrib, sum_eye, zero_eq, one_eq, zero_add]

theorem dinv_eq (r : Fin 8192) : Spec.dinv A r = RefValue.dinv A r := by
  unfold Spec.dinv RefValue.dinv
  rw [deg_eq]

/-- With a finite adjacency matrix the degree scaling is finite. -/
theorem dinv_fin (hA : IsFin A) : IsFin (Spec.dinv A) := by
  intro r
  obtain ⟨t, ht⟩ : ∃ t : ℝ, Spec.deg A r = (t : EReal) := by
    unfold Spec.deg Spec.rowSum
    obtain ⟨s, hs⟩ := exists_real_sum (Finset.univ : Finset (Fin 8)) (f := fun k => ∑ j : Fin 1024, A (ix2 r (row1024 k j)))
      (fun k _ => exists_real_sum _ fun j _ => hA _)
    exact ⟨s + 1, by rw [hs, one_eq]; exact (EReal.coe_add s 1).symm ▸ rfl⟩
  unfold Spec.dinv
  rw [ht]
  unfold Scalar.select
  split_ifs with hc
  · have hpos : (0 : ℝ) < t := by
      have : Ideal.cmp .ogt ((t : ℝ) : EReal) zero = 1#1 := hc
      unfold Ideal.cmp at this
      rw [zero_eq] at this
      by_contra hn
      have hf : decide ((0 : EReal) < ((t : ℝ) : EReal)) = false := decide_eq_false (by rw [EReal.coe_pos]; exact hn)
      rw [hf] at this
      simp at this
    refine ⟨(Real.sqrt t)⁻¹, ?_⟩
    show (if t < 0 then (⊥ : EReal) else if t = 0 then ⊤ else (((Real.sqrt t)⁻¹ : ℝ) : EReal)) = _
    rw [if_neg (not_lt.mpr hpos.le), if_neg hpos.ne']
  · exact ⟨0, zero_eq⟩

/-! ## The kernel's passes, composed -/

/-- The degree scaling broadcast along the 128 lanes, as the degree pass writes it. -/
def Dv : Mat 8192 128 := fun i => Spec.dinv A (i 0)
/-- A weight matrix transposed, a bias as a 1 × 128 row: what the host operations before the propagation pass write. -/
def tr (W : Mat 128 128) : Mat 128 128 := fun i => W (ix2 (i 1) (i 0))
def row (b : (⟨1, ![128]⟩ : Shape).Idx → EReal) : Mat 1 128 := fun i => b (ix1 (i 1))
/-- The embedding and the soft assignment the propagation pass writes. -/
def Zk : Mat 8192 128 := fun i => Spec.emb A X (Dv A) (tr We) (row be) (i 0) (i 1)
def Sk : Mat 8192 128 := fun i => Spec.soft A X (Dv A) (tr Wa) (row ba) (i 0) (i 1)
/-- The hop pass's output. -/
def Hk : Mat 8192 128 := fun i => Spec.hop A (Sk A X Wa ba) (i 0) (i 1)
/-- The two results: the cores' parts summed from the zero literal. -/
def XN (a b : Fin 128) : EReal := zero + ∑ c : Fin 2, Spec.pool (Sk A X Wa ba) (Zk A X We be) c a b
def AN (a b : Fin 128) : EReal := zero + ∑ c : Fin 2, Spec.pool (Sk A X Wa ba) (Hk A X Wa ba) c a b

/-! ## They are the reference's closed forms -/

theorem ax_eq (hA : IsFin A) (hX : IsFin X) (r : Fin 8192) (f : Fin 128) :
    Spec.ax A X (Dv A) r f = RefValue.ax A X r f := by
  unfold Spec.ax Spec.spread Spec.scaled RefValue.ax RefValue.norm RefValue.ahat
  rw [sum_row1024 (fun n => A (ix2 r n) * (Dv A (ix2 n f) * X (ix2 n f)))]
  simp only [eye_eq, ← dinv_eq]
  exact (propagate r (fun n => A (ix2 r n)) (Spec.dinv A) (fun n => X (ix2 n f)) (fun n => hA _) (dinv_fin A hA) (fun n => hX _)).symm

theorem emb_eq (hA : IsFin A) (hX : IsFin X) (r : Fin 8192) (e : Fin 128) :
    Spec.emb A X (Dv A) (tr We) (row be) r e = RefValue.emb A X We be r e := by
  unfold Spec.emb RefValue.emb
  simp only [ax_eq A X hA hX]
  rfl

theorem logit_eq (hA : IsFin A) (hX : IsFin X) (r : Fin 8192) :
    Spec.logit A X (Dv A) (tr Wa) (row ba) r = RefValue.logit A X Wa ba r := by
  funext e
  unfold Spec.logit RefValue.logit
  simp only [ax_eq A X hA hX]
  rfl

theorem soft_eq (hA : IsFin A) (hX : IsFin X) (r : Fin 8192) (e : Fin 128) :
    Spec.soft A X (Dv A) (tr Wa) (row ba) r e = RefValue.soft A X Wa ba r e := by
  unfold Spec.soft RefValue.soft Spec.expo RefValue.expo Spec.rowMax RefValue.rowMax
  simp only [logit_eq A X Wa ba hA hX, zero_eq, zero_add]

theorem xnext_eq (hA : IsFin A) (hX : IsFin X) (a b : Fin 128) : XN A X We Wa be ba a b = RefValue.xnext A X We Wa be ba a b := by
  unfold XN Spec.pool RefValue.xnext
  rw [zero_eq, zero_add, sum_row2048 (fun n => Sk A X Wa ba (ix2 n a) * Zk A X We be (ix2 n b))]
  refine Finset.sum_congr rfl fun n _ => ?_
  exact congrArg₂ (· * ·) (soft_eq A X Wa ba hA hX n a) (emb_eq A X We be hA hX n b)

theorem hop_eq (hA : IsFin A) (hX : IsFin X) (r : Fin 8192) (e : Fin 128) :
    Hk A X Wa ba (ix2 r e) = RefValue.hop A X Wa ba r e := by
  unfold Hk Spec.hop RefValue.hop
  rw [sum_row1024 (fun n => A (ix2 r n) * Sk A X Wa ba (ix2 n e))]
  refine Finset.sum_congr rfl fun n _ => ?_
  exact congrArg (A (ix2 r n) * ·) (soft_eq A X Wa ba hA hX n e)

theorem anext_eq (hA : IsFin A) (hX : IsFin X) (a b : Fin 128) : AN A X Wa ba a b = RefValue.anext A X Wa ba a b := by
  unfold AN Spec.pool RefValue.anext
  rw [zero_eq, zero_add, sum_row2048 (fun n => Sk A X Wa ba (ix2 n a) * Hk A X Wa ba (ix2 n b))]
  refine Finset.sum_congr rfl fun n _ => ?_
  exact congrArg₂ (· * ·) (soft_eq A X Wa ba hA hX n a) (hop_eq A X Wa ba hA hX n b)

end Cert.Bridge

end
-- ==== Proof.KI.Values.lean ====
/-
  The idealized kernel's results through the fold of buffer contents: the degree pass leaves the degree scaling and
  the adjacency matrix; four host operations transpose the two weight matrices and lay the biases as rows; the
  propagation pass leaves the embedding and the soft assignment; the hop pass their product with the adjacency
  matrix; the pooling pass the two cores' parts, which the last host operations sum.
-/
import proofs.«110719_j498216206442_2_alg».proof.Proof.KI.Frame
import proofs.«110719_j498216206442_2_alg».proof.Proof.KI.DegValue
import proofs.«110719_j498216206442_2_alg».proof.Proof.KI.EmbedValue
import proofs.«110719_j498216206442_2_alg».proof.Proof.KI.HopValue
import proofs.«110719_j498216206442_2_alg».proof.Proof.KI.PoolValue
import proofs.«110719_j498216206442_2_alg».proof.Proof.Bridge
import Idealize.ShloMosaic.Lib.StableHlo.Run
import Idealize.ShloMosaic.Lib.Pipeline.Value

set_option maxRecDepth 16384

noncomputable section

namespace Cert.KernelIdeal.Values

open Cert.KernelIdeal
open Idealize.ShloMosaic Idealize.ShloMosaic.TcCoe Idealize.ShloMosaic.ValueIdx Idealize.ShloMosaic.StableHlo
open Idealize.SL Idealize.SL.Sem
open Cert.Spec (Mat zero)
open Cert.KernelIdeal.Facts₀ Cert.KernelIdeal.Facts

variable (m : (ℓ : Loc nD τ sig) → Buf (Elt Ideal) ℓ) (ρ : Dev nD → PrngReg) (c : Dev nD)

/-! ## The launch arrays -/

abbrev argX : Mat 8192 128 := (m ((c : Thread nD τ).loc main_arg0) : S8192x128.Idx → EReal)
abbrev argA : Mat 8192 8192 := (m ((c : Thread nD τ).loc main_arg1) : S8192x8192.Idx → EReal)
abbrev argWe : Mat 128 128 := (m ((c : Thread nD τ).loc main_arg2) : S128x128.Idx → EReal)
abbrev argBe : (⟨1, ![128]⟩ : Shape).Idx → EReal := (m ((c : Thread nD τ).loc main_arg3) : S128.Idx → EReal)
abbrev argWa : Mat 128 128 := (m ((c : Thread nD τ).loc main_arg4) : S128x128.Idx → EReal)
abbrev argBa : (⟨1, ![128]⟩ : Shape).Idx → EReal := (m ((c : Thread nD τ).loc main_arg5) : S128.Idx → EReal)

/-! ## The host operations, at any contents -/

section Host
variable (W : Valuation τ sig (Elt Ideal))

theorem host1_keep (b : Ref sig .tc) (h : b ∉ Gen.hostOps1_W) : StableHlo.after Gen.hostOps1 W (Proc.devRef .tc b) = W (Proc.devRef .tc b) :=
  StableHlo.after_of_writes_sub Gen.hostOps1 W Gen.hostOps1_writes h
theorem host4_keep (b : Ref sig .tc) (h : b ∉ Gen.hostOps4_W) : StableHlo.after Gen.hostOps4 W (Proc.devRef .tc b) = W (Proc.devRef .tc b) :=
  StableHlo.after_of_writes_sub Gen.hostOps4 W Gen.hostOps4_writes h

/-- The two weight matrices are transposed, -/
theorem host1_we : (StableHlo.after Gen.hostOps1 W (Proc.devRef .tc main_v1) : S128x128.Idx → EReal)
    = Bridge.tr (W (Proc.devRef .tc main_arg2) : S128x128.Idx → EReal) := by
  have e : StableHlo.after Gen.hostOps1 W (Proc.devRef .tc main_v1) = transpose S128x128 [1, 0] (W (Proc.devRef .tc main_arg2)) transposes_S128x128_S128x128_1_0 := by
    dsimp only [Gen.hostOps1]; after_results; try rfl
  rw [e]
  funext i
  exact transpose_apply [1, 0] _ transposes_S128x128_S128x128_1_0 i (ix2 (i 1) (i 0)) (fun b => match b with | ⟨0, _⟩ => rfl | ⟨1, _⟩ => rfl)
theorem host1_wa : (StableHlo.after Gen.hostOps1 W (Proc.devRef .tc main_v2) : S128x128.Idx → EReal)
    = Bridge.tr (W (Proc.devRef .tc main_arg4) : S128x128.Idx → EReal) := by
  have e : StableHlo.after Gen.hostOps1 W (Proc.devRef .tc main_v2) = transpose S128x128 [1, 0] (W (Proc.devRef .tc main_arg4)) transposes_S128x128_S128x128_1_0 := by
    dsimp only [Gen.hostOps1]; after_results; try rfl
  rw [e]
  funext i
  exact transpose_apply [1, 0] _ transposes_S128x128_S128x128_1_0 i (ix2 (i 1) (i 0)) (fun b => match b with | ⟨0, _⟩ => rfl | ⟨1, _⟩ => rfl)
/-- and the two biases become 1 × 128 rows. -/
theorem host1_be : (StableHlo.after Gen.hostOps1 W (Proc.devRef .tc main_v3) : S1x128.Idx → EReal)
    = Bridge.row (W (Proc.devRef .tc main_arg3) : S128.Idx → EReal) := by
  have e : StableHlo.after Gen.hostOps1 W (Proc.devRef .tc main_v3) = shapeCast S1x128 (W (Proc.devRef .tc main_arg3)) shapeCasts_S128_S1x128 := by
    dsimp only [Gen.hostOps1]; after_results; try rfl
  rw [e]
  funext i
  refine (shapeCast_addUnit_apply ![128] _ shapeCasts_S128_S1x128 i).trans ?_
  exact congrArg (W (Proc.devRef .tc main_arg3)) (funext fun a => by match a with | ⟨0, _⟩ => rfl)
theorem host1_ba : (StableHlo.after Gen.hostOps1 W (Proc.devRef .tc main_v4) : S1x128.Idx → EReal)
    = Bridge.row (W (Proc.devRef .tc main_arg5) : S128.Idx → EReal) := by
  have e : StableHlo.after Gen.hostOps1 W (Proc.devRef .tc main_v4) = shapeCast S1x128 (W (Proc.devRef .tc main_arg5)) shapeCasts_S128_S1x128 := by
    dsimp only [Gen.hostOps1]; after_results; try rfl
  rw [e]
  funext i
  refine (shapeCast_addUnit_apply ![128] _ shapeCasts_S128_S1x128 i).trans ?_
  exact congrArg (W (Proc.devRef .tc main_arg5)) (funext fun a => by match a with | ⟨0, _⟩ => rfl)

/-- The last host operations sum the two cores' parts, from the zero literal. -/
theorem host4_x (P : S2x128x128.Idx → EReal) (hP : W (Proc.devRef .tc main_v7_0) = P) (a b : Fin 128) :
    (StableHlo.after Gen.hostOps4 W (Proc.devRef .tc main_v8) : S128x128.Idx → EReal) (ix2 a b) = zero + ∑ k : Fin 2, P (ix3 k a b) := by
  have e : StableHlo.after Gen.hostOps4 W (Proc.devRef .tc main_v8)
      = Host.reduceAdd (F := Ideal) (W (Proc.devRef .tc main_v7_0)) (constant S_ .f32 0x00000000#32) reducesTo_S2x128x128_S128x128_d0 h_S_ := by
    dsimp only [Gen.hostOps4]; after_results; try rfl
  rw [e, hP]
  simp only [Host.reduceAdd, Ideal.hostReduceAdd_def]
  rw [Ideal.hostReduceAdd_single reducesTo_S2x128x128_S128x128_d0 (by decide)]
  refine congrArg (zero + ·) (Finset.sum_congr rfl fun k _ => ?_)
  exact congrArg P (funext fun d => Fin.ext (by match d with | ⟨0, _⟩ => rfl | ⟨1, _⟩ => rfl | ⟨2, _⟩ => rfl))
theorem host4_a (P : S2x128x128.Idx → EReal) (hP : W (Proc.devRef .tc main_v7_1) = P) (a b : Fin 128) :
    (StableHlo.after Gen.hostOps4 W (Proc.devRef .tc main_v9) : S128x128.Idx → EReal) (ix2 a b) = zero + ∑ k : Fin 2, P (ix3 k a b) := by
  have e : StableHlo.after Gen.hostOps4 W (Proc.devRef .tc main_v9)
      = Host.reduceAdd (F := Ideal) (W (Proc.devRef .tc main_v7_1)) (constant S_ .f32 0x00000000#32) reducesTo_S2x128x128_S128x128_d0 h_S_ := by
    dsimp only [Gen.hostOps4]; after_results; try rfl
  rw [e, hP]
  simp only [Host.reduceAdd, Ideal.hostReduceAdd_def]
  rw [Ideal.hostReduceAdd_single reducesTo_S2x128x128_S128x128_d0 (by decide)]
  refine congrArg (zero + ·) (Finset.sum_congr rfl fun k _ => ?_)
  exact congrArg P (funext fun d => Fin.ext (by match d with | ⟨0, _⟩ => rfl | ⟨1, _⟩ => rfl | ⟨2, _⟩ => rfl))

end Host

/-! ## Through the fold -/

/-- After the degree pass: the degree scaling along the lanes, and the adjacency matrix again. -/
theorem w1_dinv : (Run.V1 m ρ c main_v0_0 : S8192x128.Idx → EReal) = Bridge.Dv (argA m c) :=
  (Run.W1_arr m ρ c 1).trans (Deg.final_dinv (Run.V0 m ρ) c)
theorem w1_copy : (Run.V1 m ρ c main_v0_1 : S8192x8192.Idx → EReal) = argA m c :=
  (Run.W1_arr m ρ c 2).trans (Deg.final_copy (Run.V0 m ρ) c)

/-- At the propagation pass's entry. -/
theorem w2_adj : (Run.V2 m ρ c main_v0_1 : S8192x8192.Idx → EReal) = argA m c :=
  (host1_keep (Run.W1 m ρ c) main_v0_1 (by decide)).trans (w1_copy m ρ c)
theorem w2_dinv : (Run.V2 m ρ c main_v0_0 : S8192x128.Idx → EReal) = Bridge.Dv (argA m c) :=
  (host1_keep (Run.W1 m ρ c) main_v0_0 (by decide)).trans (w1_dinv m ρ c)
theorem w2_x : (Run.V2 m ρ c main_arg0 : S8192x128.Idx → EReal) = argX m c :=
  (host1_keep (Run.W1 m ρ c) main_arg0 (by decide)).trans (Run.W1_of_ne m ρ c main_arg0 (by decide))
theorem w2_we : (Run.V2 m ρ c main_v1 : S128x128.Idx → EReal) = Bridge.tr (argWe m c) :=
  (host1_we (Run.W1 m ρ c)).trans (congrArg Bridge.tr (Run.W1_of_ne m ρ c main_arg2 (by decide)))
theorem w2_wa : (Run.V2 m ρ c main_v2 : S128x128.Idx → EReal) = Bridge.tr (argWa m c) :=
  (host1_wa (Run.W1 m ρ c)).trans (congrArg Bridge.tr (Run.W1_of_ne m ρ c main_arg4 (by decide)))
theorem w2_be : (Run.V2 m ρ c main_v3 : S1x128.Idx → EReal) = Bridge.row (argBe m c) :=
  (host1_be (Run.W1 m ρ c)).trans (congrArg Bridge.row (Run.W1_of_ne m ρ c main_arg3 (by decide)))
theorem w2_ba : (Run.V2 m ρ c main_v4 : S1x128.Idx → EReal) = Bridge.row (argBa m c) :=
  (host1_ba (Run.W1 m ρ c)).trans (congrArg Bridge.row (Run.W1_of_ne m ρ c main_arg5 (by decide)))

/-- After the propagation pass: the embedding and the soft assignment. -/
theorem w3_emb : (Run.V3 m ρ c main_v5_0 : S8192x128.Idx → EReal) = Bridge.Zk (argA m c) (argX m c) (argWe m c) (argBe m c) := by
  rw [Run.V3_emb m ρ c, Embed.final_emb (Run.V2 m ρ) c, w2_adj, w2_x, w2_dinv, w2_we, w2_be]
  rfl
theorem w3_soft : (Run.V3 m ρ c main_v5_1 : S8192x128.Idx → EReal) = Bridge.Sk (argA m c) (argX m c) (argWa m c) (argBa m c) := by
  rw [Run.V3_asg m ρ c, Embed.final_soft (Run.V2 m ρ) c, w2_adj, w2_x, w2_dinv, w2_wa, w2_ba]
  rfl
theorem w3_adj : (Run.V3 m ρ c main_v0_1 : S8192x8192.Idx → EReal) = argA m c :=
  (Run.V3_of_ne m ρ c main_v0_1 (by decide) (by decide)).trans (w2_adj m ρ c)

/-- After the hop pass. -/
theorem w4_hop : (Run.V4 m ρ c main_v6 : S8192x128.Idx → EReal) = Bridge.Hk (argA m c) (argX m c) (argWa m c) (argBa m c) := by
  rw [show Run.V4 m ρ c main_v6 = (Hop.dat (Run.V3 m ρ) c).arrAt 2 cfg2.N from Run.W4_arr m ρ c 2, Hop.final_hop (Run.V3 m ρ) c, w3_adj, w3_soft]
  rfl
theorem w4_soft : (Run.V4 m ρ c main_v5_1 : S8192x128.Idx → EReal) = Bridge.Sk (argA m c) (argX m c) (argWa m c) (argBa m c) :=
  ((Run.W4_arr m ρ c 1).trans (((Hop.dat (Run.V3 m ρ) c).arrAt_in 1 rfl _).trans (Hop.A_eq (Run.V3 m ρ) c 1))).trans (w3_soft m ρ c)
theorem w4_emb : (Run.V4 m ρ c main_v5_0 : S8192x128.Idx → EReal) = Bridge.Zk (argA m c) (argX m c) (argWe m c) (argBe m c) :=
  (Run.W4_of_ne m ρ c main_v5_0 (by decide)).trans (w3_emb m ρ c)

/-- After the pooling pass: the two cores' parts. -/
theorem w5_x : (Run.V5 m ρ c main_v7_0 : S2x128x128.Idx → EReal)
    = fun i => Spec.pool (Bridge.Sk (argA m c) (argX m c) (argWa m c) (argBa m c)) (Bridge.Zk (argA m c) (argX m c) (argWe m c) (argBe m c)) (i 0) (i 1) (i 2) := by
  rw [show Run.V5 m ρ c main_v7_0 = (Pool.dat (Run.V4 m ρ) c).arrAt 3 cfg3.N from Run.W5_arr m ρ c 3, Pool.final_x (Run.V4 m ρ) c, w4_soft, w4_emb]
theorem w5_a : (Run.V5 m ρ c main_v7_1 : S2x128x128.Idx → EReal)
    = fun i => Spec.pool (Bridge.Sk (argA m c) (argX m c) (argWa m c) (argBa m c)) (Bridge.Hk (argA m c) (argX m c) (argWa m c) (argBa m c)) (i 0) (i 1) (i 2) := by
  rw [show Run.V5 m ρ c main_v7_1 = (Pool.dat (Run.V4 m ρ) c).arrAt 4 cfg3.N from Run.W5_arr m ρ c 4, Pool.final_a (Run.V4 m ρ) c, w4_soft, w4_hop]
theorem w5_soft : (Run.V5 m ρ c main_v5_1 : S8192x128.Idx → EReal) = Bridge.Sk (argA m c) (argX m c) (argWa m c) (argBa m c) :=
  ((Run.W5_arr m ρ c 0).trans (((Pool.dat (Run.V4 m ρ) c).arrAt_in 0 rfl _).trans (Pool.A_eq (Run.V4 m ρ) c 0))).trans (w4_soft m ρ c)

/-! ## The three results -/

theorem res_soft : (Run.W6 m ρ c (Proc.devRef .tc main_v5_1) : S8192x128.Idx → EReal) = Bridge.Sk (argA m c) (argX m c) (argWa m c) (argBa m c) :=
  (host4_keep (Run.W5 m ρ c) main_v5_1 (by decide)).trans (w5_soft m ρ c)

theorem res_xnext : (Run.W6 m ρ c (Proc.devRef .tc main_v8) : S128x128.Idx → EReal)
    = fun i => Bridge.XN (argA m c) (argX m c) (argWe m c) (argWa m c) (argBe m c) (argBa m c) (i 0) (i 1) :=
  funext fun (i : S128x128.Idx) =>
    (congrArg (Run.W6 m ρ c (Proc.devRef .tc main_v8) : S128x128.Idx → EReal) (eq_ix2 i)).trans
      ((host4_x (Run.W5 m ρ c) _ (w5_x m ρ c) (i 0) (i 1)).trans rfl)

theorem res_anext : (Run.W6 m ρ c (Proc.devRef .tc main_v9) : S128x128.Idx → EReal)
    = fun i => Bridge.AN (argA m c) (argX m c) (argWa m c) (argBa m c) (i 0) (i 1) :=
  funext fun (i : S128x128.Idx) =>
    (congrArg (Run.W6 m ρ c (Proc.devRef .tc main_v9) : S128x128.Idx → EReal) (eq_ix2 i)).trans
      ((host4_a (Run.W5 m ρ c) _ (w5_a m ρ c) (i 0) (i 1)).trans rfl)

end Cert.KernelIdeal.Values

end
-- ==== Proof.Finite.lean ====
/-
  Finiteness from the precondition. The precondition is a conjunction, over the six inputs, of "every entry has
  absolute value below +∞"; an extended real whose absolute value is below +∞ is a real number. Only the
  features and the adjacency matrix are needed finite.
-/
import proofs.«110719_j498216206442_2_alg».proof.Defs
import proofs.«110719_j498216206442_2_alg».proof.Proof.LibERealCoe
import Idealize.ShloMosaic.Lib.ReduceAll
import Idealize.ShloMosaic.Lib.Affine
import Idealize.ShloMosaic.Lib.ValueIdx
import Idealize.ShloMosaic.Lib.Pipeline.Value

noncomputable section

namespace Cert.Finite

open Idealize.ShloMosaic Cert.Lib.ERealCoe

instance : Subsingleton Cert.Pre_finite_inputs.S_.Idx := ⟨fun a b => funext fun d => d.elim0⟩

/-- An extended real whose absolute value is below +∞ is a real number. -/
theorem real_of_abs_lt_top (x : EReal)
    (h : Ideal.cmp .olt (max x (-x)) (Ideal.ofBits .f32 0x7F800000#32) = 1#1) : ∃ r : ℝ, x = (r : EReal) := by
  rw [ofBits_pos_inf_f32] at h
  unfold Ideal.cmp at h
  have hlt : max x (-x) < ⊤ := by
    by_contra hn
    have hf : decide (max x (-x) < (⊤ : EReal)) = false := decide_eq_false hn
    rw [hf] at h
    simp at h
  refine exists_real_of_ne ?_ ?_
  · intro hb; subst hb; simp at hlt
  · intro ht; subst ht; simp at hlt

/-- Under the precondition the features and the adjacency matrix are finite. -/
theorem finite_of_pre [hF : Cert.Pre_finite_inputs.Facts]
    (x0 : FVec Ideal Cert.Pre_finite_inputs.S8192x128 .f32) (x1 : FVec Ideal Cert.Pre_finite_inputs.S8192x8192 .f32)
    (x2 : FVec Ideal Cert.Pre_finite_inputs.S128x128 .f32) (x3 : FVec Ideal Cert.Pre_finite_inputs.S128 .f32)
    (x4 : FVec Ideal Cert.Pre_finite_inputs.S128x128 .f32) (x5 : FVec Ideal Cert.Pre_finite_inputs.S128 .f32)
    (h : Cert.Pre_finite_inputs.fn (F := Ideal) x0 x1 x2 x3 x4 x5 = fun _ => 1#1) :
    IsFin (x0 : Cert.Pre_finite_inputs.S8192x128.Idx → EReal) ∧ IsFin (x1 : Cert.Pre_finite_inputs.S8192x8192.Idx → EReal) := by
  have h0 := congrFun h ValueIdx.ix0
  dsimp only [Cert.Pre_finite_inputs.fn, Cert.Pre_finite_inputs.fn_part1] at h0
  simp only [andi, IntOp.andi_eq_one] at h0
  obtain ⟨⟨⟨⟨⟨h3, h7⟩, -⟩, -⟩, -⟩, -⟩ := h0
  refine ⟨fun i => ?_, fun i => ?_⟩
  · have hi := Host.reduce_andi_all _ _ _ _ _ h3 i
    exact real_of_abs_lt_top _ hi
  · have hi := Host.reduce_andi_all _ _ _ _ _ h7 i
    exact real_of_abs_lt_top _ hi

end Cert.Finite

end
-- ==== Proof.Algebraic.lean ====
/-
  The two idealized programs end with equal results. The kernel's run ends with every buffer at the last
  valuation of its fold, whose three result buffers are the composed passes' closed forms; the reference's run ends
  with its results at the composed stages' closed forms; under the precondition the adjacency matrix and the
  features are finite, and then the two closed forms agree.
-/
import proofs.«110719_j498216206442_2_alg».proof.Defs
import proofs.«110719_j498216206442_2_alg».proof.Proof.KI.Values
import proofs.«110719_j498216206442_2_alg».proof.Proof.Finite
import proofs.«110719_j498216206442_2_alg».proof.Proof.Gen.KernelIdeal
import proofs.«110719_j498216206442_2_alg».proof.Proof.Gen.ReferenceIdeal
import proofs.«110719_j498216206442_2_alg».proof.Proof.Gen.Pre_finite_inputs

noncomputable section

namespace Cert.Proof

open Idealize.ShloMosaic Idealize.ShloMosaic.TcCoe Idealize.SL.Sem

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Run.W6 m ρ c (Proc.devRef .tc Cert.KernelIdeal.main_v8), fun c => Cert.KernelIdeal.Run.W6 m ρ c (Proc.devRef .tc Cert.KernelIdeal.main_v9),
    fun c => Cert.KernelIdeal.Run.W6 m ρ c (Proc.devRef .tc Cert.KernelIdeal.main_v5_1), ?_, ?_⟩
  · exact (θ_run Cert.KernelIdeal.defs _ _).mono (fun r h c =>
      ⟨h c _ (Cert.KernelIdeal.Run.mem_uc Cert.KernelIdeal.main_v8 (by decide)), h c _ (Cert.KernelIdeal.Run.mem_uc Cert.KernelIdeal.main_v9 (by decide)),
       h c _ (Cert.KernelIdeal.Run.mem_uc Cert.KernelIdeal.main_v5_1 (by decide)),
       (h c _ (Cert.KernelIdeal.Run.mem_uc Cert.KernelIdeal.main_arg0 (by decide))).trans (Cert.KernelIdeal.FrameOf.W6_arg0 m ρ c),
       (h c _ (Cert.KernelIdeal.Run.mem_uc Cert.KernelIdeal.main_arg1 (by decide))).trans (Cert.KernelIdeal.FrameOf.W6_arg1 m ρ c),
       (h c _ (Cert.KernelIdeal.Run.mem_uc Cert.KernelIdeal.main_arg2 (by decide))).trans (Cert.KernelIdeal.FrameOf.W6_arg2 m ρ c),
       (h c _ (Cert.KernelIdeal.Run.mem_uc Cert.KernelIdeal.main_arg3 (by decide))).trans (Cert.KernelIdeal.FrameOf.W6_arg3 m ρ c),
       (h c _ (Cert.KernelIdeal.Run.mem_uc Cert.KernelIdeal.main_arg4 (by decide))).trans (Cert.KernelIdeal.FrameOf.W6_arg4 m ρ c),
       (h c _ (Cert.KernelIdeal.Run.mem_uc Cert.KernelIdeal.main_arg5 (by decide))).trans (Cert.KernelIdeal.FrameOf.W6_arg5 m ρ c)⟩) (Cert.KernelIdeal.Run.run m ρ)
  · have hfin := fun c => Cert.Finite.finite_of_pre (hF := Cert.Pre_finite_inputs.Gen.facts) _ _ _ _ _ _ (hpre c)
    refine (θ_run Cert.ReferenceIdeal.defs _ _).mono (fun r h c => ⟨(h c).1.trans ?_, (h c).2.1.trans ?_, (h c).2.2.1.trans ?_, (h c).2.2.2⟩)
      (Cert.ReferenceIdeal.Value.run (F := Ideal) m' ρ')
    · rw [Cert.ReferenceIdeal.Read.val_main_v41_eq, (hagree c).1, (hagree c).2.1, (hagree c).2.2.1, (hagree c).2.2.2.1, (hagree c).2.2.2.2.1, (hagree c).2.2.2.2.2,
        Cert.RefValue.stage_xnext]
      exact ((Cert.KernelIdeal.Values.res_xnext m ρ c).trans (funext fun i => Cert.Bridge.xnext_eq _ _ _ _ _ _ (hfin c).2 (hfin c).1 (i 0) (i 1))).symm
    · rw [Cert.ReferenceIdeal.Read.val_main_v44_eq, (hagree c).1, (hagree c).2.1, (hagree c).2.2.2.2.1, (hagree c).2.2.2.2.2,
        Cert.RefValue.stage_anext]
      exact ((Cert.KernelIdeal.Values.res_anext m ρ c).trans (funext fun i => Cert.Bridge.anext_eq _ _ _ _ (hfin c).2 (hfin c).1 (i 0) (i 1))).symm
    · rw [Cert.ReferenceIdeal.Read.val_main_v39_eq, (hagree c).1, (hagree c).2.1, (hagree c).2.2.2.2.1, (hagree c).2.2.2.2.2,
        Cert.RefValue.stage_soft]
      exact ((Cert.KernelIdeal.Values.res_soft m ρ c).trans (funext fun i => Cert.Bridge.soft_eq _ _ _ _ (hfin c).2 (hfin c).1 (i 0) (i 1))).symm

end Cert.Proof

end
-- ==== Proof.lean ====
/-
  The certificate of the DiffPool kernel against its jnp reference: the three programs' frames, the (empty)
  idealization ledger, and the equality of the two idealized programs' results over the extended reals.
  The kernel is four passes over a dense adjacency matrix A: the degrees and d = deg^(-1/2); the normalized
  propagation d ⊙ ((A + I) · (d ⊙ X)) with the embedding and the row-softmax assignment S; one hop A · S; and the
  pooling Sᵀ · Z, Sᵀ · (A · S). Each pass accumulates over blocks in a scratch buffer or in its output; the
  reference computes the same matrices whole. Over the extended reals the two agree once every input is finite:
  the only law used beyond re-association of finite sums is distributivity, in the propagation.
-/
import proofs.«110719_j498216206442_2_alg».proof.Defs
import proofs.«110719_j498216206442_2_alg».proof.Proof.Gen.Kernel
import proofs.«110719_j498216206442_2_alg».proof.Proof.Gen.KernelIdeal
import proofs.«110719_j498216206442_2_alg».proof.Proof.Gen.ReferenceIdeal
import proofs.«110719_j498216206442_2_alg».proof.Proof.Gen.ReferenceIdeal.Run
import proofs.«110719_j498216206442_2_alg».proof.Proof.Gen.ReferenceIdeal.Read
import proofs.«110719_j498216206442_2_alg».proof.Proof.Gen.Pre_finite_inputs
import proofs.«110719_j498216206442_2_alg».proof.Proof.K.Frame
import proofs.«110719_j498216206442_2_alg».proof.Proof.KI.Frame
import proofs.«110719_j498216206442_2_alg».proof.Proof.Algebraic
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel (hKernel := Cert.Kernel.Gen.facts) (hPre_finite_inputs := Cert.Pre_finite_inputs.Gen.facts) :=
  fun m ρ _ => Cert.Kernel.FrameOf.frame (F := Bits) m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.FrameOf.frame (F := Ideal) m ρ

/-- The reference is a line of host operations: its run, the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
